-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x2 : Shape := ⟨2, ![800000, 2]⟩
abbrev S800000x1 : Shape := ⟨2, ![800000, 1]⟩
abbrev S50000x1 : Shape := ⟨2, ![50000, 1]⟩
abbrev S2x64 : Shape := ⟨2, ![2, 64]⟩
abbrev S64 : Shape := ⟨1, ![64]⟩
abbrev S136x64 : Shape := ⟨2, ![136, 64]⟩
abbrev S64x64 : Shape := ⟨2, ![64, 64]⟩
abbrev S64x192 : Shape := ⟨2, ![64, 192]⟩
abbrev S192 : Shape := ⟨1, ![192]⟩
abbrev S64x2 : Shape := ⟨2, ![64, 2]⟩
abbrev S2 : Shape := ⟨1, ![2]⟩
abbrev S_ : Shape := ⟨0, ![]⟩

class Facts : Prop where
  bcast_S_S800000x1 : S_.BroadcastsInDim S800000x1 (![] : Fin 0 → Fin S800000x1.rank)
  reducesTo_S800000x1_S_d0_1 : S800000x1.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S136x64 : S_.BroadcastsInDim S136x64 (![] : Fin 0 → Fin S136x64.rank)
  reducesTo_S136x64_S_d0_1 : S136x64.ReducesTo [0, 1] S_
  bcast_S_S64x64 : S_.BroadcastsInDim S64x64 (![] : Fin 0 → Fin S64x64.rank)
  reducesTo_S64x64_S_d0_1 : S64x64.ReducesTo [0, 1] S_
  bcast_S_S64x192 : S_.BroadcastsInDim S64x192 (![] : Fin 0 → Fin S64x192.rank)
  reducesTo_S64x192_S_d0_1 : S64x192.ReducesTo [0, 1] S_
  bcast_S_S192 : S_.BroadcastsInDim S192 (![] : Fin 0 → Fin S192.rank)
  reducesTo_S192_S_d0 : S192.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x2 .f32 := Host.absf main_arg16
  let main_cst_26 : FVec F S_ .f32 := constant S_ .f32 0x7F800000#32
  let main_v70 : FVec F S64x2 .f32 := broadcastInDim S64x2 ![] bcast_S_S64x2 main_cst_26
  let main_v71 : IVec S64x2 1 := cmpf .olt main_v69 main_v70
  let main_c_27 : IVec S_ 1 := constantI S_ 1 1#1
  let main_v72 : IVec S_ 1 := (fun x v => Host.reduce IntOp.andi x v reducesTo_S64x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S192 .f32) (main_arg14 : FVec F S64x192 .f32) (main_arg15 : FVec F S192 .f32) (main_arg16 : FVec F S64x2 .f32) (main_arg17 : FVec F S2 .f32) (main_v48 : IVec S_ 1) (main_v49 : FVec F S64x192 .f32) (main_v50 : FVec F S64x192 .f32) : IVec S_ 1 :=
  let main_v51 : IVec S64x192 1 := cmpf .olt main_v49 main_v50
  let main_c_19 : IVec S_ 1 := constantI S_ 1 1#1
  let main_v52 : IVec S_ 1 := (fun x v => Host.reduce IntOp.andi x v reducesTo_S64x192_S_d0_1 h_S_) main_v51 main_c_19
  let main_v53 : IVec S_ 1 := andi main_v48 main_v52
  let main_v54 : FVec F S192 .f32 := Host.absf main_arg13
  let main_cst_20 : FVec F S_ .f32 := constant S_ .f32 0x7F800000#32
  let main_v55 : FVec F S192 .f32 := broadcastInDim S192 ![] bcast_S_S192 main_cst_20
  let main_v56 : IVec S192 1 := cmpf .olt main_v54 main_v55
  let main_c_21 : IVec S_ 1 := constantI S_ 1 1#1
  let main_v57 : IVec S_ 1 := (fun x v => Host.reduce IntOp.andi x v reducesTo_S192_S_d0 h_S_) main_v56 main_c_21
  let main_v58 : IVec S_ 1 := andi main_v53 main_v57
  let main_v59 : FVec F S64x192 .f32 := Host.absf main_arg14
  let main_cst_22 : FVec F S_ .f32 := constant S_ .f32 0x7F800000#32
  let main_v60 : FVec F S64x192 .f32 := broadcastInDim S64x192 ![] bcast_S_S64x192 main_cst_22
  let main_v61 : IVec S64x192 1 := cmpf .olt main_v59 main_v60
  let main_c_23 : IVec S_ 1 := constantI S_ 1 1#1
  let main_v62 : IVec S_ 1 := (fun x v => Host.reduce IntOp.andi x v reducesTo_S64x192_S_d0_1 h_S_) main_v61 main_c_23
  let main_v63 : IVec S_ 1 := andi main_v58 main_v62
  let main_v64 : FVec F S192 .f32 := Host.absf main_arg15
  let main_cst_24 : FVec F S_ .f32 := constant S_ .f32 0x7F800000#32
  let main_v65 : FVec F S192 .f32 := broadcastInDim S192 ![] bcast_S_S192 main_cst_24
  let main_v66 : IVec S192 1 := cmpf .olt main_v64 main_v65
  let main_c_25 : IVec S_ 1 := constantI S_ 1 1#1
  let main_v67 : IVec S_ 1 := (fun x v => Host.reduce IntOp.andi x v reducesTo_S192_S_d0 h_S_) main_v66 main_c_25
  fn_part4 (F := F) main_arg16 main_arg17 main_v63 main_v67

def fn_part2 {F : FTy → Type} [FloatOps F] (main_arg9 : FVec F S64 .f32) (main_arg10 : FVec F S64x64 .f32) (main_arg11 : FVec F S64 .f32) (main_arg12 : FVec F S64x192 .f32) (main_arg13 : FVec F S192 .f32) (main_arg14 : FVec F S64x192 .f32) (main_arg15 : FVec F S192 .f32) (main_arg16 : FVec F S64x2 .f32) (main_arg17 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x192 .f32 := Host.absf main_arg12
  let main_cst_18 : FVec F S_ .f32 := constant S_ .f32 0x7F800000#32
  let main_v50 : FVec F S64x192 .f32 := broadcastInDim S64x192 ![] bcast_S_S64x192 main_cst_18
  fn_part3 (F := F) main_arg13 main_arg14 main_arg15 main_arg16 main_arg17 main_v48 main_v49 main_v50

def fn_part1 {F : FTy → Type} [FloatOps F] (main_arg6 : FVec F S136x64 .f32) (main_arg7 : FVec F S64 .f32) (main_arg8 : FVec F S64x64 .f32) (main_arg9 : FVec F S64 .f32) (main_arg10 : FVec F S64x64 .f32) (main_arg11 : FVec F S64 .f32) (main_arg12 : FVec F S64x192 .f32) (main_arg13 : FVec F S192 .f32) (main_arg14 : FVec F S64x192 .f32) (main_arg15 : FVec F S192 .f32) (main_arg16 : FVec F S64x2 .f32) (main_arg17 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S136x64 .f32 := Host.absf main_arg6
  let main_cst_6 : FVec F S_ .f32 := constant S_ .f32 0x7F800000#32
  let main_v20 : FVec F S136x64 .f32 := broadcastInDim S136x64 ![] bcast_S_S136x64 main_cst_6
  let main_v21 : IVec S136x64 1 := cmpf .olt main_v19 main_v20
  let main_c_7 : IVec S_ 1 := constantI S_ 1 1#1
  let main_v22 : IVec S_ 1 := (fun x v => Host.reduce IntOp.andi x v reducesTo_S136x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : IVec S800000x2 32) (main_arg1 : FVec F S800000x1 .f32) (main_arg2 : FVec F S50000x1 .f32) (main_arg3 : IVec S800000x1 32) (main_arg4 : FVec F S2x64 .f32) (main_arg5 : FVec F S64 .f32) (main_arg6 : FVec F S136x64 .f32) (main_arg7 : FVec F S64 .f32) (main_arg8 : FVec F S64x64 .f32) (main_arg9 : FVec F S64 .f32) (main_arg10 : FVec F S64x64 .f32) (main_arg11 : FVec F S64 .f32) (main_arg12 : FVec F S64x192 .f32) (main_arg13 : FVec F S192 .f32) (main_arg14 : FVec F S64x192 .f32) (main_arg15 : FVec F S192 .f32) (main_arg16 : FVec F S64x2 .f32) (main_arg17 : FVec F S2 .f32) : IVec S_ 1 :=
  let main_v0 : FVec F S800000x1 .f32 := Host.absf main_arg1
  let main_cst : FVec F S_ .f32 := constant S_ .f32 0x7F800000#32
  let main_v1 : FVec F S800000x1 .f32 := broadcastInDim S800000x1 ![] bcast_S_S800000x1 main_cst
  let main_v2 : IVec S800000x1 1 := cmpf .olt main_v0 main_v1
  let main_c : IVec S_ 1 := constantI S_ 1 1#1
  let main_v3 : IVec S_ 1 := (fun x v => Host.reduce IntOp.andi x v reducesTo_S800000x1_S_d0_1 h_S_) main_v2 main_c
  let main_v4 : FVec F S50000x1 .f32 := Host.absf main_arg2
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S2x64 .f32 := Host.absf main_arg4
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S800000x2 : Shape := ⟨2, ![800000, 2]⟩
abbrev S800000x1 : Shape := ⟨2, ![800000, 1]⟩
abbrev S50000x1 : Shape := ⟨2, ![50000, 1]⟩
abbrev S2x64 : Shape := ⟨2, ![2, 64]⟩
abbrev S64 : Shape := ⟨1, ![64]⟩
abbrev S136x64 : Shape := ⟨2, ![136, 64]⟩
abbrev S64x64 : Shape := ⟨2, ![64, 64]⟩
abbrev S64x192 : Shape := ⟨2, ![64, 192]⟩
abbrev S192 : Shape := ⟨1, ![192]⟩
abbrev S64x2 : Shape := ⟨2, ![64, 2]⟩
abbrev S2 : Shape := ⟨1, ![2]⟩
abbrev S800000 : Shape := ⟨1, ![800000]⟩
abbrev S_ : Shape := ⟨0, ![]⟩
abbrev S800000x4 : Shape := ⟨2, ![800000, 4]⟩
abbrev S50000x2 : Shape := ⟨2, ![50000, 2]⟩
abbrev S50000x64 : Shape := ⟨2, ![50000, 64]⟩
abbrev S1x64 : Shape := ⟨2, ![1, 64]⟩
abbrev S800000x64 : Shape := ⟨2, ![800000, 64]⟩
abbrev S8000x64 : Shape := ⟨2, ![8000, 64]⟩
abbrev S8000x4 : Shape := ⟨2, ![8000, 4]⟩
abbrev S8000x136 : Shape := ⟨2, ![8000, 136]⟩
abbrev S1x192 : Shape := ⟨2, ![1, 192]⟩
abbrev S5000x64 : Shape := ⟨2, ![5000, 64]⟩
abbrev S5000x192 : Shape := ⟨2, ![5000, 192]⟩
abbrev S1x2 : Shape := ⟨2, ![1, 2]⟩

abbrev nBuf : Space → Nat
  | .hbm => 161
  | .vmem => 78
  | .smem => 0
  | _ => 0

abbrev hbmTy0_0 (i : Nat) : BufTy := match i % 128 with
  | 0 => ⟨S800000x2, .i32⟩
  | 1 => ⟨S800000x1, .f32⟩
  | 2 => ⟨S50000x1, .f32⟩
  | 3 => ⟨S800000x1, .i32⟩
  | 4 => ⟨S2x64, .f32⟩
  | 5 => ⟨S64, .f32⟩
  | 6 => ⟨S136x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x192, .f32⟩
  | 13 => ⟨S192, .f32⟩
  | 14 => ⟨S64x192, .f32⟩
  | 15 => ⟨S192, .f32⟩
  | 16 => ⟨S64x2, .f32⟩
  | 17 => ⟨S2, .f32⟩
  | 18 => ⟨S800000x1, .i32⟩
  | 19 => ⟨S800000, .i32⟩
  | 20 => ⟨S800000x1, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x1, .f32⟩
  | 40 => ⟨S800000x1, .f32⟩
  | 41 => ⟨S800000x1, .f32⟩
  | 42 => ⟨S800000x4, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x1, .f32⟩
  | 52 => ⟨S800000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x1, .f32⟩
  | 62 => ⟨S800000x1, .f32⟩
  | 63 => ⟨S800000x4, .f32⟩
  | 64 => ⟨S50000x1, .f32⟩
  | 65 => ⟨S50000x2, .f32⟩
  | 66 => ⟨S50000x64, .f32⟩
  | 67 => ⟨S1x64, .f32⟩
  | 68 => ⟨S50000x64, .f32⟩
  | 69 => ⟨S50000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S1x64, .f32⟩
  | 89 => ⟨S1x64, .f32⟩
  | 90 => ⟨S1x64, .f32⟩
  | 91 => ⟨S800000x64, .f32⟩
  | 92 => ⟨S_, .f32⟩
  | 93 => ⟨S50000x64, .f32⟩
  | 94 => ⟨S800000x1, .i32⟩
  | 95 => ⟨S50000x64, .f32⟩
  | 96 => ⟨S1x192, .f32⟩
  | 97 => ⟨S1x192, .f32⟩
  | 98 => ⟨S50000x64, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x64, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S1x64, .f32⟩
  | 118 => ⟨S1x64, .f32⟩
  | 119 => ⟨S1x64, .f32⟩
  | 120 => ⟨S800000x64, .f32⟩
  | 121 => ⟨S_, .f32⟩
  | 122 => ⟨S50000x64, .f32⟩
  | 123 => ⟨S800000x1, .i32⟩
  | 124 => ⟨S50000x64, .f32⟩
  | 125 => ⟨S1x192, .f32⟩
  | 126 => ⟨S1x192, .f32⟩
  | 127 => ⟨S50000x64, .f32⟩
  | _ => ⟨S800000x2, .i32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S1x64, .f32⟩
  | 19 => ⟨S1x64, .f32⟩
  | 20 => ⟨S1x64, .f32⟩
  | 21 => ⟨S800000x64, .f32⟩
  | 22 => ⟨S_, .f32⟩
  | 23 => ⟨S50000x64, .f32⟩
  | 24 => ⟨S800000x1, .i32⟩
  | 25 => ⟨S50000x64, .f32⟩
  | 26 => ⟨S1x192, .f32⟩
  | 27 => ⟨S1x192, .f32⟩
  | 28 => ⟨S50000x64, .f32⟩
  | 29 => ⟨S50000x2, .f32⟩
  | 30 => ⟨S1x2, .f32⟩
  | 31 => ⟨S50000x2, .f32⟩
  | 32 => ⟨S50000x2, .f32⟩
  | _ => ⟨S800000x2, .i32⟩

abbrev hbmTy (i : Nat) : BufTy := match i / 128 with
  | 0 => hbmTy0_0 i
  | 1 => hbmTy0_1 i
  | _ => ⟨S800000x2, .i32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x4, .f32⟩
  | .local _ .vmem, ⟨3, _⟩ => ⟨S8000x4, .f32⟩
  | .local _ .vmem, ⟨4, _⟩ => ⟨S8000x64, .f32⟩
  | .local _ .vmem, ⟨5, _⟩ => ⟨S8000x64, .f32⟩
  | .local _ .vmem, ⟨6, _⟩ => ⟨S8000x4, .f32⟩
  | .local _ .vmem, ⟨7, _⟩ => ⟨S8000x4, .f32⟩
  | .local _ .vmem, ⟨8, _⟩ => ⟨S136x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S8000x64, .f32⟩
  | .local _ .vmem, ⟨15, _⟩ => ⟨S8000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x192, .f32⟩
  | .local _ .vmem, ⟨21, _⟩ => ⟨S1x192, .f32⟩
  | .local _ .vmem, ⟨22, _⟩ => ⟨S64x192, .f32⟩
  | .local _ .vmem, ⟨23, _⟩ => ⟨S1x192, .f32⟩
  | .local _ .vmem, ⟨24, _⟩ => ⟨S5000x64, .f32⟩
  | .local _ .vmem, ⟨25, _⟩ => ⟨S5000x64, .f32⟩
  | .local _ .vmem, ⟨26, _⟩ => ⟨S8000x64, .f32⟩
  | .local _ .vmem, ⟨27, _⟩ => ⟨S8000x64, .f32⟩
  | .local _ .vmem, ⟨28, _⟩ => ⟨S8000x4, .f32⟩
  | .local _ .vmem, ⟨29, _⟩ => ⟨S8000x4, .f32⟩
  | .local _ .vmem, ⟨30, _⟩ => ⟨S8000x64, .f32⟩
  | .local _ .vmem, ⟨31, _⟩ => ⟨S8000x64, .f32⟩
  | .local _ .vmem, ⟨32, _⟩ => ⟨S8000x4, .f32⟩
  | .local _ .vmem, ⟨33, _⟩ => ⟨S8000x4, .f32⟩
  | .local _ .vmem, ⟨34, _⟩ => ⟨S136x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S8000x64, .f32⟩
  | .local _ .vmem, ⟨41, _⟩ => ⟨S8000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x192, .f32⟩
  | .local _ .vmem, ⟨47, _⟩ => ⟨S1x192, .f32⟩
  | .local _ .vmem, ⟨48, _⟩ => ⟨S64x192, .f32⟩
  | .local _ .vmem, ⟨49, _⟩ => ⟨S1x192, .f32⟩
  | .local _ .vmem, ⟨50, _⟩ => ⟨S5000x64, .f32⟩
  | .local _ .vmem, ⟨51, _⟩ => ⟨S5000x64, .f32⟩
  | .local _ .vmem, ⟨52, _⟩ => ⟨S8000x64, .f32⟩
  | .local _ .vmem, ⟨53, _⟩ => ⟨S8000x64, .f32⟩
  | .local _ .vmem, ⟨54, _⟩ => ⟨S8000x4, .f32⟩
  | .local _ .vmem, ⟨55, _⟩ => ⟨S8000x4, .f32⟩
  | .local _ .vmem, ⟨56, _⟩ => ⟨S8000x64, .f32⟩
  | .local _ .vmem, ⟨57, _⟩ => ⟨S8000x64, .f32⟩
  | .local _ .vmem, ⟨58, _⟩ => ⟨S8000x4, .f32⟩
  | .local _ .vmem, ⟨59, _⟩ => ⟨S8000x4, .f32⟩
  | .local _ .vmem, ⟨60, _⟩ => ⟨S136x64, .f32⟩
  | .local _ .vmem, ⟨61, _⟩ => ⟨S1x64, .f32⟩
  | .local _ .vmem, ⟨62, _⟩ => ⟨S64x64, .f32⟩
  | .local _ .vmem, ⟨63, _⟩ => ⟨S1x64, .f32⟩
  | .local _ .vmem, ⟨64, _⟩ => ⟨S64x64, .f32⟩
  | .local _ .vmem, ⟨65, _⟩ => ⟨S1x64, .f32⟩
  | .local _ .vmem, ⟨66, _⟩ => ⟨S8000x64, .f32⟩
  | .local _ .vmem, ⟨67, _⟩ => ⟨S8000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S64x192, .f32⟩
  | .local _ .vmem, ⟨73, _⟩ => ⟨S1x192, .f32⟩
  | .local _ .vmem, ⟨74, _⟩ => ⟨S64x192, .f32⟩
  | .local _ .vmem, ⟨75, _⟩ => ⟨S1x192, .f32⟩
  | .local _ .vmem, ⟨76, _⟩ => ⟨S5000x64, .f32⟩
  | .local _ .vmem, ⟨77, _⟩ => ⟨S5000x64, .f32⟩
  | _, _ => ⟨S800000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_7 : Ref sig .tc := ⟨.hbm, 70, rfl⟩
abbrev main_v44 : Ref sig .tc := ⟨.hbm, 71, rfl⟩
abbrev main_v45 : Ref sig .tc := ⟨.hbm, 72, rfl⟩
abbrev main_c_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_11 : Ref sig .tc := ⟨.hbm, 99, rfl⟩
abbrev main_v68 : Ref sig .tc := ⟨.hbm, 100, rfl⟩
abbrev main_v69 : Ref sig .tc := ⟨.hbm, 101, rfl⟩
abbrev main_c_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_13 : Ref sig .tc := ⟨.hbm, 108, rfl⟩
abbrev main_v75 : Ref sig .tc := ⟨.hbm, 109, rfl⟩
abbrev main_v76 : Ref sig .tc := ⟨.hbm, 110, rfl⟩
abbrev main_c_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_15 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_16 : Ref sig .tc := ⟨.hbm, 128, rfl⟩
abbrev main_v92 : Ref sig .tc := ⟨.hbm, 129, rfl⟩
abbrev main_v93 : Ref sig .tc := ⟨.hbm, 130, rfl⟩
abbrev main_c_17 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_18 : Ref sig .tc := ⟨.hbm, 137, rfl⟩
abbrev main_v99 : Ref sig .tc := ⟨.hbm, 138, rfl⟩
abbrev main_v100 : Ref sig .tc := ⟨.hbm, 139, rfl⟩
abbrev main_c_19 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_20 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg6_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg2_1 : Ref sig .tc := ⟨.vmem, 57, rfl⟩
abbrev cc4_stg3_0 : Ref sig .tc := ⟨.vmem, 58, rfl⟩
abbrev cc4_stg3_1 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg7_0 : Ref sig .tc := ⟨.vmem, 63, rfl⟩
abbrev cc4_stg8_0 : Ref sig .tc := ⟨.vmem, 64, rfl⟩
abbrev cc4_stg9_0 : Ref sig .tc := ⟨.vmem, 65, rfl⟩
abbrev cc4_stg10_0 : Ref sig .tc := ⟨.vmem, 66, rfl⟩
abbrev cc4_stg10_1 : Ref sig .tc := ⟨.vmem, 67, rfl⟩
abbrev cc5_stg0_0 : Ref sig .tc := ⟨.vmem, 68, rfl⟩
abbrev cc5_stg0_1 : Ref sig .tc := ⟨.vmem, 69, rfl⟩
abbrev cc5_stg1_0 : Ref sig .tc := ⟨.vmem, 70, rfl⟩
abbrev cc5_stg1_1 : Ref sig .tc := ⟨.vmem, 71, rfl⟩
abbrev cc5_stg2_0 : Ref sig .tc := ⟨.vmem, 72, rfl⟩
abbrev cc5_stg3_0 : Ref sig .tc := ⟨.vmem, 73, rfl⟩
abbrev cc5_stg4_0 : Ref sig .tc := ⟨.vmem, 74, rfl⟩
abbrev cc5_stg5_0 : Ref sig .tc := ⟨.vmem, 75, rfl⟩
abbrev cc5_stg6_0 : Ref sig .tc := ⟨.vmem, 76, rfl⟩
abbrev cc5_stg6_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem6_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem2_1 : DmaSem sig := 57
abbrev cc4_sem3_0 : DmaSem sig := 58
abbrev cc4_sem3_1 : DmaSem sig := 59
abbrev cc4_sem4_0 : DmaSem sig := 60
abbrev cc4_sem5_0 : DmaSem sig := 61
abbrev cc4_sem6_0 : DmaSem sig := 62
abbrev cc4_sem7_0 : DmaSem sig := 63
abbrev cc4_sem8_0 : DmaSem sig := 64
abbrev cc4_sem9_0 : DmaSem sig := 65
abbrev cc4_sem10_0 : DmaSem sig := 66
abbrev cc4_sem10_1 : DmaSem sig := 67
abbrev cc5_sem0_0 : DmaSem sig := 68
abbrev cc5_sem0_1 : DmaSem sig := 69
abbrev cc5_sem1_0 : DmaSem sig := 70
abbrev cc5_sem1_1 : DmaSem sig := 71
abbrev cc5_sem2_0 : DmaSem sig := 72
abbrev cc5_sem3_0 : DmaSem sig := 73
abbrev cc5_sem4_0 : DmaSem sig := 74
abbrev cc5_sem5_0 : DmaSem sig := 75
abbrev cc5_sem6_0 : DmaSem sig := 76
abbrev cc5_sem6_1 : DmaSem sig := 77

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S136x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S136x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S8000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x4 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8000x4 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S136x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S8000x64 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x192 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x1_S800000x1_S800000x4_d1 : Shape.Concatenates [S800000x1, S800000x1, S800000x1, S800000x1] S800000x4 1
  concatenates_S50000x1_S50000x1_S50000x2_d1 : Shape.Concatenates [S50000x1, S50000x1] S50000x2 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  concatenates_S8000x64_S8000x4_S8000x64_S8000x4_S8000x136_d1 : Shape.Concatenates [S8000x64, S8000x4, S8000x64, S8000x4] S8000x136 1
  bitsLt_bf16_f32 : FTy.bits .bf16 < FTy.bits .f32
  inb_S136x64_S136x64_0_0 : ∀ a, (![0, 0] : Fin 2 → Nat) a + S136x64.size a ≤ S136x64.size a
  h_S136x64 : 0 < S136x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  bcast_S_S50000x64 : S_.BroadcastsInDim S50000x64 (![] : Fin 0 → Fin S50000x64.rank)
  shapeCasts_S192_S1x192 : S192.ShapeCasts S1x192
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x192_S64x192_0_0 : ∀ a, (![0, 0] : Fin 2 → Nat) a + S64x192.size a ≤ S64x192.size a
  h_S64x192 : 0 < S64x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  slices_S5000x192_o0_0_S5000x64 : S5000x192.Slices ![0, 0] S5000x64
  slices_S5000x192_o0_64_S5000x64 : S5000x192.Slices ![0, 64] S5000x64
  slices_S5000x192_o0_128_S5000x64 : S5000x192.Slices ![0, 128] S5000x64
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x1_S800000x1_S800000x1_1_0_n_n_0_1_11_wf : GatherDims.WF S50000x1 S800000x1 S800000x1 [1] [0] [] [0] [] 1 ![1, 1]
  dot_S50000x2_S2x64_S50000x64_1_0_0_1_n_n_wf : DotDims.WF S50000x2 S2x64 S50000x64 [1] [0] [0] [1] [] []
  gather_S50000x64_S800000x1_S800000x64_1_0_n_n_0_1_164_wf : GatherDims.WF S50000x64 S800000x1 S800000x64 [1] [0] [] [0] [] 1 ![1, 64]
  dot_S8000x136_S136x64_S8000x64_1_0_0_1_n_n_wf : DotDims.WF S8000x136 S136x64 S8000x64 [1] [0] [0] [1] [] []
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S5000x64_S64x192_S5000x192_1_0_0_1_n_n_wf : DotDims.WF S5000x64 S64x192 S5000x192 [1] [0] [0] [1] [] []
  dot_S50000x64_S64x2_S50000x2_1_0_0_1_n_n_wf : DotDims.WF S50000x64 S64x2 S50000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S800000x4.size a
  hwx0_1 : ∀ i : grid0.Coords, EltTy.bits .f32 = 32 ∨ (Rect.block (s := S800000x4) S8000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x4.size a ≤ S800000x4.size a
  hwx0_3 : ∀ i : grid0.Coords, EltTy.bits .f32 = 32 ∨ (Rect.block (s := S800000x4) S8000x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S136x64.size a ≤ S136x64.size a
  hwx0_4 : ∀ i : grid0.Coords, EltTy.bits .f32 = 32 ∨ (Rect.block (s := S136x64) S136x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8000x64.size a ≤ S800000x64.size a
  hwx0_10 : ∀ i : grid0.Coords, EltTy.bits .f32 = 32 ∨ (Rect.block (s := S800000x64) S8000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x192.size a ≤ S1x192.size a
  hwx1_3 : ∀ i : grid1.Coords, EltTy.bits .f32 = 32 ∨ (Rect.block (s := S1x192) S1x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x192.size a ≤ S64x192.size a
  hwx1_4 : ∀ i : grid1.Coords, EltTy.bits .f32 = 32 ∨ (Rect.block (s := S64x192) S64x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x4.size a ≤ S800000x4.size a
  hwx2_1 : ∀ i : grid2.Coords, EltTy.bits .f32 = 32 ∨ (Rect.block (s := S800000x4) S8000x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S800000x64.size a
  hwx2_2 : ∀ i : grid2.Coords, EltTy.bits .f32 = 32 ∨ (Rect.block (s := S800000x64) S8000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x4.size a ≤ S800000x4.size a
  hwx2_3 : ∀ i : grid2.Coords, EltTy.bits .f32 = 32 ∨ (Rect.block (s := S800000x4) S8000x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S136x64.size a ≤ S136x64.size a
  hwx2_4 : ∀ i : grid2.Coords, EltTy.bits .f32 = 32 ∨ (Rect.block (s := S136x64) S136x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S8000x64.size a ≤ S800000x64.size a
  hwx2_10 : ∀ i : grid2.Coords, EltTy.bits .f32 = 32 ∨ (Rect.block (s := S800000x64) S8000x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x192.size a ≤ S64x192.size a
  hwx3_2 : ∀ i : grid3.Coords, EltTy.bits .f32 = 32 ∨ (Rect.block (s := S64x192) S64x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x192.size a ≤ S1x192.size a
  hwx3_3 : ∀ i : grid3.Coords, EltTy.bits .f32 = 32 ∨ (Rect.block (s := S1x192) S1x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x192.size a ≤ S64x192.size a
  hwx3_4 : ∀ i : grid3.Coords, EltTy.bits .f32 = 32 ∨ (Rect.block (s := S64x192) S64x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x4.size a ≤ S800000x4.size a
  hwx4_1 : ∀ i : grid4.Coords, EltTy.bits .f32 = 32 ∨ (Rect.block (s := S800000x4) S8000x4.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S800000x64.size a
  hwx4_2 : ∀ i : grid4.Coords, EltTy.bits .f32 = 32 ∨ (Rect.block (s := S800000x64) S8000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x4.size a ≤ S800000x4.size a
  hwx4_3 : ∀ i : grid4.Coords, EltTy.bits .f32 = 32 ∨ (Rect.block (s := S800000x4) S8000x4.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S136x64.size a ≤ S136x64.size a
  hwx4_4 : ∀ i : grid4.Coords, EltTy.bits .f32 = 32 ∨ (Rect.block (s := S136x64) S136x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x64.size a ≤ S64x64.size a
  hwx4_8 : ∀ i : grid4.Coords, EltTy.bits .f32 = 32 ∨ (Rect.block (s := S64x64) S64x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x64.size a ≤ S1x64.size a
  hwx4_9 : ∀ i : grid4.Coords, EltTy.bits .f32 = 32 ∨ (Rect.block (s := S1x64) S1x64.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S8000x64.size a ≤ S800000x64.size a
  hwx4_10 : ∀ i : grid4.Coords, EltTy.bits .f32 = 32 ∨ (Rect.block (s := S800000x64) S8000x64.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x192.size a ≤ S64x192.size a
  hwx5_2 : ∀ i : grid5.Coords, EltTy.bits .f32 = 32 ∨ (Rect.block (s := S64x192) S64x192.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x192.size a ≤ S1x192.size a
  hwx5_3 : ∀ i : grid5.Coords, EltTy.bits .f32 = 32 ∨ (Rect.block (s := S1x192) S1x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x192.size a ≤ S64x192.size a
  hwx5_4 : ∀ i : grid5.Coords, EltTy.bits .f32 = 32 ∨ (Rect.block (s := S64x192) S64x192.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x192.size a ≤ S1x192.size a
  hwx5_5 : ∀ i : grid5.Coords, EltTy.bits .f32 = 32 ∨ (Rect.block (s := S1x192) S1x192.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)

variable [Facts₀]

def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def dot_S50000x2_S2x64_S50000x64_1_0_0_1_n_n : DotDims S50000x2 S2x64 S50000x64 where
  lhsContracting := [1]
  rhsContracting := [0]
  lhsNonContracting := [0]
  rhsNonContracting := [1]
  lhsBatch := []
  rhsBatch := []
  wf := dot_S50000x2_S2x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x136_S136x64_S8000x64_1_0_0_1_n_n : DotDims S8000x136 S136x64 S8000x64 where
  lhsContracting := [1]
  rhsContracting := [0]
  lhsNonContracting := [0]
  rhsNonContracting := [1]
  lhsBatch := []
  rhsBatch := []
  wf := dot_S8000x136_S136x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

abbrev win0_0 : Pipeline.Window sig grid0 :=
  Pipeline.Window.ofSpec (Memref.whole main_v50) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S8000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S136x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61) S8000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v64) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v74) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S8000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v81) S8000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S8000x4.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S136x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v83) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg10) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v84) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v85) S8000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v88) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v98) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S8000x4.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v105) S8000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v37) S8000x4.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg6) S136x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v106) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg8) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v107) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg10) S64x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v108) S1x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v109) S8000x64.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v112) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S64x192.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S1x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg14) S64x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114) S1x192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v115) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S800000x2 : Shape := ⟨2, ![800000, 2]⟩
abbrev S800000x1 : Shape := ⟨2, ![800000, 1]⟩
abbrev S50000x1 : Shape := ⟨2, ![50000, 1]⟩
abbrev S2x64 : Shape := ⟨2, ![2, 64]⟩
abbrev S64 : Shape := ⟨1, ![64]⟩
abbrev S136x64 : Shape := ⟨2, ![136, 64]⟩
abbrev S64x64 : Shape := ⟨2, ![64, 64]⟩
abbrev S64x192 : Shape := ⟨2, ![64, 192]⟩
abbrev S192 : Shape := ⟨1, ![192]⟩
abbrev S64x2 : Shape := ⟨2, ![64, 2]⟩
abbrev S2 : Shape := ⟨1, ![2]⟩
abbrev S800000 : Shape := ⟨1, ![800000]⟩
abbrev S_ : Shape := ⟨0, ![]⟩
abbrev S800000x4 : Shape := ⟨2, ![800000, 4]⟩
abbrev S50000x2 : Shape := ⟨2, ![50000, 2]⟩
abbrev S50000x64 : Shape := ⟨2, ![50000, 64]⟩
abbrev S1x64 : Shape := ⟨2, ![1, 64]⟩
abbrev S800000x64 : Shape := ⟨2, ![800000, 64]⟩
abbrev S800000x136 : Shape := ⟨2, ![800000, 136]⟩
abbrev S50000x192 : Shape := ⟨2, ![50000, 192]⟩
abbrev S1x192 : Shape := ⟨2, ![1, 192]⟩
abbrev S1x2 : Shape := ⟨2, ![1, 2]⟩

abbrev nBuf : Space → Nat
  | .hbm => 320
  | .vmem => 0
  | .smem => 0
  | _ => 0

abbrev hbmTy0_0 (i : Nat) : BufTy := match i % 128 with
  | 0 => ⟨S800000x2, .i32⟩
  | 1 => ⟨S800000x1, .f32⟩
  | 2 => ⟨S50000x1, .f32⟩
  | 3 => ⟨S800000x1, .i32⟩
  | 4 => ⟨S2x64, .f32⟩
  | 5 => ⟨S64, .f32⟩
  | 6 => ⟨S136x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x192, .f32⟩
  | 13 => ⟨S192, .f32⟩
  | 14 => ⟨S64x192, .f32⟩
  | 15 => ⟨S192, .f32⟩
  | 16 => ⟨S64x2, .f32⟩
  | 17 => ⟨S2, .f32⟩
  | 18 => ⟨S800000x1, .i32⟩
  | 19 => ⟨S800000, .i32⟩
  | 20 => ⟨S800000x1, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x1, .f32⟩
  | 40 => ⟨S800000x1, .f32⟩
  | 41 => ⟨S800000x1, .f32⟩
  | 42 => ⟨S800000x4, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x1, .f32⟩
  | 52 => ⟨S800000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x1, .f32⟩
  | 62 => ⟨S800000x1, .f32⟩
  | 63 => ⟨S800000x4, .f32⟩
  | 64 => ⟨S50000x1, .f32⟩
  | 65 => ⟨S50000x2, .f32⟩
  | 66 => ⟨S50000x64, .f32⟩
  | 67 => ⟨S1x64, .f32⟩
  | 68 => ⟨S50000x64, .f32⟩
  | 69 => ⟨S50000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S800000x136, .f32⟩
  | 89 => ⟨S800000x64, .f32⟩
  | 90 => ⟨S1x64, .f32⟩
  | 91 => ⟨S800000x64, .f32⟩
  | 92 => ⟨S800000x64, .f32⟩
  | 93 => ⟨S_, .f32⟩
  | 94 => ⟨S800000x64, .f32⟩
  | 95 => ⟨S800000x64, .f32⟩
  | 96 => ⟨S800000x64, .f32⟩
  | 97 => ⟨S1x64, .f32⟩
  | 98 => ⟨S800000x64, .f32⟩
  | 99 => ⟨S800000x64, .f32⟩
  | 100 => ⟨S_, .f32⟩
  | 101 => ⟨S800000x64, .f32⟩
  | 102 => ⟨S800000x64, .f32⟩
  | 103 => ⟨S800000x64, .f32⟩
  | 104 => ⟨S1x64, .f32⟩
  | 105 => ⟨S800000x64, .f32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S50000x192, .f32⟩
  | 112 => ⟨S1x192, .f32⟩
  | 113 => ⟨S50000x192, .f32⟩
  | 114 => ⟨S50000x192, .f32⟩
  | 115 => ⟨S50000x192, .f32⟩
  | 116 => ⟨S1x192, .f32⟩
  | 117 => ⟨S50000x192, .f32⟩
  | 118 => ⟨S50000x192, .f32⟩
  | 119 => ⟨S50000x64, .f32⟩
  | 120 => ⟨S50000x64, .f32⟩
  | 121 => ⟨S50000x64, .f32⟩
  | 122 => ⟨S50000x64, .f32⟩
  | 123 => ⟨S50000x64, .f32⟩
  | 124 => ⟨S50000x64, .f32⟩
  | 125 => ⟨S50000x64, .f32⟩
  | 126 => ⟨S50000x64, .f32⟩
  | 127 => ⟨S50000x64, .f32⟩
  | _ => ⟨S800000x2, .i32⟩

abbrev hbmTy0_1 (i : Nat) : BufTy := match i % 128 with
  | 0 => ⟨S_, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S50000x64, .f32⟩
  | 7 => ⟨S50000x64, .f32⟩
  | 8 => ⟨S50000x64, .f32⟩
  | 9 => ⟨S_, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S50000x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S50000x64, .f32⟩
  | 23 => ⟨S50000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S800000x136, .f32⟩
  | 43 => ⟨S800000x64, .f32⟩
  | 44 => ⟨S1x64, .f32⟩
  | 45 => ⟨S800000x64, .f32⟩
  | 46 => ⟨S800000x64, .f32⟩
  | 47 => ⟨S_, .f32⟩
  | 48 => ⟨S800000x64, .f32⟩
  | 49 => ⟨S800000x64, .f32⟩
  | 50 => ⟨S800000x64, .f32⟩
  | 51 => ⟨S1x64, .f32⟩
  | 52 => ⟨S800000x64, .f32⟩
  | 53 => ⟨S800000x64, .f32⟩
  | 54 => ⟨S_, .f32⟩
  | 55 => ⟨S800000x64, .f32⟩
  | 56 => ⟨S800000x64, .f32⟩
  | 57 => ⟨S800000x64, .f32⟩
  | 58 => ⟨S1x64, .f32⟩
  | 59 => ⟨S800000x64, .f32⟩
  | 60 => ⟨S800000x64, .f32⟩
  | 61 => ⟨S_, .f32⟩
  | 62 => ⟨S50000x64, .f32⟩
  | 63 => ⟨S800000x1, .i32⟩
  | 64 => ⟨S50000x64, .f32⟩
  | 65 => ⟨S50000x192, .f32⟩
  | 66 => ⟨S1x192, .f32⟩
  | 67 => ⟨S50000x192, .f32⟩
  | 68 => ⟨S50000x192, .f32⟩
  | 69 => ⟨S50000x192, .f32⟩
  | 70 => ⟨S1x192, .f32⟩
  | 71 => ⟨S50000x192, .f32⟩
  | 72 => ⟨S50000x192, .f32⟩
  | 73 => ⟨S50000x64, .f32⟩
  | 74 => ⟨S50000x64, .f32⟩
  | 75 => ⟨S50000x64, .f32⟩
  | 76 => ⟨S50000x64, .f32⟩
  | 77 => ⟨S50000x64, .f32⟩
  | 78 => ⟨S50000x64, .f32⟩
  | 79 => ⟨S50000x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S50000x64, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S50000x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x64, .f32⟩
  | 104 => ⟨S50000x64, .f32⟩
  | 105 => ⟨S50000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S800000x136, .f32⟩
  | 125 => ⟨S800000x64, .f32⟩
  | 126 => ⟨S1x64, .f32⟩
  | 127 => ⟨S800000x64, .f32⟩
  | _ => ⟨S800000x2, .i32⟩

abbrev hbmTy0_2 (i : Nat) : BufTy := match i % 128 with
  | 0 => ⟨S800000x64, .f32⟩
  | 1 => ⟨S_, .f32⟩
  | 2 => ⟨S800000x64, .f32⟩
  | 3 => ⟨S800000x64, .f32⟩
  | 4 => ⟨S800000x64, .f32⟩
  | 5 => ⟨S1x64, .f32⟩
  | 6 => ⟨S800000x64, .f32⟩
  | 7 => ⟨S800000x64, .f32⟩
  | 8 => ⟨S_, .f32⟩
  | 9 => ⟨S800000x64, .f32⟩
  | 10 => ⟨S800000x64, .f32⟩
  | 11 => ⟨S800000x64, .f32⟩
  | 12 => ⟨S1x64, .f32⟩
  | 13 => ⟨S800000x64, .f32⟩
  | 14 => ⟨S800000x64, .f32⟩
  | 15 => ⟨S_, .f32⟩
  | 16 => ⟨S50000x64, .f32⟩
  | 17 => ⟨S800000x1, .i32⟩
  | 18 => ⟨S50000x64, .f32⟩
  | 19 => ⟨S50000x192, .f32⟩
  | 20 => ⟨S1x192, .f32⟩
  | 21 => ⟨S50000x192, .f32⟩
  | 22 => ⟨S50000x192, .f32⟩
  | 23 => ⟨S50000x192, .f32⟩
  | 24 => ⟨S1x192, .f32⟩
  | 25 => ⟨S50000x192, .f32⟩
  | 26 => ⟨S50000x192, .f32⟩
  | 27 => ⟨S50000x64, .f32⟩
  | 28 => ⟨S50000x64, .f32⟩
  | 29 => ⟨S50000x64, .f32⟩
  | 30 => ⟨S50000x64, .f32⟩
  | 31 => ⟨S50000x64, .f32⟩
  | 32 => ⟨S50000x64, .f32⟩
  | 33 => ⟨S50000x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S50000x64, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S50000x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S50000x64, .f32⟩
  | 58 => ⟨S50000x64, .f32⟩
  | 59 => ⟨S50000x64, .f32⟩
  | 60 => ⟨S50000x2, .f32⟩
  | 61 => ⟨S1x2, .f32⟩
  | 62 => ⟨S50000x2, .f32⟩
  | 63 => ⟨S50000x2, .f32⟩
  | _ => ⟨S800000x2, .i32⟩

abbrev hbmTy (i : Nat) : BufTy := match i / 128 with
  | 0 => hbmTy0_0 i
  | 1 => hbmTy0_1 i
  | 2 => hbmTy0_2 i
  | _ => ⟨S800000x2, .i32⟩

abbrev bufTy : (tb : Table) → Fin (tcTables nBuf tb) → BufTy
  | .hbm, ⟨i, _⟩ => hbmTy i
  | _, _ => ⟨S800000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_7 : Ref sig .tc := ⟨.hbm, 70, rfl⟩
abbrev main_v44 : Ref sig .tc := ⟨.hbm, 71, rfl⟩
abbrev main_v45 : Ref sig .tc := ⟨.hbm, 72, rfl⟩
abbrev main_c_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call0_cst : Ref sig .tc := ⟨.hbm, 93, rfl⟩
abbrev main_call0_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call1_cst : Ref sig .tc := ⟨.hbm, 100, rfl⟩
abbrev main_call1_v0 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_11 : Ref sig .tc := ⟨.hbm, 128, rfl⟩
abbrev main_v93 : Ref sig .tc := ⟨.hbm, 129, rfl⟩
abbrev main_v94 : Ref sig .tc := ⟨.hbm, 130, rfl⟩
abbrev main_cst_12 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_13 : Ref sig .tc := ⟨.hbm, 137, rfl⟩
abbrev main_v100 : Ref sig .tc := ⟨.hbm, 138, rfl⟩
abbrev main_v101 : Ref sig .tc := ⟨.hbm, 139, rfl⟩
abbrev main_cst_14 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_15 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_c_16 : Ref sig .tc := ⟨.hbm, 152, rfl⟩
abbrev main_v112 : Ref sig .tc := ⟨.hbm, 153, rfl⟩
abbrev main_v113 : Ref sig .tc := ⟨.hbm, 154, rfl⟩
abbrev main_c_17 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_c_18 : Ref sig .tc := ⟨.hbm, 161, rfl⟩
abbrev main_v119 : Ref sig .tc := ⟨.hbm, 162, rfl⟩
abbrev main_v120 : Ref sig .tc := ⟨.hbm, 163, rfl⟩
abbrev main_c_19 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_call2_cst : Ref sig .tc := ⟨.hbm, 175, rfl⟩
abbrev main_call2_v0 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_call3_cst : Ref sig .tc := ⟨.hbm, 182, rfl⟩
abbrev main_call3_v0 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_20 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_cst_21 : Ref sig .tc := ⟨.hbm, 210, rfl⟩
abbrev main_v161 : Ref sig .tc := ⟨.hbm, 211, rfl⟩
abbrev main_v162 : Ref sig .tc := ⟨.hbm, 212, rfl⟩
abbrev main_cst_22 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_23 : Ref sig .tc := ⟨.hbm, 219, rfl⟩
abbrev main_v168 : Ref sig .tc := ⟨.hbm, 220, rfl⟩
abbrev main_v169 : Ref sig .tc := ⟨.hbm, 221, rfl⟩
abbrev main_cst_24 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_cst_25 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_c_26 : Ref sig .tc := ⟨.hbm, 234, rfl⟩
abbrev main_v180 : Ref sig .tc := ⟨.hbm, 235, rfl⟩
abbrev main_v181 : Ref sig .tc := ⟨.hbm, 236, rfl⟩
abbrev main_c_27 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_c_28 : Ref sig .tc := ⟨.hbm, 243, rfl⟩
abbrev main_v187 : Ref sig .tc := ⟨.hbm, 244, rfl⟩
abbrev main_v188 : Ref sig .tc := ⟨.hbm, 245, rfl⟩
abbrev main_c_29 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_call4_cst : Ref sig .tc := ⟨.hbm, 257, rfl⟩
abbrev main_call4_v0 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_call5_cst : Ref sig .tc := ⟨.hbm, 264, rfl⟩
abbrev main_call5_v0 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_cst_30 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_cst_31 : Ref sig .tc := ⟨.hbm, 292, rfl⟩
abbrev main_v229 : Ref sig .tc := ⟨.hbm, 293, rfl⟩
abbrev main_v230 : Ref sig .tc := ⟨.hbm, 294, rfl⟩
abbrev main_cst_32 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_cst_33 : Ref sig .tc := ⟨.hbm, 301, rfl⟩
abbrev main_v236 : Ref sig .tc := ⟨.hbm, 302, rfl⟩
abbrev main_v237 : Ref sig .tc := ⟨.hbm, 303, rfl⟩
abbrev main_cst_34 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_cst_35 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x1_S800000x1_S800000x4_d1 : Shape.Concatenates [S800000x1, S800000x1, S800000x1, S800000x1] S800000x4 1
  concatenates_S50000x1_S50000x1_S50000x2_d1 : Shape.Concatenates [S50000x1, S50000x1] S50000x2 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S800000x64_S800000x4_S800000x64_S800000x4_S800000x136_d1 : Shape.Concatenates [S800000x64, S800000x4, S800000x64, S800000x4] S800000x136 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x1_S800000x1_S800000x1_1_0_n_n_0_1_11_wf : GatherDims.WF S50000x1 S800000x1 S800000x1 [1] [0] [] [0] [] 1 ![1, 1]
  dot_S50000x2_S2x64_S50000x64_1_0_0_1_n_n_wf : DotDims.WF S50000x2 S2x64 S50000x64 [1] [0] [0] [1] [] []
  gather_S50000x64_S800000x1_S800000x64_1_0_n_n_0_1_164_wf : GatherDims.WF S50000x64 S800000x1 S800000x64 [1] [0] [] [0] [] 1 ![1, 64]
  dot_S800000x136_S136x64_S800000x64_1_0_0_1_n_n_wf : DotDims.WF S800000x136 S136x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x192_S50000x192_1_0_0_1_n_n_wf : DotDims.WF S50000x64 S64x192 S50000x192 [1] [0] [0] [1] [] []
  dot_S50000x64_S64x2_S50000x2_1_0_0_1_n_n_wf : DotDims.WF S50000x64 S64x2 S50000x2 [1] [0] [0] [1] [] []

variable [Facts₀]

def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def dot_S50000x2_S2x64_S50000x64_1_0_0_1_n_n : DotDims S50000x2 S2x64 S50000x64 where
  lhsContracting := [1]
  rhsContracting := [0]
  lhsNonContracting := [0]
  rhsNonContracting := [1]
  lhsBatch := []
  rhsBatch := []
  wf := dot_S50000x2_S2x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x136_S136x64_S800000x64_1_0_0_1_n_n : DotDims S800000x136 S136x64 S800000x64 where
  lhsContracting := [1]
  rhsContracting := [0]
  lhsNonContracting := [0]
  rhsNonContracting := [1]
  lhsBatch := []
  rhsBatch := []
  wf := dot_S800000x136_S136x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.K.Mlp0Def.lean ====
import proofs.«180077_j85650237817340_1_alg».proof.Proof.Gen.Kernel.Launch
import proofs.«180077_j85650237817340_1_alg».proof.Proof.Gen.Kernel.Skeleton
import proofs.«180077_j85650237817340_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 0 of @main: the edge MLP kernel `cc0__edge_mlp_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each is the whole of its staging buffer -/

abbrev rA : Rect S8000x64 := Rect.unit (s := S8000x64) ![0, 0] S8000x64.size inb_S8000x64_S8000x64_0_0
abbrev rB : Rect S8000x4 := Rect.unit (s := S8000x4) ![0, 0] S8000x4.size inb_S8000x4_S8000x4_0_0
abbrev rC : Rect S136x64 := Rect.unit (s := S136x64) ![0, 0] S136x64.size inb_S136x64_S136x64_0_0
abbrev rD : Rect S1x64 := Rect.unit (s := S1x64) ![0, 0] S1x64.size inb_S1x64_S1x64_0_0
abbrev rE : Rect S64x64 := Rect.unit (s := S64x64) ![0, 0] S64x64.size inb_S64x64_S64x64_0_0

/-! ## What the body leaves in the output window's buffer -/

/-- Window 10's staging buffer after the body, from the ten input windows' blocks: its one store, of the whole
    block, as a piece (`View.canon`). The stored value is the third layer's product (`k0_pay2`, of the first nine
    blocks) plus the broadcast last bias row (`k0_pay1`). -/
def out0_10 (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) : Vec F S8000x64 .f32 :=
  View.canon [⟨rA, k0_pay1 (k0_pay2 (View.ld x0 rA) (View.ld x1 rB) (View.ld x2 rA) (View.ld x3 rB) (View.ld x4 rC) (View.ld x5 rD) (View.ld x6 rE) (View.ld x7 rD) (View.ld x8 rE)) (View.ld x9 rD)⟩]

/-! ## The pipeline's proof data -/

/-- The proof data of pipeline 0 on core `c`: the arrays as the region finds them (`V`); after the body at
    point `t` each input's buffer at its block and the output's at `out0_10` of the input blocks; the invariant
    the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

end Cert.Kernel.Fr
-- ==== Proof.K.Gru1Def.lean ====
import proofs.«180077_j85650237817340_1_alg».proof.Proof.Gen.Kernel.Launch
import proofs.«180077_j85650237817340_1_alg».proof.Proof.Gen.Kernel.Skeleton
import proofs.«180077_j85650237817340_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The GRU pallas_call, region 1: the pipeline's proof data

The kernel body reads each of its six input windows' whole blocks and writes the output window's whole block
once. This module fixes what each window's staging buffer holds after the body at a grid point, as a function
of the arrays the region is entered with. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the store take a whole block -/

abbrev gA : Rect S5000x64 := Rect.unit (s := S5000x64) ![0, 0] S5000x64.size inb_S5000x64_S5000x64_0_0
abbrev gB : Rect S64x192 := Rect.unit (s := S64x192) ![0, 0] S64x192.size inb_S64x192_S64x192_0_0
abbrev gC : Rect S1x192 := Rect.unit (s := S1x192) ![0, 0] S1x192.size inb_S1x192_S1x192_0_0

/-! ## What the body leaves in the output window's buffer -/

/-- Window 6's staging buffer after the body, from the six input windows' blocks `x0 … x5` (in window order):
    its one store, of the payload at the loaded blocks. The payload takes the two 64×192 matrices (windows 2
    and 4) before the two 1×192 rows (windows 3 and 5), the order in which the body loads them. -/
def out1_6 (x0 x1 : Vec F S5000x64 .f32) (x2 : Vec F S64x192 .f32) (x3 : Vec F S1x192 .f32) (x4 : Vec F S64x192 .f32)
    (x5 : Vec F S1x192 .f32) : Vec F S5000x64 .f32 :=
  View.canon [⟨gA, k1_pay1 (View.ld x0 gA) (View.ld x1 gA) (View.ld x2 gB) (View.ld x4 gB) (View.ld x3 gC) (View.ld x5 gC)⟩]

/-! ## The pipeline's proof data -/

/-- The proof data of the pipeline on core `c`: the arrays as the region finds them (`V`); after the body at
    point `t` each input's buffer at its block and the output's at `out1_6` of the input blocks; the invariant
    the scoped rest and the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by
  dsimp only [dat1]

end Cert.Kernel.Fr
-- ==== Proof.K.Mlp2Def.lean ====
import proofs.«180077_j85650237817340_1_alg».proof.Proof.Gen.Kernel.Launch
import proofs.«180077_j85650237817340_1_alg».proof.Proof.Gen.Kernel.Skeleton
import proofs.«180077_j85650237817340_1_alg».proof.Proof.Gen.Kernel.Points
import proofs.«180077_j85650237817340_1_alg».proof.Proof.K.Mlp0Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 2 of @main: the edge MLP kernel `cc2__edge_mlp_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body leaves in the output window's buffer -/

/-- Window 10's staging buffer after the body, from the ten input windows' blocks: its one store, of the whole
    block, as a piece (`View.canon`). The stored value is the third layer's product (`k2_pay2`, of the first nine
    blocks) plus the broadcast last bias row (`k2_pay1`). -/
def out2_10 (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) : Vec F S8000x64 .f32 :=
  View.canon [⟨rA, k2_pay1 (k2_pay2 (View.ld x0 rA) (View.ld x1 rB) (View.ld x2 rA) (View.ld x3 rB) (View.ld x4 rC) (View.ld x5 rD) (View.ld x6 rE) (View.ld x7 rD) (View.ld x8 rE)) (View.ld x9 rD)⟩]

/-! ## The pipeline's proof data -/

/-- The proof data of pipeline 2 on core `c`: the arrays as the region finds them (`V`); after the body at
    point `t` each input's buffer at its block and the output's at `out2_10` of the input blocks; the invariant
    the scoped rest and the generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

end Cert.Kernel.Fr
-- ==== Proof.K.Gru3Def.lean ====
import proofs.«180077_j85650237817340_1_alg».proof.Proof.Gen.Kernel.Launch
import proofs.«180077_j85650237817340_1_alg».proof.Proof.Gen.Kernel.Skeleton
import proofs.«180077_j85650237817340_1_alg».proof.Proof.Gen.Kernel.Points
import proofs.«180077_j85650237817340_1_alg».proof.Proof.K.Gru1Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The GRU pallas_call, region 3: the pipeline's proof data

The kernel body reads each of its six input windows' whole blocks and writes the output window's whole block
once. This module fixes what each window's staging buffer holds after the body at a grid point, as a function
of the arrays the region is entered with. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and the store take a whole block -/

/-! ## What the body leaves in the output window's buffer -/

/-- Window 6's staging buffer after the body, from the six input windows' blocks `x0 … x5` (in window order):
    its one store, of the payload at the loaded blocks. The payload takes the two 64×192 matrices (windows 2
    and 4) before the two 1×192 rows (windows 3 and 5), the order in which the body loads them. -/
def out3_6 (x0 x1 : Vec F S5000x64 .f32) (x2 : Vec F S64x192 .f32) (x3 : Vec F S1x192 .f32) (x4 : Vec F S64x192 .f32)
    (x5 : Vec F S1x192 .f32) : Vec F S5000x64 .f32 :=
  View.canon [⟨gA, k3_pay1 (View.ld x0 gA) (View.ld x1 gA) (View.ld x2 gB) (View.ld x4 gB) (View.ld x3 gC) (View.ld x5 gC)⟩]

/-! ## The pipeline's proof data -/

/-- The proof data of the pipeline on core `c`: the arrays as the region finds them (`V`); after the body at
    point `t` each input's buffer at its block and the output's at `out3_6` of the input blocks; the invariant
    the scoped rest and the generator register, untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by
  dsimp only [dat3]

end Cert.Kernel.Fr
-- ==== Proof.K.Mlp4Def.lean ====
import proofs.«180077_j85650237817340_1_alg».proof.Proof.Gen.Kernel.Launch
import proofs.«180077_j85650237817340_1_alg».proof.Proof.Gen.Kernel.Skeleton
import proofs.«180077_j85650237817340_1_alg».proof.Proof.Gen.Kernel.Points
import proofs.«180077_j85650237817340_1_alg».proof.Proof.K.Mlp0Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 4 of @main: the edge MLP kernel `cc4__edge_mlp_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## What the body leaves in the output window's buffer -/

/-- Window 10's staging buffer after the body, from the ten input windows' blocks: its one store, of the whole
    block, as a piece (`View.canon`). The stored value is the third layer's product (`k4_pay2`, of the first nine
    blocks) plus the broadcast last bias row (`k4_pay1`). -/
def out4_10 (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) : Vec F S8000x64 .f32 :=
  View.canon [⟨rA, k4_pay1 (k4_pay2 (View.ld x0 rA) (View.ld x1 rB) (View.ld x2 rA) (View.ld x3 rB) (View.ld x4 rC) (View.ld x5 rD) (View.ld x6 rE) (View.ld x7 rD) (View.ld x8 rE)) (View.ld x9 rD)⟩]

/-! ## The pipeline's proof data -/

/-- The proof data of pipeline 4 on core `c`: the arrays as the region finds them (`V`); after the body at
    point `t` each input's buffer at its block and the output's at `out4_10` of the input blocks; the invariant
    the scoped rest and the generator register, untouched; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]

end Cert.Kernel.Fr
-- ==== Proof.K.Gru5Def.lean ====
import proofs.«180077_j85650237817340_1_alg».proof.Proof.Gen.Kernel.Launch
import proofs.«180077_j85650237817340_1_alg».proof.Proof.Gen.Kernel.Skeleton
import proofs.«180077_j85650237817340_1_alg».proof.Proof.Gen.Kernel.Points
import proofs.«180077_j85650237817340_1_alg».proof.Proof.K.Gru1Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The GRU pallas_call, region 5: the pipeline's proof data

The kernel body reads each of its six input windows' whole blocks and writes the output window's whole block
once. This module fixes what each window's staging buffer holds after the body at a grid point, as a function
of the arrays the region is entered with. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses: every load and the store take a whole block -/

/-! ## What the body leaves in the output window's buffer -/

/-- Window 6's staging buffer after the body, from the six input windows' blocks `x0 … x5` (in window order):
    its one store, of the payload at the loaded blocks. The payload takes the two 64×192 matrices (windows 2
    and 4) before the two 1×192 rows (windows 3 and 5), the order in which the body loads them. -/
def out5_6 (x0 x1 : Vec F S5000x64 .f32) (x2 : Vec F S64x192 .f32) (x3 : Vec F S1x192 .f32) (x4 : Vec F S64x192 .f32)
    (x5 : Vec F S1x192 .f32) : Vec F S5000x64 .f32 :=
  View.canon [⟨gA, k5_pay1 (View.ld x0 gA) (View.ld x1 gA) (View.ld x2 gB) (View.ld x4 gB) (View.ld x3 gC) (View.ld x5 gC)⟩]

/-! ## The pipeline's proof data -/

/-- The proof data of the pipeline on core `c`: the arrays as the region finds them (`V`); after the body at
    point `t` each input's buffer at its block and the output's at `out5_6` of the input blocks; the invariant
    the scoped rest and the generator register, untouched; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by
  dsimp only [dat5]

end Cert.Kernel.Fr
-- ==== Proof.K.Run.lean ====
import proofs.«180077_j85650237817340_1_alg».proof.Proof.K.Mlp0Def
import proofs.«180077_j85650237817340_1_alg».proof.Proof.K.Gru1Def
import proofs.«180077_j85650237817340_1_alg».proof.Proof.K.Mlp2Def
import proofs.«180077_j85650237817340_1_alg».proof.Proof.K.Gru3Def
import proofs.«180077_j85650237817340_1_alg».proof.Proof.K.Mlp4Def
import proofs.«180077_j85650237817340_1_alg».proof.Proof.K.Gru5Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: seven stretches of host operations around six kernel regions

The buffer contents at every segment boundary as a fold from the launch memory (`W0` … `W13`: a stretch's
`StableHlo.after`; a region's arrays at what its write-backs leave, every other buffer as entered), each argument
array read back through the fold to its launch contents, the six pipelines' proof data each at its region's entry
contents, a host segment per stretch and a region segment per kernel call over the thread state "every unscoped
buffer at the boundary's contents, the generator register at some state, nothing owed", and the run itself: every
weakly fair execution terminates, the result buffer holds the last valuation's contents and the arguments end as
launched. The six body obligations are hypotheses. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, the output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, the output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, the output's write-backs
    folded: `Dat.arrAt … N`), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves (the inputs as entered, the output's write-backs
    folded: `Dat.arrAt … N`), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves (`hF5`) and every other buffer what it
    held at entry (`hrest5`). -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6`: the contents @main returns with. -/
abbrev W13 : Dev nD → Valuation τ sig (Elt F) := fun c => StableHlo.after hostOps6 (W12 m ρ c)

/-! ## What the host stretches write

Every operation of a stretch writes one reference, its result; a reference that is no operation's result keeps its
contents through the stretch. -/

/-- An operation whose one written buffer is the reference `y`, a member of the list `Ws`, writes within `Ws`. -/
theorem writes_sub_of {op : HloOp τ sig (Elt F)} {y : Ref sig .tc} {Ws : List (Ref sig .tc)}
    (h : op.writes = {Proc.devRef .tc y}) (hy : y ∈ Ws) :
    op.writes ⊆ (Ws.map (Proc.devRef (τ := τ) .tc)).toFinset := by
  rw [h, Finset.singleton_subset_iff, List.mem_toFinset]; exact List.mem_map_of_mem hy

/-- The references `hostOps0`'s operations write: their results, in order. -/
abbrev hostOps0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_c_3, main_v21, main_v22, main_c_4, main_v23, main_v24, main_v25, main_v26, main_v27, main_v28, main_c_5, main_v29, main_v30, main_c_6, main_v31, main_v32, main_v33, main_v34, main_v35, main_v36, main_v37, main_v38, main_v39, main_v40, main_v41, main_v42, main_v43, main_c_7, main_v44, main_v45, main_c_8, main_v46, main_v47, main_v48, main_v49, main_v50, main_c_9, main_v51, main_v52, main_c_10, main_v53, main_v54, main_v55, main_v56, main_v57, main_v58, main_v59, main_v60]
set_option maxHeartbeats 40000000 in
theorem hostOps0_writes : (hostOps0 : List (HloOp τ sig (Elt F))).Forall fun op => op.writes ⊆ (hostOps0_W.map (Proc.devRef (τ := τ) .tc)).toFinset :=
  ⟨writes_sub_of (y := main_v0) rfl (by decide),
   writes_sub_of (y := main_v1) rfl (by decide),
   writes_sub_of (y := main_v2) rfl (by decide),
   writes_sub_of (y := main_v3) rfl (by decide),
   writes_sub_of (y := main_c) rfl (by decide),
   writes_sub_of (y := main_v4) rfl (by decide),
   writes_sub_of (y := main_v5) rfl (by decide),
   writes_sub_of (y := main_c_0) rfl (by decide),
   writes_sub_of (y := main_v6) rfl (by decide),
   writes_sub_of (y := main_v7) rfl (by decide),
   writes_sub_of (y := main_v8) rfl (by decide),
   writes_sub_of (y := main_v9) rfl (by decide),
   writes_sub_of (y := main_v10) rfl (by decide),
   writes_sub_of (y := main_c_1) rfl (by decide),
   writes_sub_of (y := main_v11) rfl (by decide),
   writes_sub_of (y := main_v12) rfl (by decide),
   writes_sub_of (y := main_c_2) rfl (by decide),
   writes_sub_of (y := main_v13) rfl (by decide),
   writes_sub_of (y := main_v14) rfl (by decide),
   writes_sub_of (y := main_v15) rfl (by decide),
   writes_sub_of (y := main_v16) rfl (by decide),
   writes_sub_of (y := main_v17) rfl (by decide),
   writes_sub_of (y := main_v18) rfl (by decide),
   writes_sub_of (y := main_v19) rfl (by decide),
   writes_sub_of (y := main_v20) rfl (by decide),
   writes_sub_of (y := main_c_3) rfl (by decide),
   writes_sub_of (y := main_v21) rfl (by decide),
   writes_sub_of (y := main_v22) rfl (by decide),
   writes_sub_of (y := main_c_4) rfl (by decide),
   writes_sub_of (y := main_v23) rfl (by decide),
   writes_sub_of (y := main_v24) rfl (by decide),
   writes_sub_of (y := main_v25) rfl (by decide),
   writes_sub_of (y := main_v26) rfl (by decide),
   writes_sub_of (y := main_v27) rfl (by decide),
   writes_sub_of (y := main_v28) rfl (by decide),
   writes_sub_of (y := main_c_5) rfl (by decide),
   writes_sub_of (y := main_v29) rfl (by decide),
   writes_sub_of (y := main_v30) rfl (by decide),
   writes_sub_of (y := main_c_6) rfl (by decide),
   writes_sub_of (y := main_v31) rfl (by decide),
   writes_sub_of (y := main_v32) rfl (by decide),
   writes_sub_of (y := main_v33) rfl (by decide),
   writes_sub_of (y := main_v34) rfl (by decide),
   writes_sub_of (y := main_v35) rfl (by decide),
   writes_sub_of (y := main_v36) rfl (by decide),
   writes_sub_of (y := main_v37) rfl (by decide),
   writes_sub_of (y := main_v38) rfl (by decide),
   writes_sub_of (y := main_v39) rfl (by decide),
   writes_sub_of (y := main_v40) rfl (by decide),
   writes_sub_of (y := main_v41) rfl (by decide),
   writes_sub_of (y := main_v42) rfl (by decide),
   writes_sub_of (y := main_v43) rfl (by decide),
   writes_sub_of (y := main_c_7) rfl (by decide),
   writes_sub_of (y := main_v44) rfl (by decide),
   writes_sub_of (y := main_v45) rfl (by decide),
   writes_sub_of (y := main_c_8) rfl (by decide),
   writes_sub_of (y := main_v46) rfl (by decide),
   writes_sub_of (y := main_v47) rfl (by decide),
   writes_sub_of (y := main_v48) rfl (by decide),
   writes_sub_of (y := main_v49) rfl (by decide),
   writes_sub_of (y := main_v50) rfl (by decide),
   writes_sub_of (y := main_c_9) rfl (by decide),
   writes_sub_of (y := main_v51) rfl (by decide),
   writes_sub_of (y := main_v52) rfl (by decide),
   writes_sub_of (y := main_c_10) rfl (by decide),
   writes_sub_of (y := main_v53) rfl (by decide),
   writes_sub_of (y := main_v54) rfl (by decide),
   writes_sub_of (y := main_v55) rfl (by decide),
   writes_sub_of (y := main_v56) rfl (by decide),
   writes_sub_of (y := main_v57) rfl (by decide),
   writes_sub_of (y := main_v58) rfl (by decide),
   writes_sub_of (y := main_v59) rfl (by decide),
   writes_sub_of (y := main_v60) rfl (by decide)⟩
set_option maxHeartbeats 40000000 in
/-- No operation of `hostOps0` allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- A reference `hostOps0` does not write keeps its contents through the stretch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- The references `hostOps1`'s operations write: their results, in order. -/
abbrev hostOps1_W : List (Ref sig .tc) := [main_cst, main_v62, main_v63, main_v64, main_v65, main_v66]
theorem hostOps1_writes : (hostOps1 : List (HloOp τ sig (Elt F))).Forall fun op => op.writes ⊆ (hostOps1_W.map (Proc.devRef (τ := τ) .tc)).toFinset :=
  ⟨writes_sub_of (y := main_cst) rfl (by decide),
   writes_sub_of (y := main_v62) rfl (by decide),
   writes_sub_of (y := main_v63) rfl (by decide),
   writes_sub_of (y := main_v64) rfl (by decide),
   writes_sub_of (y := main_v65) rfl (by decide),
   writes_sub_of (y := main_v66) rfl (by decide)⟩
/-- No operation of `hostOps1` allocates a buffer. -/
theorem hostOps1_fresh : (hostOps1 : List (HloOp τ sig (Elt F))).Forall fun op => op.fresh = ∅ :=
  ⟨rfl, rfl, rfl, rfl, rfl, rfl⟩
/-- A reference `hostOps1` does not write keeps its contents through the stretch. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- The references `hostOps2`'s operations write: their results, in order. -/
abbrev hostOps2_W : List (Ref sig .tc) := [main_c_11, main_v68, main_v69, main_c_12, main_v70, main_v71, main_v72, main_v73, main_v74, main_c_13, main_v75, main_v76, main_c_14, main_v77, main_v78, main_v79, main_v80, main_v81, main_v82, main_v83, main_v84]
theorem hostOps2_writes : (hostOps2 : List (HloOp τ sig (Elt F))).Forall fun op => op.writes ⊆ (hostOps2_W.map (Proc.devRef (τ := τ) .tc)).toFinset :=
  ⟨writes_sub_of (y := main_c_11) rfl (by decide),
   writes_sub_of (y := main_v68) rfl (by decide),
   writes_sub_of (y := main_v69) rfl (by decide),
   writes_sub_of (y := main_c_12) rfl (by decide),
   writes_sub_of (y := main_v70) rfl (by decide),
   writes_sub_of (y := main_v71) rfl (by decide),
   writes_sub_of (y := main_v72) rfl (by decide),
   writes_sub_of (y := main_v73) rfl (by decide),
   writes_sub_of (y := main_v74) rfl (by decide),
   writes_sub_of (y := main_c_13) rfl (by decide),
   writes_sub_of (y := main_v75) rfl (by decide),
   writes_sub_of (y := main_v76) rfl (by decide),
   writes_sub_of (y := main_c_14) rfl (by decide),
   writes_sub_of (y := main_v77) rfl (by decide),
   writes_sub_of (y := main_v78) rfl (by decide),
   writes_sub_of (y := main_v79) rfl (by decide),
   writes_sub_of (y := main_v80) rfl (by decide),
   writes_sub_of (y := main_v81) rfl (by decide),
   writes_sub_of (y := main_v82) rfl (by decide),
   writes_sub_of (y := main_v83) rfl (by decide),
   writes_sub_of (y := main_v84) rfl (by decide)⟩
/-- No operation of `hostOps2` allocates a buffer. -/
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- A reference `hostOps2` does not write keeps its contents through the stretch. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- The references `hostOps3`'s operations write: their results, in order. -/
abbrev hostOps3_W : List (Ref sig .tc) := [main_cst_15, main_v86, main_v87, main_v88, main_v89, main_v90]
theorem hostOps3_writes : (hostOps3 : List (HloOp τ sig (Elt F))).Forall fun op => op.writes ⊆ (hostOps3_W.map (Proc.devRef (τ := τ) .tc)).toFinset :=
  ⟨writes_sub_of (y := main_cst_15) rfl (by decide),
   writes_sub_of (y := main_v86) rfl (by decide),
   writes_sub_of (y := main_v87) rfl (by decide),
   writes_sub_of (y := main_v88) rfl (by decide),
   writes_sub_of (y := main_v89) rfl (by decide),
   writes_sub_of (y := main_v90) rfl (by decide)⟩
/-- No operation of `hostOps3` allocates a buffer. -/
theorem hostOps3_fresh : (hostOps3 : List (HloOp τ sig (Elt F))).Forall fun op => op.fresh = ∅ :=
  ⟨rfl, rfl, rfl, rfl, rfl, rfl⟩
/-- A reference `hostOps3` does not write keeps its contents through the stretch. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- The references `hostOps4`'s operations write: their results, in order. -/
abbrev hostOps4_W : List (Ref sig .tc) := [main_c_16, main_v92, main_v93, main_c_17, main_v94, main_v95, main_v96, main_v97, main_v98, main_c_18, main_v99, main_v100, main_c_19, main_v101, main_v102, main_v103, main_v104, main_v105, main_v106, main_v107, main_v108]
theorem hostOps4_writes : (hostOps4 : List (HloOp τ sig (Elt F))).Forall fun op => op.writes ⊆ (hostOps4_W.map (Proc.devRef (τ := τ) .tc)).toFinset :=
  ⟨writes_sub_of (y := main_c_16) rfl (by decide),
   writes_sub_of (y := main_v92) rfl (by decide),
   writes_sub_of (y := main_v93) rfl (by decide),
   writes_sub_of (y := main_c_17) rfl (by decide),
   writes_sub_of (y := main_v94) rfl (by decide),
   writes_sub_of (y := main_v95) rfl (by decide),
   writes_sub_of (y := main_v96) rfl (by decide),
   writes_sub_of (y := main_v97) rfl (by decide),
   writes_sub_of (y := main_v98) rfl (by decide),
   writes_sub_of (y := main_c_18) rfl (by decide),
   writes_sub_of (y := main_v99) rfl (by decide),
   writes_sub_of (y := main_v100) rfl (by decide),
   writes_sub_of (y := main_c_19) rfl (by decide),
   writes_sub_of (y := main_v101) rfl (by decide),
   writes_sub_of (y := main_v102) rfl (by decide),
   writes_sub_of (y := main_v103) rfl (by decide),
   writes_sub_of (y := main_v104) rfl (by decide),
   writes_sub_of (y := main_v105) rfl (by decide),
   writes_sub_of (y := main_v106) rfl (by decide),
   writes_sub_of (y := main_v107) rfl (by decide),
   writes_sub_of (y := main_v108) rfl (by decide)⟩
/-- No operation of `hostOps4` allocates a buffer. -/
theorem hostOps4_fresh : (hostOps4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- A reference `hostOps4` does not write keeps its contents through the stretch. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- The references `hostOps5`'s operations write: their results, in order. -/
abbrev hostOps5_W : List (Ref sig .tc) := [main_cst_20, main_v110, main_v111, main_v112, main_v113, main_v114]
theorem hostOps5_writes : (hostOps5 : List (HloOp τ sig (Elt F))).Forall fun op => op.writes ⊆ (hostOps5_W.map (Proc.devRef (τ := τ) .tc)).toFinset :=
  ⟨writes_sub_of (y := main_cst_20) rfl (by decide),
   writes_sub_of (y := main_v110) rfl (by decide),
   writes_sub_of (y := main_v111) rfl (by decide),
   writes_sub_of (y := main_v112) rfl (by decide),
   writes_sub_of (y := main_v113) rfl (by decide),
   writes_sub_of (y := main_v114) rfl (by decide)⟩
/-- No operation of `hostOps5` allocates a buffer. -/
theorem hostOps5_fresh : (hostOps5 : List (HloOp τ sig (Elt F))).Forall fun op => op.fresh = ∅ :=
  ⟨rfl, rfl, rfl, rfl, rfl, rfl⟩
/-- A reference `hostOps5` does not write keeps its contents through the stretch. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- The references `hostOps6`'s operations write: their results, in order. -/
abbrev hostOps6_W : List (Ref sig .tc) := [main_v116, main_v117, main_v118, main_v119]
theorem hostOps6_writes : (hostOps6 : List (HloOp τ sig (Elt F))).Forall fun op => op.writes ⊆ (hostOps6_W.map (Proc.devRef (τ := τ) .tc)).toFinset :=
  ⟨writes_sub_of (y := main_v116) rfl (by decide),
   writes_sub_of (y := main_v117) rfl (by decide),
   writes_sub_of (y := main_v118) rfl (by decide),
   writes_sub_of (y := main_v119) rfl (by decide)⟩
/-- No operation of `hostOps6` allocates a buffer. -/
theorem hostOps6_fresh : (hostOps6 : List (HloOp τ sig (Elt F))).Forall fun op => op.fresh = ∅ :=
  ⟨rfl, rfl, rfl, rfl⟩
/-- A reference `hostOps6` does not write keeps its contents through the stretch. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

/-! ## The arguments end as launched

No host operation writes an argument, and a region reads one through an input window or bypasses it, so the fold
at an argument's buffer walks back to the launch memory. -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of m ρ c main_arg3 (by decide)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of m ρ c main_arg4 (by decide)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of m ρ c main_arg5 (by decide)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := W13_of m ρ c main_arg6 (by decide)
    _ = W11 m ρ c (Proc.devRef .tc main_arg6) := W12_of_ne m ρ c main_arg6 (by decide)
    _ = W10 m ρ c (Proc.devRef .tc main_arg6) := W11_of m ρ c main_arg6 (by decide)
    _ = W9 m ρ c (Proc.devRef .tc main_arg6) := (W10_arr m ρ c 4).trans (((dat4 (V9 m ρ) c).arrAt_in 4 rfl _).trans (A_eq4 (V9 m ρ) c 4))
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := (W6_arr m ρ c 4).trans (((dat2 (V5 m ρ) c).arrAt_in 4 rfl _).trans (A_eq2 (V5 m ρ) c 4))
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := W1_of m ρ c main_arg6 (by decide)
    _ = m ((c : Thread nD τ).loc main_arg6) := rfl

theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := W13_of m ρ c main_arg7 (by decide)
    _ = W11 m ρ c (Proc.devRef .tc main_arg7) := W12_of_ne m ρ c main_arg7 (by decide)
    _ = W10 m ρ c (Proc.devRef .tc main_arg7) := W11_of m ρ c main_arg7 (by decide)
    _ = W9 m ρ c (Proc.devRef .tc main_arg7) := W10_of_ne m ρ c main_arg7 (by decide)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := W13_of m ρ c main_arg8 (by decide)
    _ = W11 m ρ c (Proc.devRef .tc main_arg8) := W12_of_ne m ρ c main_arg8 (by decide)
    _ = W10 m ρ c (Proc.devRef .tc main_arg8) := W11_of m ρ c main_arg8 (by decide)
    _ = W9 m ρ c (Proc.devRef .tc main_arg8) := (W10_arr m ρ c 6).trans (((dat4 (V9 m ρ) c).arrAt_in 6 rfl _).trans (A_eq4 (V9 m ρ) c 6))
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := (W6_arr m ρ c 6).trans (((dat2 (V5 m ρ) c).arrAt_in 6 rfl _).trans (A_eq2 (V5 m ρ) c 6))
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := (W2_arr m ρ c 6).trans (((dat0 (V1 m ρ) c).arrAt_in 6 rfl _).trans (A_eq0 (V1 m ρ) c 6))
    _ = W0 m ρ c (Proc.devRef .tc main_arg8) := W1_of m ρ c main_arg8 (by decide)
    _ = m ((c : Thread nD τ).loc main_arg8) := rfl

theorem W13_main_arg9 (c : Dev nD) : W13 m ρ c (Proc.devRef .tc main_arg9) = m ((c : Thread nD τ).loc main_arg9) :=
  calc W13 m ρ c (Proc.devRef .tc main_arg9)
    _ = W12 m ρ c (Proc.devRef .tc main_arg9) := W13_of m ρ c main_arg9 (by decide)
    _ = W11 m ρ c (Proc.devRef .tc main_arg9) := W12_of_ne m ρ c main_arg9 (by decide)
    _ = W10 m ρ c (Proc.devRef .tc main_arg9) := W11_of m ρ c main_arg9 (by decide)
    _ = W9 m ρ c (Proc.devRef .tc main_arg9) := W10_of_ne m ρ c main_arg9 (by decide)
    _ = W8 m ρ c (Proc.devRef .tc main_arg9) := W9_of m ρ c main_arg9 (by decide)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W13_main_arg10 (c : Dev nD) : W13 m ρ c (Proc.devRef .tc main_arg10) = m ((c : Thread nD τ).loc main_arg10) :=
  calc W13 m ρ c (Proc.devRef .tc main_arg10)
    _ = W12 m ρ c (Proc.devRef .tc main_arg10) := W13_of m ρ c main_arg10 (by decide)
    _ = W11 m ρ c (Proc.devRef .tc main_arg10) := W12_of_ne m ρ c main_arg10 (by decide)
    _ = W10 m ρ c (Proc.devRef .tc main_arg10) := W11_of m ρ c main_arg10 (by decide)
    _ = W9 m ρ c (Proc.devRef .tc main_arg10) := (W10_arr m ρ c 8).trans (((dat4 (V9 m ρ) c).arrAt_in 8 rfl _).trans (A_eq4 (V9 m ρ) c 8))
    _ = W8 m ρ c (Proc.devRef .tc main_arg10) := W9_of m ρ c main_arg10 (by decide)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := (W6_arr m ρ c 8).trans (((dat2 (V5 m ρ) c).arrAt_in 8 rfl _).trans (A_eq2 (V5 m ρ) c 8))
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := (W2_arr m ρ c 8).trans (((dat0 (V1 m ρ) c).arrAt_in 8 rfl _).trans (A_eq0 (V1 m ρ) c 8))
    _ = W0 m ρ c (Proc.devRef .tc main_arg10) := W1_of m ρ c main_arg10 (by decide)
    _ = m ((c : Thread nD τ).loc main_arg10) := rfl

theorem W13_main_arg11 (c : Dev nD) : W13 m ρ c (Proc.devRef .tc main_arg11) = m ((c : Thread nD τ).loc main_arg11) :=
  calc W13 m ρ c (Proc.devRef .tc main_arg11)
    _ = W12 m ρ c (Proc.devRef .tc main_arg11) := W13_of m ρ c main_arg11 (by decide)
    _ = W11 m ρ c (Proc.devRef .tc main_arg11) := W12_of_ne m ρ c main_arg11 (by decide)
    _ = W10 m ρ c (Proc.devRef .tc main_arg11) := W11_of m ρ c main_arg11 (by decide)
    _ = W9 m ρ c (Proc.devRef .tc main_arg11) := W10_of_ne m ρ c main_arg11 (by decide)
    _ = W8 m ρ c (Proc.devRef .tc main_arg11) := W9_of m ρ c main_arg11 (by decide)
    _ = W7 m ρ c (Proc.devRef .tc main_arg11) := W8_of_ne m ρ c main_arg11 (by decide)
    _ = W6 m ρ c (Proc.devRef .tc main_arg11) := W7_of m ρ c main_arg11 (by decide)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W13_main_arg12 (c : Dev nD) : W13 m ρ c (Proc.devRef .tc main_arg12) = m ((c : Thread nD τ).loc main_arg12) :=
  calc W13 m ρ c (Proc.devRef .tc main_arg12)
    _ = W12 m ρ c (Proc.devRef .tc main_arg12) := W13_of m ρ c main_arg12 (by decide)
    _ = W11 m ρ c (Proc.devRef .tc main_arg12) := (W12_arr m ρ c 2).trans (((dat5 (V11 m ρ) c).arrAt_in 2 rfl _).trans (A_eq5 (V11 m ρ) c 2))
    _ = W10 m ρ c (Proc.devRef .tc main_arg12) := W11_of m ρ c main_arg12 (by decide)
    _ = W9 m ρ c (Proc.devRef .tc main_arg12) := W10_of_ne m ρ c main_arg12 (by decide)
    _ = W8 m ρ c (Proc.devRef .tc main_arg12) := W9_of m ρ c main_arg12 (by decide)
    _ = W7 m ρ c (Proc.devRef .tc main_arg12) := (W8_arr m ρ c 2).trans (((dat3 (V7 m ρ) c).arrAt_in 2 rfl _).trans (A_eq3 (V7 m ρ) c 2))
    _ = W6 m ρ c (Proc.devRef .tc main_arg12) := W7_of m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := (W4_arr m ρ c 2).trans (((dat1 (V3 m ρ) c).arrAt_in 2 rfl _).trans (A_eq1 (V3 m ρ) c 2))
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

theorem W13_main_arg13 (c : Dev nD) : W13 m ρ c (Proc.devRef .tc main_arg13) = m ((c : Thread nD τ).loc main_arg13) :=
  calc W13 m ρ c (Proc.devRef .tc main_arg13)
    _ = W12 m ρ c (Proc.devRef .tc main_arg13) := W13_of m ρ c main_arg13 (by decide)
    _ = W11 m ρ c (Proc.devRef .tc main_arg13) := W12_of_ne m ρ c main_arg13 (by decide)
    _ = W10 m ρ c (Proc.devRef .tc main_arg13) := W11_of m ρ c main_arg13 (by decide)
    _ = W9 m ρ c (Proc.devRef .tc main_arg13) := W10_of_ne m ρ c main_arg13 (by decide)
    _ = W8 m ρ c (Proc.devRef .tc main_arg13) := W9_of m ρ c main_arg13 (by decide)
    _ = W7 m ρ c (Proc.devRef .tc main_arg13) := W8_of_ne m ρ c main_arg13 (by decide)
    _ = W6 m ρ c (Proc.devRef .tc main_arg13) := W7_of m ρ c main_arg13 (by decide)
    _ = W5 m ρ c (Proc.devRef .tc main_arg13) := W6_of_ne m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

theorem W13_main_arg14 (c : Dev nD) : W13 m ρ c (Proc.devRef .tc main_arg14) = m ((c : Thread nD τ).loc main_arg14) :=
  calc W13 m ρ c (Proc.devRef .tc main_arg14)
    _ = W12 m ρ c (Proc.devRef .tc main_arg14) := W13_of m ρ c main_arg14 (by decide)
    _ = W11 m ρ c (Proc.devRef .tc main_arg14) := (W12_arr m ρ c 4).trans (((dat5 (V11 m ρ) c).arrAt_in 4 rfl _).trans (A_eq5 (V11 m ρ) c 4))
    _ = W10 m ρ c (Proc.devRef .tc main_arg14) := W11_of m ρ c main_arg14 (by decide)
    _ = W9 m ρ c (Proc.devRef .tc main_arg14) := W10_of_ne m ρ c main_arg14 (by decide)
    _ = W8 m ρ c (Proc.devRef .tc main_arg14) := W9_of m ρ c main_arg14 (by decide)
    _ = W7 m ρ c (Proc.devRef .tc main_arg14) := (W8_arr m ρ c 4).trans (((dat3 (V7 m ρ) c).arrAt_in 4 rfl _).trans (A_eq3 (V7 m ρ) c 4))
    _ = W6 m ρ c (Proc.devRef .tc main_arg14) := W7_of m ρ c main_arg14 (by decide)
    _ = W5 m ρ c (Proc.devRef .tc main_arg14) := W6_of_ne m ρ c main_arg14 (by decide)
    _ = W4 m ρ c (Proc.devRef .tc main_arg14) := W5_of m ρ c main_arg14 (by decide)
    _ = W3 m ρ c (Proc.devRef .tc main_arg14) := (W4_arr m ρ c 4).trans (((dat1 (V3 m ρ) c).arrAt_in 4 rfl _).trans (A_eq1 (V3 m ρ) c 4))
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

theorem W13_main_arg15 (c : Dev nD) : W13 m ρ c (Proc.devRef .tc main_arg15) = m ((c : Thread nD τ).loc main_arg15) :=
  calc W13 m ρ c (Proc.devRef .tc main_arg15)
    _ = W12 m ρ c (Proc.devRef .tc main_arg15) := W13_of m ρ c main_arg15 (by decide)
    _ = W11 m ρ c (Proc.devRef .tc main_arg15) := W12_of_ne m ρ c main_arg15 (by decide)
    _ = W10 m ρ c (Proc.devRef .tc main_arg15) := W11_of m ρ c main_arg15 (by decide)
    _ = W9 m ρ c (Proc.devRef .tc main_arg15) := W10_of_ne m ρ c main_arg15 (by decide)
    _ = W8 m ρ c (Proc.devRef .tc main_arg15) := W9_of m ρ c main_arg15 (by decide)
    _ = W7 m ρ c (Proc.devRef .tc main_arg15) := W8_of_ne m ρ c main_arg15 (by decide)
    _ = W6 m ρ c (Proc.devRef .tc main_arg15) := W7_of m ρ c main_arg15 (by decide)
    _ = W5 m ρ c (Proc.devRef .tc main_arg15) := W6_of_ne m ρ c main_arg15 (by decide)
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl

theorem W13_main_arg16 (c : Dev nD) : W13 m ρ c (Proc.devRef .tc main_arg16) = m ((c : Thread nD τ).loc main_arg16) :=
  calc W13 m ρ c (Proc.devRef .tc main_arg16)
    _ = W12 m ρ c (Proc.devRef .tc main_arg16) := W13_of m ρ c main_arg16 (by decide)
    _ = W11 m ρ c (Proc.devRef .tc main_arg16) := W12_of_ne m ρ c main_arg16 (by decide)
    _ = W10 m ρ c (Proc.devRef .tc main_arg16) := W11_of m ρ c main_arg16 (by decide)
    _ = W9 m ρ c (Proc.devRef .tc main_arg16) := W10_of_ne m ρ c main_arg16 (by decide)
    _ = W8 m ρ c (Proc.devRef .tc main_arg16) := W9_of m ρ c main_arg16 (by decide)
    _ = W7 m ρ c (Proc.devRef .tc main_arg16) := W8_of_ne m ρ c main_arg16 (by decide)
    _ = W6 m ρ c (Proc.devRef .tc main_arg16) := W7_of m ρ c main_arg16 (by decide)
    _ = W5 m ρ c (Proc.devRef .tc main_arg16) := W6_of_ne m ρ c main_arg16 (by decide)
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl

theorem W13_main_arg17 (c : Dev nD) : W13 m ρ c (Proc.devRef .tc main_arg17) = m ((c : Thread nD τ).loc main_arg17) :=
  calc W13 m ρ c (Proc.devRef .tc main_arg17)
    _ = W12 m ρ c (Proc.devRef .tc main_arg17) := W13_of m ρ c main_arg17 (by decide)
    _ = W11 m ρ c (Proc.devRef .tc main_arg17) := W12_of_ne m ρ c main_arg17 (by decide)
    _ = W10 m ρ c (Proc.devRef .tc main_arg17) := W11_of m ρ c main_arg17 (by decide)
    _ = W9 m ρ c (Proc.devRef .tc main_arg17) := W10_of_ne m ρ c main_arg17 (by decide)
    _ = W8 m ρ c (Proc.devRef .tc main_arg17) := W9_of m ρ c main_arg17 (by decide)
    _ = W7 m ρ c (Proc.devRef .tc main_arg17) := W8_of_ne m ρ c main_arg17 (by decide)
    _ = W6 m ρ c (Proc.devRef .tc main_arg17) := W7_of m ρ c main_arg17 (by decide)
    _ = W5 m ρ c (Proc.devRef .tc main_arg17) := W6_of_ne m ρ c main_arg17 (by decide)
    _ = W4 m ρ c (Proc.devRef .tc main_arg17) := W5_of m ρ c main_arg17 (by decide)
    _ = W3 m ρ c (Proc.devRef .tc main_arg17) := W4_of_ne m ρ c main_arg17 (by decide)
    _ = W2 m ρ c (Proc.devRef .tc main_arg17) := W3_of m ρ c main_arg17 (by decide)
    _ = W1 m ρ c (Proc.devRef .tc main_arg17) := W2_of_ne m ρ c main_arg17 (by decide)
    _ = W0 m ρ c (Proc.devRef .tc main_arg17) := W1_of m ρ c main_arg17 (by decide)
    _ = m ((c : Thread nD τ).loc main_arg17) := rfl

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that
    `Pipeline.pin pcfgs adm p` at a numeral reduces to the printed configuration. -/
def pdats : (p : Fin 6) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W13`, the
    generator register at some state. -/
abbrev Tₙ (c : Dev nD) : sProp 𝕄 := iprop(StableHlo.held (c : Thread nD τ) (Pipeline.ucRefs τ sig) (W13 m ρ c) ∗ ∃ r, prngReg c r)

/-! ## The regions as segments

Each region is entered from every unscoped buffer at its entry contents and left at its exit contents: its arrays
split out of the unscoped buffers and put back at what the pipeline leaves; the generator register into the region's
invariant and out; nothing owed; no semaphore of the kernel's own. -/

-- a library lemma stated over `pin pcs a p` unifies with the pinned configuration only when unification may
-- unfold plain definitions in a metavariable's type
set_option backward.isDefEq.respectTransparency.types false in
/-- Region 0 over the thread state: entered from every unscoped buffer at `W1`, left at `W2`. -/
def reg0 (hb0 : ∀ V c, BodyObligation (dat0 (F := F) V c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 1 over the thread state: entered from every unscoped buffer at `W3`, left at `W4`. -/
def reg1 (hb1 : ∀ V c, BodyObligation (dat1 (F := F) V c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 2 over the thread state: entered from every unscoped buffer at `W5`, left at `W6`. -/
def reg2 (hb2 : ∀ V c, BodyObligation (dat2 (F := F) V c) (defs₀ (F := F)) Variants.none () Set.univ) :
    Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 3 over the thread state: entered from every unscoped buffer at `W7`, left at `W8`. -/
def reg3 (hb3 : ∀ V c, BodyObligation (dat3 (F := F) V c) (defs₀ (F := F)) Variants.none () Set.univ) :
    Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (hb3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 4 over the thread state: entered from every unscoped buffer at `W9`, left at `W10`. -/
def reg4 (hb4 : ∀ V c, BodyObligation (dat4 (F := F) V c) (defs₀ (F := F)) Variants.none () Set.univ) :
    Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (hb4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 5 over the thread state: entered from every unscoped buffer at `W11`, left at `W12`. -/
def reg5 (hb5 : ∀ V c, BodyObligation (dat5 (F := F) V c) (defs₀ (F := F)) Variants.none () Set.univ) :
    Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (hb5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 13 segments in order: a host segment per stretch from its boundary's contents, a region per kernel call. -/
abbrev segs
    (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ)
    (hb3 : ∀ V c, BodyObligation (dat3 (F := F) V c) (defs₀ (F := F)) Variants.none () Set.univ)
    (hb4 : ∀ V c, BodyObligation (dat4 (F := F) V c) (defs₀ (F := F)) Variants.none () Set.univ)
    (hb5 : ∀ V c, BodyObligation (dat5 (F := F) V c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1),
    .host (hseg hostOps2 hostOps2_sub hostOps2_fresh (W4 m ρ)),
    .region (reg2 m ρ hb2),
    .host (hseg hostOps3 hostOps3_sub hostOps3_fresh (W6 m ρ)),
    .region (reg3 m ρ hb3),
    .host (hseg hostOps4 hostOps4_sub hostOps4_fresh (W8 m ρ)),
    .region (reg4 m ρ hb4),
    .host (hseg hostOps5 hostOps5_sub hostOps5_fresh (W10 m ρ)),
    .region (reg5 m ρ hb5),
    .host (hseg hostOps6 hostOps6_sub hostOps6_fresh (W12 m ρ)) ]
/-- @main is the run of the segments: it is the chain of its items, and the segments' run is that chain. -/
theorem main_run
    (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ)
    (hb3 : ∀ V c, BodyObligation (dat3 (F := F) V c) (defs₀ (F := F)) Variants.none () Set.univ)
    (hb4 : ∀ V c, BodyObligation (dat4 (F := F) V c) (defs₀ (F := F)) Variants.none () Set.univ)
    (hb5 : ∀ V c, BodyObligation (dat5 (F := F) V c) (defs₀ (F := F)) Variants.none () Set.univ)
    (c : Dev nD) : main (F := F) c = Pipeline.Seg.run (segs m ρ hb0 hb1 hb2 hb3 hb4 hb5) := (main_chain c).trans (by chain_rfl)

-- the launch lemma's implicit arguments are found by unifying its conclusion with this one, which takes unfolding
-- plain definitions in a metavariable's type
set_option backward.isDefEq.respectTransparency.types false in
/-- The run, with what the result buffer holds: from any memory with zero counters, every weakly fair execution of
    @main on the TensorCores terminates, nothing faulting, and in every final state the result buffer `main_v119`
    holds the last boundary's contents `W13` and every argument array is as launched. The last thread state is read
    against the final state buffer by buffer; each argument walks back through the fold (`W13_main_argJ`). -/
theorem run_res
    (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ)
    (hb3 : ∀ V c, BodyObligation (dat3 (F := F) V c) (defs₀ (F := F)) Variants.none () Set.univ)
    (hb4 : ∀ V c, BodyObligation (dat4 (F := F) V c) (defs₀ (F := F)) Variants.none () Set.univ)
    (hb5 : ∀ V c, BodyObligation (dat5 (F := F) V c) (defs₀ (F := F)) Variants.none () Set.univ) :
    θ_run defs (onTc (τ := τ) (main (F := F))) ⟨m, fun _ => 0, ρ⟩ (fun r => ∀ c : Dev nD,
      r.2.mem ((c.tc : Thread nD τ).loc main_v119) = W13 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj embL defs₀ 𝒱₀ L lv m ρ main (segs m ρ hb0 hb1 hb2 hb3 hb4 hb5)
    (fun c Q => by rw [main_run m ρ hb0 hb1 hb2 hb3 hb4 hb5 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v119 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c)⟩)

/-- The frame: every weakly fair execution of @main terminates, nothing faulting, and every final state has the
    argument arrays as launched. -/
theorem frame
    (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ)
    (hb3 : ∀ V c, BodyObligation (dat3 (F := F) V c) (defs₀ (F := F)) Variants.none () Set.univ)
    (hb4 : ∀ V c, BodyObligation (dat4 (F := F) V c) (defs₀ (F := F)) Variants.none () Set.univ)
    (hb5 : ∀ V c, BodyObligation (dat5 (F := F) V c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run_res m ρ hb0 hb1 hb2 hb3 hb4 hb5)

end Cert.Kernel.Fr

end
-- ==== Proof.K.Mlp0.lean ====
import proofs.«180077_j85650237817340_1_alg».proof.Proof.K.Mlp0Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 0 of @main: the body obligation of pipeline 0, at the entry contents `V` -/

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block
    index has not moved; the window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block
    index has not moved; the window is uncut and never idle. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s (`hA`) and whose body leaves the block in place (`hafter`): unfetched, the block
    index has not moved; the window is uncut and never idle. -/
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s (`hA`) and whose body leaves the block in place (`hafter`): unfetched, the block
    index has not moved; the window is uncut and never idle. -/
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not, for any proof
    data whose array is `V`'s (`hA`) and whose body leaves the block in place (`hafter`): unfetched, the block
    index has not moved; the window is uncut and never idle. -/
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The output window's one store covers its buffer -/

/-- The store is of the whole block, so it covers the buffer (checked by evaluation). -/
theorem cover0_10 (p0 : Vec F S8000x64 .f32) (y : S8000x64.Idx) :
    ∃ pc ∈ ([⟨rA, p0⟩] : List (View.Piece (Elt F) S8000x64 .f32)), y ∈ pc.1.set :=
  View.cover_of_tiled [⟨rA, p0⟩] S8000x64.size (by rfl) y

/-! ## The body's triple -/

set_option maxHeartbeats 4000000 in
/-- The kernel body on whole staging memrefs, the ten inputs' at read contents `xW` and the output's at anything,
    runs to the continuation holding the inputs' as they were and the output's at `out0_10` of the inputs': the
    printed function and the part it calls are their skeletons, ten whole-block loads, a load of the output
    buffer whose value is unused, and one whole-block store of the payload. -/
theorem sound_kernel0 (c : Dev nD) (E : Set ℕ) (i : grid0.Coords) (arg1 : Memref sig .tc .vmem S8000x64 .f32) (harg1 : arg1.IsWhole) (arg2 : Memref sig .tc .vmem S8000x4 .f32) (harg2 : arg2.IsWhole) (arg3 : Memref sig .tc .vmem S8000x64 .f32) (harg3 : arg3.IsWhole) (arg4 : Memref sig .tc .vmem S8000x4 .f32) (harg4 : arg4.IsWhole) (arg5 : Memref sig .tc .vmem S136x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole)
    (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11) K := by
  simp only [cc0__edge_mlp_kernel_eq_skeleton]; unfold cc0__edge_mlp_kernel_skel
  simp only [k0_part1_eq_skeleton]; unfold k0_part1_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## The inputs' buffers under the region's proof data -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' memrefs hold their blocks (`before0_W`), so the body's triple applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr
-- ==== Proof.K.Mlp2.lean ====
import proofs.«180077_j85650237817340_1_alg».proof.Proof.K.Mlp2Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 2 of @main: the body obligation of pipeline 0, at the entry contents `V` -/

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block
    index has not moved; the window is uncut and never idle. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block
    index has not moved; the window is uncut and never idle. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block
    index has not moved; the window is uncut and never idle. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): unfetched, the block
    index has not moved; the window is uncut and never idle. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s (`hA`) and whose body leaves the block in place (`hafter`): unfetched, the block
    index has not moved; the window is uncut and never idle. -/
theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is `V`'s (`hA`) and whose body leaves the block in place (`hafter`): unfetched, the block
    index has not moved; the window is uncut and never idle. -/
theorem before2_8_of {c : Dev nD} (dat : Dat τ (Elt F) Unit ℕ (Pipeline.UD sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not, for any proof
    data whose array is `V`'s (`hA`) and whose body leaves the block in place (`hafter`): unfetched, the block
    index has not moved; the window is uncut and never idle. -/
theorem before2_9_of {c : Dev nD} (dat : Dat τ (Elt F) Unit ℕ (Pipeline.UD sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The output window's one store covers its buffer -/

/-- The store is of the whole block, so it covers the buffer (checked by evaluation). -/
theorem cover2_10 (p0 : Vec F S8000x64 .f32) (y : S8000x64.Idx) :
    ∃ pc ∈ ([⟨rA, p0⟩] : List (View.Piece (Elt F) S8000x64 .f32)), y ∈ pc.1.set :=
  View.cover_of_tiled [⟨rA, p0⟩] S8000x64.size (by rfl) y

/-! ## The body's triple -/

set_option maxHeartbeats 4000000 in
/-- The kernel body on whole staging memrefs, the ten inputs' at read contents `xW` and the output's at anything,
    runs to the continuation holding the inputs' as they were and the output's at `out2_10` of the inputs': the
    printed function and the part it calls are their skeletons, ten whole-block loads, a load of the output
    buffer whose value is unused, and one whole-block store of the payload. -/
theorem sound_kernel2 (c : Dev nD) (E : Set ℕ) (i : grid2.Coords) (arg1 : Memref sig .tc .vmem S8000x64 .f32) (harg1 : arg1.IsWhole) (arg2 : Memref sig .tc .vmem S8000x4 .f32) (harg2 : arg2.IsWhole) (arg3 : Memref sig .tc .vmem S8000x64 .f32) (harg3 : arg3.IsWhole) (arg4 : Memref sig .tc .vmem S8000x4 .f32) (harg4 : arg4.IsWhole) (arg5 : Memref sig .tc .vmem S136x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole)
    (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__edge_mlp_kernel i arg1 harg1 arg2 harg2 arg3 harg3 arg4 harg4 arg5 harg5 arg6 harg6 arg7 harg7 arg8 harg8 arg9 harg9 arg10 harg10 arg11 harg11) K := by
  simp only [cc2__edge_mlp_kernel_eq_skeleton]; unfold cc2__edge_mlp_kernel_skel
  simp only [k2_part1_eq_skeleton]; unfold k2_part1_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-! ## The inputs' buffers under the region's proof data -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point: the inputs' memrefs hold their blocks (`before2_W`), so the body's triple applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr
-- ==== Proof.K.Mlp4.lean ====
import proofs.«180077_j85650237817340_1_alg».proof.Proof.K.Mlp4Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 4 of @main: the body obligation of pipeline 0, at the entry contents `V` -/

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block
    index has not moved; the window is uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block
    index has not moved; the window is uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the block
    index has not moved; the window is uncut and never idle. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): unfetched, the block
    index has not moved; the window is uncut and never idle. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`): unfetched, the block
    index has not moved; the window is uncut and never idle. -/
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`): unfetched, the block
    index has not moved; the window is uncut and never idle. -/
theorem before4_6_of {c : Dev nD} (dat : Dat τ (Elt F) Unit ℕ (Pipeline.UD sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for any proof
    data whose array is `V`'s (`hA`) and whose body leaves the block in place (`hafter`): unfetched, the block
    index has not moved; the window is uncut and never idle. -/
theorem before4_7_of {c : Dev nD} (dat : Dat τ (Elt F) Unit ℕ (Pipeline.UD sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not, for any proof
    data whose array is `V`'s (`hA`) and whose body leaves the block in place (`hafter`): unfetched, the block
    index has not moved; the window is uncut and never idle. -/
theorem before4_8_of {c : Dev nD} (dat : Dat τ (Elt F) Unit ℕ (Pipeline.UD sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- Input window 9's current staging buffer holds its block at every point, fetched there or not, for any proof
    data whose array is `V`'s (`hA`) and whose body leaves the block in place (`hafter`): unfetched, the block
    index has not moved; the window is uncut and never idle. -/
theorem before4_9_of {c : Dev nD} (dat : Dat τ (Elt F) Unit ℕ (Pipeline.UD sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-! ## The output window's one store covers its buffer -/

/-- The store is of the whole block, so it covers the buffer (checked by evaluation). -/
theorem cover4_10 (p0 : Vec F S8000x64 .f32) (y : S8000x64.Idx) :
    ∃ pc ∈ ([⟨rA, p0⟩] : List (View.Piece (Elt F) S8000x64 .f32)), y ∈ pc.1.set :=
  View.cover_of_tiled [⟨rA, p0⟩] S8000x64.size (by rfl) y

/-! ## The body's triple -/

set_option maxHeartbeats 4000000 in
/-- The kernel body on whole staging memrefs, the ten inputs' at read contents `xW` and the output's at anything,
    runs to the continuation holding the inputs' as they were and the output's at `out4_10` of the inputs': the
    printed function and the part it calls are their skeletons, ten whole-block loads, a load of the output
    buffer whose value is unused, and one whole-block store of the payload. -/
theorem sound_kernel4 (c : Dev nD) (E : Set ℕ) (i : grid4.Coords) (arg1 : Memref sig .tc .vmem S8000x64 .f32) (harg1 : arg1.IsWhole) (arg2 : Memref sig .tc .vmem S8000x4 .f32) (harg2 : arg2.IsWhole) (arg3 : Memref sig .tc .vmem S8000x64 .f32) (harg3 : arg3.IsWhole) (arg4 : Memref sig .tc .vmem S8000x4 .f32) (harg4 : arg4.IsWhole) (arg5 : Memref sig .tc .vmem S136x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole)
    (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out4_10 x0 x1 x2 x3 x4 x5 x6 x7 x8 x9)) -∗ K ⟨⟩))
      ⊢ wp frame (wpE (defs₀ (F := F)) Variants.none c none) E (cc4__edge_mlp_kernel i arg1 harg1 arg2 harg2 arg3 harg3 arg4 harg4 arg5 harg5 arg6 harg6 arg7 harg7 arg8 harg8 arg9 harg9 arg10 harg10 arg11 harg11) K := by
  simp only [cc4__edge_mlp_kernel_eq_skeleton]; unfold cc4__edge_mlp_kernel_skel
  simp only [k4_part1_eq_skeleton]; unfold k4_part1_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover4_10 _)

/-! ## The inputs' buffers under the region's proof data -/

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

set_option maxHeartbeats 1000000 in
/-- The body at any point: the inputs' memrefs hold their blocks (`before4_W`), so the body's triple applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr
-- ==== Proof.K.Gru1.lean ====
import proofs.«180077_j85650237817340_1_alg».proof.Proof.K.Gru1Def

/-! # The GRU pallas_call, region 1: the body obligation

The kernel body, run on the windows' current staging buffers at any grid point, finds each input window's block
in its buffer, leaves the inputs as found and the output buffer at `out1_6` of the input blocks. -/

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block
    index has not moved; the window is uncut and never idle. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The output window's one store covers its buffer -/

/-- The store's rectangle is the whole block (checked by evaluation), so it covers it. -/
theorem cover1_6 (p0 : Vec F S5000x64 .f32) (y : S5000x64.Idx) :
    ∃ pc ∈ ([⟨gA, p0⟩] : List (View.Piece (Elt F) S5000x64 .f32)), y ∈ pc.1.set :=
  View.cover_of_tiled [⟨gA, p0⟩] S5000x64.size (by rfl) y

/-! ## The body's triple -/

set_option maxHeartbeats 1000000 in
/-- The kernel body on whole staging memrefs, the inputs' at read contents `x0 … x5` and the output's at anything,
    runs to the continuation holding the inputs' as they were and the output's at `out1_6` of the inputs': six
    whole-block loads, a load of the output block that nothing reads, and one whole-block store of the payload. -/
theorem sound_kernel1 (c : Dev nD) (E : Set ℕ) (i : grid1.Coords)
    (arg1 : Memref sig .tc .vmem S5000x64 .f32) (harg1 : arg1.IsWhole)
    (arg2 : Memref sig .tc .vmem S5000x64 .f32) (harg2 : arg2.IsWhole)
    (arg3 : Memref sig .tc .vmem S64x192 .f32) (harg3 : arg3.IsWhole)
    (arg4 : Memref sig .tc .vmem S1x192 .f32) (harg4 : arg4.IsWhole)
    (arg5 : Memref sig .tc .vmem S64x192 .f32) (harg5 : arg5.IsWhole)
    (arg6 : Memref sig .tc .vmem S1x192 .f32) (harg6 : arg6.IsWhole)
    (arg7 : Memref sig .tc .vmem S5000x64 .f32) (harg7 : arg7.IsWhole)
    (x0 x1 : Vec F S5000x64 .f32) (x2 : Vec F S64x192 .f32) (x3 : Vec F S1x192 .f32) (x4 : Vec F S64x192 .f32)
    (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The inputs' buffers under the proof data -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr
-- ==== Proof.K.Gru3.lean ====
import proofs.«180077_j85650237817340_1_alg».proof.Proof.K.Gru3Def

/-! # The GRU pallas_call, region 3: the body obligation

The kernel body, run on the windows' current staging buffers at any grid point, finds each input window's block
in its buffer, leaves the inputs as found and the output buffer at `out3_6` of the input blocks. -/

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block
    index has not moved; the window is uncut and never idle. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block
    index has not moved; the window is uncut and never idle. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block
    index has not moved; the window is uncut and never idle. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): unfetched, the block
    index has not moved; the window is uncut and never idle. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s (`hA`) and whose body leaves the block in place (`hafter`): unfetched, the block
    index has not moved; the window is uncut and never idle. -/
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The output window's one store covers its buffer -/

/-- The store's rectangle is the whole block (checked by evaluation), so it covers it. -/
theorem cover3_6 (p0 : Vec F S5000x64 .f32) (y : S5000x64.Idx) :
    ∃ pc ∈ ([⟨gA, p0⟩] : List (View.Piece (Elt F) S5000x64 .f32)), y ∈ pc.1.set :=
  View.cover_of_tiled [⟨gA, p0⟩] S5000x64.size (by rfl) y

/-! ## The body's triple -/

set_option maxHeartbeats 1000000 in
/-- The kernel body on whole staging memrefs, the inputs' at read contents `x0 … x5` and the output's at anything,
    runs to the continuation holding the inputs' as they were and the output's at `out3_6` of the inputs': six
    whole-block loads, a load of the output block that nothing reads, and one whole-block store of the payload. -/
theorem sound_kernel3 (c : Dev nD) (E : Set ℕ) (i : grid3.Coords)
    (arg1 : Memref sig .tc .vmem S5000x64 .f32) (harg1 : arg1.IsWhole)
    (arg2 : Memref sig .tc .vmem S5000x64 .f32) (harg2 : arg2.IsWhole)
    (arg3 : Memref sig .tc .vmem S64x192 .f32) (harg3 : arg3.IsWhole)
    (arg4 : Memref sig .tc .vmem S1x192 .f32) (harg4 : arg4.IsWhole)
    (arg5 : Memref sig .tc .vmem S64x192 .f32) (harg5 : arg5.IsWhole)
    (arg6 : Memref sig .tc .vmem S1x192 .f32) (harg6 : arg6.IsWhole)
    (arg7 : Memref sig .tc .vmem S5000x64 .f32) (harg7 : arg7.IsWhole)
    (x0 x1 : Vec F S5000x64 .f32) (x2 : Vec F S64x192 .f32) (x3 : Vec F S1x192 .f32) (x4 : Vec F S64x192 .f32)
    (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__gru_kernel i arg1 harg1 arg2 harg2 arg3 harg3 arg4 harg4 arg5 harg5 arg6 harg6 arg7 harg7) K := by
  simp only [cc3__gru_kernel_eq_skeleton]; unfold cc3__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The inputs' buffers under the proof data -/

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks (`before3_W`), so `sound_kernel3` applies; the
    invariant and the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr
-- ==== Proof.K.Gru5.lean ====
import proofs.«180077_j85650237817340_1_alg».proof.Proof.K.Gru5Def

/-! # The GRU pallas_call, region 5: the body obligation

The kernel body, run on the windows' current staging buffers at any grid point, finds each input window's block
in its buffer, leaves the inputs as found and the output buffer at `out5_6` of the input blocks. -/

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved; the window is uncut and never idle. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved; the window is uncut and never idle. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved; the window is uncut and never idle. -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block
    index has not moved; the window is uncut and never idle. -/
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): unfetched, the block
    index has not moved; the window is uncut and never idle. -/
theorem before5_5_of {c : Dev nD} (dat : Dat τ (Elt F) Unit ℕ (Pipeline.UD sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The output window's one store covers its buffer -/

/-- The store's rectangle is the whole block (checked by evaluation), so it covers it. -/
theorem cover5_6 (p0 : Vec F S5000x64 .f32) (y : S5000x64.Idx) :
    ∃ pc ∈ ([⟨gA, p0⟩] : List (View.Piece (Elt F) S5000x64 .f32)), y ∈ pc.1.set :=
  View.cover_of_tiled [⟨gA, p0⟩] S5000x64.size (by rfl) y

/-! ## The body's triple -/

set_option maxHeartbeats 1000000 in
/-- The kernel body on whole staging memrefs, the inputs' at read contents `x0 … x5` and the output's at anything,
    runs to the continuation holding the inputs' as they were and the output's at `out5_6` of the inputs': six
    whole-block loads, a load of the output block that nothing reads, and one whole-block store of the payload. -/
theorem sound_kernel5 (c : Dev nD) (E : Set ℕ) (i : grid5.Coords)
    (arg1 : Memref sig .tc .vmem S5000x64 .f32) (harg1 : arg1.IsWhole)
    (arg2 : Memref sig .tc .vmem S5000x64 .f32) (harg2 : arg2.IsWhole)
    (arg3 : Memref sig .tc .vmem S64x192 .f32) (harg3 : arg3.IsWhole)
    (arg4 : Memref sig .tc .vmem S1x192 .f32) (harg4 : arg4.IsWhole)
    (arg5 : Memref sig .tc .vmem S64x192 .f32) (harg5 : arg5.IsWhole)
    (arg6 : Memref sig .tc .vmem S1x192 .f32) (harg6 : arg6.IsWhole)
    (arg7 : Memref sig .tc .vmem S5000x64 .f32) (harg7 : arg7.IsWhole)
    (x0 x1 : Vec F S5000x64 .f32) (x2 : Vec F S64x192 .f32) (x3 : Vec F S1x192 .f32) (x4 : Vec F S64x192 .f32)
    (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__gru_kernel i arg1 harg1 arg2 harg2 arg3 harg3 arg4 harg4 arg5 harg5 arg6 harg6 arg7 harg7) K := by
  simp only [cc5__gru_kernel_eq_skeleton]; unfold cc5__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The inputs' buffers under the proof data -/

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks (`before5_W`), so `sound_kernel5` applies; the
    invariant and the core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr
-- ==== Proof.KI.Mlp0Def.lean ====
import proofs.«180077_j85650237817340_1_alg».proof.Proof.Gen.KernelIdeal.Launch
import proofs.«180077_j85650237817340_1_alg».proof.Proof.Gen.KernelIdeal.Skeleton
import proofs.«180077_j85650237817340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 0 of @main: the edge MLP kernel `cc0__edge_mlp_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each is the whole of its staging buffer -/

abbrev rA : Rect S8000x64 := Rect.unit (s := S8000x64) ![0, 0] S8000x64.size inb_S8000x64_S8000x64_0_0
abbrev rB : Rect S8000x4 := Rect.unit (s := S8000x4) ![0, 0] S8000x4.size inb_S8000x4_S8000x4_0_0
abbrev rC : Rect S136x64 := Rect.unit (s := S136x64) ![0, 0] S136x64.size inb_S136x64_S136x64_0_0
abbrev rD : Rect S1x64 := Rect.unit (s := S1x64) ![0, 0] S1x64.size inb_S1x64_S1x64_0_0
abbrev rE : Rect S64x64 := Rect.unit (s := S64x64) ![0, 0] S64x64.size inb_S64x64_S64x64_0_0

/-! ## What the body leaves in the output window's buffer -/

/-- Window 10's staging buffer after the body, from the ten input windows' blocks: its one store, of the whole
    block, as a piece (`View.canon`). The stored value is the third layer's product (`k0_pay2`, of the first nine
    blocks) plus the broadcast last bias row (`k0_pay1`). -/
def out0_10 (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) : Vec F S8000x64 .f32 :=
  View.canon [⟨rA, k0_pay1 (k0_pay2 (View.ld x0 rA) (View.ld x1 rB) (View.ld x2 rA) (View.ld x3 rB) (View.ld x4 rC) (View.ld x5 rD) (View.ld x6 rE) (View.ld x7 rD) (View.ld x8 rE)) (View.ld x9 rD)⟩]

/-! ## The pipeline's proof data -/

/-- The proof data of pipeline 0 on core `c`: the arrays as the region finds them (`V`); after the body at
    point `t` each input's buffer at its block and the output's at `out0_10` of the input blocks; the invariant
    the scoped rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

end Cert.KernelIdeal.Fr
-- ==== Proof.KI.Gru1Def.lean ====
import proofs.«180077_j85650237817340_1_alg».proof.Proof.Gen.KernelIdeal.Launch
import proofs.«180077_j85650237817340_1_alg».proof.Proof.Gen.KernelIdeal.Skeleton
import proofs.«180077_j85650237817340_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The GRU pallas_call, region 1: the pipeline's proof data

The kernel body reads each of its six input windows' whole blocks and writes the output window's whole block
once. This module fixes what each window's staging buffer holds after the body at a grid point, as a function
of the arrays the region is entered with. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the store take a whole block -/

abbrev gA : Rect S5000x64 := Rect.unit (s := S5000x64) ![0, 0] S5000x64.size inb_S5000x64_S5000x64_0_0
abbrev gB : Rect S64x192 := Rect.unit (s := S64x192) ![0, 0] S64x192.size inb_S64x192_S64x192_0_0
abbrev gC : Rect S1x192 := Rect.unit (s := S1x192) ![0, 0] S1x192.size inb_S1x192_S1x192_0_0

/-! ## What the body leaves in the output window's buffer -/

/-- Window 6's staging buffer after the body, from the six input windows' blocks `x0 … x5` (in window order):
    its one store, of the payload at the loaded blocks. The payload takes the two 64×192 matrices (windows 2
    and 4) before the two 1×192 rows (windows 3 and 5), the order in which the body loads them. -/
def out1_6 (x0 x1 : Vec F S5000x64 .f32) (x2 : Vec F S64x192 .f32) (x3 : Vec F S1x192 .f32) (x4 : Vec F S64x192 .f32)
    (x5 : Vec F S1x192 .f32) : Vec F S5000x64 .f32 :=
  View.canon [⟨gA, k1_pay1 (View.ld x0 gA) (View.ld x1 gA) (View.ld x2 gB) (View.ld x4 gB) (View.ld x3 gC) (View.ld x5 gC)⟩]

/-! ## The pipeline's proof data -/

/-- The proof data of the pipeline on core `c`: the arrays as the region finds them (`V`); after the body at
    point `t` each input's buffer at its block and the output's at `out1_6` of the input blocks; the invariant
    the scoped rest and the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) (iblk1 V c 5 t) := by
  dsimp only [dat1]

end Cert.KernelIdeal.Fr
-- ==== Proof.KI.Mlp2Def.lean ====
import proofs.«180077_j85650237817340_1_alg».proof.Proof.Gen.KernelIdeal.Launch
import proofs.«180077_j85650237817340_1_alg».proof.Proof.Gen.KernelIdeal.Skeleton
import proofs.«180077_j85650237817340_1_alg».proof.Proof.Gen.KernelIdeal.Points
import proofs.«180077_j85650237817340_1_alg».proof.Proof.KI.Mlp0Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 2 of @main: the edge MLP kernel `cc2__edge_mlp_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## What the body leaves in the output window's buffer -/

/-- Window 10's staging buffer after the body, from the ten input windows' blocks: its one store, of the whole
    block, as a piece (`View.canon`). The stored value is the third layer's product (`k2_pay2`, of the first nine
    blocks) plus the broadcast last bias row (`k2_pay1`). -/
def out2_10 (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) : Vec F S8000x64 .f32 :=
  View.canon [⟨rA, k2_pay1 (k2_pay2 (View.ld x0 rA) (View.ld x1 rB) (View.ld x2 rA) (View.ld x3 rB) (View.ld x4 rC) (View.ld x5 rD) (View.ld x6 rE) (View.ld x7 rD) (View.ld x8 rE)) (View.ld x9 rD)⟩]

/-! ## The pipeline's proof data -/

/-- The proof data of pipeline 2 on core `c`: the arrays as the region finds them (`V`); after the body at
    point `t` each input's buffer at its block and the output's at `out2_10` of the input blocks; the invariant
    the scoped rest and the generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

end Cert.KernelIdeal.Fr
-- ==== Proof.KI.Gru3Def.lean ====
import proofs.«180077_j85650237817340_1_alg».proof.Proof.Gen.KernelIdeal.Launch
import proofs.«180077_j85650237817340_1_alg».proof.Proof.Gen.KernelIdeal.Skeleton
import proofs.«180077_j85650237817340_1_alg».proof.Proof.Gen.KernelIdeal.Points
import proofs.«180077_j85650237817340_1_alg».proof.Proof.KI.Gru1Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The GRU pallas_call, region 3: the pipeline's proof data

The kernel body reads each of its six input windows' whole blocks and writes the output window's whole block
once. This module fixes what each window's staging buffer holds after the body at a grid point, as a function
of the arrays the region is entered with. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and the store take a whole block -/

/-! ## What the body leaves in the output window's buffer -/

/-- Window 6's staging buffer after the body, from the six input windows' blocks `x0 … x5` (in window order):
    its one store, of the payload at the loaded blocks. The payload takes the two 64×192 matrices (windows 2
    and 4) before the two 1×192 rows (windows 3 and 5), the order in which the body loads them. -/
def out3_6 (x0 x1 : Vec F S5000x64 .f32) (x2 : Vec F S64x192 .f32) (x3 : Vec F S1x192 .f32) (x4 : Vec F S64x192 .f32)
    (x5 : Vec F S1x192 .f32) : Vec F S5000x64 .f32 :=
  View.canon [⟨gA, k3_pay1 (View.ld x0 gA) (View.ld x1 gA) (View.ld x2 gB) (View.ld x4 gB) (View.ld x3 gC) (View.ld x5 gC)⟩]

/-! ## The pipeline's proof data -/

/-- The proof data of the pipeline on core `c`: the arrays as the region finds them (`V`); after the body at
    point `t` each input's buffer at its block and the output's at `out3_6` of the input blocks; the invariant
    the scoped rest and the generator register, untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t =
    out3_6 (iblk3 V c 0 t) (iblk3 V c 1 t) (iblk3 V c 2 t) (iblk3 V c 3 t) (iblk3 V c 4 t) (iblk3 V c 5 t) := by
  dsimp only [dat3]

end Cert.KernelIdeal.Fr
-- ==== Proof.KI.Mlp4Def.lean ====
import proofs.«180077_j85650237817340_1_alg».proof.Proof.Gen.KernelIdeal.Launch
import proofs.«180077_j85650237817340_1_alg».proof.Proof.Gen.KernelIdeal.Skeleton
import proofs.«180077_j85650237817340_1_alg».proof.Proof.Gen.KernelIdeal.Points
import proofs.«180077_j85650237817340_1_alg».proof.Proof.KI.Mlp0Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 4 of @main: the edge MLP kernel `cc4__edge_mlp_kernel` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## What the body leaves in the output window's buffer -/

/-- Window 10's staging buffer after the body, from the ten input windows' blocks: its one store, of the whole
    block, as a piece (`View.canon`). The stored value is the third layer's product (`k4_pay2`, of the first nine
    blocks) plus the broadcast last bias row (`k4_pay1`). -/
def out4_10 (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) : Vec F S8000x64 .f32 :=
  View.canon [⟨rA, k4_pay1 (k4_pay2 (View.ld x0 rA) (View.ld x1 rB) (View.ld x2 rA) (View.ld x3 rB) (View.ld x4 rC) (View.ld x5 rD) (View.ld x6 rE) (View.ld x7 rD) (View.ld x8 rE)) (View.ld x9 rD)⟩]

/-! ## The pipeline's proof data -/

/-- The proof data of pipeline 4 on core `c`: the arrays as the region finds them (`V`); after the body at
    point `t` each input's buffer at its block and the output's at `out4_10` of the input blocks; the invariant
    the scoped rest and the generator register, untouched; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]

end Cert.KernelIdeal.Fr
-- ==== Proof.KI.Gru5Def.lean ====
import proofs.«180077_j85650237817340_1_alg».proof.Proof.Gen.KernelIdeal.Launch
import proofs.«180077_j85650237817340_1_alg».proof.Proof.Gen.KernelIdeal.Skeleton
import proofs.«180077_j85650237817340_1_alg».proof.Proof.Gen.KernelIdeal.Points
import proofs.«180077_j85650237817340_1_alg».proof.Proof.KI.Gru1Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The GRU pallas_call, region 5: the pipeline's proof data

The kernel body reads each of its six input windows' whole blocks and writes the output window's whole block
once. This module fixes what each window's staging buffer holds after the body at a grid point, as a function
of the arrays the region is entered with. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses: every load and the store take a whole block -/

/-! ## What the body leaves in the output window's buffer -/

/-- Window 6's staging buffer after the body, from the six input windows' blocks `x0 … x5` (in window order):
    its one store, of the payload at the loaded blocks. The payload takes the two 64×192 matrices (windows 2
    and 4) before the two 1×192 rows (windows 3 and 5), the order in which the body loads them. -/
def out5_6 (x0 x1 : Vec F S5000x64 .f32) (x2 : Vec F S64x192 .f32) (x3 : Vec F S1x192 .f32) (x4 : Vec F S64x192 .f32)
    (x5 : Vec F S1x192 .f32) : Vec F S5000x64 .f32 :=
  View.canon [⟨gA, k5_pay1 (View.ld x0 gA) (View.ld x1 gA) (View.ld x2 gB) (View.ld x4 gB) (View.ld x3 gC) (View.ld x5 gC)⟩]

/-! ## The pipeline's proof data -/

/-- The proof data of the pipeline on core `c`: the arrays as the region finds them (`V`); after the body at
    point `t` each input's buffer at its block and the output's at `out5_6` of the input blocks; the invariant
    the scoped rest and the generator register, untouched; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t =
    out5_6 (iblk5 V c 0 t) (iblk5 V c 1 t) (iblk5 V c 2 t) (iblk5 V c 3 t) (iblk5 V c 4 t) (iblk5 V c 5 t) := by
  dsimp only [dat5]

end Cert.KernelIdeal.Fr
-- ==== Proof.KI.Run.lean ====
import proofs.«180077_j85650237817340_1_alg».proof.Proof.KI.Mlp0Def
import proofs.«180077_j85650237817340_1_alg».proof.Proof.KI.Gru1Def
import proofs.«180077_j85650237817340_1_alg».proof.Proof.KI.Mlp2Def
import proofs.«180077_j85650237817340_1_alg».proof.Proof.KI.Gru3Def
import proofs.«180077_j85650237817340_1_alg».proof.Proof.KI.Mlp4Def
import proofs.«180077_j85650237817340_1_alg».proof.Proof.KI.Gru5Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: seven stretches of host operations around six kernel regions

The buffer contents at every segment boundary as a fold from the launch memory (`W0` … `W13`: a stretch's
`StableHlo.after`; a region's arrays at what its write-backs leave, every other buffer as entered), each argument
array read back through the fold to its launch contents, the six pipelines' proof data each at its region's entry
contents, a host segment per stretch and a region segment per kernel call over the thread state "every unscoped
buffer at the boundary's contents, the generator register at some state, nothing owed", and the run itself: every
weakly fair execution terminates, the result buffer holds the last valuation's contents and the arguments end as
launched. The six body obligations are hypotheses. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, the output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, the output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, the output's write-backs
    folded: `Dat.arrAt … N`), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves (the inputs as entered, the output's write-backs
    folded: `Dat.arrAt … N`), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves (`hF5`) and every other buffer what it
    held at entry (`hrest5`). -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6`: the contents @main returns with. -/
abbrev W13 : Dev nD → Valuation τ sig (Elt F) := fun c => StableHlo.after hostOps6 (W12 m ρ c)

/-! ## What the host stretches write

Every operation of a stretch writes one reference, its result; a reference that is no operation's result keeps its
contents through the stretch. -/

/-- An operation whose one written buffer is the reference `y`, a member of the list `Ws`, writes within `Ws`. -/
theorem writes_sub_of {op : HloOp τ sig (Elt F)} {y : Ref sig .tc} {Ws : List (Ref sig .tc)}
    (h : op.writes = {Proc.devRef .tc y}) (hy : y ∈ Ws) :
    op.writes ⊆ (Ws.map (Proc.devRef (τ := τ) .tc)).toFinset := by
  rw [h, Finset.singleton_subset_iff, List.mem_toFinset]; exact List.mem_map_of_mem hy

/-- The references `hostOps0`'s operations write: their results, in order. -/
abbrev hostOps0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_c_3, main_v21, main_v22, main_c_4, main_v23, main_v24, main_v25, main_v26, main_v27, main_v28, main_c_5, main_v29, main_v30, main_c_6, main_v31, main_v32, main_v33, main_v34, main_v35, main_v36, main_v37, main_v38, main_v39, main_v40, main_v41, main_v42, main_v43, main_c_7, main_v44, main_v45, main_c_8, main_v46, main_v47, main_v48, main_v49, main_v50, main_c_9, main_v51, main_v52, main_c_10, main_v53, main_v54, main_v55, main_v56, main_v57, main_v58, main_v59, main_v60]
set_option maxHeartbeats 40000000 in
theorem hostOps0_writes : (hostOps0 : List (HloOp τ sig (Elt F))).Forall fun op => op.writes ⊆ (hostOps0_W.map (Proc.devRef (τ := τ) .tc)).toFinset :=
  ⟨writes_sub_of (y := main_v0) rfl (by decide),
   writes_sub_of (y := main_v1) rfl (by decide),
   writes_sub_of (y := main_v2) rfl (by decide),
   writes_sub_of (y := main_v3) rfl (by decide),
   writes_sub_of (y := main_c) rfl (by decide),
   writes_sub_of (y := main_v4) rfl (by decide),
   writes_sub_of (y := main_v5) rfl (by decide),
   writes_sub_of (y := main_c_0) rfl (by decide),
   writes_sub_of (y := main_v6) rfl (by decide),
   writes_sub_of (y := main_v7) rfl (by decide),
   writes_sub_of (y := main_v8) rfl (by decide),
   writes_sub_of (y := main_v9) rfl (by decide),
   writes_sub_of (y := main_v10) rfl (by decide),
   writes_sub_of (y := main_c_1) rfl (by decide),
   writes_sub_of (y := main_v11) rfl (by decide),
   writes_sub_of (y := main_v12) rfl (by decide),
   writes_sub_of (y := main_c_2) rfl (by decide),
   writes_sub_of (y := main_v13) rfl (by decide),
   writes_sub_of (y := main_v14) rfl (by decide),
   writes_sub_of (y := main_v15) rfl (by decide),
   writes_sub_of (y := main_v16) rfl (by decide),
   writes_sub_of (y := main_v17) rfl (by decide),
   writes_sub_of (y := main_v18) rfl (by decide),
   writes_sub_of (y := main_v19) rfl (by decide),
   writes_sub_of (y := main_v20) rfl (by decide),
   writes_sub_of (y := main_c_3) rfl (by decide),
   writes_sub_of (y := main_v21) rfl (by decide),
   writes_sub_of (y := main_v22) rfl (by decide),
   writes_sub_of (y := main_c_4) rfl (by decide),
   writes_sub_of (y := main_v23) rfl (by decide),
   writes_sub_of (y := main_v24) rfl (by decide),
   writes_sub_of (y := main_v25) rfl (by decide),
   writes_sub_of (y := main_v26) rfl (by decide),
   writes_sub_of (y := main_v27) rfl (by decide),
   writes_sub_of (y := main_v28) rfl (by decide),
   writes_sub_of (y := main_c_5) rfl (by decide),
   writes_sub_of (y := main_v29) rfl (by decide),
   writes_sub_of (y := main_v30) rfl (by decide),
   writes_sub_of (y := main_c_6) rfl (by decide),
   writes_sub_of (y := main_v31) rfl (by decide),
   writes_sub_of (y := main_v32) rfl (by decide),
   writes_sub_of (y := main_v33) rfl (by decide),
   writes_sub_of (y := main_v34) rfl (by decide),
   writes_sub_of (y := main_v35) rfl (by decide),
   writes_sub_of (y := main_v36) rfl (by decide),
   writes_sub_of (y := main_v37) rfl (by decide),
   writes_sub_of (y := main_v38) rfl (by decide),
   writes_sub_of (y := main_v39) rfl (by decide),
   writes_sub_of (y := main_v40) rfl (by decide),
   writes_sub_of (y := main_v41) rfl (by decide),
   writes_sub_of (y := main_v42) rfl (by decide),
   writes_sub_of (y := main_v43) rfl (by decide),
   writes_sub_of (y := main_c_7) rfl (by decide),
   writes_sub_of (y := main_v44) rfl (by decide),
   writes_sub_of (y := main_v45) rfl (by decide),
   writes_sub_of (y := main_c_8) rfl (by decide),
   writes_sub_of (y := main_v46) rfl (by decide),
   writes_sub_of (y := main_v47) rfl (by decide),
   writes_sub_of (y := main_v48) rfl (by decide),
   writes_sub_of (y := main_v49) rfl (by decide),
   writes_sub_of (y := main_v50) rfl (by decide),
   writes_sub_of (y := main_c_9) rfl (by decide),
   writes_sub_of (y := main_v51) rfl (by decide),
   writes_sub_of (y := main_v52) rfl (by decide),
   writes_sub_of (y := main_c_10) rfl (by decide),
   writes_sub_of (y := main_v53) rfl (by decide),
   writes_sub_of (y := main_v54) rfl (by decide),
   writes_sub_of (y := main_v55) rfl (by decide),
   writes_sub_of (y := main_v56) rfl (by decide),
   writes_sub_of (y := main_v57) rfl (by decide),
   writes_sub_of (y := main_v58) rfl (by decide),
   writes_sub_of (y := main_v59) rfl (by decide),
   writes_sub_of (y := main_v60) rfl (by decide)⟩
set_option maxHeartbeats 40000000 in
/-- No operation of `hostOps0` allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- A reference `hostOps0` does not write keeps its contents through the stretch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- The references `hostOps1`'s operations write: their results, in order. -/
abbrev hostOps1_W : List (Ref sig .tc) := [main_cst, main_v62, main_v63, main_v64, main_v65, main_v66]
theorem hostOps1_writes : (hostOps1 : List (HloOp τ sig (Elt F))).Forall fun op => op.writes ⊆ (hostOps1_W.map (Proc.devRef (τ := τ) .tc)).toFinset :=
  ⟨writes_sub_of (y := main_cst) rfl (by decide),
   writes_sub_of (y := main_v62) rfl (by decide),
   writes_sub_of (y := main_v63) rfl (by decide),
   writes_sub_of (y := main_v64) rfl (by decide),
   writes_sub_of (y := main_v65) rfl (by decide),
   writes_sub_of (y := main_v66) rfl (by decide)⟩
/-- No operation of `hostOps1` allocates a buffer. -/
theorem hostOps1_fresh : (hostOps1 : List (HloOp τ sig (Elt F))).Forall fun op => op.fresh = ∅ :=
  ⟨rfl, rfl, rfl, rfl, rfl, rfl⟩
/-- A reference `hostOps1` does not write keeps its contents through the stretch. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- The references `hostOps2`'s operations write: their results, in order. -/
abbrev hostOps2_W : List (Ref sig .tc) := [main_c_11, main_v68, main_v69, main_c_12, main_v70, main_v71, main_v72, main_v73, main_v74, main_c_13, main_v75, main_v76, main_c_14, main_v77, main_v78, main_v79, main_v80, main_v81, main_v82, main_v83, main_v84]
theorem hostOps2_writes : (hostOps2 : List (HloOp τ sig (Elt F))).Forall fun op => op.writes ⊆ (hostOps2_W.map (Proc.devRef (τ := τ) .tc)).toFinset :=
  ⟨writes_sub_of (y := main_c_11) rfl (by decide),
   writes_sub_of (y := main_v68) rfl (by decide),
   writes_sub_of (y := main_v69) rfl (by decide),
   writes_sub_of (y := main_c_12) rfl (by decide),
   writes_sub_of (y := main_v70) rfl (by decide),
   writes_sub_of (y := main_v71) rfl (by decide),
   writes_sub_of (y := main_v72) rfl (by decide),
   writes_sub_of (y := main_v73) rfl (by decide),
   writes_sub_of (y := main_v74) rfl (by decide),
   writes_sub_of (y := main_c_13) rfl (by decide),
   writes_sub_of (y := main_v75) rfl (by decide),
   writes_sub_of (y := main_v76) rfl (by decide),
   writes_sub_of (y := main_c_14) rfl (by decide),
   writes_sub_of (y := main_v77) rfl (by decide),
   writes_sub_of (y := main_v78) rfl (by decide),
   writes_sub_of (y := main_v79) rfl (by decide),
   writes_sub_of (y := main_v80) rfl (by decide),
   writes_sub_of (y := main_v81) rfl (by decide),
   writes_sub_of (y := main_v82) rfl (by decide),
   writes_sub_of (y := main_v83) rfl (by decide),
   writes_sub_of (y := main_v84) rfl (by decide)⟩
/-- No operation of `hostOps2` allocates a buffer. -/
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- A reference `hostOps2` does not write keeps its contents through the stretch. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- The references `hostOps3`'s operations write: their results, in order. -/
abbrev hostOps3_W : List (Ref sig .tc) := [main_cst_15, main_v86, main_v87, main_v88, main_v89, main_v90]
theorem hostOps3_writes : (hostOps3 : List (HloOp τ sig (Elt F))).Forall fun op => op.writes ⊆ (hostOps3_W.map (Proc.devRef (τ := τ) .tc)).toFinset :=
  ⟨writes_sub_of (y := main_cst_15) rfl (by decide),
   writes_sub_of (y := main_v86) rfl (by decide),
   writes_sub_of (y := main_v87) rfl (by decide),
   writes_sub_of (y := main_v88) rfl (by decide),
   writes_sub_of (y := main_v89) rfl (by decide),
   writes_sub_of (y := main_v90) rfl (by decide)⟩
/-- No operation of `hostOps3` allocates a buffer. -/
theorem hostOps3_fresh : (hostOps3 : List (HloOp τ sig (Elt F))).Forall fun op => op.fresh = ∅ :=
  ⟨rfl, rfl, rfl, rfl, rfl, rfl⟩
/-- A reference `hostOps3` does not write keeps its contents through the stretch. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- The references `hostOps4`'s operations write: their results, in order. -/
abbrev hostOps4_W : List (Ref sig .tc) := [main_c_16, main_v92, main_v93, main_c_17, main_v94, main_v95, main_v96, main_v97, main_v98, main_c_18, main_v99, main_v100, main_c_19, main_v101, main_v102, main_v103, main_v104, main_v105, main_v106, main_v107, main_v108]
theorem hostOps4_writes : (hostOps4 : List (HloOp τ sig (Elt F))).Forall fun op => op.writes ⊆ (hostOps4_W.map (Proc.devRef (τ := τ) .tc)).toFinset :=
  ⟨writes_sub_of (y := main_c_16) rfl (by decide),
   writes_sub_of (y := main_v92) rfl (by decide),
   writes_sub_of (y := main_v93) rfl (by decide),
   writes_sub_of (y := main_c_17) rfl (by decide),
   writes_sub_of (y := main_v94) rfl (by decide),
   writes_sub_of (y := main_v95) rfl (by decide),
   writes_sub_of (y := main_v96) rfl (by decide),
   writes_sub_of (y := main_v97) rfl (by decide),
   writes_sub_of (y := main_v98) rfl (by decide),
   writes_sub_of (y := main_c_18) rfl (by decide),
   writes_sub_of (y := main_v99) rfl (by decide),
   writes_sub_of (y := main_v100) rfl (by decide),
   writes_sub_of (y := main_c_19) rfl (by decide),
   writes_sub_of (y := main_v101) rfl (by decide),
   writes_sub_of (y := main_v102) rfl (by decide),
   writes_sub_of (y := main_v103) rfl (by decide),
   writes_sub_of (y := main_v104) rfl (by decide),
   writes_sub_of (y := main_v105) rfl (by decide),
   writes_sub_of (y := main_v106) rfl (by decide),
   writes_sub_of (y := main_v107) rfl (by decide),
   writes_sub_of (y := main_v108) rfl (by decide)⟩
/-- No operation of `hostOps4` allocates a buffer. -/
theorem hostOps4_fresh : (hostOps4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- A reference `hostOps4` does not write keeps its contents through the stretch. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- The references `hostOps5`'s operations write: their results, in order. -/
abbrev hostOps5_W : List (Ref sig .tc) := [main_cst_20, main_v110, main_v111, main_v112, main_v113, main_v114]
theorem hostOps5_writes : (hostOps5 : List (HloOp τ sig (Elt F))).Forall fun op => op.writes ⊆ (hostOps5_W.map (Proc.devRef (τ := τ) .tc)).toFinset :=
  ⟨writes_sub_of (y := main_cst_20) rfl (by decide),
   writes_sub_of (y := main_v110) rfl (by decide),
   writes_sub_of (y := main_v111) rfl (by decide),
   writes_sub_of (y := main_v112) rfl (by decide),
   writes_sub_of (y := main_v113) rfl (by decide),
   writes_sub_of (y := main_v114) rfl (by decide)⟩
/-- No operation of `hostOps5` allocates a buffer. -/
theorem hostOps5_fresh : (hostOps5 : List (HloOp τ sig (Elt F))).Forall fun op => op.fresh = ∅ :=
  ⟨rfl, rfl, rfl, rfl, rfl, rfl⟩
/-- A reference `hostOps5` does not write keeps its contents through the stretch. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- The references `hostOps6`'s operations write: their results, in order. -/
abbrev hostOps6_W : List (Ref sig .tc) := [main_v116, main_v117, main_v118, main_v119]
theorem hostOps6_writes : (hostOps6 : List (HloOp τ sig (Elt F))).Forall fun op => op.writes ⊆ (hostOps6_W.map (Proc.devRef (τ := τ) .tc)).toFinset :=
  ⟨writes_sub_of (y := main_v116) rfl (by decide),
   writes_sub_of (y := main_v117) rfl (by decide),
   writes_sub_of (y := main_v118) rfl (by decide),
   writes_sub_of (y := main_v119) rfl (by decide)⟩
/-- No operation of `hostOps6` allocates a buffer. -/
theorem hostOps6_fresh : (hostOps6 : List (HloOp τ sig (Elt F))).Forall fun op => op.fresh = ∅ :=
  ⟨rfl, rfl, rfl, rfl⟩
/-- A reference `hostOps6` does not write keeps its contents through the stretch. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

/-! ## The arguments end as launched

No host operation writes an argument, and a region reads one through an input window or bypasses it, so the fold
at an argument's buffer walks back to the launch memory. -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of m ρ c main_arg0 (by decide)
    _ = W9 m ρ c (Proc.devRef .tc main_arg0) := W10_of_ne m ρ c main_arg0 (by decide)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := W13_of m ρ c main_arg1 (by decide)
    _ = W11 m ρ c (Proc.devRef .tc main_arg1) := W12_of_ne m ρ c main_arg1 (by decide)
    _ = W10 m ρ c (Proc.devRef .tc main_arg1) := W11_of m ρ c main_arg1 (by decide)
    _ = W9 m ρ c (Proc.devRef .tc main_arg1) := W10_of_ne m ρ c main_arg1 (by decide)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := W13_of m ρ c main_arg2 (by decide)
    _ = W11 m ρ c (Proc.devRef .tc main_arg2) := W12_of_ne m ρ c main_arg2 (by decide)
    _ = W10 m ρ c (Proc.devRef .tc main_arg2) := W11_of m ρ c main_arg2 (by decide)
    _ = W9 m ρ c (Proc.devRef .tc main_arg2) := W10_of_ne m ρ c main_arg2 (by decide)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := W13_of m ρ c main_arg3 (by decide)
    _ = W11 m ρ c (Proc.devRef .tc main_arg3) := W12_of_ne m ρ c main_arg3 (by decide)
    _ = W10 m ρ c (Proc.devRef .tc main_arg3) := W11_of m ρ c main_arg3 (by decide)
    _ = W9 m ρ c (Proc.devRef .tc main_arg3) := W10_of_ne m ρ c main_arg3 (by decide)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := W13_of m ρ c main_arg4 (by decide)
    _ = W11 m ρ c (Proc.devRef .tc main_arg4) := W12_of_ne m ρ c main_arg4 (by decide)
    _ = W10 m ρ c (Proc.devRef .tc main_arg4) := W11_of m ρ c main_arg4 (by decide)
    _ = W9 m ρ c (Proc.devRef .tc main_arg4) := W10_of_ne m ρ c main_arg4 (by decide)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of m ρ c main_arg5 (by decide)
    _ = W11 m ρ c (Proc.devRef .tc main_arg5) := W12_of_ne m ρ c main_arg5 (by decide)
    _ = W10 m ρ c (Proc.devRef .tc main_arg5) := W11_of m ρ c main_arg5 (by decide)
    _ = W9 m ρ c (Proc.devRef .tc main_arg5) := W10_of_ne m ρ c main_arg5 (by decide)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := W13_of m ρ c main_arg6 (by decide)
    _ = W11 m ρ c (Proc.devRef .tc main_arg6) := W12_of_ne m ρ c main_arg6 (by decide)
    _ = W10 m ρ c (Proc.devRef .tc main_arg6) := W11_of m ρ c main_arg6 (by decide)
    _ = W9 m ρ c (Proc.devRef .tc main_arg6) := (W10_arr m ρ c 4).trans (((dat4 (V9 m ρ) c).arrAt_in 4 rfl _).trans (A_eq4 (V9 m ρ) c 4))
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := (W6_arr m ρ c 4).trans (((dat2 (V5 m ρ) c).arrAt_in 4 rfl _).trans (A_eq2 (V5 m ρ) c 4))
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := W1_of m ρ c main_arg6 (by decide)
    _ = m ((c : Thread nD τ).loc main_arg6) := rfl

theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := W13_of m ρ c main_arg7 (by decide)
    _ = W11 m ρ c (Proc.devRef .tc main_arg7) := W12_of_ne m ρ c main_arg7 (by decide)
    _ = W10 m ρ c (Proc.devRef .tc main_arg7) := W11_of m ρ c main_arg7 (by decide)
    _ = W9 m ρ c (Proc.devRef .tc main_arg7) := W10_of_ne m ρ c main_arg7 (by decide)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := W13_of m ρ c main_arg8 (by decide)
    _ = W11 m ρ c (Proc.devRef .tc main_arg8) := W12_of_ne m ρ c main_arg8 (by decide)
    _ = W10 m ρ c (Proc.devRef .tc main_arg8) := W11_of m ρ c main_arg8 (by decide)
    _ = W9 m ρ c (Proc.devRef .tc main_arg8) := (W10_arr m ρ c 6).trans (((dat4 (V9 m ρ) c).arrAt_in 6 rfl _).trans (A_eq4 (V9 m ρ) c 6))
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := (W6_arr m ρ c 6).trans (((dat2 (V5 m ρ) c).arrAt_in 6 rfl _).trans (A_eq2 (V5 m ρ) c 6))
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := (W2_arr m ρ c 6).trans (((dat0 (V1 m ρ) c).arrAt_in 6 rfl _).trans (A_eq0 (V1 m ρ) c 6))
    _ = W0 m ρ c (Proc.devRef .tc main_arg8) := W1_of m ρ c main_arg8 (by decide)
    _ = m ((c : Thread nD τ).loc main_arg8) := rfl

theorem W13_main_arg9 (c : Dev nD) : W13 m ρ c (Proc.devRef .tc main_arg9) = m ((c : Thread nD τ).loc main_arg9) :=
  calc W13 m ρ c (Proc.devRef .tc main_arg9)
    _ = W12 m ρ c (Proc.devRef .tc main_arg9) := W13_of m ρ c main_arg9 (by decide)
    _ = W11 m ρ c (Proc.devRef .tc main_arg9) := W12_of_ne m ρ c main_arg9 (by decide)
    _ = W10 m ρ c (Proc.devRef .tc main_arg9) := W11_of m ρ c main_arg9 (by decide)
    _ = W9 m ρ c (Proc.devRef .tc main_arg9) := W10_of_ne m ρ c main_arg9 (by decide)
    _ = W8 m ρ c (Proc.devRef .tc main_arg9) := W9_of m ρ c main_arg9 (by decide)
    _ = W7 m ρ c (Proc.devRef .tc main_arg9) := W8_of_ne m ρ c main_arg9 (by decide)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W13_main_arg10 (c : Dev nD) : W13 m ρ c (Proc.devRef .tc main_arg10) = m ((c : Thread nD τ).loc main_arg10) :=
  calc W13 m ρ c (Proc.devRef .tc main_arg10)
    _ = W12 m ρ c (Proc.devRef .tc main_arg10) := W13_of m ρ c main_arg10 (by decide)
    _ = W11 m ρ c (Proc.devRef .tc main_arg10) := W12_of_ne m ρ c main_arg10 (by decide)
    _ = W10 m ρ c (Proc.devRef .tc main_arg10) := W11_of m ρ c main_arg10 (by decide)
    _ = W9 m ρ c (Proc.devRef .tc main_arg10) := (W10_arr m ρ c 8).trans (((dat4 (V9 m ρ) c).arrAt_in 8 rfl _).trans (A_eq4 (V9 m ρ) c 8))
    _ = W8 m ρ c (Proc.devRef .tc main_arg10) := W9_of m ρ c main_arg10 (by decide)
    _ = W7 m ρ c (Proc.devRef .tc main_arg10) := W8_of_ne m ρ c main_arg10 (by decide)
    _ = W6 m ρ c (Proc.devRef .tc main_arg10) := W7_of m ρ c main_arg10 (by decide)
    _ = W5 m ρ c (Proc.devRef .tc main_arg10) := (W6_arr m ρ c 8).trans (((dat2 (V5 m ρ) c).arrAt_in 8 rfl _).trans (A_eq2 (V5 m ρ) c 8))
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := (W2_arr m ρ c 8).trans (((dat0 (V1 m ρ) c).arrAt_in 8 rfl _).trans (A_eq0 (V1 m ρ) c 8))
    _ = W0 m ρ c (Proc.devRef .tc main_arg10) := W1_of m ρ c main_arg10 (by decide)
    _ = m ((c : Thread nD τ).loc main_arg10) := rfl

theorem W13_main_arg11 (c : Dev nD) : W13 m ρ c (Proc.devRef .tc main_arg11) = m ((c : Thread nD τ).loc main_arg11) :=
  calc W13 m ρ c (Proc.devRef .tc main_arg11)
    _ = W12 m ρ c (Proc.devRef .tc main_arg11) := W13_of m ρ c main_arg11 (by decide)
    _ = W11 m ρ c (Proc.devRef .tc main_arg11) := W12_of_ne m ρ c main_arg11 (by decide)
    _ = W10 m ρ c (Proc.devRef .tc main_arg11) := W11_of m ρ c main_arg11 (by decide)
    _ = W9 m ρ c (Proc.devRef .tc main_arg11) := W10_of_ne m ρ c main_arg11 (by decide)
    _ = W8 m ρ c (Proc.devRef .tc main_arg11) := W9_of m ρ c main_arg11 (by decide)
    _ = W7 m ρ c (Proc.devRef .tc main_arg11) := W8_of_ne m ρ c main_arg11 (by decide)
    _ = W6 m ρ c (Proc.devRef .tc main_arg11) := W7_of m ρ c main_arg11 (by decide)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

theorem W13_main_arg12 (c : Dev nD) : W13 m ρ c (Proc.devRef .tc main_arg12) = m ((c : Thread nD τ).loc main_arg12) :=
  calc W13 m ρ c (Proc.devRef .tc main_arg12)
    _ = W12 m ρ c (Proc.devRef .tc main_arg12) := W13_of m ρ c main_arg12 (by decide)
    _ = W11 m ρ c (Proc.devRef .tc main_arg12) := (W12_arr m ρ c 2).trans (((dat5 (V11 m ρ) c).arrAt_in 2 rfl _).trans (A_eq5 (V11 m ρ) c 2))
    _ = W10 m ρ c (Proc.devRef .tc main_arg12) := W11_of m ρ c main_arg12 (by decide)
    _ = W9 m ρ c (Proc.devRef .tc main_arg12) := W10_of_ne m ρ c main_arg12 (by decide)
    _ = W8 m ρ c (Proc.devRef .tc main_arg12) := W9_of m ρ c main_arg12 (by decide)
    _ = W7 m ρ c (Proc.devRef .tc main_arg12) := (W8_arr m ρ c 2).trans (((dat3 (V7 m ρ) c).arrAt_in 2 rfl _).trans (A_eq3 (V7 m ρ) c 2))
    _ = W6 m ρ c (Proc.devRef .tc main_arg12) := W7_of m ρ c main_arg12 (by decide)
    _ = W5 m ρ c (Proc.devRef .tc main_arg12) := W6_of_ne m ρ c main_arg12 (by decide)
    _ = W4 m ρ c (Proc.devRef .tc main_arg12) := W5_of m ρ c main_arg12 (by decide)
    _ = W3 m ρ c (Proc.devRef .tc main_arg12) := (W4_arr m ρ c 2).trans (((dat1 (V3 m ρ) c).arrAt_in 2 rfl _).trans (A_eq1 (V3 m ρ) c 2))
    _ = W2 m ρ c (Proc.devRef .tc main_arg12) := W3_of m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl

theorem W13_main_arg13 (c : Dev nD) : W13 m ρ c (Proc.devRef .tc main_arg13) = m ((c : Thread nD τ).loc main_arg13) :=
  calc W13 m ρ c (Proc.devRef .tc main_arg13)
    _ = W12 m ρ c (Proc.devRef .tc main_arg13) := W13_of m ρ c main_arg13 (by decide)
    _ = W11 m ρ c (Proc.devRef .tc main_arg13) := W12_of_ne m ρ c main_arg13 (by decide)
    _ = W10 m ρ c (Proc.devRef .tc main_arg13) := W11_of m ρ c main_arg13 (by decide)
    _ = W9 m ρ c (Proc.devRef .tc main_arg13) := W10_of_ne m ρ c main_arg13 (by decide)
    _ = W8 m ρ c (Proc.devRef .tc main_arg13) := W9_of m ρ c main_arg13 (by decide)
    _ = W7 m ρ c (Proc.devRef .tc main_arg13) := W8_of_ne m ρ c main_arg13 (by decide)
    _ = W6 m ρ c (Proc.devRef .tc main_arg13) := W7_of m ρ c main_arg13 (by decide)
    _ = W5 m ρ c (Proc.devRef .tc main_arg13) := W6_of_ne m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl

theorem W13_main_arg14 (c : Dev nD) : W13 m ρ c (Proc.devRef .tc main_arg14) = m ((c : Thread nD τ).loc main_arg14) :=
  calc W13 m ρ c (Proc.devRef .tc main_arg14)
    _ = W12 m ρ c (Proc.devRef .tc main_arg14) := W13_of m ρ c main_arg14 (by decide)
    _ = W11 m ρ c (Proc.devRef .tc main_arg14) := (W12_arr m ρ c 4).trans (((dat5 (V11 m ρ) c).arrAt_in 4 rfl _).trans (A_eq5 (V11 m ρ) c 4))
    _ = W10 m ρ c (Proc.devRef .tc main_arg14) := W11_of m ρ c main_arg14 (by decide)
    _ = W9 m ρ c (Proc.devRef .tc main_arg14) := W10_of_ne m ρ c main_arg14 (by decide)
    _ = W8 m ρ c (Proc.devRef .tc main_arg14) := W9_of m ρ c main_arg14 (by decide)
    _ = W7 m ρ c (Proc.devRef .tc main_arg14) := (W8_arr m ρ c 4).trans (((dat3 (V7 m ρ) c).arrAt_in 4 rfl _).trans (A_eq3 (V7 m ρ) c 4))
    _ = W6 m ρ c (Proc.devRef .tc main_arg14) := W7_of m ρ c main_arg14 (by decide)
    _ = W5 m ρ c (Proc.devRef .tc main_arg14) := W6_of_ne m ρ c main_arg14 (by decide)
    _ = W4 m ρ c (Proc.devRef .tc main_arg14) := W5_of m ρ c main_arg14 (by decide)
    _ = W3 m ρ c (Proc.devRef .tc main_arg14) := (W4_arr m ρ c 4).trans (((dat1 (V3 m ρ) c).arrAt_in 4 rfl _).trans (A_eq1 (V3 m ρ) c 4))
    _ = W2 m ρ c (Proc.devRef .tc main_arg14) := W3_of m ρ c main_arg14 (by decide)
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

theorem W13_main_arg15 (c : Dev nD) : W13 m ρ c (Proc.devRef .tc main_arg15) = m ((c : Thread nD τ).loc main_arg15) :=
  calc W13 m ρ c (Proc.devRef .tc main_arg15)
    _ = W12 m ρ c (Proc.devRef .tc main_arg15) := W13_of m ρ c main_arg15 (by decide)
    _ = W11 m ρ c (Proc.devRef .tc main_arg15) := W12_of_ne m ρ c main_arg15 (by decide)
    _ = W10 m ρ c (Proc.devRef .tc main_arg15) := W11_of m ρ c main_arg15 (by decide)
    _ = W9 m ρ c (Proc.devRef .tc main_arg15) := W10_of_ne m ρ c main_arg15 (by decide)
    _ = W8 m ρ c (Proc.devRef .tc main_arg15) := W9_of m ρ c main_arg15 (by decide)
    _ = W7 m ρ c (Proc.devRef .tc main_arg15) := W8_of_ne m ρ c main_arg15 (by decide)
    _ = W6 m ρ c (Proc.devRef .tc main_arg15) := W7_of m ρ c main_arg15 (by decide)
    _ = W5 m ρ c (Proc.devRef .tc main_arg15) := W6_of_ne m ρ c main_arg15 (by decide)
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of_ne m ρ c main_arg15 (by decide)
    _ = W0 m ρ c (Proc.devRef .tc main_arg15) := W1_of m ρ c main_arg15 (by decide)
    _ = m ((c : Thread nD τ).loc main_arg15) := rfl

theorem W13_main_arg16 (c : Dev nD) : W13 m ρ c (Proc.devRef .tc main_arg16) = m ((c : Thread nD τ).loc main_arg16) :=
  calc W13 m ρ c (Proc.devRef .tc main_arg16)
    _ = W12 m ρ c (Proc.devRef .tc main_arg16) := W13_of m ρ c main_arg16 (by decide)
    _ = W11 m ρ c (Proc.devRef .tc main_arg16) := W12_of_ne m ρ c main_arg16 (by decide)
    _ = W10 m ρ c (Proc.devRef .tc main_arg16) := W11_of m ρ c main_arg16 (by decide)
    _ = W9 m ρ c (Proc.devRef .tc main_arg16) := W10_of_ne m ρ c main_arg16 (by decide)
    _ = W8 m ρ c (Proc.devRef .tc main_arg16) := W9_of m ρ c main_arg16 (by decide)
    _ = W7 m ρ c (Proc.devRef .tc main_arg16) := W8_of_ne m ρ c main_arg16 (by decide)
    _ = W6 m ρ c (Proc.devRef .tc main_arg16) := W7_of m ρ c main_arg16 (by decide)
    _ = W5 m ρ c (Proc.devRef .tc main_arg16) := W6_of_ne m ρ c main_arg16 (by decide)
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of_ne m ρ c main_arg16 (by decide)
    _ = W0 m ρ c (Proc.devRef .tc main_arg16) := W1_of m ρ c main_arg16 (by decide)
    _ = m ((c : Thread nD τ).loc main_arg16) := rfl

theorem W13_main_arg17 (c : Dev nD) : W13 m ρ c (Proc.devRef .tc main_arg17) = m ((c : Thread nD τ).loc main_arg17) :=
  calc W13 m ρ c (Proc.devRef .tc main_arg17)
    _ = W12 m ρ c (Proc.devRef .tc main_arg17) := W13_of m ρ c main_arg17 (by decide)
    _ = W11 m ρ c (Proc.devRef .tc main_arg17) := W12_of_ne m ρ c main_arg17 (by decide)
    _ = W10 m ρ c (Proc.devRef .tc main_arg17) := W11_of m ρ c main_arg17 (by decide)
    _ = W9 m ρ c (Proc.devRef .tc main_arg17) := W10_of_ne m ρ c main_arg17 (by decide)
    _ = W8 m ρ c (Proc.devRef .tc main_arg17) := W9_of m ρ c main_arg17 (by decide)
    _ = W7 m ρ c (Proc.devRef .tc main_arg17) := W8_of_ne m ρ c main_arg17 (by decide)
    _ = W6 m ρ c (Proc.devRef .tc main_arg17) := W7_of m ρ c main_arg17 (by decide)
    _ = W5 m ρ c (Proc.devRef .tc main_arg17) := W6_of_ne m ρ c main_arg17 (by decide)
    _ = W4 m ρ c (Proc.devRef .tc main_arg17) := W5_of m ρ c main_arg17 (by decide)
    _ = W3 m ρ c (Proc.devRef .tc main_arg17) := W4_of_ne m ρ c main_arg17 (by decide)
    _ = W2 m ρ c (Proc.devRef .tc main_arg17) := W3_of m ρ c main_arg17 (by decide)
    _ = W1 m ρ c (Proc.devRef .tc main_arg17) := W2_of_ne m ρ c main_arg17 (by decide)
    _ = W0 m ρ c (Proc.devRef .tc main_arg17) := W1_of m ρ c main_arg17 (by decide)
    _ = m ((c : Thread nD τ).loc main_arg17) := rfl

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that
    `Pipeline.pin pcfgs adm p` at a numeral reduces to the printed configuration. -/
def pdats : (p : Fin 6) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it runs to
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W13`, the
    generator register at some state. -/
abbrev Tₙ (c : Dev nD) : sProp 𝕄 := iprop(StableHlo.held (c : Thread nD τ) (Pipeline.ucRefs τ sig) (W13 m ρ c) ∗ ∃ r, prngReg c r)

/-! ## The regions as segments

Each region is entered from every unscoped buffer at its entry contents and left at its exit contents: its arrays
split out of the unscoped buffers and put back at what the pipeline leaves; the generator register into the region's
invariant and out; nothing owed; no semaphore of the kernel's own. -/

-- a library lemma stated over `pin pcs a p` unifies with the pinned configuration only when unification may
-- unfold plain definitions in a metavariable's type
set_option backward.isDefEq.respectTransparency.types false in
/-- Region 0 over the thread state: entered from every unscoped buffer at `W1`, left at `W2`. -/
def reg0 (hb0 : ∀ V c, BodyObligation (dat0 (F := F) V c) (defs₀ (F := F)) Variants.none () Set.univ) :
    Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 1 over the thread state: entered from every unscoped buffer at `W3`, left at `W4`. -/
def reg1 (hb1 : ∀ V c, BodyObligation (dat1 (F := F) V c) (defs₀ (F := F)) Variants.none () Set.univ) :
    Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 2 over the thread state: entered from every unscoped buffer at `W5`, left at `W6`. -/
def reg2 (hb2 : ∀ V c, BodyObligation (dat2 (F := F) V c) (defs₀ (F := F)) Variants.none () Set.univ) :
    Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 3 over the thread state: entered from every unscoped buffer at `W7`, left at `W8`. -/
def reg3 (hb3 : ∀ V c, BodyObligation (dat3 (F := F) V c) (defs₀ (F := F)) Variants.none () Set.univ) :
    Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (hb3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 4 over the thread state: entered from every unscoped buffer at `W9`, left at `W10`. -/
def reg4 (hb4 : ∀ V c, BodyObligation (dat4 (F := F) V c) (defs₀ (F := F)) Variants.none () Set.univ) :
    Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (hb4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- Region 5 over the thread state: entered from every unscoped buffer at `W11`, left at `W12`. -/
def reg5 (hb5 : ∀ V c, BodyObligation (dat5 (F := F) V c) (defs₀ (F := F)) Variants.none () Set.univ) :
    Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (hb5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 13 segments in order: a host segment per stretch from its boundary's contents, a region per kernel call. -/
abbrev segs
    (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ)
    (hb3 : ∀ V c, BodyObligation (dat3 (F := F) V c) (defs₀ (F := F)) Variants.none () Set.univ)
    (hb4 : ∀ V c, BodyObligation (dat4 (F := F) V c) (defs₀ (F := F)) Variants.none () Set.univ)
    (hb5 : ∀ V c, BodyObligation (dat5 (F := F) V c) (defs₀ (F := F)) Variants.none () Set.univ) :
    List (Pipeline.Seg (pcfgs (F := F)) adm (pdats m ρ) () defs₀ 𝒱₀ L lv) :=
  [ .host (hseg hostOps0 hostOps0_sub hostOps0_fresh (W0 m ρ)),
    .region (reg0 m ρ hb0),
    .host (hseg hostOps1 hostOps1_sub hostOps1_fresh (W2 m ρ)),
    .region (reg1 m ρ hb1),
    .host (hseg hostOps2 hostOps2_sub hostOps2_fresh (W4 m ρ)),
    .region (reg2 m ρ hb2),
    .host (hseg hostOps3 hostOps3_sub hostOps3_fresh (W6 m ρ)),
    .region (reg3 m ρ hb3),
    .host (hseg hostOps4 hostOps4_sub hostOps4_fresh (W8 m ρ)),
    .region (reg4 m ρ hb4),
    .host (hseg hostOps5 hostOps5_sub hostOps5_fresh (W10 m ρ)),
    .region (reg5 m ρ hb5),
    .host (hseg hostOps6 hostOps6_sub hostOps6_fresh (W12 m ρ)) ]
/-- @main is the run of the segments: it is the chain of its items, and the segments' run is that chain. -/
theorem main_run
    (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ)
    (hb3 : ∀ V c, BodyObligation (dat3 (F := F) V c) (defs₀ (F := F)) Variants.none () Set.univ)
    (hb4 : ∀ V c, BodyObligation (dat4 (F := F) V c) (defs₀ (F := F)) Variants.none () Set.univ)
    (hb5 : ∀ V c, BodyObligation (dat5 (F := F) V c) (defs₀ (F := F)) Variants.none () Set.univ)
    (c : Dev nD) : main (F := F) c = Pipeline.Seg.run (segs m ρ hb0 hb1 hb2 hb3 hb4 hb5) := (main_chain c).trans (by chain_rfl)

-- the launch lemma's implicit arguments are found by unifying its conclusion with this one, which takes unfolding
-- plain definitions in a metavariable's type
set_option backward.isDefEq.respectTransparency.types false in
/-- The run, with what the result buffer holds: from any memory with zero counters, every weakly fair execution of
    @main on the TensorCores terminates, nothing faulting, and in every final state the result buffer `main_v119`
    holds the last boundary's contents `W13` and every argument array is as launched. The last thread state is read
    against the final state buffer by buffer; each argument walks back through the fold (`W13_main_argJ`). -/
theorem run_res
    (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ)
    (hb3 : ∀ V c, BodyObligation (dat3 (F := F) V c) (defs₀ (F := F)) Variants.none () Set.univ)
    (hb4 : ∀ V c, BodyObligation (dat4 (F := F) V c) (defs₀ (F := F)) Variants.none () Set.univ)
    (hb5 : ∀ V c, BodyObligation (dat5 (F := F) V c) (defs₀ (F := F)) Variants.none () Set.univ) :
    θ_run defs (onTc (τ := τ) (main (F := F))) ⟨m, fun _ => 0, ρ⟩ (fun r => ∀ c : Dev nD,
      r.2.mem ((c.tc : Thread nD τ).loc main_v119) = W13 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj embL defs₀ 𝒱₀ L lv m ρ main (segs m ρ hb0 hb1 hb2 hb3 hb4 hb5)
    (fun c Q => by rw [main_run m ρ hb0 hb1 hb2 hb3 hb4 hb5 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v119 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c)⟩)

/-- The frame: every weakly fair execution of @main terminates, nothing faulting, and every final state has the
    argument arrays as launched. -/
theorem frame
    (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ)
    (hb3 : ∀ V c, BodyObligation (dat3 (F := F) V c) (defs₀ (F := F)) Variants.none () Set.univ)
    (hb4 : ∀ V c, BodyObligation (dat4 (F := F) V c) (defs₀ (F := F)) Variants.none () Set.univ)
    (hb5 : ∀ V c, BodyObligation (dat5 (F := F) V c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run_res m ρ hb0 hb1 hb2 hb3 hb4 hb5)

end Cert.KernelIdeal.Fr

end
-- ==== Proof.KI.Mlp0.lean ====
import proofs.«180077_j85650237817340_1_alg».proof.Proof.KI.Mlp0Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 0 of @main: the body obligation of pipeline 0, at the entry contents `V` -/

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block
    index has not moved; the window is uncut and never idle. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block
    index has not moved; the window is uncut and never idle. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s (`hA`) and whose body leaves the block in place (`hafter`): unfetched, the block
    index has not moved; the window is uncut and never idle. -/
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s (`hA`) and whose body leaves the block in place (`hafter`): unfetched, the block
    index has not moved; the window is uncut and never idle. -/
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not, for any proof
    data whose array is `V`'s (`hA`) and whose body leaves the block in place (`hafter`): unfetched, the block
    index has not moved; the window is uncut and never idle. -/
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The output window's one store covers its buffer -/

/-- The store is of the whole block, so it covers the buffer (checked by evaluation). -/
theorem cover0_10 (p0 : Vec F S8000x64 .f32) (y : S8000x64.Idx) :
    ∃ pc ∈ ([⟨rA, p0⟩] : List (View.Piece (Elt F) S8000x64 .f32)), y ∈ pc.1.set :=
  View.cover_of_tiled [⟨rA, p0⟩] S8000x64.size (by rfl) y

/-! ## The body's triple -/

set_option maxHeartbeats 4000000 in
/-- The kernel body on whole staging memrefs, the ten inputs' at read contents `xW` and the output's at anything,
    runs to the continuation holding the inputs' as they were and the output's at `out0_10` of the inputs': the
    printed function and the part it calls are their skeletons, ten whole-block loads, a load of the output
    buffer whose value is unused, and one whole-block store of the payload. -/
theorem sound_kernel0 (c : Dev nD) (E : Set ℕ) (i : grid0.Coords) (arg1 : Memref sig .tc .vmem S8000x64 .f32) (harg1 : arg1.IsWhole) (arg2 : Memref sig .tc .vmem S8000x4 .f32) (harg2 : arg2.IsWhole) (arg3 : Memref sig .tc .vmem S8000x64 .f32) (harg3 : arg3.IsWhole) (arg4 : Memref sig .tc .vmem S8000x4 .f32) (harg4 : arg4.IsWhole) (arg5 : Memref sig .tc .vmem S136x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole)
    (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11) K := by
  simp only [cc0__edge_mlp_kernel_eq_skeleton]; unfold cc0__edge_mlp_kernel_skel
  simp only [k0_part1_eq_skeleton]; unfold k0_part1_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## The inputs' buffers under the region's proof data -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' memrefs hold their blocks (`before0_W`), so the body's triple applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr
-- ==== Proof.KI.Mlp2.lean ====
import proofs.«180077_j85650237817340_1_alg».proof.Proof.KI.Mlp2Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 2 of @main: the body obligation of pipeline 0, at the entry contents `V` -/

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block
    index has not moved; the window is uncut and never idle. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block
    index has not moved; the window is uncut and never idle. -/
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block
    index has not moved; the window is uncut and never idle. -/
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): unfetched, the block
    index has not moved; the window is uncut and never idle. -/
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s (`hA`) and whose body leaves the block in place (`hafter`): unfetched, the block
    index has not moved; the window is uncut and never idle. -/
theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is `V`'s (`hA`) and whose body leaves the block in place (`hafter`): unfetched, the block
    index has not moved; the window is uncut and never idle. -/
theorem before2_8_of {c : Dev nD} (dat : Dat τ (Elt F) Unit ℕ (Pipeline.UD sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not, for any proof
    data whose array is `V`'s (`hA`) and whose body leaves the block in place (`hafter`): unfetched, the block
    index has not moved; the window is uncut and never idle. -/
theorem before2_9_of {c : Dev nD} (dat : Dat τ (Elt F) Unit ℕ (Pipeline.UD sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The output window's one store covers its buffer -/

/-- The store is of the whole block, so it covers the buffer (checked by evaluation). -/
theorem cover2_10 (p0 : Vec F S8000x64 .f32) (y : S8000x64.Idx) :
    ∃ pc ∈ ([⟨rA, p0⟩] : List (View.Piece (Elt F) S8000x64 .f32)), y ∈ pc.1.set :=
  View.cover_of_tiled [⟨rA, p0⟩] S8000x64.size (by rfl) y

/-! ## The body's triple -/

set_option maxHeartbeats 4000000 in
/-- The kernel body on whole staging memrefs, the ten inputs' at read contents `xW` and the output's at anything,
    runs to the continuation holding the inputs' as they were and the output's at `out2_10` of the inputs': the
    printed function and the part it calls are their skeletons, ten whole-block loads, a load of the output
    buffer whose value is unused, and one whole-block store of the payload. -/
theorem sound_kernel2 (c : Dev nD) (E : Set ℕ) (i : grid2.Coords) (arg1 : Memref sig .tc .vmem S8000x64 .f32) (harg1 : arg1.IsWhole) (arg2 : Memref sig .tc .vmem S8000x4 .f32) (harg2 : arg2.IsWhole) (arg3 : Memref sig .tc .vmem S8000x64 .f32) (harg3 : arg3.IsWhole) (arg4 : Memref sig .tc .vmem S8000x4 .f32) (harg4 : arg4.IsWhole) (arg5 : Memref sig .tc .vmem S136x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole)
    (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__edge_mlp_kernel i arg1 harg1 arg2 harg2 arg3 harg3 arg4 harg4 arg5 harg5 arg6 harg6 arg7 harg7 arg8 harg8 arg9 harg9 arg10 harg10 arg11 harg11) K := by
  simp only [cc2__edge_mlp_kernel_eq_skeleton]; unfold cc2__edge_mlp_kernel_skel
  simp only [k2_part1_eq_skeleton]; unfold k2_part1_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-! ## The inputs' buffers under the region's proof data -/

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 1000000 in
/-- The body at any point: the inputs' memrefs hold their blocks (`before2_W`), so the body's triple applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr
-- ==== Proof.KI.Mlp4.lean ====
import proofs.«180077_j85650237817340_1_alg».proof.Proof.KI.Mlp4Def
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered: the parameter the region's half is stated at
variable (V : (c : Dev nD) → (b : Ref sig .tc) → Buf (Elt F) ((c : Thread nD τ).loc b))

/-! # Region 4 of @main: the body obligation of pipeline 0, at the entry contents `V` -/

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block
    index has not moved; the window is uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block
    index has not moved; the window is uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the block
    index has not moved; the window is uncut and never idle. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): unfetched, the block
    index has not moved; the window is uncut and never idle. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`): unfetched, the block
    index has not moved; the window is uncut and never idle. -/
theorem before4_5_of {c : Dev nD} (dat : Dat τ (Elt F) Unit ℕ (Pipeline.UD sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`): unfetched, the block
    index has not moved; the window is uncut and never idle. -/
theorem before4_6_of {c : Dev nD} (dat : Dat τ (Elt F) Unit ℕ (Pipeline.UD sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for any proof
    data whose array is `V`'s (`hA`) and whose body leaves the block in place (`hafter`): unfetched, the block
    index has not moved; the window is uncut and never idle. -/
theorem before4_7_of {c : Dev nD} (dat : Dat τ (Elt F) Unit ℕ (Pipeline.UD sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not, for any proof
    data whose array is `V`'s (`hA`) and whose body leaves the block in place (`hafter`): unfetched, the block
    index has not moved; the window is uncut and never idle. -/
theorem before4_8_of {c : Dev nD} (dat : Dat τ (Elt F) Unit ℕ (Pipeline.UD sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-- Input window 9's current staging buffer holds its block at every point, fetched there or not, for any proof
    data whose array is `V`'s (`hA`) and whose body leaves the block in place (`hafter`): unfetched, the block
    index has not moved; the window is uncut and never idle. -/
theorem before4_9_of {c : Dev nD} (dat : Dat τ (Elt F) Unit ℕ (Pipeline.UD sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

/-! ## The output window's one store covers its buffer -/

/-- The store is of the whole block, so it covers the buffer (checked by evaluation). -/
theorem cover4_10 (p0 : Vec F S8000x64 .f32) (y : S8000x64.Idx) :
    ∃ pc ∈ ([⟨rA, p0⟩] : List (View.Piece (Elt F) S8000x64 .f32)), y ∈ pc.1.set :=
  View.cover_of_tiled [⟨rA, p0⟩] S8000x64.size (by rfl) y

/-! ## The body's triple -/

set_option maxHeartbeats 4000000 in
/-- The kernel body on whole staging memrefs, the ten inputs' at read contents `xW` and the output's at anything,
    runs to the continuation holding the inputs' as they were and the output's at `out4_10` of the inputs': the
    printed function and the part it calls are their skeletons, ten whole-block loads, a load of the output
    buffer whose value is unused, and one whole-block store of the payload. -/
theorem sound_kernel4 (c : Dev nD) (E : Set ℕ) (i : grid4.Coords) (arg1 : Memref sig .tc .vmem S8000x64 .f32) (harg1 : arg1.IsWhole) (arg2 : Memref sig .tc .vmem S8000x4 .f32) (harg2 : arg2.IsWhole) (arg3 : Memref sig .tc .vmem S8000x64 .f32) (harg3 : arg3.IsWhole) (arg4 : Memref sig .tc .vmem S8000x4 .f32) (harg4 : arg4.IsWhole) (arg5 : Memref sig .tc .vmem S136x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S8000x64 .f32) (harg11 : arg11.IsWhole)
    (x0 : Vec F S8000x64 .f32) (x1 : Vec F S8000x4 .f32) (x2 : Vec F S8000x64 .f32) (x3 : Vec F S8000x4 .f32) (x4 : Vec F S136x64 .f32) (x5 : Vec F S1x64 .f32) (x6 : Vec F S64x64 .f32) (x7 : Vec F S1x64 .f32) (x8 : Vec F S64x64 .f32) (x9 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out4_10 x0 x1 x2 x3 x4 x5 x6 x7 x8 x9)) -∗ K ⟨⟩))
      ⊢ wp frame (wpE (defs₀ (F := F)) Variants.none c none) E (cc4__edge_mlp_kernel i arg1 harg1 arg2 harg2 arg3 harg3 arg4 harg4 arg5 harg5 arg6 harg6 arg7 harg7 arg8 harg8 arg9 harg9 arg10 harg10 arg11 harg11) K := by
  simp only [cc4__edge_mlp_kernel_eq_skeleton]; unfold cc4__edge_mlp_kernel_skel
  simp only [k4_part1_eq_skeleton]; unfold k4_part1_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover4_10 _)

/-! ## The inputs' buffers under the region's proof data -/

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d

/-! ## The body obligation, at a generic point -/

/-- What the body is called with at point `t` (the body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

set_option maxHeartbeats 1000000 in
/-- The body at any point: the inputs' memrefs hold their blocks (`before4_W`), so the body's triple applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr
-- ==== Proof.KI.Gru1.lean ====
import proofs.«180077_j85650237817340_1_alg».proof.Proof.KI.Gru1Def

/-! # The GRU pallas_call, region 1: the body obligation

The kernel body, run on the windows' current staging buffers at any grid point, finds each input window's block
in its buffer, leaves the inputs as found and the output buffer at `out1_6` of the input blocks. -/

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): unfetched, the block
    index has not moved; the window is uncut and never idle. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The output window's one store covers its buffer -/

/-- The store's rectangle is the whole block (checked by evaluation), so it covers it. -/
theorem cover1_6 (p0 : Vec F S5000x64 .f32) (y : S5000x64.Idx) :
    ∃ pc ∈ ([⟨gA, p0⟩] : List (View.Piece (Elt F) S5000x64 .f32)), y ∈ pc.1.set :=
  View.cover_of_tiled [⟨gA, p0⟩] S5000x64.size (by rfl) y

/-! ## The body's triple -/

set_option maxHeartbeats 1000000 in
/-- The kernel body on whole staging memrefs, the inputs' at read contents `x0 … x5` and the output's at anything,
    runs to the continuation holding the inputs' as they were and the output's at `out1_6` of the inputs': six
    whole-block loads, a load of the output block that nothing reads, and one whole-block store of the payload. -/
theorem sound_kernel1 (c : Dev nD) (E : Set ℕ) (i : grid1.Coords)
    (arg1 : Memref sig .tc .vmem S5000x64 .f32) (harg1 : arg1.IsWhole)
    (arg2 : Memref sig .tc .vmem S5000x64 .f32) (harg2 : arg2.IsWhole)
    (arg3 : Memref sig .tc .vmem S64x192 .f32) (harg3 : arg3.IsWhole)
    (arg4 : Memref sig .tc .vmem S1x192 .f32) (harg4 : arg4.IsWhole)
    (arg5 : Memref sig .tc .vmem S64x192 .f32) (harg5 : arg5.IsWhole)
    (arg6 : Memref sig .tc .vmem S1x192 .f32) (harg6 : arg6.IsWhole)
    (arg7 : Memref sig .tc .vmem S5000x64 .f32) (harg7 : arg7.IsWhole)
    (x0 x1 : Vec F S5000x64 .f32) (x2 : Vec F S64x192 .f32) (x3 : Vec F S1x192 .f32) (x4 : Vec F S64x192 .f32)
    (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gru_kernel i arg1 harg1 arg2 harg2 arg3 harg3 arg4 harg4 arg5 harg5 arg6 harg6 arg7 harg7) K := by
  simp only [cc1__gru_kernel_eq_skeleton]; unfold cc1__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The inputs' buffers under the proof data -/

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr
-- ==== Proof.KI.Gru3.lean ====
import proofs.«180077_j85650237817340_1_alg».proof.Proof.KI.Gru3Def

/-! # The GRU pallas_call, region 3: the body obligation

The kernel body, run on the windows' current staging buffers at any grid point, finds each input window's block
in its buffer, leaves the inputs as found and the output buffer at `out3_6` of the input blocks. -/

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block
    index has not moved; the window is uncut and never idle. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block
    index has not moved; the window is uncut and never idle. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block
    index has not moved; the window is uncut and never idle. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): unfetched, the block
    index has not moved; the window is uncut and never idle. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s (`hA`) and whose body leaves the block in place (`hafter`): unfetched, the block
    index has not moved; the window is uncut and never idle. -/
theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The output window's one store covers its buffer -/

/-- The store's rectangle is the whole block (checked by evaluation), so it covers it. -/
theorem cover3_6 (p0 : Vec F S5000x64 .f32) (y : S5000x64.Idx) :
    ∃ pc ∈ ([⟨gA, p0⟩] : List (View.Piece (Elt F) S5000x64 .f32)), y ∈ pc.1.set :=
  View.cover_of_tiled [⟨gA, p0⟩] S5000x64.size (by rfl) y

/-! ## The body's triple -/

set_option maxHeartbeats 1000000 in
/-- The kernel body on whole staging memrefs, the inputs' at read contents `x0 … x5` and the output's at anything,
    runs to the continuation holding the inputs' as they were and the output's at `out3_6` of the inputs': six
    whole-block loads, a load of the output block that nothing reads, and one whole-block store of the payload. -/
theorem sound_kernel3 (c : Dev nD) (E : Set ℕ) (i : grid3.Coords)
    (arg1 : Memref sig .tc .vmem S5000x64 .f32) (harg1 : arg1.IsWhole)
    (arg2 : Memref sig .tc .vmem S5000x64 .f32) (harg2 : arg2.IsWhole)
    (arg3 : Memref sig .tc .vmem S64x192 .f32) (harg3 : arg3.IsWhole)
    (arg4 : Memref sig .tc .vmem S1x192 .f32) (harg4 : arg4.IsWhole)
    (arg5 : Memref sig .tc .vmem S64x192 .f32) (harg5 : arg5.IsWhole)
    (arg6 : Memref sig .tc .vmem S1x192 .f32) (harg6 : arg6.IsWhole)
    (arg7 : Memref sig .tc .vmem S5000x64 .f32) (harg7 : arg7.IsWhole)
    (x0 x1 : Vec F S5000x64 .f32) (x2 : Vec F S64x192 .f32) (x3 : Vec F S1x192 .f32) (x4 : Vec F S64x192 .f32)
    (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3__gru_kernel i arg1 harg1 arg2 harg2 arg3 harg3 arg4 harg4 arg5 harg5 arg6 harg6 arg7 harg7) K := by
  simp only [cc3__gru_kernel_eq_skeleton]; unfold cc3__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-! ## The inputs' buffers under the proof data -/

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks (`before3_W`), so `sound_kernel3` applies; the
    invariant and the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr
-- ==== Proof.KI.Gru5.lean ====
import proofs.«180077_j85650237817340_1_alg».proof.Proof.KI.Gru5Def

/-! # The GRU pallas_call, region 5: the body obligation

The kernel body, run on the windows' current staging buffers at any grid point, finds each input window's block
in its buffer, leaves the inputs as found and the output buffer at `out5_6` of the input blocks. -/

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What the body finds in each input window's buffer -/

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved; the window is uncut and never idle. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved; the window is uncut and never idle. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved; the window is uncut and never idle. -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block
    index has not moved; the window is uncut and never idle. -/
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): unfetched, the block
    index has not moved; the window is uncut and never idle. -/
theorem before5_5_of {c : Dev nD} (dat : Dat τ (Elt F) Unit ℕ (Pipeline.UD sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The output window's one store covers its buffer -/

/-- The store's rectangle is the whole block (checked by evaluation), so it covers it. -/
theorem cover5_6 (p0 : Vec F S5000x64 .f32) (y : S5000x64.Idx) :
    ∃ pc ∈ ([⟨gA, p0⟩] : List (View.Piece (Elt F) S5000x64 .f32)), y ∈ pc.1.set :=
  View.cover_of_tiled [⟨gA, p0⟩] S5000x64.size (by rfl) y

/-! ## The body's triple -/

set_option maxHeartbeats 1000000 in
/-- The kernel body on whole staging memrefs, the inputs' at read contents `x0 … x5` and the output's at anything,
    runs to the continuation holding the inputs' as they were and the output's at `out5_6` of the inputs': six
    whole-block loads, a load of the output block that nothing reads, and one whole-block store of the payload. -/
theorem sound_kernel5 (c : Dev nD) (E : Set ℕ) (i : grid5.Coords)
    (arg1 : Memref sig .tc .vmem S5000x64 .f32) (harg1 : arg1.IsWhole)
    (arg2 : Memref sig .tc .vmem S5000x64 .f32) (harg2 : arg2.IsWhole)
    (arg3 : Memref sig .tc .vmem S64x192 .f32) (harg3 : arg3.IsWhole)
    (arg4 : Memref sig .tc .vmem S1x192 .f32) (harg4 : arg4.IsWhole)
    (arg5 : Memref sig .tc .vmem S64x192 .f32) (harg5 : arg5.IsWhole)
    (arg6 : Memref sig .tc .vmem S1x192 .f32) (harg6 : arg6.IsWhole)
    (arg7 : Memref sig .tc .vmem S5000x64 .f32) (harg7 : arg7.IsWhole)
    (x0 x1 : Vec F S5000x64 .f32) (x2 : Vec F S64x192 .f32) (x3 : Vec F S1x192 .f32) (x4 : Vec F S64x192 .f32)
    (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__gru_kernel i arg1 harg1 arg2 harg2 arg3 harg3 arg4 harg4 arg5 harg5 arg6 harg6 arg7 harg7) K := by
  simp only [cc5__gru_kernel_eq_skeleton]; unfold cc5__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The inputs' buffers under the proof data -/

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks (`before5_W`), so `sound_kernel5` applies; the
    invariant and the core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr
-- ==== Proof.Spec.lean ====
/-
  The two per-round maps of the message-passing network, written once over whole arrays with the
  reference program's own host operations.

  * `mlpRows`: the three-layer edge network on every edge at once. The four feature blocks (source
    state, source fields, target state, target fields) are joined along the feature axis into an
    [800000, 136] table; each layer is a matrix product with its weight table plus the bias laid
    along every row; the first two layers are followed by a maximum with zero.
  * `gruRows`: the gated recurrent update on every node at once. Two affine maps into 192 columns
    (of the aggregated messages and of the previous state), cut into three 64-column gates; reset and
    update gates are 1 / (1 + exp (-x)) of the summed gate inputs, the candidate is tanh of the input
    part plus reset times the state part, and the new state is (1 - z) * n + z * h.

  The bias enters `mlpRows` / `gruRows` as a one-row table [1, 64] / [1, 192]; `mlpHost` / `gruHost`
  take it as a vector and lay it as that row first, as the reference does.
-/
import proofs.«180077_j85650237817340_1_alg».proof.ReferenceIdeal
import proofs.«180077_j85650237817340_1_alg».proof.Proof.Gen.ReferenceIdeal

noncomputable section

namespace Cert.Spec

open Cert.ReferenceIdeal Cert.ReferenceIdeal.Facts₀ Cert.ReferenceIdeal.Facts Idealize.ShloMosaic

variable {F : FTy → Type} [FloatOps F]

/-- The all-zero [800000, 64] table the rectifier compares with. -/
def zeroE : FVec F S800000x64 .f32 :=
  broadcastInDim S800000x64 ![] bcast_S_S800000x64 (constant S_ .f32 0x00000000#32)

/-- A one-row table [1, 64] repeated on each of the 800000 rows. -/
def rowsE (r : FVec F S1x64 .f32) : FVec F S800000x64 .f32 :=
  broadcastInDim S800000x64 ![0, 1] bcast_S1x64_S800000x64_0_1 r

/-- A vector of 64 entries laid as a one-row table. -/
def row64 (b : FVec F S64 .f32) : FVec F S1x64 .f32 :=
  broadcastInDim S1x64 ![1] bcast_S64_S1x64_1 b

/-- A vector of 192 entries laid as a one-row table. -/
def row192 (b : FVec F S192 .f32) : FVec F S1x192 .f32 :=
  broadcastInDim S1x192 ![1] bcast_S192_S1x192_1 b

/-- The four feature blocks of every edge side by side: 64 + 4 + 64 + 4 = 136 columns. -/
def joinE (sIn : FVec F S800000x64 .f32) (ffIn : FVec F S800000x4 .f32) (sOut : FVec F S800000x64 .f32)
    (ffOut : FVec F S800000x4 .f32) : FVec F S800000x136 .f32 :=
  concatenate S800000x136 1 [⟨S800000x64, sIn⟩, ⟨S800000x4, ffIn⟩, ⟨S800000x64, sOut⟩, ⟨S800000x4, ffOut⟩]
    concatenates_S800000x64_S800000x4_S800000x64_S800000x4_S800000x136_d1

/-- First layer before the rectifier: the joined features times the [136, 64] weights plus the bias row. -/
def lin1 (x : FVec F S800000x136 .f32) (W1 : FVec F S136x64 .f32) (b1 : FVec F S1x64 .f32) : FVec F S800000x64 .f32 :=
  addf (Host.dotGeneral dot_S800000x136_S136x64_S800000x64_1_0_0_1_n_n none x W1) (rowsE b1)

/-- A later layer before the rectifier: a [800000, 64] table times [64, 64] weights plus the bias row. -/
def lin64 (x : FVec F S800000x64 .f32) (W : FVec F S64x64 .f32) (b : FVec F S1x64 .f32) : FVec F S800000x64 .f32 :=
  addf (Host.dotGeneral dot_S800000x64_S64x64_S800000x64_1_0_0_1_n_n none x W) (rowsE b)

/-- The edge network on every edge, the biases given as one-row tables. -/
def mlpRows (sIn : FVec F S800000x64 .f32) (ffIn : FVec F S800000x4 .f32) (sOut : FVec F S800000x64 .f32)
    (ffOut : FVec F S800000x4 .f32) (W1 : FVec F S136x64 .f32) (b1 : FVec F S1x64 .f32) (W2 : FVec F S64x64 .f32)
    (b2 : FVec F S1x64 .f32) (W3 : FVec F S64x64 .f32) (b3 : FVec F S1x64 .f32) : FVec F S800000x64 .f32 :=
  lin64 (maximumf (lin64 (maximumf (lin1 (joinE sIn ffIn sOut ffOut) W1 b1) zeroE) W2 b2) zeroE) W3 b3

/-- The edge network on every edge, the biases given as vectors. -/
def mlpHost (sIn : FVec F S800000x64 .f32) (ffIn : FVec F S800000x4 .f32) (sOut : FVec F S800000x64 .f32)
    (ffOut : FVec F S800000x4 .f32) (W1 : FVec F S136x64 .f32) (b1 : FVec F S64 .f32) (W2 : FVec F S64x64 .f32)
    (b2 : FVec F S64 .f32) (W3 : FVec F S64x64 .f32) (b3 : FVec F S64 .f32) : FVec F S800000x64 .f32 :=
  mlpRows sIn ffIn sOut ffOut W1 (row64 b1) W2 (row64 b2) W3 (row64 b3)

/-- The all-one [50000, 64] table of the gates. -/
def oneN : FVec F S50000x64 .f32 :=
  broadcastInDim S50000x64 ![] bcast_S_S50000x64 (constant S_ .f32 0x3F800000#32)

/-- An affine map into the 192 gate columns: a [50000, 64] table times [64, 192] weights plus the bias row. -/
def gates (x : FVec F S50000x64 .f32) (W : FVec F S64x192 .f32) (b : FVec F S1x192 .f32) : FVec F S50000x192 .f32 :=
  addf (Host.dotGeneral dot_S50000x64_S64x192_S50000x192_1_0_0_1_n_n none x W)
    (broadcastInDim S50000x192 ![0, 1] bcast_S1x192_S50000x192_0_1 b)

/-- Columns 0 … 63, 64 … 127, 128 … 191 of a gate table. -/
def gate0 (g : FVec F S50000x192 .f32) : FVec F S50000x64 .f32 := extractStridedSlice S50000x64 ![0, 0] g slices_S50000x192_S50000x64_0_0
def gate1 (g : FVec F S50000x192 .f32) : FVec F S50000x64 .f32 := extractStridedSlice S50000x64 ![0, 64] g slices_S50000x192_S50000x64_0_64
def gate2 (g : FVec F S50000x192 .f32) : FVec F S50000x64 .f32 := extractStridedSlice S50000x64 ![0, 128] g slices_S50000x192_S50000x64_0_128

/-- 1 / (1 + exp (-x)), entry by entry, spelt with the host's operations. -/
def sigm (x : FVec F S50000x64 .f32) : FVec F S50000x64 .f32 :=
  Host.divf oneN (addf oneN (Host.exp (Host.negf x)))

/-- The recurrent update from the two gate tables and the previous state. -/
def gruOf (gi gh : FVec F S50000x192 .f32) (h : FVec F S50000x64 .f32) : FVec F S50000x64 .f32 :=
  addf (mulf (subf oneN (sigm (addf (gate1 gi) (gate1 gh))))
      (Host.tanh (addf (gate2 gi) (mulf (sigm (addf (gate0 gi) (gate0 gh))) (gate2 gh)))))
    (mulf (sigm (addf (gate1 gi) (gate1 gh))) h)

/-- The recurrent update on every node, the biases given as one-row tables. -/
def gruRows (agg h : FVec F S50000x64 .f32) (Wih : FVec F S64x192 .f32) (bih : FVec F S1x192 .f32)
    (Whh : FVec F S64x192 .f32) (bhh : FVec F S1x192 .f32) : FVec F S50000x64 .f32 :=
  gruOf (gates agg Wih bih) (gates h Whh bhh) h

/-- The recurrent update on every node, the biases given as vectors. -/
def gruHost (agg h : FVec F S50000x64 .f32) (Wih : FVec F S64x192 .f32) (bih : FVec F S192 .f32)
    (Whh : FVec F S64x192 .f32) (bhh : FVec F S192 .f32) : FVec F S50000x64 .f32 :=
  gruRows agg h Wih (row192 bih) Whh (row192 bhh)

end Cert.Spec

end
-- ==== Proof.SpecNet.lean ====
/-
  The whole network as one function of the eighteen argument arrays, written with the reference
  program's own host operations.

  Edges are the rows of an [800000, 2] integer table (source node, target node). A node index column is
  made from a column of that table by adding 50000 to the negative entries (the wrap of a negative
  index) and laying the vector as an [800000, 1] column; gathers read node rows through it. The edge
  fields are four one-column tables side by side: the node field gathered at the edge's endpoint, its
  negation, the edge coupling and its negation (in the opposite order for the target side). The initial
  node state is the two-column table (b, -b) times the [2, 64] embedding plus its bias. One round gathers
  the state at both endpoints of every edge, runs the edge network, sums the messages into their target
  nodes (a scatter-add into zeros) and applies the recurrent update; the result is three rounds followed
  by the [64, 2] read-out plus its bias.
-/
import proofs.«180077_j85650237817340_1_alg».proof.Proof.Spec

noncomputable section

namespace Cert.Spec

open Cert.ReferenceIdeal Cert.ReferenceIdeal.Facts₀ Cert.ReferenceIdeal.Facts Idealize.ShloMosaic

variable {F : FTy → Type} [FloatOps F]

/-- A buffer's contents, by shape and element type. -/
abbrev Arr (F : FTy → Type) (s : Shape) (e : EltTy) : Type := (⟨s, e⟩ : BufTy).Contents (Elt F)

/-- Column 0 (the source nodes) and column 1 (the target nodes) of the edge table, as vectors. -/
def edgeSrc (a0 : Arr F S800000x2 .i32) : Arr F S800000 .i32 :=
  shapeCast _ (extractStridedSlice S800000x1 ![0, 0] a0 slices_S800000x2_S800000x1_0_0) shapeCasts_S800000x1_S800000
def edgeDst (a0 : Arr F S800000x2 .i32) : Arr F S800000 .i32 :=
  shapeCast _ (extractStridedSlice S800000x1 ![0, 1] a0 slices_S800000x2_S800000x1_0_1) shapeCasts_S800000x1_S800000

/-- A node vector as an index column, negative entries wrapped by the number of nodes. -/
def wrapCol (e : Arr F S800000 .i32) : Arr F S800000x1 .i32 :=
  broadcastInDim S800000x1 ![0] bcast_S800000_S800000x1_0
    (select (cmpi .slt e (broadcastInDim S800000 ![] bcast_S_S800000 (constantI S_ 32 0#32)))
      (addi e (broadcastInDim S800000 ![] bcast_S_S800000 (constantI S_ 32 50000#32))) e)

/-- A node vector as an index column, as it is. -/
def plainCol (e : Arr F S800000 .i32) : Arr F S800000x1 .i32 :=
  broadcastInDim S800000x1 ![0] bcast_S800000_S800000x1_0 e

/-- Rows of a one-column node table, and of a 64-column node table, at an index column. -/
def take1 (b : Arr F S50000x1 .f32) (i : Arr F S800000x1 .i32) : Arr F S800000x1 .f32 :=
  Host.gather gather_S50000x1_S800000x1_S800000x1_1_0_n_n_0_1_11 b i
def take64 (s : Arr F S50000x64 .f32) (i : Arr F S800000x1 .i32) : Arr F S800000x64 .f32 :=
  Host.gather gather_S50000x64_S800000x1_S800000x64_1_0_n_n_0_1_164 s i

/-- Four one-column edge tables side by side. -/
def join4 (p q r s : Arr F S800000x1 .f32) : Arr F S800000x4 .f32 :=
  concatenate S800000x4 1 [⟨S800000x1, p⟩, ⟨S800000x1, q⟩, ⟨S800000x1, r⟩, ⟨S800000x1, s⟩]
    concatenates_S800000x1_S800000x1_S800000x1_S800000x1_S800000x4_d1

/-- The source-side and target-side edge fields. -/
def fieldsSrc (a0 : Arr F S800000x2 .i32) (a1 : Arr F S800000x1 .f32) (a2 : Arr F S50000x1 .f32) : Arr F S800000x4 .f32 :=
  join4 (take1 a2 (wrapCol (edgeSrc a0))) (Host.negf (take1 a2 (wrapCol (edgeSrc a0)))) a1 (Host.negf a1)
def fieldsDst (a0 : Arr F S800000x2 .i32) (a1 : Arr F S800000x1 .f32) (a2 : Arr F S50000x1 .f32) : Arr F S800000x4 .f32 :=
  join4 (Host.negf (take1 a2 (wrapCol (edgeDst a0)))) (take1 a2 (wrapCol (edgeDst a0))) (Host.negf a1) a1

/-- The initial node state. -/
def state0 (a2 : Arr F S50000x1 .f32) (a4 : Arr F S2x64 .f32) (a5 : Arr F S64 .f32) : Arr F S50000x64 .f32 :=
  addf (Host.dotGeneral dot_S50000x2_S2x64_S50000x64_1_0_0_1_n_n none
      (concatenate S50000x2 1 [⟨S50000x1, a2⟩, ⟨S50000x1, Host.negf a2⟩] concatenates_S50000x1_S50000x1_S50000x2_d1) a4)
    (broadcastInDim S50000x64 ![0, 1] bcast_S1x64_S50000x64_0_1 (row64 a5))

/-- The messages summed into their target nodes. -/
def aggregate (a0 : Arr F S800000x2 .i32) (msg : Arr F S800000x64 .f32) : Arr F S50000x64 .f32 :=
  Host.scatterAdd scatter_S50000x64_S800000x1_S800000x64_1_0_0_1
    (broadcastInDim S50000x64 ![] bcast_S_S50000x64 (constant S_ .f32 0x00000000#32)) (plainCol (edgeDst a0)) msg

/-- The messages of one round from the node state. -/
def messages (a0 : Arr F S800000x2 .i32) (a1 : Arr F S800000x1 .f32) (a2 : Arr F S50000x1 .f32)
    (a6 : Arr F S136x64 .f32) (a7 : Arr F S64 .f32) (a8 : Arr F S64x64 .f32) (a9 : Arr F S64 .f32)
    (a10 : Arr F S64x64 .f32) (a11 : Arr F S64 .f32) (s : Arr F S50000x64 .f32) : Arr F S800000x64 .f32 :=
  mlpHost (take64 s (wrapCol (edgeSrc a0))) (fieldsSrc a0 a1 a2) (take64 s (wrapCol (edgeDst a0))) (fieldsDst a0 a1 a2)
    a6 a7 a8 a9 a10 a11

/-- One round of message passing. -/
def round (a0 : Arr F S800000x2 .i32) (a1 : Arr F S800000x1 .f32) (a2 : Arr F S50000x1 .f32)
    (a6 : Arr F S136x64 .f32) (a7 : Arr F S64 .f32) (a8 : Arr F S64x64 .f32) (a9 : Arr F S64 .f32)
    (a10 : Arr F S64x64 .f32) (a11 : Arr F S64 .f32) (a12 : Arr F S64x192 .f32) (a13 : Arr F S192 .f32)
    (a14 : Arr F S64x192 .f32) (a15 : Arr F S192 .f32) (s : Arr F S50000x64 .f32) : Arr F S50000x64 .f32 :=
  gruHost (aggregate a0 (messages a0 a1 a2 a6 a7 a8 a9 a10 a11 s)) s a12 a13 a14 a15

/-- The read-out. -/
def readout (s : Arr F S50000x64 .f32) (a16 : Arr F S64x2 .f32) (a17 : Arr F S2 .f32) : Arr F S50000x2 .f32 :=
  addf (Host.dotGeneral dot_S50000x64_S64x2_S50000x2_1_0_0_1_n_n none s a16)
    (broadcastInDim S50000x2 ![0, 1] bcast_S1x2_S50000x2_0_1 (broadcastInDim S1x2 ![1] bcast_S2_S1x2_1 a17))

/-- The network: three rounds from the initial state, then the read-out. (Argument 3 of the program is not read.) -/
def net (a0 : Arr F S800000x2 .i32) (a1 : Arr F S800000x1 .f32) (a2 : Arr F S50000x1 .f32) (a4 : Arr F S2x64 .f32)
    (a5 : Arr F S64 .f32) (a6 : Arr F S136x64 .f32) (a7 : Arr F S64 .f32) (a8 : Arr F S64x64 .f32) (a9 : Arr F S64 .f32)
    (a10 : Arr F S64x64 .f32) (a11 : Arr F S64 .f32) (a12 : Arr F S64x192 .f32) (a13 : Arr F S192 .f32)
    (a14 : Arr F S64x192 .f32) (a15 : Arr F S192 .f32) (a16 : Arr F S64x2 .f32) (a17 : Arr F S2 .f32) : Arr F S50000x2 .f32 :=
  readout (round a0 a1 a2 a6 a7 a8 a9 a10 a11 a12 a13 a14 a15
    (round a0 a1 a2 a6 a7 a8 a9 a10 a11 a12 a13 a14 a15
      (round a0 a1 a2 a6 a7 a8 a9 a10 a11 a12 a13 a14 a15 (state0 a2 a4 a5)))) a16 a17

end Cert.Spec

end
-- ==== Proof.Val.Stages.lean ====
/-
  What each stretch of host operations of the kernel program leaves in the buffers the later regions and
  stretches read, as a function of the buffer contents the stretch starts from (a variable U): the edge
  index vectors, the two edge-field tables, the initial node state and its rows gathered at both endpoints
  of every edge, the bias vectors laid as one-row tables, the messages summed into their target nodes, the
  state's rows gathered again after each round, and the read-out.
-/
import proofs.«180077_j85650237817340_1_alg».proof.Proof.Gen.KernelIdeal.Launch
import proofs.«180077_j85650237817340_1_alg».proof.Proof.SpecNet
import Idealize.ShloMosaic.Lib.StableHlo.Run

set_option maxRecDepth 8192

noncomputable section

namespace Cert.KernelIdeal.Val

open Cert.KernelIdeal Cert.KernelIdeal.Gen
open Idealize.ShloMosaic Idealize.ShloMosaic.TcCoe Idealize.SL.Sem Idealize.ShloMosaic.StableHlo

variable {F : FTy → Type} [FloatOps F]

/-! ## The first stretch: everything made from the arguments alone -/

set_option maxHeartbeats 4000000 in
theorem h0_v1 (U : Valuation τ sig (Elt F)) :
    StableHlo.after hostOps0 U (Proc.devRef .tc main_v1) = Cert.Spec.edgeSrc (U (Proc.devRef .tc main_arg0)) := by
  after_results_simp
  rfl
set_option maxHeartbeats 4000000 in
theorem h0_v3 (U : Valuation τ sig (Elt F)) :
    StableHlo.after hostOps0 U (Proc.devRef .tc main_v3) = Cert.Spec.edgeDst (U (Proc.devRef .tc main_arg0)) := by
  after_results_simp
  rfl
set_option maxHeartbeats 4000000 in
theorem h0_v20 (U : Valuation τ sig (Elt F)) :
    StableHlo.after hostOps0 U (Proc.devRef .tc main_v20) = Cert.Spec.fieldsSrc (U (Proc.devRef .tc main_arg0)) (U (Proc.devRef .tc main_arg1)) (U (Proc.devRef .tc main_arg2)) := by
  after_results_simp
  rfl
set_option maxHeartbeats 4000000 in
theorem h0_v37 (U : Valuation τ sig (Elt F)) :
    StableHlo.after hostOps0 U (Proc.devRef .tc main_v37) = Cert.Spec.fieldsDst (U (Proc.devRef .tc main_arg0)) (U (Proc.devRef .tc main_arg1)) (U (Proc.devRef .tc main_arg2)) := by
  after_results_simp
  rfl
set_option maxHeartbeats 4000000 in
theorem h0_v43 (U : Valuation τ sig (Elt F)) :
    StableHlo.after hostOps0 U (Proc.devRef .tc main_v43) = Cert.Spec.state0 (U (Proc.devRef .tc main_arg2)) (U (Proc.devRef .tc main_arg4)) (U (Proc.devRef .tc main_arg5)) := by
  after_results_simp
  rfl
set_option maxHeartbeats 4000000 in
theorem h0_v50 (U : Valuation τ sig (Elt F)) :
    StableHlo.after hostOps0 U (Proc.devRef .tc main_v50) = Cert.Spec.take64 (Cert.Spec.state0 (U (Proc.devRef .tc main_arg2)) (U (Proc.devRef .tc main_arg4)) (U (Proc.devRef .tc main_arg5))) (Cert.Spec.wrapCol (Cert.Spec.edgeSrc (U (Proc.devRef .tc main_arg0)))) := by
  after_results_simp
  rfl
set_option maxHeartbeats 4000000 in
theorem h0_v57 (U : Valuation τ sig (Elt F)) :
    StableHlo.after hostOps0 U (Proc.devRef .tc main_v57) = Cert.Spec.take64 (Cert.Spec.state0 (U (Proc.devRef .tc main_arg2)) (U (Proc.devRef .tc main_arg4)) (U (Proc.devRef .tc main_arg5))) (Cert.Spec.wrapCol (Cert.Spec.edgeDst (U (Proc.devRef .tc main_arg0)))) := by
  after_results_simp
  rfl
set_option maxHeartbeats 4000000 in
theorem h0_v58 (U : Valuation τ sig (Elt F)) :
    StableHlo.after hostOps0 U (Proc.devRef .tc main_v58) = shapeCast S1x64 (U (Proc.devRef .tc main_arg7)) shapeCasts_S64_S1x64 := by
  after_results_simp
  rfl
set_option maxHeartbeats 4000000 in
theorem h0_v59 (U : Valuation τ sig (Elt F)) :
    StableHlo.after hostOps0 U (Proc.devRef .tc main_v59) = shapeCast S1x64 (U (Proc.devRef .tc main_arg9)) shapeCasts_S64_S1x64 := by
  after_results_simp
  rfl
set_option maxHeartbeats 4000000 in
theorem h0_v60 (U : Valuation τ sig (Elt F)) :
    StableHlo.after hostOps0 U (Proc.devRef .tc main_v60) = shapeCast S1x64 (U (Proc.devRef .tc main_arg11)) shapeCasts_S64_S1x64 := by
  after_results_simp
  rfl

/-! ## After the edge network of round 1: the messages summed into their target nodes, the two gate biases as rows -/

set_option maxHeartbeats 4000000 in
theorem h1_v64 (U : Valuation τ sig (Elt F)) :
    StableHlo.after hostOps1 U (Proc.devRef .tc main_v64) = Host.scatterAdd scatter_S50000x64_S800000x1_S800000x64_1_0_0_1 (broadcastInDim S50000x64 ![] bcast_S_S50000x64 (constant (F := F) S_ .f32 0x00000000#32)) (Cert.Spec.plainCol (U (Proc.devRef .tc main_v3))) (U (Proc.devRef .tc main_v61)) := by
  after_results_simp
  rfl
set_option maxHeartbeats 4000000 in
theorem h1_v65 (U : Valuation τ sig (Elt F)) :
    StableHlo.after hostOps1 U (Proc.devRef .tc main_v65) = shapeCast S1x192 (U (Proc.devRef .tc main_arg13)) shapeCasts_S192_S1x192 := by
  after_results_simp
  rfl
set_option maxHeartbeats 4000000 in
theorem h1_v66 (U : Valuation τ sig (Elt F)) :
    StableHlo.after hostOps1 U (Proc.devRef .tc main_v66) = shapeCast S1x192 (U (Proc.devRef .tc main_arg15)) shapeCasts_S192_S1x192 := by
  after_results_simp
  rfl

/-! ## After the recurrent update of round 1: the new state's rows at both endpoints of every edge, the three layer biases as rows -/

set_option maxHeartbeats 4000000 in
theorem h2_v74 (U : Valuation τ sig (Elt F)) :
    StableHlo.after hostOps2 U (Proc.devRef .tc main_v74) = Cert.Spec.take64 (U (Proc.devRef .tc main_v67)) (Cert.Spec.wrapCol (U (Proc.devRef .tc main_v1))) := by
  after_results_simp
  rfl
set_option maxHeartbeats 4000000 in
theorem h2_v81 (U : Valuation τ sig (Elt F)) :
    StableHlo.after hostOps2 U (Proc.devRef .tc main_v81) = Cert.Spec.take64 (U (Proc.devRef .tc main_v67)) (Cert.Spec.wrapCol (U (Proc.devRef .tc main_v3))) := by
  after_results_simp
  rfl
set_option maxHeartbeats 4000000 in
theorem h2_v82 (U : Valuation τ sig (Elt F)) :
    StableHlo.after hostOps2 U (Proc.devRef .tc main_v82) = shapeCast S1x64 (U (Proc.devRef .tc main_arg7)) shapeCasts_S64_S1x64 := by
  after_results_simp
  rfl
set_option maxHeartbeats 4000000 in
theorem h2_v83 (U : Valuation τ sig (Elt F)) :
    StableHlo.after hostOps2 U (Proc.devRef .tc main_v83) = shapeCast S1x64 (U (Proc.devRef .tc main_arg9)) shapeCasts_S64_S1x64 := by
  after_results_simp
  rfl
set_option maxHeartbeats 4000000 in
theorem h2_v84 (U : Valuation τ sig (Elt F)) :
    StableHlo.after hostOps2 U (Proc.devRef .tc main_v84) = shapeCast S1x64 (U (Proc.devRef .tc main_arg11)) shapeCasts_S64_S1x64 := by
  after_results_simp
  rfl

/-! ## After the edge network of round 2: the messages summed into their target nodes, the two gate biases as rows -/

set_option maxHeartbeats 4000000 in
theorem h3_v88 (U : Valuation τ sig (Elt F)) :
    StableHlo.after hostOps3 U (Proc.devRef .tc main_v88) = Host.scatterAdd scatter_S50000x64_S800000x1_S800000x64_1_0_0_1 (broadcastInDim S50000x64 ![] bcast_S_S50000x64 (constant (F := F) S_ .f32 0x00000000#32)) (Cert.Spec.plainCol (U (Proc.devRef .tc main_v3))) (U (Proc.devRef .tc main_v85)) := by
  after_results_simp
  rfl
set_option maxHeartbeats 4000000 in
theorem h3_v89 (U : Valuation τ sig (Elt F)) :
    StableHlo.after hostOps3 U (Proc.devRef .tc main_v89) = shapeCast S1x192 (U (Proc.devRef .tc main_arg13)) shapeCasts_S192_S1x192 := by
  after_results_simp
  rfl
set_option maxHeartbeats 4000000 in
theorem h3_v90 (U : Valuation τ sig (Elt F)) :
    StableHlo.after hostOps3 U (Proc.devRef .tc main_v90) = shapeCast S1x192 (U (Proc.devRef .tc main_arg15)) shapeCasts_S192_S1x192 := by
  after_results_simp
  rfl

/-! ## After the recurrent update of round 2: the new state's rows at both endpoints of every edge, the three layer biases as rows -/

set_option maxHeartbeats 4000000 in
theorem h4_v98 (U : Valuation τ sig (Elt F)) :
    StableHlo.after hostOps4 U (Proc.devRef .tc main_v98) = Cert.Spec.take64 (U (Proc.devRef .tc main_v91)) (Cert.Spec.wrapCol (U (Proc.devRef .tc main_v1))) := by
  after_results_simp
  rfl
set_option maxHeartbeats 4000000 in
theorem h4_v105 (U : Valuation τ sig (Elt F)) :
    StableHlo.after hostOps4 U (Proc.devRef .tc main_v105) = Cert.Spec.take64 (U (Proc.devRef .tc main_v91)) (Cert.Spec.wrapCol (U (Proc.devRef .tc main_v3))) := by
  after_results_simp
  rfl
set_option maxHeartbeats 4000000 in
theorem h4_v106 (U : Valuation τ sig (Elt F)) :
    StableHlo.after hostOps4 U (Proc.devRef .tc main_v106) = shapeCast S1x64 (U (Proc.devRef .tc main_arg7)) shapeCasts_S64_S1x64 := by
  after_results_simp
  rfl
set_option maxHeartbeats 4000000 in
theorem h4_v107 (U : Valuation τ sig (Elt F)) :
    StableHlo.after hostOps4 U (Proc.devRef .tc main_v107) = shapeCast S1x64 (U (Proc.devRef .tc main_arg9)) shapeCasts_S64_S1x64 := by
  after_results_simp
  rfl
set_option maxHeartbeats 4000000 in
theorem h4_v108 (U : Valuation τ sig (Elt F)) :
    StableHlo.after hostOps4 U (Proc.devRef .tc main_v108) = shapeCast S1x64 (U (Proc.devRef .tc main_arg11)) shapeCasts_S64_S1x64 := by
  after_results_simp
  rfl

/-! ## After the edge network of round 3: the messages summed into their target nodes, the two gate biases as rows -/

set_option maxHeartbeats 4000000 in
theorem h5_v112 (U : Valuation τ sig (Elt F)) :
    StableHlo.after hostOps5 U (Proc.devRef .tc main_v112) = Host.scatterAdd scatter_S50000x64_S800000x1_S800000x64_1_0_0_1 (broadcastInDim S50000x64 ![] bcast_S_S50000x64 (constant (F := F) S_ .f32 0x00000000#32)) (Cert.Spec.plainCol (U (Proc.devRef .tc main_v3))) (U (Proc.devRef .tc main_v109)) := by
  after_results_simp
  rfl
set_option maxHeartbeats 4000000 in
theorem h5_v113 (U : Valuation τ sig (Elt F)) :
    StableHlo.after hostOps5 U (Proc.devRef .tc main_v113) = shapeCast S1x192 (U (Proc.devRef .tc main_arg13)) shapeCasts_S192_S1x192 := by
  after_results_simp
  rfl
set_option maxHeartbeats 4000000 in
theorem h5_v114 (U : Valuation τ sig (Elt F)) :
    StableHlo.after hostOps5 U (Proc.devRef .tc main_v114) = shapeCast S1x192 (U (Proc.devRef .tc main_arg15)) shapeCasts_S192_S1x192 := by
  after_results_simp
  rfl

/-! ## The last stretch: the read-out -/

set_option maxHeartbeats 4000000 in
theorem h6_v119 (U : Valuation τ sig (Elt F)) :
    StableHlo.after hostOps6 U (Proc.devRef .tc main_v119) = Cert.Spec.readout (U (Proc.devRef .tc main_v115)) (U (Proc.devRef .tc main_arg16)) (U (Proc.devRef .tc main_arg17)) := by
  after_results_simp
  rfl

end Cert.KernelIdeal.Val

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.LibRead2.lean ====
/- Two-dimensional arrays read at an index through the layout operations a tiled kernel is written with: a unit-stride
   slice is the operand at the shifted coordinates, a concatenation along the columns is the piece the column falls in. -/
import Idealize.ShloMosaic.Lib.Pipeline.Value
import Idealize.ShloMosaic.Lib.ValueIdx

noncomputable section

namespace Cert.Read2

open Idealize.ShloMosaic Idealize.ShloMosaic.ValueIdx

variable {α : Type}

/-- A slice of an [a, b] array at offsets (o0, o1), read at (i, j), is the array at (o0 + i, o1 + j). -/
theorem slice2 {a b a' b' : ℕ} (o0 o1 : ℕ) (x : (⟨2, ![a, b]⟩ : Shape).Idx → α)
    (h : (⟨2, ![a, b]⟩ : Shape).Slices ![o0, o1] ⟨2, ![a', b']⟩) (i : Fin a') (j : Fin b')
    (hi : o0 + i.val < a) (hj : o1 + j.val < b) :
    extractStridedSlice ⟨2, ![a', b']⟩ ![o0, o1] x h (ix2 i j) = x (ix2 ⟨o0 + i.val, hi⟩ ⟨o1 + j.val, hj⟩) :=
  extractStridedSlice_apply _ _ _ _ _ (fun ax => by match ax with | ⟨0, _⟩ => rfl | ⟨1, _⟩ => rfl)

/-- Two pieces side by side: a column left of the seam reads the first piece. -/
theorem concat2_left {a b1 b2 b : ℕ} (x1 : (⟨2, ![a, b1]⟩ : Shape).Idx → α) (x2 : (⟨2, ![a, b2]⟩ : Shape).Idx → α)
    (h : Shape.Concatenates [⟨2, ![a, b1]⟩, ⟨2, ![a, b2]⟩] ⟨2, ![a, b]⟩ (1 : Fin 2)) (i : Fin a) (j : Fin b) (hj : j.val < b1) :
    concatenate ⟨2, ![a, b]⟩ (1 : Fin 2) [⟨⟨2, ![a, b1]⟩, x1⟩, ⟨⟨2, ![a, b2]⟩, x2⟩] h (ix2 i j) = x1 (ix2 i ⟨j.val, hj⟩) :=
  concatenate_pair_apply_left (1 : Fin 2) x1 x2 h (ix2 i j) rfl (ix2 i ⟨j.val, hj⟩)
    (fun b => by match b with | ⟨0, _⟩ => rfl | ⟨1, _⟩ => rfl)

/-- Two pieces side by side: a column at or right of the seam reads the second piece, the first width less. -/
theorem concat2_right {a b1 b2 b : ℕ} (x1 : (⟨2, ![a, b1]⟩ : Shape).Idx → α) (x2 : (⟨2, ![a, b2]⟩ : Shape).Idx → α)
    (h : Shape.Concatenates [⟨2, ![a, b1]⟩, ⟨2, ![a, b2]⟩] ⟨2, ![a, b]⟩ (1 : Fin 2)) (i : Fin a) (j : Fin b) (hj : b1 ≤ j.val)
    (hj2 : j.val - b1 < b2) :
    concatenate ⟨2, ![a, b]⟩ (1 : Fin 2) [⟨⟨2, ![a, b1]⟩, x1⟩, ⟨⟨2, ![a, b2]⟩, x2⟩] h (ix2 i j) = x2 (ix2 i ⟨j.val - b1, hj2⟩) :=
  concatenate_pair_apply_right (1 : Fin 2) x1 x2 h (ix2 i j) rfl rfl (ix2 i ⟨j.val - b1, hj2⟩)
    (fun b hb => by match b with | ⟨0, _⟩ => rfl | ⟨1, _⟩ => exact absurd rfl hb)
    (by show j.val - b1 + b1 = j.val; omega)

/-- `N` pieces of one width `w` side by side: column `j` reads piece `j / w` at column `j % w`. -/
theorem concatN {a w b N : ℕ} (hw : 0 < w) (f : Fin N → ((⟨2, ![a, w]⟩ : Shape).Idx → α))
    (h : Shape.Concatenates ((List.ofFn fun n : Fin N => (⟨⟨2, ![a, w]⟩, f n⟩ : (s : Shape) × (s.Idx → α))).map (·.1)) ⟨2, ![a, b]⟩ (1 : Fin 2))
    (i : Fin a) (j : Fin b) (n : Fin N) (hn : j.val / w = n.val) :
    concatenate ⟨2, ![a, b]⟩ (1 : Fin 2) (List.ofFn fun n : Fin N => (⟨⟨2, ![a, w]⟩, f n⟩ : (s : Shape) × (s.Idx → α))) h (ix2 i j)
      = f n (ix2 i ⟨j.val % w, Nat.mod_lt _ hw⟩) :=
  concatenate_ofFn_apply (t := ⟨2, ![a, b]⟩) (s₁ := ⟨2, ![a, w]⟩) (1 : Fin 2) f h rfl w rfl (ix2 i j) n hn (ix2 i ⟨j.val % w, Nat.mod_lt _ hw⟩) rfl
    (fun b hb => by match b with | ⟨0, _⟩ => rfl | ⟨1, _⟩ => exact absurd rfl hb)

/-- Any list of pieces side by side: a column inside piece `k` (the pieces before it `pre` columns wide together) reads
    that piece, `pre` columns less. -/
theorem concatK {a w b : ℕ} (xs : List ((s : Shape) × (s.Idx → α)))
    (h : Shape.Concatenates (xs.map (·.1)) ⟨2, ![a, b]⟩ (1 : Fin 2)) (k : ℕ) (hk : k < xs.length)
    (x₁ : (⟨2, ![a, w]⟩ : Shape).Idx → α) (hxk : xs[k] = ⟨⟨2, ![a, w]⟩, x₁⟩) (pre : ℕ)
    (hpre : (((xs.take k).map (·.1)).map fun s => if h : s.rank = 2 then s.size ((1 : Fin 2).cast h.symm) else 0).sum = pre)
    (i : Fin a) (j : Fin b) (hj : pre ≤ j.val) (hj2 : j.val - pre < w) :
    concatenate ⟨2, ![a, b]⟩ (1 : Fin 2) xs h (ix2 i j) = x₁ (ix2 i ⟨j.val - pre, hj2⟩) :=
  concatenate_apply_piece (t := ⟨2, ![a, b]⟩) (1 : Fin 2) xs h (ix2 i j) k hk ⟨2, ![a, w]⟩ x₁ hxk rfl pre hpre (ix2 i ⟨j.val - pre, hj2⟩)
    (fun b hb => by match b with | ⟨0, _⟩ => rfl | ⟨1, _⟩ => exact absurd rfl hb)
    (by show pre + (j.val - pre) = j.val; omega)

end Cert.Read2

end
-- ==== Proof.Val.MlpPay.lean ====
/-
  The edge network's payload of ONE tile, read at an index, is the whole-array edge network at the tile's row.

  The payload joins four feature blocks of 8000 rows along the feature axis into [8000, 136], multiplies by the
  [136, 64] weights into a zero accumulator, adds the bias row on every row and takes the maximum with zero; a second
  layer of the same form with [64, 64] weights; a third product plus its bias row. Every operation acts on each row by
  itself: row p of the result depends on row p of the four blocks only. The whole-array map is the same three layers on
  [800000, ·] tables. So if row p of each tile block is row i of the corresponding whole array, the payload at (p, q) is
  the whole-array map at (i, q). At the extended reals a change of float format is the identity, and a product into a
  zero accumulator and the host's contraction are the same finite sum over the contracted coordinate.
-/
import proofs.«180077_j85650237817340_1_alg».proof.Proof.Gen.KernelIdeal.Skeleton
import proofs.«180077_j85650237817340_1_alg».proof.Proof.Spec
import proofs.«180077_j85650237817340_1_alg».proof.Proof.LibTileMatmul
import proofs.«180077_j85650237817340_1_alg».proof.Proof.LibRead2
import Idealize.ShloMosaic.Lib.IdealHost

noncomputable section

namespace Cert.Val

open Idealize.ShloMosaic Idealize.ShloMosaic.ValueIdx Idealize.ShloMosaic.TileMatmul
open Cert.KernelIdeal Cert.KernelIdeal.Gen

/-- A one-row table cast to its own shape and repeated down the 8000 rows of a tile reads, at (p, q), entry q of the row. -/
theorem bias_tile (b : FVec Ideal S1x64 .f32) (h : S1x64.ShapeCasts S1x64) (h' : S1x64.Broadcasts S8000x64)
    (p : Fin 8000) (q : Fin 64) :
    broadcastTo S8000x64 (shapeCast S1x64 b h) h' (ix2 p q) = b (ix2 0 q) := by
  rw [shapeCast_self]
  exact broadcastTo_apply b h' (ix2 p q) (ix2 0 q) (fun a => by match a with | ⟨0, _⟩ => rfl | ⟨1, _⟩ => rfl)

/-- The same row repeated down the 800000 rows of the whole table reads, at (i, q), entry q of the row. -/
theorem bias_whole (b : FVec Ideal Cert.ReferenceIdeal.S1x64 .f32) (i : Fin 800000) (q : Fin 64) :
    Cert.Spec.rowsE b (ix2 i q) = b (ix2 0 q) := by
  unfold Cert.Spec.rowsE
  exact broadcastInDim_apply _ _ b (ix2 i q) (ix2 0 q) (fun a => by match a with | ⟨0, _⟩ => rfl | ⟨1, _⟩ => rfl)

/-- The whole table of zeros reads the constant's value everywhere. -/
theorem zeroE_apply (j : Cert.ReferenceIdeal.S800000x64.Idx) :
    Cert.Spec.zeroE (F := Ideal) j = Ideal.ofBits .f32 0x00000000#32 := by
  unfold Cert.Spec.zeroE
  rw [broadcastInDim_scalar_apply]; rfl

/-- The four feature blocks side by side, on one row. If row p of each tile block is row i of the whole block, then
    row p of the joined tile is row i of the joined whole table: column c falls in the same piece on both sides
    (columns 0–63, 64–67, 68–131, 132–135). -/
theorem join_row (x0 x2 : FVec Ideal S8000x64 .f32) (x1 x3 : FVec Ideal S8000x4 .f32)
    (A0 A2 : FVec Ideal Cert.ReferenceIdeal.S800000x64 .f32) (A1 A3 : FVec Ideal Cert.ReferenceIdeal.S800000x4 .f32)
    (hc : Shape.Concatenates [S8000x64, S8000x4, S8000x64, S8000x4] S8000x136 1)
    (p : Fin 8000) (i : Fin 800000)
    (h0 : ∀ k : Fin 64, x0 (ix2 p k) = A0 (ix2 i k)) (h1 : ∀ k : Fin 4, x1 (ix2 p k) = A1 (ix2 i k))
    (h2 : ∀ k : Fin 64, x2 (ix2 p k) = A2 (ix2 i k)) (h3 : ∀ k : Fin 4, x3 (ix2 p k) = A3 (ix2 i k)) (c : Fin 136) :
    concatenate S8000x136 1 [⟨S8000x64, x0⟩, ⟨S8000x4, x1⟩, ⟨S8000x64, x2⟩, ⟨S8000x4, x3⟩] hc (ix2 p c)
      = Cert.Spec.joinE A0 A1 A2 A3 (ix2 i c) := by
  unfold Cert.Spec.joinE
  have hc' := Cert.ReferenceIdeal.Gen.concatenates_S800000x64_S800000x4_S800000x64_S800000x4_S800000x136_d1
  by_cases c0 : c.val < 64
  · exact (Cert.Read2.concatK (w := 64) [⟨S8000x64, x0⟩, ⟨S8000x4, x1⟩, ⟨S8000x64, x2⟩, ⟨S8000x4, x3⟩] hc 0 (by simp)
        x0 rfl 0 rfl p c (Nat.zero_le _) (by omega)).trans
      ((h0 _).trans (Cert.Read2.concatK (w := 64)
        [⟨Cert.ReferenceIdeal.S800000x64, A0⟩, ⟨Cert.ReferenceIdeal.S800000x4, A1⟩, ⟨Cert.ReferenceIdeal.S800000x64, A2⟩,
          ⟨Cert.ReferenceIdeal.S800000x4, A3⟩] hc' 0 (by simp) A0 rfl 0 rfl i c (Nat.zero_le _) (by omega)).symm)
  by_cases c1 : c.val < 68
  · exact (Cert.Read2.concatK (w := 4) [⟨S8000x64, x0⟩, ⟨S8000x4, x1⟩, ⟨S8000x64, x2⟩, ⟨S8000x4, x3⟩] hc 1 (by simp)
        x1 rfl 64 rfl p c (by omega) (by omega)).trans
      ((h1 _).trans (Cert.Read2.concatK (w := 4)
        [⟨Cert.ReferenceIdeal.S800000x64, A0⟩, ⟨Cert.ReferenceIdeal.S800000x4, A1⟩, ⟨Cert.ReferenceIdeal.S800000x64, A2⟩,
          ⟨Cert.ReferenceIdeal.S800000x4, A3⟩] hc' 1 (by simp) A1 rfl 64 rfl i c (by omega) (by omega)).symm)
  by_cases c2 : c.val < 132
  · exact (Cert.Read2.concatK (w := 64) [⟨S8000x64, x0⟩, ⟨S8000x4, x1⟩, ⟨S8000x64, x2⟩, ⟨S8000x4, x3⟩] hc 2 (by simp)
        x2 rfl 68 rfl p c (by omega) (by omega)).trans
      ((h2 _).trans (Cert.Read2.concatK (w := 64)
        [⟨Cert.ReferenceIdeal.S800000x64, A0⟩, ⟨Cert.ReferenceIdeal.S800000x4, A1⟩, ⟨Cert.ReferenceIdeal.S800000x64, A2⟩,
          ⟨Cert.ReferenceIdeal.S800000x4, A3⟩] hc' 2 (by simp) A2 rfl 68 rfl i c (by omega) (by omega)).symm)
  · have := c.isLt
    exact (Cert.Read2.concatK (w := 4) [⟨S8000x64, x0⟩, ⟨S8000x4, x1⟩, ⟨S8000x64, x2⟩, ⟨S8000x4, x3⟩] hc 3 (by simp)
        x3 rfl 132 rfl p c (by omega) (by omega)).trans
      ((h3 _).trans (Cert.Read2.concatK (w := 4)
        [⟨Cert.ReferenceIdeal.S800000x64, A0⟩, ⟨Cert.ReferenceIdeal.S800000x4, A1⟩, ⟨Cert.ReferenceIdeal.S800000x64, A2⟩,
          ⟨Cert.ReferenceIdeal.S800000x4, A3⟩] hc' 3 (by simp) A3 rfl 132 rfl i c (by omega) (by omega)).symm)

/-- One layer before the rectifier, on one row. T is a tile whose row p is row i of X, the weights agree entry by
    entry (their float formats are free), and the bias is the same one-row table: then the tile's product into the
    zero accumulator plus the bias, at (p, q), is the whole product plus the bias at (i, q). -/
theorem lin_row {kk : Nat} {φ₁ φ₂ : FTy}
    (wT : DotDims.WF ⟨2, ![8000, kk]⟩ ⟨2, ![kk, 64]⟩ ⟨2, ![8000, 64]⟩ [1] [0] [0] [1] [] [])
    (wX : DotDims.WF ⟨2, ![800000, kk]⟩ ⟨2, ![kk, 64]⟩ ⟨2, ![800000, 64]⟩ [1] [0] [0] [1] [] [])
    (T : FVec Ideal ⟨2, ![8000, kk]⟩ φ₁) (W : FVec Ideal ⟨2, ![kk, 64]⟩ φ₂)
    (X : FVec Ideal ⟨2, ![800000, kk]⟩ .f32) (W' : FVec Ideal ⟨2, ![kk, 64]⟩ .f32)
    (b : FVec Ideal S1x64 .f32) (h : S1x64.ShapeCasts S1x64) (h' : S1x64.Broadcasts S8000x64)
    (p : Fin 8000) (i : Fin 800000) (q : Fin 64)
    (hT : ∀ c : Fin kk, (T (ix2 p c) : EReal) = X (ix2 i c)) (hW : ∀ c : Fin kk, (W (ix2 c q) : EReal) = W' (ix2 c q)) :
    (addf (matmul (F := Ideal) (plainDims wT) none T W (constant (F := Ideal) ⟨2, ![8000, 64]⟩ .f32 0x00000000#32))
        (broadcastTo S8000x64 (shapeCast S1x64 b h) h') (ix2 p q) : EReal)
      = addf (Host.dotGeneral (F := Ideal) (plainDims wX) none X W') (Cert.Spec.rowsE b) (ix2 i q) := by
  rw [addf_apply, addf_apply, matmul_tile_eq_dotGeneral wT wX none none T W X W' p q i hT hW, bias_tile, bias_whole]

/-- The rectifier on one entry: the maximum with the zero splat on the tile and with the zero table on the whole
    array compare with the same zero. -/
theorem relu_row (u : FVec Ideal S8000x64 .f32) (U : FVec Ideal Cert.ReferenceIdeal.S800000x64 .f32)
    (p : Fin 8000) (i : Fin 800000) (q : Fin 64) (h : u (ix2 p q) = U (ix2 i q)) :
    maximumf u (broadcast S8000x64 (Scalar.ofBits (F := Ideal) .f32 0x00000000#32)) (ix2 p q)
      = maximumf U Cert.Spec.zeroE (ix2 i q) := by
  rw [maximumf_apply, maximumf_apply, zeroE_apply, h]; rfl

/-- The payload on one row. If row p of each of the four tile blocks is row i of the corresponding whole array, the
    payload at (p, q) is the whole-array edge network at (i, q): the three layers are met one after the other, each as a
    product of a row with the weights plus the bias entry, the first two followed by the maximum with zero; a change of
    float format is the identity at the extended reals. -/
theorem mlp_pay_row (x0 x2 : Vec Ideal S8000x64 .f32) (x1 x3 : Vec Ideal S8000x4 .f32)
    (A0 A2 : FVec Ideal Cert.ReferenceIdeal.S800000x64 .f32) (A1 A3 : FVec Ideal Cert.ReferenceIdeal.S800000x4 .f32)
    (W1 : FVec Ideal S136x64 .f32) (b1 : FVec Ideal S1x64 .f32) (W2 : FVec Ideal S64x64 .f32) (b2 : FVec Ideal S1x64 .f32)
    (W3 : FVec Ideal S64x64 .f32) (b3 : FVec Ideal S1x64 .f32)
    (p : Fin 8000) (i : Fin 800000)
    (h0 : ∀ k : Fin 64, x0 (ix2 p k) = A0 (ix2 i k)) (h1 : ∀ k : Fin 4, x1 (ix2 p k) = A1 (ix2 i k))
    (h2 : ∀ k : Fin 64, x2 (ix2 p k) = A2 (ix2 i k)) (h3 : ∀ k : Fin 4, x3 (ix2 p k) = A3 (ix2 i k)) (q : Fin 64) :
    k0_pay1 (F := Ideal) (k0_pay2 x0 x1 x2 x3 W1 b1 W2 b2 W3) b3 (ix2 p q)
      = Cert.Spec.mlpRows A0 A1 A2 A3 W1 b1 W2 b2 W3 b3 (ix2 i q) := by
  unfold k0_pay1 k0_pay2 Cert.Spec.mlpRows Cert.Spec.lin64 Cert.Spec.lin1
  dsimp only
  -- third layer: its left operand is the second layer's rectified row
  refine lin_row _ _ _ _ _ _ b3 _ _ p i q (fun c => ?_) (fun _ => rfl)
  refine (truncf_apply (φ := .f32) (ψ := .bf16) _ bitsLt_bf16_f32 (ix2 p c)).trans ?_
  refine relu_row _ _ p i c ?_
  -- second layer: its left operand is the first layer's rectified row
  refine lin_row _ _ _ _ _ _ b2 _ _ p i c (fun c' => ?_) (fun _ => rfl)
  refine (truncf_apply (φ := .f32) (ψ := .bf16) _ bitsLt_bf16_f32 (ix2 p c')).trans ?_
  refine relu_row _ _ p i c' ?_
  -- first layer: its left operand is the joined row
  refine lin_row _ _ _ _ _ _ b1 _ _ p i c' (fun c'' => ?_) (fun _ => rfl)
  refine (truncf_apply (φ := .f32) (ψ := .bf16) _ bitsLt_bf16_f32 (ix2 p c'')).trans ?_
  exact join_row _ _ _ _ A0 A2 A1 A3 _ p i
    (fun k => (congrFun (shapeCast_self x0 _) _).trans (h0 k)) (fun k => (congrFun (shapeCast_self x1 _) _).trans (h1 k))
    (fun k => (congrFun (shapeCast_self x2 _) _).trans (h2 k)) (fun k => (congrFun (shapeCast_self x3 _) _).trans (h3 k)) c''

/-- Row p of tile t is row 8000 * t + p of the whole array, which has 100 * 8000 rows. -/
theorem tile_row_lt (t : Fin 100) (p : Fin 8000) : 8000 * t.val + p.val < 800000 := by
  have := t.isLt; have := p.isLt; omega

/-- The payload of tile t at (p, q): the tile blocks being rows 8000 * t … 8000 * t + 7999 of the whole arrays, it is
    the whole-array edge network at (8000 * t + p, q). -/
theorem mlp_pay_apply
    (A0 A2 : FVec Ideal Cert.ReferenceIdeal.S800000x64 .f32) (A1 A3 : FVec Ideal Cert.ReferenceIdeal.S800000x4 .f32)
    (W1 : FVec Ideal S136x64 .f32) (b1 : FVec Ideal S1x64 .f32) (W2 : FVec Ideal S64x64 .f32) (b2 : FVec Ideal S1x64 .f32)
    (W3 : FVec Ideal S64x64 .f32) (b3 : FVec Ideal S1x64 .f32) (t : Fin 100)
    (x0 x2 : Vec Ideal S8000x64 .f32) (x1 x3 : Vec Ideal S8000x4 .f32)
    (h0 : ∀ (p : Fin 8000) (k : Fin 64), x0 (ix2 p k) = A0 (ix2 ⟨8000 * t.val + p.val, tile_row_lt t p⟩ k))
    (h1 : ∀ (p : Fin 8000) (k : Fin 4), x1 (ix2 p k) = A1 (ix2 ⟨8000 * t.val + p.val, tile_row_lt t p⟩ k))
    (h2 : ∀ (p : Fin 8000) (k : Fin 64), x2 (ix2 p k) = A2 (ix2 ⟨8000 * t.val + p.val, tile_row_lt t p⟩ k))
    (h3 : ∀ (p : Fin 8000) (k : Fin 4), x3 (ix2 p k) = A3 (ix2 ⟨8000 * t.val + p.val, tile_row_lt t p⟩ k))
    (p : Fin 8000) (q : Fin 64) :
    k0_pay1 (F := Ideal) (k0_pay2 x0 x1 x2 x3 W1 b1 W2 b2 W3) b3 (ix2 p q)
      = Cert.Spec.mlpRows A0 A1 A2 A3 W1 b1 W2 b2 W3 b3 (ix2 ⟨8000 * t.val + p.val, tile_row_lt t p⟩ q) :=
  mlp_pay_row x0 x2 x1 x3 A0 A2 A1 A3 W1 b1 W2 b2 W3 b3 p ⟨8000 * t.val + p.val, tile_row_lt t p⟩
    (h0 p) (h1 p) (h2 p) (h3 p) q

/-! The second and third copies of the kernel have the same payloads, operation for operation. -/

theorem k2_pay2_eq : @k2_pay2 = @k0_pay2 := rfl
theorem k2_pay1_eq : @k2_pay1 = @k0_pay1 := rfl
theorem k4_pay2_eq : @k4_pay2 = @k0_pay2 := rfl
theorem k4_pay1_eq : @k4_pay1 = @k0_pay1 := rfl

end Cert.Val

end
-- ==== Proof.Val.Mlp0Arr.lean ====
/-
  Region 0 of the program (the edge network's kernel on a grid of 100 points, 8000 rows of edges per point): the array its
  output window writes, after the region, is the whole-array edge network of the ten arrays its input windows read.

  Point t stores into the output window's buffer the payload of its ten blocks. The six weight and bias windows have the
  constant block index (0, 0) and a block of the size of their array, so their block is the array. The four feature
  windows and the output window have block index (t, 0) and blocks of 8000 rows, so row p of a block is row
  8000 * t + p of the array; there the payload is the whole-array map (the payload acts on each row by itself). So what
  point t writes back is block t of the whole-array map, and the 100 blocks cover the 800000 rows: row r is in block
  r / 8000. All of it holds for any contents the region may find in its arrays.
-/
import proofs.«180077_j85650237817340_1_alg».proof.Proof.KI.Mlp0Def
import proofs.«180077_j85650237817340_1_alg».proof.Proof.Val.MlpPay
import Idealize.ShloMosaic.Lib.Pipeline.Value
import Idealize.ShloMosaic.Lib.Tactic

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The whole-block rectangles start at the origin. -/
theorem hz0 : (![0, 0] : Fin 2 → Nat) = fun _ => 0 := funext fun a => by fin_cases a <;> rfl

/-- The printed index maps, decided once over the 100 grid points: the four feature windows and the output window
    take block t along the rows and block 0 along the columns; the six weight and bias windows take block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_10.index t (0 : Fin 2) = t.val ∧ win0_10.index t (1 : Fin 2) = 0 :=
  (by decide +kernel : ∀ t : Fin grid0.N, _)

theorem idx_const0 : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- A grid point's number is below 100. -/
theorem point_lt0 (t : Fin cfg0.N) : t.val < 100 := Nat.lt_of_lt_of_eq t.isLt N_0

/-! ## A window's block of a VARIABLE table, read at an index

  The window's block at point t reads the table through the rectangle at offsets (block index × block size) with unit
  strides; with the decided block indices this is row 8000 * t + p for the four feature windows and the output window,
  and the table itself for the six weight and bias windows. Stated over a variable table so that no array of the
  program is opened. -/

/-- Window 0: block t of a [800000, 64] table at (p, k) is the table at (8000 * t + p, k). -/
theorem blk0_0_apply (t : Fin cfg0.N) (G : FVec Ideal S800000x64 .f32) (p : Fin 8000) (k : Fin 64)
    (h : 8000 * t.val + p.val < 800000) :
    (((cfg0.win 0).blk t).view.read (Elt Ideal) G : Vec Ideal S8000x64 .f32) (ix2 p k) = G (ix2 ⟨8000 * t.val + p.val, h⟩ k) := by
  obtain ⟨e0, e1, -⟩ := idx_facts0 t
  show G (((cfg0.win 0).blk t).view.emb (ix2 p k)) = G _
  refine congrArg G (funext fun a => Fin.ext ?_)
  match a with
  | ⟨0, _⟩ => show win0_0.index t (0 : Fin 2) * 8000 + 1 * p.val = 8000 * t.val + p.val; rw [e0]; omega
  | ⟨1, _⟩ => show win0_0.index t (1 : Fin 2) * 64 + 1 * k.val = k.val; rw [e1]; omega

/-- Window 1: block t of a [800000, 4] table at (p, k) is the table at (8000 * t + p, k). -/
theorem blk0_1_apply (t : Fin cfg0.N) (G : FVec Ideal S800000x4 .f32) (p : Fin 8000) (k : Fin 4)
    (h : 8000 * t.val + p.val < 800000) :
    (((cfg0.win 1).blk t).view.read (Elt Ideal) G : Vec Ideal S8000x4 .f32) (ix2 p k) = G (ix2 ⟨8000 * t.val + p.val, h⟩ k) := by
  obtain ⟨-, -, e0, e1, -⟩ := idx_facts0 t
  show G (((cfg0.win 1).blk t).view.emb (ix2 p k)) = G _
  refine congrArg G (funext fun a => Fin.ext ?_)
  match a with
  | ⟨0, _⟩ => show win0_1.index t (0 : Fin 2) * 8000 + 1 * p.val = 8000 * t.val + p.val; rw [e0]; omega
  | ⟨1, _⟩ => show win0_1.index t (1 : Fin 2) * 4 + 1 * k.val = k.val; rw [e1]; omega

/-- Window 2: as window 0. -/
theorem blk0_2_apply (t : Fin cfg0.N) (G : FVec Ideal S800000x64 .f32) (p : Fin 8000) (k : Fin 64)
    (h : 8000 * t.val + p.val < 800000) :
    (((cfg0.win 2).blk t).view.read (Elt Ideal) G : Vec Ideal S8000x64 .f32) (ix2 p k) = G (ix2 ⟨8000 * t.val + p.val, h⟩ k) := by
  obtain ⟨-, -, -, -, e0, e1, -⟩ := idx_facts0 t
  show G (((cfg0.win 2).blk t).view.emb (ix2 p k)) = G _
  refine congrArg G (funext fun a => Fin.ext ?_)
  match a with
  | ⟨0, _⟩ => show win0_2.index t (0 : Fin 2) * 8000 + 1 * p.val = 8000 * t.val + p.val; rw [e0]; omega
  | ⟨1, _⟩ => show win0_2.index t (1 : Fin 2) * 64 + 1 * k.val = k.val; rw [e1]; omega

/-- Window 3: as window 1. -/
theorem blk0_3_apply (t : Fin cfg0.N) (G : FVec Ideal S800000x4 .f32) (p : Fin 8000) (k : Fin 4)
    (h : 8000 * t.val + p.val < 800000) :
    (((cfg0.win 3).blk t).view.read (Elt Ideal) G : Vec Ideal S8000x4 .f32) (ix2 p k) = G (ix2 ⟨8000 * t.val + p.val, h⟩ k) := by
  obtain ⟨-, -, -, -, -, -, e0, e1, -⟩ := idx_facts0 t
  show G (((cfg0.win 3).blk t).view.emb (ix2 p k)) = G _
  refine congrArg G (funext fun a => Fin.ext ?_)
  match a with
  | ⟨0, _⟩ => show win0_3.index t (0 : Fin 2) * 8000 + 1 * p.val = 8000 * t.val + p.val; rw [e0]; omega
  | ⟨1, _⟩ => show win0_3.index t (1 : Fin 2) * 4 + 1 * k.val = k.val; rw [e1]; omega

/-- Window 4 (first weights): block (0, 0) of the size of the table is the table. -/
theorem blk0_4_eq (t : Fin cfg0.N) (G : FVec Ideal S136x64 .f32) :
    (((cfg0.win 4).blk t).view.read (Elt Ideal) G : Vec Ideal S136x64 .f32) = G := by
  obtain ⟨e0, e1, -⟩ := idx_const0 t
  refine funext fun (j : S136x64.Idx) => ?_
  show G (((cfg0.win 4).blk t).view.emb j) = G j
  refine congrArg G (funext fun a => Fin.ext ?_)
  match a with
  | ⟨0, _⟩ => show win0_4.index t (0 : Fin 2) * 136 + 1 * (j 0).val = (j 0).val; rw [e0]; omega
  | ⟨1, _⟩ => show win0_4.index t (1 : Fin 2) * 64 + 1 * (j 1).val = (j 1).val; rw [e1]; omega

/-- Window 5 (first bias row). -/
theorem blk0_5_eq (t : Fin cfg0.N) (G : FVec Ideal S1x64 .f32) :
    (((cfg0.win 5).blk t).view.read (Elt Ideal) G : Vec Ideal S1x64 .f32) = G := by
  obtain ⟨-, -, e0, e1, -⟩ := idx_const0 t
  refine funext fun (j : S1x64.Idx) => ?_
  show G (((cfg0.win 5).blk t).view.emb j) = G j
  refine congrArg G (funext fun a => Fin.ext ?_)
  match a with
  | ⟨0, _⟩ => show win0_5.index t (0 : Fin 2) * 1 + 1 * (j 0).val = (j 0).val; rw [e0]; omega
  | ⟨1, _⟩ => show win0_5.index t (1 : Fin 2) * 64 + 1 * (j 1).val = (j 1).val; rw [e1]; omega

/-- Window 6 (second weights). -/
theorem blk0_6_eq (t : Fin cfg0.N) (G : FVec Ideal S64x64 .f32) :
    (((cfg0.win 6).blk t).view.read (Elt Ideal) G : Vec Ideal S64x64 .f32) = G := by
  obtain ⟨-, -, -, -, e0, e1, -⟩ := idx_const0 t
  refine funext fun (j : S64x64.Idx) => ?_
  show G (((cfg0.win 6).blk t).view.emb j) = G j
  refine congrArg G (funext fun a => Fin.ext ?_)
  match a with
  | ⟨0, _⟩ => show win0_6.index t (0 : Fin 2) * 64 + 1 * (j 0).val = (j 0).val; rw [e0]; omega
  | ⟨1, _⟩ => show win0_6.index t (1 : Fin 2) * 64 + 1 * (j 1).val = (j 1).val; rw [e1]; omega

/-- Window 7 (second bias row). -/
theorem blk0_7_eq (t : Fin cfg0.N) (G : FVec Ideal S1x64 .f32) :
    (((cfg0.win 7).blk t).view.read (Elt Ideal) G : Vec Ideal S1x64 .f32) = G := by
  obtain ⟨-, -, -, -, -, -, e0, e1, -⟩ := idx_const0 t
  refine funext fun (j : S1x64.Idx) => ?_
  show G (((cfg0.win 7).blk t).view.emb j) = G j
  refine congrArg G (funext fun a => Fin.ext ?_)
  match a with
  | ⟨0, _⟩ => show win0_7.index t (0 : Fin 2) * 1 + 1 * (j 0).val = (j 0).val; rw [e0]; omega
  | ⟨1, _⟩ => show win0_7.index t (1 : Fin 2) * 64 + 1 * (j 1).val = (j 1).val; rw [e1]; omega

/-- Window 8 (third weights). -/
theorem blk0_8_eq (t : Fin cfg0.N) (G : FVec Ideal S64x64 .f32) :
    (((cfg0.win 8).blk t).view.read (Elt Ideal) G : Vec Ideal S64x64 .f32) = G := by
  obtain ⟨-, -, -, -, -, -, -, -, e0, e1, -⟩ := idx_const0 t
  refine funext fun (j : S64x64.Idx) => ?_
  show G (((cfg0.win 8).blk t).view.emb j) = G j
  refine congrArg G (funext fun a => Fin.ext ?_)
  match a with
  | ⟨0, _⟩ => show win0_8.index t (0 : Fin 2) * 64 + 1 * (j 0).val = (j 0).val; rw [e0]; omega
  | ⟨1, _⟩ => show win0_8.index t (1 : Fin 2) * 64 + 1 * (j 1).val = (j 1).val; rw [e1]; omega

/-- Window 9 (third bias row). -/
theorem blk0_9_eq (t : Fin cfg0.N) (G : FVec Ideal S1x64 .f32) :
    (((cfg0.win 9).blk t).view.read (Elt Ideal) G : Vec Ideal S1x64 .f32) = G := by
  obtain ⟨-, -, -, -, -, -, -, -, -, -, e0, e1⟩ := idx_const0 t
  refine funext fun (j : S1x64.Idx) => ?_
  show G (((cfg0.win 9).blk t).view.emb j) = G j
  refine congrArg G (funext fun a => Fin.ext ?_)
  match a with
  | ⟨0, _⟩ => show win0_9.index t (0 : Fin 2) * 1 + 1 * (j 0).val = (j 0).val; rw [e0]; omega
  | ⟨1, _⟩ => show win0_9.index t (1 : Fin 2) * 64 + 1 * (j 1).val = (j 1).val; rw [e1]; omega

/-- The output window: a tile X of 8000 rows whose row p is row 8000 * t + p of a table G is, as what point t writes
    back, block t of G. -/
theorem out_blk0_eq (t : Fin cfg0.N) (X : Vec Ideal S8000x64 .f32) (G : FVec Ideal S800000x64 .f32)
    (h : ∀ (p : Fin 8000) (q : Fin 64),
      X (ix2 p q) = G (ix2 ⟨8000 * t.val + p.val, tile_row_lt ⟨t.val, point_lt0 t⟩ p⟩ q)) :
    (cfg0.win 10).cut (grid0.coords t) X = ((cfg0.win 10).blk t).view.read (Elt Ideal) G := by
  obtain ⟨-, -, -, -, -, -, -, -, e0, e1⟩ := idx_facts0 t
  refine funext fun (j : S8000x64.Idx) => ?_
  show X j = G (((cfg0.win 10).blk t).view.emb j)
  refine (congrArg X (eq_ix2 j)).trans ((h (j 0) (j 1)).trans (congrArg G (funext fun a => Fin.ext ?_)))
  match a with
  | ⟨0, _⟩ => show 8000 * t.val + (j 0).val = win0_10.index t (0 : Fin 2) * 8000 + 1 * (j 0).val; rw [e0]; omega
  | ⟨1, _⟩ => show (j 1).val = win0_10.index t (1 : Fin 2) * 64 + 1 * (j 1).val; rw [e1]; omega

/-! ## From blocks to the array -/

variable (V : (c : Dev nD) → (b : Ref sig .tc) → Buf (Elt Ideal) ((c : Thread nD τ).loc b))

/-- The edge network of the ten arrays the region's input windows read, as the region finds them. -/
abbrev mlpOf0 (c : Dev nD) : FVec Ideal S800000x64 .f32 :=
  Cert.Spec.mlpRows (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (V c (Pipeline.arrRef spec0 6)) (V c (Pipeline.arrRef spec0 7)) (V c (Pipeline.arrRef spec0 8))
    (V c (Pipeline.arrRef spec0 9))

-- each of the ten arrays is met at its literal table type several times; the default elaboration budget is too small
set_option maxHeartbeats 1000000 in
/-- WHAT POINT t WRITES BACK is block t of the edge network of the whole arrays: the body stores the payload of the
    ten blocks, the six weight and bias blocks are their arrays, and row p of each feature block is row 8000 * t + p of
    its array, where the payload is the whole-array map. -/
theorem flushed0_eq (c : Dev nD) (t : Fin cfg0.N) :
    (dat0 V c).flushed 10 t = ((cfg0.win 10).blk t).view.read (Elt Ideal) (mlpOf0 V c) := by
  show (cfg0.win 10).cut (grid0.coords t) ((dat0 V c).after 10 t) = _
  rw [after0_10]
  unfold out0_10
  rw [View.canon_unit_zero hz0]
  simp only [View.ld_unit_zero (S := S8000x64) hz0, View.ld_unit_zero (S := S8000x4) hz0,
    View.ld_unit_zero (S := S136x64) hz0, View.ld_unit_zero (S := S1x64) hz0, View.ld_unit_zero (S := S64x64) hz0]
  refine out_blk0_eq t _ _ (fun p q => ?_)
  rw [show (iblk0 V c 4 t : Vec Ideal S136x64 .f32) = V c (Pipeline.arrRef spec0 4) from blk0_4_eq t _,
    show (iblk0 V c 5 t : Vec Ideal S1x64 .f32) = V c (Pipeline.arrRef spec0 5) from blk0_5_eq t _,
    show (iblk0 V c 6 t : Vec Ideal S64x64 .f32) = V c (Pipeline.arrRef spec0 6) from blk0_6_eq t _,
    show (iblk0 V c 7 t : Vec Ideal S1x64 .f32) = V c (Pipeline.arrRef spec0 7) from blk0_7_eq t _,
    show (iblk0 V c 8 t : Vec Ideal S64x64 .f32) = V c (Pipeline.arrRef spec0 8) from blk0_8_eq t _,
    show (iblk0 V c 9 t : Vec Ideal S1x64 .f32) = V c (Pipeline.arrRef spec0 9) from blk0_9_eq t _]
  exact mlp_pay_row (iblk0 V c 0 t) (iblk0 V c 2 t) (iblk0 V c 1 t) (iblk0 V c 3 t)
    (V c (Pipeline.arrRef spec0 0)) (V c (Pipeline.arrRef spec0 2)) (V c (Pipeline.arrRef spec0 1)) (V c (Pipeline.arrRef spec0 3))
    (V c (Pipeline.arrRef spec0 4)) (V c (Pipeline.arrRef spec0 5)) (V c (Pipeline.arrRef spec0 6)) (V c (Pipeline.arrRef spec0 7))
    (V c (Pipeline.arrRef spec0 8)) (V c (Pipeline.arrRef spec0 9))
    p ⟨8000 * t.val + p.val, tile_row_lt ⟨t.val, point_lt0 t⟩ p⟩
    (fun k => blk0_0_apply t (V c (Pipeline.arrRef spec0 0)) p k _) (fun k => blk0_1_apply t (V c (Pipeline.arrRef spec0 1)) p k _)
    (fun k => blk0_2_apply t (V c (Pipeline.arrRef spec0 2)) p k _) (fun k => blk0_3_apply t (V c (Pipeline.arrRef spec0 3)) p k _) q

/-- Every row of the output array is in some point's block: row r in block r / 8000. -/
theorem cover0 (i : S800000x64.Idx) :
    ∃ t : Fin cfg0.N, (cfg0.win 10).flush t = true ∧ i ∈ ((cfg0.win 10).blk t).view.set := by
  have hi0 : (i 0).val < 800000 := (i 0).isLt
  have hi1 : (i 1).val < 64 := (i 1).isLt
  have hN : cfg0.N = 100 := N_0
  have ht : (i 0).val / 8000 < cfg0.N := by rw [hN]; omega
  obtain ⟨-, -, -, -, -, -, -, -, e0, e1⟩ := idx_facts0 ⟨(i 0).val / 8000, ht⟩
  refine ⟨⟨(i 0).val / 8000, ht⟩, flush0_10 _, ?_⟩
  show i ∈ ((View.whole main_v61).slice (win0_10.rect ⟨(i 0).val / 8000, ht⟩)).set
  rw [View.set_slice_whole, Rect.mem_set_unit]
  intro a
  match a with
  | ⟨0, _⟩ =>
    show win0_10.index ⟨(i 0).val / 8000, ht⟩ (0 : Fin 2) * 8000 ≤ (i 0).val
      ∧ (i 0).val < win0_10.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_10.index ⟨(i 0).val / 8000, ht⟩ (1 : Fin 2) * 64 ≤ (i 1).val
      ∧ (i 1).val < win0_10.index ⟨(i 0).val / 8000, ht⟩ (1 : Fin 2) * 64 + 64
    rw [e1]; omega

/-- THE OUTPUT ARRAY after the region: the edge network of the ten arrays the input windows read, whatever the
    region-entry contents are. -/
theorem mlp0_arr (c : Dev nD) :
    @Eq (FVec Ideal S800000x64 .f32) ((dat0 (F := Ideal) V c).arrAt 10 cfg0.N)
      (Cert.Spec.mlpRows (F := Ideal) (V c (Pipeline.arrRef spec0 0)) (V c (Pipeline.arrRef spec0 1))
        (V c (Pipeline.arrRef spec0 2)) (V c (Pipeline.arrRef spec0 3)) (V c (Pipeline.arrRef spec0 4))
        (V c (Pipeline.arrRef spec0 5)) (V c (Pipeline.arrRef spec0 6)) (V c (Pipeline.arrRef spec0 7))
        (V c (Pipeline.arrRef spec0 8)) (V c (Pipeline.arrRef spec0 9))) :=
  (dat0 V c).arrAt_eq_of_cover 10 (mlpOf0 V c) (fun t _ => flushed0_eq V c t) (fun i => cover0 i)

end Cert.Val

end
-- ==== Proof.Val.Mlp2Arr.lean ====
/-
  Region 2 of the program (the edge network's kernel on a grid of 100 points, 8000 rows of edges per point): the array its
  output window writes, after the region, is the whole-array edge network of the ten arrays its input windows read.

  Point t stores into the output window's buffer the payload of its ten blocks. The six weight and bias windows have the
  constant block index (0, 0) and a block of the size of their array, so their block is the array. The four feature
  windows and the output window have block index (t, 0) and blocks of 8000 rows, so row p of a block is row
  8000 * t + p of the array; there the payload is the whole-array map (the payload acts on each row by itself). So what
  point t writes back is block t of the whole-array map, and the 100 blocks cover the 800000 rows: row r is in block
  r / 8000. All of it holds for any contents the region may find in its arrays.
-/
import proofs.«180077_j85650237817340_1_alg».proof.Proof.KI.Mlp2Def
import proofs.«180077_j85650237817340_1_alg».proof.Proof.Val.MlpPay
import Idealize.ShloMosaic.Lib.Pipeline.Value
import Idealize.ShloMosaic.Lib.Tactic

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The whole-block rectangles start at the origin. -/
theorem hz2 : (![0, 0] : Fin 2 → Nat) = fun _ => 0 := funext fun a => by fin_cases a <;> rfl

/-- The printed index maps, decided once over the 100 grid points: the four feature windows and the output window
    take block t along the rows and block 0 along the columns; the six weight and bias windows take block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_10.index t (0 : Fin 2) = t.val ∧ win2_10.index t (1 : Fin 2) = 0 :=
  (by decide +kernel : ∀ t : Fin grid2.N, _)

theorem idx_const2 : ∀ t : Fin cfg2.N,
    win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

/-- A grid point's number is below 100. -/
theorem point_lt2 (t : Fin cfg2.N) : t.val < 100 := Nat.lt_of_lt_of_eq t.isLt N_2

/-! ## A window's block of a VARIABLE table, read at an index

  The window's block at point t reads the table through the rectangle at offsets (block index × block size) with unit
  strides; with the decided block indices this is row 8000 * t + p for the four feature windows and the output window,
  and the table itself for the six weight and bias windows. Stated over a variable table so that no array of the
  program is opened. -/

/-- Window 0: block t of a [800000, 64] table at (p, k) is the table at (8000 * t + p, k). -/
theorem blk2_0_apply (t : Fin cfg2.N) (G : FVec Ideal S800000x64 .f32) (p : Fin 8000) (k : Fin 64)
    (h : 8000 * t.val + p.val < 800000) :
    (((cfg2.win 0).blk t).view.read (Elt Ideal) G : Vec Ideal S8000x64 .f32) (ix2 p k) = G (ix2 ⟨8000 * t.val + p.val, h⟩ k) := by
  obtain ⟨e0, e1, -⟩ := idx_facts2 t
  show G (((cfg2.win 0).blk t).view.emb (ix2 p k)) = G _
  refine congrArg G (funext fun a => Fin.ext ?_)
  match a with
  | ⟨0, _⟩ => show win2_0.index t (0 : Fin 2) * 8000 + 1 * p.val = 8000 * t.val + p.val; rw [e0]; omega
  | ⟨1, _⟩ => show win2_0.index t (1 : Fin 2) * 64 + 1 * k.val = k.val; rw [e1]; omega

/-- Window 1: block t of a [800000, 4] table at (p, k) is the table at (8000 * t + p, k). -/
theorem blk2_1_apply (t : Fin cfg2.N) (G : FVec Ideal S800000x4 .f32) (p : Fin 8000) (k : Fin 4)
    (h : 8000 * t.val + p.val < 800000) :
    (((cfg2.win 1).blk t).view.read (Elt Ideal) G : Vec Ideal S8000x4 .f32) (ix2 p k) = G (ix2 ⟨8000 * t.val + p.val, h⟩ k) := by
  obtain ⟨-, -, e0, e1, -⟩ := idx_facts2 t
  show G (((cfg2.win 1).blk t).view.emb (ix2 p k)) = G _
  refine congrArg G (funext fun a => Fin.ext ?_)
  match a with
  | ⟨0, _⟩ => show win2_1.index t (0 : Fin 2) * 8000 + 1 * p.val = 8000 * t.val + p.val; rw [e0]; omega
  | ⟨1, _⟩ => show win2_1.index t (1 : Fin 2) * 4 + 1 * k.val = k.val; rw [e1]; omega

/-- Window 2: as window 0. -/
theorem blk2_2_apply (t : Fin cfg2.N) (G : FVec Ideal S800000x64 .f32) (p : Fin 8000) (k : Fin 64)
    (h : 8000 * t.val + p.val < 800000) :
    (((cfg2.win 2).blk t).view.read (Elt Ideal) G : Vec Ideal S8000x64 .f32) (ix2 p k) = G (ix2 ⟨8000 * t.val + p.val, h⟩ k) := by
  obtain ⟨-, -, -, -, e0, e1, -⟩ := idx_facts2 t
  show G (((cfg2.win 2).blk t).view.emb (ix2 p k)) = G _
  refine congrArg G (funext fun a => Fin.ext ?_)
  match a with
  | ⟨0, _⟩ => show win2_2.index t (0 : Fin 2) * 8000 + 1 * p.val = 8000 * t.val + p.val; rw [e0]; omega
  | ⟨1, _⟩ => show win2_2.index t (1 : Fin 2) * 64 + 1 * k.val = k.val; rw [e1]; omega

/-- Window 3: as window 1. -/
theorem blk2_3_apply (t : Fin cfg2.N) (G : FVec Ideal S800000x4 .f32) (p : Fin 8000) (k : Fin 4)
    (h : 8000 * t.val + p.val < 800000) :
    (((cfg2.win 3).blk t).view.read (Elt Ideal) G : Vec Ideal S8000x4 .f32) (ix2 p k) = G (ix2 ⟨8000 * t.val + p.val, h⟩ k) := by
  obtain ⟨-, -, -, -, -, -, e0, e1, -⟩ := idx_facts2 t
  show G (((cfg2.win 3).blk t).view.emb (ix2 p k)) = G _
  refine congrArg G (funext fun a => Fin.ext ?_)
  match a with
  | ⟨0, _⟩ => show win2_3.index t (0 : Fin 2) * 8000 + 1 * p.val = 8000 * t.val + p.val; rw [e0]; omega
  | ⟨1, _⟩ => show win2_3.index t (1 : Fin 2) * 4 + 1 * k.val = k.val; rw [e1]; omega

/-- Window 4 (first weights): block (0, 0) of the size of the table is the table. -/
theorem blk2_4_eq (t : Fin cfg2.N) (G : FVec Ideal S136x64 .f32) :
    (((cfg2.win 4).blk t).view.read (Elt Ideal) G : Vec Ideal S136x64 .f32) = G := by
  obtain ⟨e0, e1, -⟩ := idx_const2 t
  refine funext fun (j : S136x64.Idx) => ?_
  show G (((cfg2.win 4).blk t).view.emb j) = G j
  refine congrArg G (funext fun a => Fin.ext ?_)
  match a with
  | ⟨0, _⟩ => show win2_4.index t (0 : Fin 2) * 136 + 1 * (j 0).val = (j 0).val; rw [e0]; omega
  | ⟨1, _⟩ => show win2_4.index t (1 : Fin 2) * 64 + 1 * (j 1).val = (j 1).val; rw [e1]; omega

/-- Window 5 (first bias row). -/
theorem blk2_5_eq (t : Fin cfg2.N) (G : FVec Ideal S1x64 .f32) :
    (((cfg2.win 5).blk t).view.read (Elt Ideal) G : Vec Ideal S1x64 .f32) = G := by
  obtain ⟨-, -, e0, e1, -⟩ := idx_const2 t
  refine funext fun (j : S1x64.Idx) => ?_
  show G (((cfg2.win 5).blk t).view.emb j) = G j
  refine congrArg G (funext fun a => Fin.ext ?_)
  match a with
  | ⟨0, _⟩ => show win2_5.index t (0 : Fin 2) * 1 + 1 * (j 0).val = (j 0).val; rw [e0]; omega
  | ⟨1, _⟩ => show win2_5.index t (1 : Fin 2) * 64 + 1 * (j 1).val = (j 1).val; rw [e1]; omega

/-- Window 6 (second weights). -/
theorem blk2_6_eq (t : Fin cfg2.N) (G : FVec Ideal S64x64 .f32) :
    (((cfg2.win 6).blk t).view.read (Elt Ideal) G : Vec Ideal S64x64 .f32) = G := by
  obtain ⟨-, -, -, -, e0, e1, -⟩ := idx_const2 t
  refine funext fun (j : S64x64.Idx) => ?_
  show G (((cfg2.win 6).blk t).view.emb j) = G j
  refine congrArg G (funext fun a => Fin.ext ?_)
  match a with
  | ⟨0, _⟩ => show win2_6.index t (0 : Fin 2) * 64 + 1 * (j 0).val = (j 0).val; rw [e0]; omega
  | ⟨1, _⟩ => show win2_6.index t (1 : Fin 2) * 64 + 1 * (j 1).val = (j 1).val; rw [e1]; omega

/-- Window 7 (second bias row). -/
theorem blk2_7_eq (t : Fin cfg2.N) (G : FVec Ideal S1x64 .f32) :
    (((cfg2.win 7).blk t).view.read (Elt Ideal) G : Vec Ideal S1x64 .f32) = G := by
  obtain ⟨-, -, -, -, -, -, e0, e1, -⟩ := idx_const2 t
  refine funext fun (j : S1x64.Idx) => ?_
  show G (((cfg2.win 7).blk t).view.emb j) = G j
  refine congrArg G (funext fun a => Fin.ext ?_)
  match a with
  | ⟨0, _⟩ => show win2_7.index t (0 : Fin 2) * 1 + 1 * (j 0).val = (j 0).val; rw [e0]; omega
  | ⟨1, _⟩ => show win2_7.index t (1 : Fin 2) * 64 + 1 * (j 1).val = (j 1).val; rw [e1]; omega

/-- Window 8 (third weights). -/
theorem blk2_8_eq (t : Fin cfg2.N) (G : FVec Ideal S64x64 .f32) :
    (((cfg2.win 8).blk t).view.read (Elt Ideal) G : Vec Ideal S64x64 .f32) = G := by
  obtain ⟨-, -, -, -, -, -, -, -, e0, e1, -⟩ := idx_const2 t
  refine funext fun (j : S64x64.Idx) => ?_
  show G (((cfg2.win 8).blk t).view.emb j) = G j
  refine congrArg G (funext fun a => Fin.ext ?_)
  match a with
  | ⟨0, _⟩ => show win2_8.index t (0 : Fin 2) * 64 + 1 * (j 0).val = (j 0).val; rw [e0]; omega
  | ⟨1, _⟩ => show win2_8.index t (1 : Fin 2) * 64 + 1 * (j 1).val = (j 1).val; rw [e1]; omega

/-- Window 9 (third bias row). -/
theorem blk2_9_eq (t : Fin cfg2.N) (G : FVec Ideal S1x64 .f32) :
    (((cfg2.win 9).blk t).view.read (Elt Ideal) G : Vec Ideal S1x64 .f32) = G := by
  obtain ⟨-, -, -, -, -, -, -, -, -, -, e0, e1⟩ := idx_const2 t
  refine funext fun (j : S1x64.Idx) => ?_
  show G (((cfg2.win 9).blk t).view.emb j) = G j
  refine congrArg G (funext fun a => Fin.ext ?_)
  match a with
  | ⟨0, _⟩ => show win2_9.index t (0 : Fin 2) * 1 + 1 * (j 0).val = (j 0).val; rw [e0]; omega
  | ⟨1, _⟩ => show win2_9.index t (1 : Fin 2) * 64 + 1 * (j 1).val = (j 1).val; rw [e1]; omega

/-- The output window: a tile X of 8000 rows whose row p is row 8000 * t + p of a table G is, as what point t writes
    back, block t of G. -/
theorem out_blk2_eq (t : Fin cfg2.N) (X : Vec Ideal S8000x64 .f32) (G : FVec Ideal S800000x64 .f32)
    (h : ∀ (p : Fin 8000) (q : Fin 64),
      X (ix2 p q) = G (ix2 ⟨8000 * t.val + p.val, tile_row_lt ⟨t.val, point_lt2 t⟩ p⟩ q)) :
    (cfg2.win 10).cut (grid2.coords t) X = ((cfg2.win 10).blk t).view.read (Elt Ideal) G := by
  obtain ⟨-, -, -, -, -, -, -, -, e0, e1⟩ := idx_facts2 t
  refine funext fun (j : S8000x64.Idx) => ?_
  show X j = G (((cfg2.win 10).blk t).view.emb j)
  refine (congrArg X (eq_ix2 j)).trans ((h (j 0) (j 1)).trans (congrArg G (funext fun a => Fin.ext ?_)))
  match a with
  | ⟨0, _⟩ => show 8000 * t.val + (j 0).val = win2_10.index t (0 : Fin 2) * 8000 + 1 * (j 0).val; rw [e0]; omega
  | ⟨1, _⟩ => show (j 1).val = win2_10.index t (1 : Fin 2) * 64 + 1 * (j 1).val; rw [e1]; omega

/-! ## From blocks to the array -/

variable (V : (c : Dev nD) → (b : Ref sig .tc) → Buf (Elt Ideal) ((c : Thread nD τ).loc b))

/-- The edge network of the ten arrays the region's input windows read, as the region finds them. -/
abbrev mlpOf2 (c : Dev nD) : FVec Ideal S800000x64 .f32 :=
  Cert.Spec.mlpRows (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6)) (V c (Pipeline.arrRef spec2 7)) (V c (Pipeline.arrRef spec2 8))
    (V c (Pipeline.arrRef spec2 9))

-- each of the ten arrays is met at its literal table type several times; the default elaboration budget is too small
set_option maxHeartbeats 1000000 in
/-- WHAT POINT t WRITES BACK is block t of the edge network of the whole arrays: the body stores the payload of the
    ten blocks, the six weight and bias blocks are their arrays, and row p of each feature block is row 8000 * t + p of
    its array, where the payload is the whole-array map. -/
theorem flushed2_eq (c : Dev nD) (t : Fin cfg2.N) :
    (dat2 V c).flushed 10 t = ((cfg2.win 10).blk t).view.read (Elt Ideal) (mlpOf2 V c) := by
  show (cfg2.win 10).cut (grid2.coords t) ((dat2 V c).after 10 t) = _
  rw [after2_10]
  unfold out2_10
  rw [View.canon_unit_zero hz2]
  simp only [View.ld_unit_zero (S := S8000x64) hz2, View.ld_unit_zero (S := S8000x4) hz2,
    View.ld_unit_zero (S := S136x64) hz2, View.ld_unit_zero (S := S1x64) hz2, View.ld_unit_zero (S := S64x64) hz2]
  refine out_blk2_eq t _ _ (fun p q => ?_)
  rw [k2_pay1_eq, k2_pay2_eq]
  rw [show (iblk2 V c 4 t : Vec Ideal S136x64 .f32) = V c (Pipeline.arrRef spec2 4) from blk2_4_eq t _,
    show (iblk2 V c 5 t : Vec Ideal S1x64 .f32) = V c (Pipeline.arrRef spec2 5) from blk2_5_eq t _,
    show (iblk2 V c 6 t : Vec Ideal S64x64 .f32) = V c (Pipeline.arrRef spec2 6) from blk2_6_eq t _,
    show (iblk2 V c 7 t : Vec Ideal S1x64 .f32) = V c (Pipeline.arrRef spec2 7) from blk2_7_eq t _,
    show (iblk2 V c 8 t : Vec Ideal S64x64 .f32) = V c (Pipeline.arrRef spec2 8) from blk2_8_eq t _,
    show (iblk2 V c 9 t : Vec Ideal S1x64 .f32) = V c (Pipeline.arrRef spec2 9) from blk2_9_eq t _]
  exact mlp_pay_row (iblk2 V c 0 t) (iblk2 V c 2 t) (iblk2 V c 1 t) (iblk2 V c 3 t)
    (V c (Pipeline.arrRef spec2 0)) (V c (Pipeline.arrRef spec2 2)) (V c (Pipeline.arrRef spec2 1)) (V c (Pipeline.arrRef spec2 3))
    (V c (Pipeline.arrRef spec2 4)) (V c (Pipeline.arrRef spec2 5)) (V c (Pipeline.arrRef spec2 6)) (V c (Pipeline.arrRef spec2 7))
    (V c (Pipeline.arrRef spec2 8)) (V c (Pipeline.arrRef spec2 9))
    p ⟨8000 * t.val + p.val, tile_row_lt ⟨t.val, point_lt2 t⟩ p⟩
    (fun k => blk2_0_apply t (V c (Pipeline.arrRef spec2 0)) p k _) (fun k => blk2_1_apply t (V c (Pipeline.arrRef spec2 1)) p k _)
    (fun k => blk2_2_apply t (V c (Pipeline.arrRef spec2 2)) p k _) (fun k => blk2_3_apply t (V c (Pipeline.arrRef spec2 3)) p k _) q

/-- Every row of the output array is in some point's block: row r in block r / 8000. -/
theorem cover2 (i : S800000x64.Idx) :
    ∃ t : Fin cfg2.N, (cfg2.win 10).flush t = true ∧ i ∈ ((cfg2.win 10).blk t).view.set := by
  have hi0 : (i 0).val < 800000 := (i 0).isLt
  have hi1 : (i 1).val < 64 := (i 1).isLt
  have hN : cfg2.N = 100 := N_2
  have ht : (i 0).val / 8000 < cfg2.N := by rw [hN]; omega
  obtain ⟨-, -, -, -, -, -, -, -, e0, e1⟩ := idx_facts2 ⟨(i 0).val / 8000, ht⟩
  refine ⟨⟨(i 0).val / 8000, ht⟩, flush2_10 _, ?_⟩
  show i ∈ ((View.whole main_v85).slice (win2_10.rect ⟨(i 0).val / 8000, ht⟩)).set
  rw [View.set_slice_whole, Rect.mem_set_unit]
  intro a
  match a with
  | ⟨0, _⟩ =>
    show win2_10.index ⟨(i 0).val / 8000, ht⟩ (0 : Fin 2) * 8000 ≤ (i 0).val
      ∧ (i 0).val < win2_10.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win2_10.index ⟨(i 0).val / 8000, ht⟩ (1 : Fin 2) * 64 ≤ (i 1).val
      ∧ (i 1).val < win2_10.index ⟨(i 0).val / 8000, ht⟩ (1 : Fin 2) * 64 + 64
    rw [e1]; omega

/-- THE OUTPUT ARRAY after the region: the edge network of the ten arrays the input windows read, whatever the
    region-entry contents are. -/
theorem mlp2_arr (c : Dev nD) :
    @Eq (FVec Ideal S800000x64 .f32) ((dat2 (F := Ideal) V c).arrAt 10 cfg2.N)
      (Cert.Spec.mlpRows (F := Ideal) (V c (Pipeline.arrRef spec2 0)) (V c (Pipeline.arrRef spec2 1))
        (V c (Pipeline.arrRef spec2 2)) (V c (Pipeline.arrRef spec2 3)) (V c (Pipeline.arrRef spec2 4))
        (V c (Pipeline.arrRef spec2 5)) (V c (Pipeline.arrRef spec2 6)) (V c (Pipeline.arrRef spec2 7))
        (V c (Pipeline.arrRef spec2 8)) (V c (Pipeline.arrRef spec2 9))) :=
  (dat2 V c).arrAt_eq_of_cover 10 (mlpOf2 V c) (fun t _ => flushed2_eq V c t) (fun i => cover2 i)

end Cert.Val

end
-- ==== Proof.Val.Mlp4Arr.lean ====
/-
  Region 4 of the program (the edge network's kernel on a grid of 100 points, 8000 rows of edges per point): the array its
  output window writes, after the region, is the whole-array edge network of the ten arrays its input windows read.

  Point t stores into the output window's buffer the payload of its ten blocks. The six weight and bias windows have the
  constant block index (0, 0) and a block of the size of their array, so their block is the array. The four feature
  windows and the output window have block index (t, 0) and blocks of 8000 rows, so row p of a block is row
  8000 * t + p of the array; there the payload is the whole-array map (the payload acts on each row by itself). So what
  point t writes back is block t of the whole-array map, and the 100 blocks cover the 800000 rows: row r is in block
  r / 8000. All of it holds for any contents the region may find in its arrays.
-/
import proofs.«180077_j85650237817340_1_alg».proof.Proof.KI.Mlp4Def
import proofs.«180077_j85650237817340_1_alg».proof.Proof.Val.MlpPay
import Idealize.ShloMosaic.Lib.Pipeline.Value
import Idealize.ShloMosaic.Lib.Tactic

set_option maxRecDepth 16384

noncomputable section

namespace Cert.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- The whole-block rectangles start at the origin. -/
theorem hz4 : (![0, 0] : Fin 2 → Nat) = fun _ => 0 := funext fun a => by fin_cases a <;> rfl

/-- The printed index maps, decided once over the 100 grid points: the four feature windows and the output window
    take block t along the rows and block 0 along the columns; the six weight and bias windows take block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_10.index t (0 : Fin 2) = t.val ∧ win4_10.index t (1 : Fin 2) = 0 :=
  (by decide +kernel : ∀ t : Fin grid4.N, _)

theorem idx_const4 : ∀ t : Fin cfg4.N,
    win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0 :=
  (by decide +kernel : ∀ t : Fin grid4.N, _)

/-- A grid point's number is below 100. -/
theorem point_lt4 (t : Fin cfg4.N) : t.val < 100 := Nat.lt_of_lt_of_eq t.isLt N_4

/-! ## A window's block of a VARIABLE table, read at an index

  The window's block at point t reads the table through the rectangle at offsets (block index × block size) with unit
  strides; with the decided block indices this is row 8000 * t + p for the four feature windows and the output window,
  and the table itself for the six weight and bias windows. Stated over a variable table so that no array of the
  program is opened. -/

/-- Window 0: block t of a [800000, 64] table at (p, k) is the table at (8000 * t + p, k). -/
theorem blk4_0_apply (t : Fin cfg4.N) (G : FVec Ideal S800000x64 .f32) (p : Fin 8000) (k : Fin 64)
    (h : 8000 * t.val + p.val < 800000) :
    (((cfg4.win 0).blk t).view.read (Elt Ideal) G : Vec Ideal S8000x64 .f32) (ix2 p k) = G (ix2 ⟨8000 * t.val + p.val, h⟩ k) := by
  obtain ⟨e0, e1, -⟩ := idx_facts4 t
  show G (((cfg4.win 0).blk t).view.emb (ix2 p k)) = G _
  refine congrArg G (funext fun a => Fin.ext ?_)
  match a with
  | ⟨0, _⟩ => show win4_0.index t (0 : Fin 2) * 8000 + 1 * p.val = 8000 * t.val + p.val; rw [e0]; omega
  | ⟨1, _⟩ => show win4_0.index t (1 : Fin 2) * 64 + 1 * k.val = k.val; rw [e1]; omega

/-- Window 1: block t of a [800000, 4] table at (p, k) is the table at (8000 * t + p, k). -/
theorem blk4_1_apply (t : Fin cfg4.N) (G : FVec Ideal S800000x4 .f32) (p : Fin 8000) (k : Fin 4)
    (h : 8000 * t.val + p.val < 800000) :
    (((cfg4.win 1).blk t).view.read (Elt Ideal) G : Vec Ideal S8000x4 .f32) (ix2 p k) = G (ix2 ⟨8000 * t.val + p.val, h⟩ k) := by
  obtain ⟨-, -, e0, e1, -⟩ := idx_facts4 t
  show G (((cfg4.win 1).blk t).view.emb (ix2 p k)) = G _
  refine congrArg G (funext fun a => Fin.ext ?_)
  match a with
  | ⟨0, _⟩ => show win4_1.index t (0 : Fin 2) * 8000 + 1 * p.val = 8000 * t.val + p.val; rw [e0]; omega
  | ⟨1, _⟩ => show win4_1.index t (1 : Fin 2) * 4 + 1 * k.val = k.val; rw [e1]; omega

/-- Window 2: as window 0. -/
theorem blk4_2_apply (t : Fin cfg4.N) (G : FVec Ideal S800000x64 .f32) (p : Fin 8000) (k : Fin 64)
    (h : 8000 * t.val + p.val < 800000) :
    (((cfg4.win 2).blk t).view.read (Elt Ideal) G : Vec Ideal S8000x64 .f32) (ix2 p k) = G (ix2 ⟨8000 * t.val + p.val, h⟩ k) := by
  obtain ⟨-, -, -, -, e0, e1, -⟩ := idx_facts4 t
  show G (((cfg4.win 2).blk t).view.emb (ix2 p k)) = G _
  refine congrArg G (funext fun a => Fin.ext ?_)
  match a with
  | ⟨0, _⟩ => show win4_2.index t (0 : Fin 2) * 8000 + 1 * p.val = 8000 * t.val + p.val; rw [e0]; omega
  | ⟨1, _⟩ => show win4_2.index t (1 : Fin 2) * 64 + 1 * k.val = k.val; rw [e1]; omega

/-- Window 3: as window 1. -/
theorem blk4_3_apply (t : Fin cfg4.N) (G : FVec Ideal S800000x4 .f32) (p : Fin 8000) (k : Fin 4)
    (h : 8000 * t.val + p.val < 800000) :
    (((cfg4.win 3).blk t).view.read (Elt Ideal) G : Vec Ideal S8000x4 .f32) (ix2 p k) = G (ix2 ⟨8000 * t.val + p.val, h⟩ k) := by
  obtain ⟨-, -, -, -, -, -, e0, e1, -⟩ := idx_facts4 t
  show G (((cfg4.win 3).blk t).view.emb (ix2 p k)) = G _
  refine congrArg G (funext fun a => Fin.ext ?_)
  match a with
  | ⟨0, _⟩ => show win4_3.index t (0 : Fin 2) * 8000 + 1 * p.val = 8000 * t.val + p.val; rw [e0]; omega
  | ⟨1, _⟩ => show win4_3.index t (1 : Fin 2) * 4 + 1 * k.val = k.val; rw [e1]; omega

/-- Window 4 (first weights): block (0, 0) of the size of the table is the table. -/
theorem blk4_4_eq (t : Fin cfg4.N) (G : FVec Ideal S136x64 .f32) :
    (((cfg4.win 4).blk t).view.read (Elt Ideal) G : Vec Ideal S136x64 .f32) = G := by
  obtain ⟨e0, e1, -⟩ := idx_const4 t
  refine funext fun (j : S136x64.Idx) => ?_
  show G (((cfg4.win 4).blk t).view.emb j) = G j
  refine congrArg G (funext fun a => Fin.ext ?_)
  match a with
  | ⟨0, _⟩ => show win4_4.index t (0 : Fin 2) * 136 + 1 * (j 0).val = (j 0).val; rw [e0]; omega
  | ⟨1, _⟩ => show win4_4.index t (1 : Fin 2) * 64 + 1 * (j 1).val = (j 1).val; rw [e1]; omega

/-- Window 5 (first bias row). -/
theorem blk4_5_eq (t : Fin cfg4.N) (G : FVec Ideal S1x64 .f32) :
    (((cfg4.win 5).blk t).view.read (Elt Ideal) G : Vec Ideal S1x64 .f32) = G := by
  obtain ⟨-, -, e0, e1, -⟩ := idx_const4 t
  refine funext fun (j : S1x64.Idx) => ?_
  show G (((cfg4.win 5).blk t).view.emb j) = G j
  refine congrArg G (funext fun a => Fin.ext ?_)
  match a with
  | ⟨0, _⟩ => show win4_5.index t (0 : Fin 2) * 1 + 1 * (j 0).val = (j 0).val; rw [e0]; omega
  | ⟨1, _⟩ => show win4_5.index t (1 : Fin 2) * 64 + 1 * (j 1).val = (j 1).val; rw [e1]; omega

/-- Window 6 (second weights). -/
theorem blk4_6_eq (t : Fin cfg4.N) (G : FVec Ideal S64x64 .f32) :
    (((cfg4.win 6).blk t).view.read (Elt Ideal) G : Vec Ideal S64x64 .f32) = G := by
  obtain ⟨-, -, -, -, e0, e1, -⟩ := idx_const4 t
  refine funext fun (j : S64x64.Idx) => ?_
  show G (((cfg4.win 6).blk t).view.emb j) = G j
  refine congrArg G (funext fun a => Fin.ext ?_)
  match a with
  | ⟨0, _⟩ => show win4_6.index t (0 : Fin 2) * 64 + 1 * (j 0).val = (j 0).val; rw [e0]; omega
  | ⟨1, _⟩ => show win4_6.index t (1 : Fin 2) * 64 + 1 * (j 1).val = (j 1).val; rw [e1]; omega

/-- Window 7 (second bias row). -/
theorem blk4_7_eq (t : Fin cfg4.N) (G : FVec Ideal S1x64 .f32) :
    (((cfg4.win 7).blk t).view.read (Elt Ideal) G : Vec Ideal S1x64 .f32) = G := by
  obtain ⟨-, -, -, -, -, -, e0, e1, -⟩ := idx_const4 t
  refine funext fun (j : S1x64.Idx) => ?_
  show G (((cfg4.win 7).blk t).view.emb j) = G j
  refine congrArg G (funext fun a => Fin.ext ?_)
  match a with
  | ⟨0, _⟩ => show win4_7.index t (0 : Fin 2) * 1 + 1 * (j 0).val = (j 0).val; rw [e0]; omega
  | ⟨1, _⟩ => show win4_7.index t (1 : Fin 2) * 64 + 1 * (j 1).val = (j 1).val; rw [e1]; omega

/-- Window 8 (third weights). -/
theorem blk4_8_eq (t : Fin cfg4.N) (G : FVec Ideal S64x64 .f32) :
    (((cfg4.win 8).blk t).view.read (Elt Ideal) G : Vec Ideal S64x64 .f32) = G := by
  obtain ⟨-, -, -, -, -, -, -, -, e0, e1, -⟩ := idx_const4 t
  refine funext fun (j : S64x64.Idx) => ?_
  show G (((cfg4.win 8).blk t).view.emb j) = G j
  refine congrArg G (funext fun a => Fin.ext ?_)
  match a with
  | ⟨0, _⟩ => show win4_8.index t (0 : Fin 2) * 64 + 1 * (j 0).val = (j 0).val; rw [e0]; omega
  | ⟨1, _⟩ => show win4_8.index t (1 : Fin 2) * 64 + 1 * (j 1).val = (j 1).val; rw [e1]; omega

/-- Window 9 (third bias row). -/
theorem blk4_9_eq (t : Fin cfg4.N) (G : FVec Ideal S1x64 .f32) :
    (((cfg4.win 9).blk t).view.read (Elt Ideal) G : Vec Ideal S1x64 .f32) = G := by
  obtain ⟨-, -, -, -, -, -, -, -, -, -, e0, e1⟩ := idx_const4 t
  refine funext fun (j : S1x64.Idx) => ?_
  show G (((cfg4.win 9).blk t).view.emb j) = G j
  refine congrArg G (funext fun a => Fin.ext ?_)
  match a with
  | ⟨0, _⟩ => show win4_9.index t (0 : Fin 2) * 1 + 1 * (j 0).val = (j 0).val; rw [e0]; omega
  | ⟨1, _⟩ => show win4_9.index t (1 : Fin 2) * 64 + 1 * (j 1).val = (j 1).val; rw [e1]; omega

/-- The output window: a tile X of 8000 rows whose row p is row 8000 * t + p of a table G is, as what point t writes
    back, block t of G. -/
theorem out_blk4_eq (t : Fin cfg4.N) (X : Vec Ideal S8000x64 .f32) (G : FVec Ideal S800000x64 .f32)
    (h : ∀ (p : Fin 8000) (q : Fin 64),
      X (ix2 p q) = G (ix2 ⟨8000 * t.val + p.val, tile_row_lt ⟨t.val, point_lt4 t⟩ p⟩ q)) :
    (cfg4.win 10).cut (grid4.coords t) X = ((cfg4.win 10).blk t).view.read (Elt Ideal) G := by
  obtain ⟨-, -, -, -, -, -, -, -, e0, e1⟩ := idx_facts4 t
  refine funext fun (j : S8000x64.Idx) => ?_
  show X j = G (((cfg4.win 10).blk t).view.emb j)
  refine (congrArg X (eq_ix2 j)).trans ((h (j 0) (j 1)).trans (congrArg G (funext fun a => Fin.ext ?_)))
  match a with
  | ⟨0, _⟩ => show 8000 * t.val + (j 0).val = win4_10.index t (0 : Fin 2) * 8000 + 1 * (j 0).val; rw [e0]; omega
  | ⟨1, _⟩ => show (j 1).val = win4_10.index t (1 : Fin 2) * 64 + 1 * (j 1).val; rw [e1]; omega

/-! ## From blocks to the array -/

variable (V : (c : Dev nD) → (b : Ref sig .tc) → Buf (Elt Ideal) ((c : Thread nD τ).loc b))

/-- The edge network of the ten arrays the region's input windows read, as the region finds them. -/
abbrev mlpOf4 (c : Dev nD) : FVec Ideal S800000x64 .f32 :=
  Cert.Spec.mlpRows (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6)) (V c (Pipeline.arrRef spec4 7)) (V c (Pipeline.arrRef spec4 8))
    (V c (Pipeline.arrRef spec4 9))

-- each of the ten arrays is met at its literal table type several times; the default elaboration budget is too small
set_option maxHeartbeats 1000000 in
/-- WHAT POINT t WRITES BACK is block t of the edge network of the whole arrays: the body stores the payload of the
    ten blocks, the six weight and bias blocks are their arrays, and row p of each feature block is row 8000 * t + p of
    its array, where the payload is the whole-array map. -/
theorem flushed4_eq (c : Dev nD) (t : Fin cfg4.N) :
    (dat4 V c).flushed 10 t = ((cfg4.win 10).blk t).view.read (Elt Ideal) (mlpOf4 V c) := by
  show (cfg4.win 10).cut (grid4.coords t) ((dat4 V c).after 10 t) = _
  rw [after4_10]
  unfold out4_10
  rw [View.canon_unit_zero hz4]
  simp only [View.ld_unit_zero (S := S8000x64) hz4, View.ld_unit_zero (S := S8000x4) hz4,
    View.ld_unit_zero (S := S136x64) hz4, View.ld_unit_zero (S := S1x64) hz4, View.ld_unit_zero (S := S64x64) hz4]
  refine out_blk4_eq t _ _ (fun p q => ?_)
  rw [k4_pay1_eq, k4_pay2_eq]
  rw [show (iblk4 V c 4 t : Vec Ideal S136x64 .f32) = V c (Pipeline.arrRef spec4 4) from blk4_4_eq t _,
    show (iblk4 V c 5 t : Vec Ideal S1x64 .f32) = V c (Pipeline.arrRef spec4 5) from blk4_5_eq t _,
    show (iblk4 V c 6 t : Vec Ideal S64x64 .f32) = V c (Pipeline.arrRef spec4 6) from blk4_6_eq t _,
    show (iblk4 V c 7 t : Vec Ideal S1x64 .f32) = V c (Pipeline.arrRef spec4 7) from blk4_7_eq t _,
    show (iblk4 V c 8 t : Vec Ideal S64x64 .f32) = V c (Pipeline.arrRef spec4 8) from blk4_8_eq t _,
    show (iblk4 V c 9 t : Vec Ideal S1x64 .f32) = V c (Pipeline.arrRef spec4 9) from blk4_9_eq t _]
  exact mlp_pay_row (iblk4 V c 0 t) (iblk4 V c 2 t) (iblk4 V c 1 t) (iblk4 V c 3 t)
    (V c (Pipeline.arrRef spec4 0)) (V c (Pipeline.arrRef spec4 2)) (V c (Pipeline.arrRef spec4 1)) (V c (Pipeline.arrRef spec4 3))
    (V c (Pipeline.arrRef spec4 4)) (V c (Pipeline.arrRef spec4 5)) (V c (Pipeline.arrRef spec4 6)) (V c (Pipeline.arrRef spec4 7))
    (V c (Pipeline.arrRef spec4 8)) (V c (Pipeline.arrRef spec4 9))
    p ⟨8000 * t.val + p.val, tile_row_lt ⟨t.val, point_lt4 t⟩ p⟩
    (fun k => blk4_0_apply t (V c (Pipeline.arrRef spec4 0)) p k _) (fun k => blk4_1_apply t (V c (Pipeline.arrRef spec4 1)) p k _)
    (fun k => blk4_2_apply t (V c (Pipeline.arrRef spec4 2)) p k _) (fun k => blk4_3_apply t (V c (Pipeline.arrRef spec4 3)) p k _) q

/-- Every row of the output array is in some point's block: row r in block r / 8000. -/
theorem cover4 (i : S800000x64.Idx) :
    ∃ t : Fin cfg4.N, (cfg4.win 10).flush t = true ∧ i ∈ ((cfg4.win 10).blk t).view.set := by
  have hi0 : (i 0).val < 800000 := (i 0).isLt
  have hi1 : (i 1).val < 64 := (i 1).isLt
  have hN : cfg4.N = 100 := N_4
  have ht : (i 0).val / 8000 < cfg4.N := by rw [hN]; omega
  obtain ⟨-, -, -, -, -, -, -, -, e0, e1⟩ := idx_facts4 ⟨(i 0).val / 8000, ht⟩
  refine ⟨⟨(i 0).val / 8000, ht⟩, flush4_10 _, ?_⟩
  show i ∈ ((View.whole main_v109).slice (win4_10.rect ⟨(i 0).val / 8000, ht⟩)).set
  rw [View.set_slice_whole, Rect.mem_set_unit]
  intro a
  match a with
  | ⟨0, _⟩ =>
    show win4_10.index ⟨(i 0).val / 8000, ht⟩ (0 : Fin 2) * 8000 ≤ (i 0).val
      ∧ (i 0).val < win4_10.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win4_10.index ⟨(i 0).val / 8000, ht⟩ (1 : Fin 2) * 64 ≤ (i 1).val
      ∧ (i 1).val < win4_10.index ⟨(i 0).val / 8000, ht⟩ (1 : Fin 2) * 64 + 64
    rw [e1]; omega

/-- THE OUTPUT ARRAY after the region: the edge network of the ten arrays the input windows read, whatever the
    region-entry contents are. -/
theorem mlp4_arr (c : Dev nD) :
    @Eq (FVec Ideal S800000x64 .f32) ((dat4 (F := Ideal) V c).arrAt 10 cfg4.N)
      (Cert.Spec.mlpRows (F := Ideal) (V c (Pipeline.arrRef spec4 0)) (V c (Pipeline.arrRef spec4 1))
        (V c (Pipeline.arrRef spec4 2)) (V c (Pipeline.arrRef spec4 3)) (V c (Pipeline.arrRef spec4 4))
        (V c (Pipeline.arrRef spec4 5)) (V c (Pipeline.arrRef spec4 6)) (V c (Pipeline.arrRef spec4 7))
        (V c (Pipeline.arrRef spec4 8)) (V c (Pipeline.arrRef spec4 9))) :=
  (dat4 V c).arrAt_eq_of_cover 10 (mlpOf4 V c) (fun t _ => flushed4_eq V c t) (fun i => cover4 i)

end Cert.Val

end
-- ==== Proof.Val.GruPay.lean ====
/-
  The gated recurrent update of ONE row tile, read at an index.

  The kernel's payload takes a tile of 5000 rows of the aggregated messages and of the previous state, the two
  [64, 192] weight tables and the two bias rows [1, 192]. Each of its two gate tables is a matrix product into a zero
  accumulator plus the bias row laid along every row; a change of float format is the identity at the extended reals,
  so at (p, c) a gate table is  ∑ k, x (p, k) * W (k, c) + b (0, c): the whole array's gate table at the tile's row
  5000 t + p. The rest is arithmetic entry by entry — three 64-column cuts of each table, 1 / (1 + exp (-x)) for the
  reset and update gates, tanh for the candidate, (1 - z) * n + z * h — spelt by the kernel with one operation for the
  logistic function and by the whole-array map with the quotient; the two are one expression here.
-/
import proofs.«180077_j85650237817340_1_alg».proof.Proof.Gen.KernelIdeal.Skeleton
import proofs.«180077_j85650237817340_1_alg».proof.Proof.Spec
import proofs.«180077_j85650237817340_1_alg».proof.Proof.LibTileMatmul
import Idealize.ShloMosaic.Lib.ValueLayout
import Idealize.ShloMosaic.Lib.KernelVsHost
import Idealize.ShloMosaic.Lib.IdealHost

noncomputable section

namespace Cert.Val

open Idealize.ShloMosaic Idealize.ShloMosaic.ValueIdx Idealize.ShloMosaic.TileMatmul

/-- The kernel's gate table of a tile: the tile times the weights into zero, plus the bias row on every row. -/
def gateK (x : Vec Ideal Cert.KernelIdeal.S5000x64 .f32) (W : Vec Ideal Cert.KernelIdeal.S64x192 .f32)
    (b : Vec Ideal Cert.KernelIdeal.S1x192 .f32) : FVec Ideal Cert.KernelIdeal.S5000x192 .f32 :=
  addf
    (matmul Cert.KernelIdeal.dot_S5000x64_S64x192_S5000x192_1_0_0_1_n_n none
      (truncf .bf16 (shapeCast Cert.KernelIdeal.S5000x64 x Cert.KernelIdeal.Gen.shapeCasts_S5000x64_S5000x64) Cert.KernelIdeal.Gen.bitsLt_bf16_f32)
      (truncf .bf16 W Cert.KernelIdeal.Gen.bitsLt_bf16_f32)
      (constant Cert.KernelIdeal.S5000x192 .f32 0x00000000#32))
    (broadcastTo Cert.KernelIdeal.S5000x192 (shapeCast Cert.KernelIdeal.S1x192 b Cert.KernelIdeal.Gen.shapeCasts_S1x192_S1x192)
      Cert.KernelIdeal.Gen.broadcasts_S1x192_S5000x192)

/-- A tile's gate table at (p, c) is the whole array's at the tile's row. -/
theorem gateK_apply (X : FVec Ideal Cert.ReferenceIdeal.S50000x64 .f32) (W : FVec Ideal Cert.ReferenceIdeal.S64x192 .f32)
    (b : FVec Ideal Cert.ReferenceIdeal.S1x192 .f32) (x : Vec Ideal Cert.KernelIdeal.S5000x64 .f32)
    (p : Fin 5000) (i : Fin 50000) (hx : ∀ k : Fin 64, x (ix2 p k) = X (ix2 i k)) (c : Fin 192) :
    gateK x W b (ix2 p c) = Cert.Spec.gates X W b (ix2 i c) := by
  unfold gateK Cert.Spec.gates
  rw [addf_apply, addf_apply, broadcastTo_1b_ab_apply, broadcastInDim_oneRow_apply, shapeCast_self, shapeCast_self]
  congr 1
  exact matmul_tile_eq_dotGeneral Cert.KernelIdeal.Gen.dot_S5000x64_S64x192_S5000x192_1_0_0_1_n_n_wf
    Cert.ReferenceIdeal.Gen.dot_S50000x64_S64x192_S50000x192_1_0_0_1_n_n_wf none none _ _ X W p c i
    (fun k => by rw [truncf_apply]; exact hx k) (fun k => by rw [truncf_apply])

/-- The gate arithmetic of one entry: reset gate from the first cuts, update gate from the second, candidate from the
    third, and the blend of the candidate with the previous state. -/
def gruAt (a0 a1 a2 b0 b1 b2 h : EReal) : EReal :=
  (1 - Ideal.logistic (a1 + b1)) * Ideal.tanh (a2 + Ideal.logistic (a0 + b0) * b2) + Ideal.logistic (a1 + b1) * h

theorem logistic_apply {s : Shape} (v : FVec Ideal s .f32) (j : s.Idx) : logistic v j = Ideal.logistic (v j) := rfl
theorem tanh_apply {s : Shape} (v : FVec Ideal s .f32) (j : s.Idx) : tanh v j = Ideal.tanh (v j) := rfl
theorem hostTanh_apply {s : Shape} (v : FVec Ideal s .f32) (j : s.Idx) : Host.tanh v j = Ideal.tanh (v j) := rfl

/-- The kernel's gate arithmetic on a tile, from its two gate tables and the state tile. -/
def payOf (gi gh : FVec Ideal Cert.KernelIdeal.S5000x192 .f32) (h : Vec Ideal Cert.KernelIdeal.S5000x64 .f32) : FVec Ideal Cert.KernelIdeal.S5000x64 .f32 :=
  addf
    (mulf
      (subf (broadcast Cert.KernelIdeal.S5000x64 (Scalar.ofBits .f32 0x3F800000#32))
        (logistic (addf (extractStridedSlice Cert.KernelIdeal.S5000x64 ![0, 64] gi Cert.KernelIdeal.Gen.slices_S5000x192_o0_64_S5000x64)
          (extractStridedSlice Cert.KernelIdeal.S5000x64 ![0, 64] gh Cert.KernelIdeal.Gen.slices_S5000x192_o0_64_S5000x64))))
      (tanh (addf (extractStridedSlice Cert.KernelIdeal.S5000x64 ![0, 128] gi Cert.KernelIdeal.Gen.slices_S5000x192_o0_128_S5000x64)
        (mulf
          (logistic (addf (extractStridedSlice Cert.KernelIdeal.S5000x64 ![0, 0] gi Cert.KernelIdeal.Gen.slices_S5000x192_o0_0_S5000x64)
            (extractStridedSlice Cert.KernelIdeal.S5000x64 ![0, 0] gh Cert.KernelIdeal.Gen.slices_S5000x192_o0_0_S5000x64)))
          (extractStridedSlice Cert.KernelIdeal.S5000x64 ![0, 128] gh Cert.KernelIdeal.Gen.slices_S5000x192_o0_128_S5000x64)))))
    (mulf
      (logistic (addf (extractStridedSlice Cert.KernelIdeal.S5000x64 ![0, 64] gi Cert.KernelIdeal.Gen.slices_S5000x192_o0_64_S5000x64)
        (extractStridedSlice Cert.KernelIdeal.S5000x64 ![0, 64] gh Cert.KernelIdeal.Gen.slices_S5000x192_o0_64_S5000x64)))
      (shapeCast Cert.KernelIdeal.S5000x64 h Cert.KernelIdeal.Gen.shapeCasts_S5000x64_S5000x64))

/-- The payload is the gate arithmetic of its two gate tables. -/
theorem k1_pay1_eq (x0 x1 : Vec Ideal Cert.KernelIdeal.S5000x64 .f32) (Wih Whh : Vec Ideal Cert.KernelIdeal.S64x192 .f32)
    (bih bhh : Vec Ideal Cert.KernelIdeal.S1x192 .f32) :
    Cert.KernelIdeal.Gen.k1_pay1 x0 x1 Wih Whh bih bhh = payOf (gateK x0 Wih bih) (gateK x1 Whh bhh) x1 := rfl

/-- The kernel's gate arithmetic at (p, q), from the six gate entries of row p and the state entry. -/
theorem payOf_apply (gi gh : FVec Ideal Cert.KernelIdeal.S5000x192 .f32) (h : Vec Ideal Cert.KernelIdeal.S5000x64 .f32) (p : Fin 5000) (q : Fin 64) :
    payOf gi gh h (ix2 p q)
      = gruAt (gi (ix2 p ⟨q.val, by omega⟩)) (gi (ix2 p ⟨64 + q.val, by omega⟩)) (gi (ix2 p ⟨128 + q.val, by omega⟩))
          (gh (ix2 p ⟨q.val, by omega⟩)) (gh (ix2 p ⟨64 + q.val, by omega⟩)) (gh (ix2 p ⟨128 + q.val, by omega⟩)) (h (ix2 p q)) := by
  have e0 := fun (X : FVec Ideal Cert.KernelIdeal.S5000x192 .f32) =>
    slice2_axis1_apply 0 X Cert.KernelIdeal.Gen.slices_S5000x192_o0_0_S5000x64 p q ⟨q.val, by omega⟩ (Nat.zero_add _).symm
  have e1 := fun (X : FVec Ideal Cert.KernelIdeal.S5000x192 .f32) =>
    slice2_axis1_apply 64 X Cert.KernelIdeal.Gen.slices_S5000x192_o0_64_S5000x64 p q ⟨64 + q.val, by omega⟩ rfl
  have e2 := fun (X : FVec Ideal Cert.KernelIdeal.S5000x192 .f32) =>
    slice2_axis1_apply 128 X Cert.KernelIdeal.Gen.slices_S5000x192_o0_128_S5000x64 p q ⟨128 + q.val, by omega⟩ rfl
  have one : (Scalar.ofBits .f32 0x3F800000#32 : Ideal .f32) = 1 := Ideal.ofBits_one_f32
  unfold payOf gruAt
  simp only [addf_apply, mulf_apply, subf_apply, broadcast_apply, logistic_apply, tanh_apply, shapeCast_self, e0, e1, e2, one]

/-- The all-one table reads 1 everywhere. -/
theorem oneN_apply (j : Cert.ReferenceIdeal.S50000x64.Idx) : Cert.Spec.oneN (F := Ideal) j = 1 := by
  unfold Cert.Spec.oneN
  rw [broadcastInDim_scalar_apply, constant_apply, Ideal.ofBits_one_f32]

/-- The quotient 1 / (1 + exp (-x)) of the whole-array map is the logistic function, entry by entry. -/
theorem sigm_apply (x : FVec Ideal Cert.ReferenceIdeal.S50000x64 .f32) (j : Cert.ReferenceIdeal.S50000x64.Idx) :
    Cert.Spec.sigm x j = Ideal.logistic (x j) := by
  show Ideal.div (Cert.Spec.oneN (F := Ideal) j) (Cert.Spec.oneN (F := Ideal) j + Ideal.exp (-(x j))) = _
  rw [oneN_apply]; rfl

/-- The whole-array gate arithmetic at (i, q), from the six gate entries of row i and the state entry. -/
theorem gruOf_apply (gi gh : FVec Ideal Cert.ReferenceIdeal.S50000x192 .f32) (h : FVec Ideal Cert.ReferenceIdeal.S50000x64 .f32) (i : Fin 50000) (q : Fin 64) :
    Cert.Spec.gruOf gi gh h (ix2 i q)
      = gruAt (gi (ix2 i ⟨q.val, by omega⟩)) (gi (ix2 i ⟨64 + q.val, by omega⟩)) (gi (ix2 i ⟨128 + q.val, by omega⟩))
          (gh (ix2 i ⟨q.val, by omega⟩)) (gh (ix2 i ⟨64 + q.val, by omega⟩)) (gh (ix2 i ⟨128 + q.val, by omega⟩)) (h (ix2 i q)) := by
  have e0 := fun (X : FVec Ideal Cert.ReferenceIdeal.S50000x192 .f32) =>
    slice2_axis1_apply 0 X Cert.ReferenceIdeal.Gen.slices_S50000x192_S50000x64_0_0 i q ⟨q.val, by omega⟩ (Nat.zero_add _).symm
  have e1 := fun (X : FVec Ideal Cert.ReferenceIdeal.S50000x192 .f32) =>
    slice2_axis1_apply 64 X Cert.ReferenceIdeal.Gen.slices_S50000x192_S50000x64_0_64 i q ⟨64 + q.val, by omega⟩ rfl
  have e2 := fun (X : FVec Ideal Cert.ReferenceIdeal.S50000x192 .f32) =>
    slice2_axis1_apply 128 X Cert.ReferenceIdeal.Gen.slices_S50000x192_S50000x64_0_128 i q ⟨128 + q.val, by omega⟩ rfl
  unfold Cert.Spec.gruOf Cert.Spec.gate0 Cert.Spec.gate1 Cert.Spec.gate2 gruAt
  simp only [addf_apply, mulf_apply, subf_apply, sigm_apply, hostTanh_apply, oneN_apply, e0, e1, e2]

/-- THE TILE'S PAYLOAD AT AN INDEX, the tile's row p being row i of the arrays: entry (p, q) of the payload is entry
    (i, q) of the whole-array update. -/
theorem gru_pay_apply_row (G H : FVec Ideal Cert.ReferenceIdeal.S50000x64 .f32) (Wih Whh : FVec Ideal Cert.ReferenceIdeal.S64x192 .f32)
    (bih bhh : FVec Ideal Cert.ReferenceIdeal.S1x192 .f32) (x0 x1 : Vec Ideal Cert.KernelIdeal.S5000x64 .f32)
    (p : Fin 5000) (q : Fin 64) (i : Fin 50000)
    (h0 : ∀ k : Fin 64, x0 (ix2 p k) = G (ix2 i k)) (h1 : ∀ k : Fin 64, x1 (ix2 p k) = H (ix2 i k)) :
    Cert.KernelIdeal.Gen.k1_pay1 x0 x1 Wih Whh bih bhh (ix2 p q) = Cert.Spec.gruRows G H Wih bih Whh bhh (ix2 i q) := by
  rw [k1_pay1_eq, payOf_apply]
  unfold Cert.Spec.gruRows
  rw [gruOf_apply]
  rw [gateK_apply G Wih bih x0 p i h0, gateK_apply G Wih bih x0 p i h0, gateK_apply G Wih bih x0 p i h0,
    gateK_apply H Whh bhh x1 p i h1, gateK_apply H Whh bhh x1 p i h1, gateK_apply H Whh bhh x1 p i h1, h1 q]

/-- THE TILE'S PAYLOAD AT AN INDEX. Tile t of the aggregated messages and of the state (row p of a tile is row
    5000 t + p of the array) goes to row 5000 t + p of the whole-array update. -/
theorem gru_pay_apply (G H : FVec Ideal Cert.ReferenceIdeal.S50000x64 .f32) (Wih Whh : FVec Ideal Cert.ReferenceIdeal.S64x192 .f32)
    (bih bhh : FVec Ideal Cert.ReferenceIdeal.S1x192 .f32) (t : Fin 10) (x0 x1 : Vec Ideal Cert.KernelIdeal.S5000x64 .f32)
    (p : Fin 5000) (q : Fin 64) (hr : 5000 * t.val + p.val < 50000)
    (h0 : ∀ k : Fin 64, x0 (ix2 p k) = G (ix2 ⟨5000 * t.val + p.val, hr⟩ k))
    (h1 : ∀ k : Fin 64, x1 (ix2 p k) = H (ix2 ⟨5000 * t.val + p.val, hr⟩ k)) :
    Cert.KernelIdeal.Gen.k1_pay1 x0 x1 Wih Whh bih bhh (ix2 p q)
      = Cert.Spec.gruRows G H Wih bih Whh bhh (ix2 ⟨5000 * t.val + p.val, hr⟩ q) :=
  gru_pay_apply_row G H Wih Whh bih bhh x0 x1 p q ⟨5000 * t.val + p.val, hr⟩ h0 h1

/-- The three copies of the payload are one function. -/
theorem k3_pay1_eq_k1 (x0 x1 : Vec Ideal Cert.KernelIdeal.S5000x64 .f32) (Wih Whh : Vec Ideal Cert.KernelIdeal.S64x192 .f32)
    (bih bhh : Vec Ideal Cert.KernelIdeal.S1x192 .f32) :
    Cert.KernelIdeal.Gen.k3_pay1 x0 x1 Wih Whh bih bhh = Cert.KernelIdeal.Gen.k1_pay1 x0 x1 Wih Whh bih bhh := rfl
theorem k5_pay1_eq_k1 (x0 x1 : Vec Ideal Cert.KernelIdeal.S5000x64 .f32) (Wih Whh : Vec Ideal Cert.KernelIdeal.S64x192 .f32)
    (bih bhh : Vec Ideal Cert.KernelIdeal.S1x192 .f32) :
    Cert.KernelIdeal.Gen.k5_pay1 x0 x1 Wih Whh bih bhh = Cert.KernelIdeal.Gen.k1_pay1 x0 x1 Wih Whh bih bhh := rfl

end Cert.Val

end
-- ==== Proof.Val.Gru1Arr.lean ====
/-
  The GRU region 1: from the blocks the ten grid points write back to the whole array.

  Point t of the grid reads rows 5000 t … 5000 t + 4999 of the aggregated messages and of the state (the block of a
  row window at block index (t, 0)) and the whole of the four weight and bias tables (block (0, 0) of an array that is
  one block), and writes back the payload of these blocks as rows 5000 t … 5000 t + 4999 of the output. The payload at
  (p, q) is the whole-array update at (5000 t + p, q); the ten row blocks tile the 50000 rows (row r lies in block
  r / 5000); so after the last point the output array is the whole-array update of the arrays the region was entered
  with, whatever those are.
-/
import proofs.«180077_j85650237817340_1_alg».proof.Proof.KI.Gru1Def
import proofs.«180077_j85650237817340_1_alg».proof.Proof.Val.GruPay
import Idealize.ShloMosaic.Lib.Pipeline.Value

set_option maxRecDepth 16384

noncomputable section

namespace Cert.Val.Gru1

open Cert.KernelIdeal Cert.KernelIdeal.Gen Cert.KernelIdeal.Fr
open Idealize.ShloMosaic Idealize.ShloMosaic.TcCoe Idealize.ShloMosaic.ValueIdx
open Idealize.ShloMosaic.Pipeline (Dat)

theorem hz : (![0, 0] : Fin 2 → Nat) = fun _ => 0 := funext fun a => by fin_cases a <;> rfl

/-- The printed index maps, decided over the grid: the two row windows and the output window sit at block (t, 0), the
    four table windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Blocks
variable {F : FTy → Type} [FloatOps F]

/-- Row window 0 at point t reads rows 5000 t … 5000 t + 4999 of its array. -/
theorem read_rows0 (t : Fin cfg1.N) (A : S50000x64.Idx → Elt F .f32) (p : Fin 5000) (k : Fin 64)
    (hr : 5000 * t.val + p.val < 50000) :
    ((cfg1.win 0).blk t).view.read (Elt F) A (ix2 p k) = A (ix2 ⟨5000 * t.val + p.val, hr⟩ k) := by
  have e0 : win1_0.index t (0 : Fin 2) = t.val := (idx_facts t).1
  have e1 : win1_0.index t (1 : Fin 2) = 0 := (idx_facts t).2.1
  rw [View.read_apply]
  show A _ = A _
  congr 1
  funext a; apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega

/-- Row window 1 at point t reads rows 5000 t … 5000 t + 4999 of its array. -/
theorem read_rows1 (t : Fin cfg1.N) (A : S50000x64.Idx → Elt F .f32) (p : Fin 5000) (k : Fin 64)
    (hr : 5000 * t.val + p.val < 50000) :
    ((cfg1.win 1).blk t).view.read (Elt F) A (ix2 p k) = A (ix2 ⟨5000 * t.val + p.val, hr⟩ k) := by
  have e0 : win1_1.index t (0 : Fin 2) = t.val := (idx_facts t).2.2.1
  have e1 : win1_1.index t (1 : Fin 2) = 0 := (idx_facts t).2.2.2.1
  rw [View.read_apply]
  show A _ = A _
  congr 1
  funext a; apply Fin.ext
  match a with
  | ⟨0, _⟩ => show win1_1.index t (0 : Fin 2) * 5000 + 1 * p.val = 5000 * t.val + p.val; omega
  | ⟨1, _⟩ => show win1_1.index t (1 : Fin 2) * 64 + 1 * k.val = k.val; omega

/-- The output window at point t reads rows 5000 t … 5000 t + 4999 of its array. -/
theorem read_rows6 (t : Fin cfg1.N) (A : S50000x64.Idx → Elt F .f32) (p : Fin 5000) (k : Fin 64)
    (hr : 5000 * t.val + p.val < 50000) :
    ((cfg1.win 6).blk t).view.read (Elt F) A (ix2 p k) = A (ix2 ⟨5000 * t.val + p.val, hr⟩ k) := by
  have e0 : win1_6.index t (0 : Fin 2) = t.val := (idx_facts t).2.2.2.2.2.2.2.2.2.2.2.2.1
  have e1 : win1_6.index t (1 : Fin 2) = 0 := (idx_facts t).2.2.2.2.2.2.2.2.2.2.2.2.2
  rw [View.read_apply]
  show A _ = A _
  congr 1
  funext a; apply Fin.ext
  match a with
  | ⟨0, _⟩ => show win1_6.index t (0 : Fin 2) * 5000 + 1 * p.val = 5000 * t.val + p.val; omega
  | ⟨1, _⟩ => show win1_6.index t (1 : Fin 2) * 64 + 1 * k.val = k.val; omega

/-- Table window 2's block is its whole array at every point. -/
theorem read_tab2 (t : Fin cfg1.N) (A : S64x192.Idx → Elt F .f32) :
    ((cfg1.win 2).blk t).view.read (Elt F) A = A := by
  have e0 : win1_2.index t (0 : Fin 2) = 0 := (idx_facts t).2.2.2.2.1
  have e1 : win1_2.index t (1 : Fin 2) = 0 := (idx_facts t).2.2.2.2.2.1
  funext j
  rw [View.read_apply]
  show A _ = A _
  congr 1
  funext a; apply Fin.ext
  match a with
  | ⟨0, _⟩ => show win1_2.index t (0 : Fin 2) * 64 + 1 * (j 0).val = (j 0).val; omega
  | ⟨1, _⟩ => show win1_2.index t (1 : Fin 2) * 192 + 1 * (j 1).val = (j 1).val; omega

/-- Table window 3's block is its whole array at every point. -/
theorem read_tab3 (t : Fin cfg1.N) (A : S1x192.Idx → Elt F .f32) :
    ((cfg1.win 3).blk t).view.read (Elt F) A = A := by
  have e0 : win1_3.index t (0 : Fin 2) = 0 := (idx_facts t).2.2.2.2.2.2.1
  have e1 : win1_3.index t (1 : Fin 2) = 0 := (idx_facts t).2.2.2.2.2.2.2.1
  funext j
  rw [View.read_apply]
  show A _ = A _
  congr 1
  funext a; apply Fin.ext
  match a with
  | ⟨0, _⟩ => show win1_3.index t (0 : Fin 2) * 1 + 1 * (j 0).val = (j 0).val; omega
  | ⟨1, _⟩ => show win1_3.index t (1 : Fin 2) * 192 + 1 * (j 1).val = (j 1).val; omega

/-- Table window 4's block is its whole array at every point. -/
theorem read_tab4 (t : Fin cfg1.N) (A : S64x192.Idx → Elt F .f32) :
    ((cfg1.win 4).blk t).view.read (Elt F) A = A := by
  have e0 : win1_4.index t (0 : Fin 2) = 0 := (idx_facts t).2.2.2.2.2.2.2.2.1
  have e1 : win1_4.index t (1 : Fin 2) = 0 := (idx_facts t).2.2.2.2.2.2.2.2.2.1
  funext j
  rw [View.read_apply]
  show A _ = A _
  congr 1
  funext a; apply Fin.ext
  match a with
  | ⟨0, _⟩ => show win1_4.index t (0 : Fin 2) * 64 + 1 * (j 0).val = (j 0).val; omega
  | ⟨1, _⟩ => show win1_4.index t (1 : Fin 2) * 192 + 1 * (j 1).val = (j 1).val; omega

/-- Table window 5's block is its whole array at every point. -/
theorem read_tab5 (t : Fin cfg1.N) (A : S1x192.Idx → Elt F .f32) :
    ((cfg1.win 5).blk t).view.read (Elt F) A = A := by
  have e0 : win1_5.index t (0 : Fin 2) = 0 := (idx_facts t).2.2.2.2.2.2.2.2.2.2.1
  have e1 : win1_5.index t (1 : Fin 2) = 0 := (idx_facts t).2.2.2.2.2.2.2.2.2.2.2.1
  funext j
  rw [View.read_apply]
  show A _ = A _
  congr 1
  funext a; apply Fin.ext
  match a with
  | ⟨0, _⟩ => show win1_5.index t (0 : Fin 2) * 1 + 1 * (j 0).val = (j 0).val; omega
  | ⟨1, _⟩ => show win1_5.index t (1 : Fin 2) * 192 + 1 * (j 1).val = (j 1).val; omega

/-- The output window's blocks are uncut: what the write-back moves is all of the staging buffer. -/
theorem cut6_apply {α : Type} (t : Fin cfg1.N) (X : S5000x64.Idx → α) (p : Fin 5000) (q : Fin 64) :
    (cfg1.win 6).cut (grid1.coords t) X (ix2 p q) = X (ix2 p q) := rfl

end Blocks

variable (V : (c : Dev nD) → (b : Ref sig .tc) → Buf (Elt Ideal) ((c : Thread nD τ).loc b))

/-- The whole-array update of the six arrays the region is entered with. -/
abbrev G1 (c : Dev nD) : FVec Ideal Cert.ReferenceIdeal.S50000x64 .f32 :=
  Cert.Spec.gruRows (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))

/-- WHAT POINT t WRITES BACK is block t of the whole-array update. -/
theorem flushed_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x192) hz, View.ld_unit_zero (S := S1x192) hz]
  have ht : t.val < 10 := by have := t.isLt; have hN : cfg1.N = 10 := N_1; omega
  have e2 : iblk1 V c 2 t = V c (Pipeline.arrRef spec1 2) := read_tab2 t _
  have e3 : iblk1 V c 3 t = V c (Pipeline.arrRef spec1 3) := read_tab3 t _
  have e4 : iblk1 V c 4 t = V c (Pipeline.arrRef spec1 4) := read_tab4 t _
  have e5 : iblk1 V c 5 t = V c (Pipeline.arrRef spec1 5) := read_tab5 t _
  rw [e2, e3, e4, e5]
  funext j
  obtain ⟨p, q, rfl⟩ : ∃ (p : Fin 5000) (q : Fin 64), j = ix2 p q := ⟨j 0, j 1, eq_ix2 j⟩
  have hr : 5000 * t.val + p.val < 50000 := by have := p.isLt; omega
  rw [read_rows6 t _ p q hr]
  refine (cut6_apply t _ p q).trans ?_
  exact Cert.Val.gru_pay_apply_row (V c (Pipeline.arrRef spec1 0)) (V c (Pipeline.arrRef spec1 1)) (V c (Pipeline.arrRef spec1 2))
    (V c (Pipeline.arrRef spec1 4)) (V c (Pipeline.arrRef spec1 3)) (V c (Pipeline.arrRef spec1 5))
    (iblk1 V c 0 t) (iblk1 V c 1 t) p q ⟨5000 * t.val + p.val, hr⟩
    (fun k => read_rows0 t _ p k hr) (fun k => read_rows1 t _ p k hr)

/-- An index of the array is in point t's block iff each coordinate is in the block's range on its axis. -/
theorem mem_blk6 (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v67).slice (win1_6.rect t)).set ↔ _
  rw [View.set_slice_whole, Rect.mem_set_unit]
  exact Iff.rfl

/-- The ten blocks tile the array: row r is in the block of point r / 5000. -/
theorem cover6 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  refine ⟨⟨(i 0).val / 5000, by rw [hN]; omega⟩, flush1_6 _, ?_⟩
  have e0 := (idx_facts ⟨(i 0).val / 5000, by rw [hN]; omega⟩).2.2.2.2.2.2.2.2.2.2.2.2.1
  have e1 := (idx_facts ⟨(i 0).val / 5000, by rw [hN]; omega⟩).2.2.2.2.2.2.2.2.2.2.2.2.2
  rw [mem_blk6]
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 64 ≤ (i 1).val ∧ (i 1).val < win1_6.index _ (1 : Fin 2) * 64 + 64
    rw [e1]; omega

/-- THE ARRAY after the region: the whole-array update of the arrays the region is entered with. -/
theorem gru1_arr (c : Dev nD) : (dat1 V c).arrAt 6 cfg1.N = G1 V c :=
  (dat1 V c).arrAt_eq_of_cover 6 (G1 V c) (fun t _ => flushed_eq V c t) cover6

end Cert.Val.Gru1

end
-- ==== Proof.Val.Gru3Arr.lean ====
/-
  The GRU region 3: from the blocks the ten grid points write back to the whole array.

  Point t of the grid reads rows 5000 t … 5000 t + 4999 of the aggregated messages and of the state (the block of a
  row window at block index (t, 0)) and the whole of the four weight and bias tables (block (0, 0) of an array that is
  one block), and writes back the payload of these blocks as rows 5000 t … 5000 t + 4999 of the output. The payload at
  (p, q) is the whole-array update at (5000 t + p, q); the ten row blocks tile the 50000 rows (row r lies in block
  r / 5000); so after the last point the output array is the whole-array update of the arrays the region was entered
  with, whatever those are.
-/
import proofs.«180077_j85650237817340_1_alg».proof.Proof.KI.Gru3Def
import proofs.«180077_j85650237817340_1_alg».proof.Proof.Val.GruPay
import Idealize.ShloMosaic.Lib.Pipeline.Value

set_option maxRecDepth 16384

noncomputable section

namespace Cert.Val.Gru3

open Cert.KernelIdeal Cert.KernelIdeal.Gen Cert.KernelIdeal.Fr
open Idealize.ShloMosaic Idealize.ShloMosaic.TcCoe Idealize.ShloMosaic.ValueIdx
open Idealize.ShloMosaic.Pipeline (Dat)

theorem hz : (![0, 0] : Fin 2 → Nat) = fun _ => 0 := funext fun a => by fin_cases a <;> rfl

/-- The printed index maps, decided over the grid: the two row windows and the output window sit at block (t, 0), the
    four table windows at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

section Blocks
variable {F : FTy → Type} [FloatOps F]

/-- Row window 0 at point t reads rows 5000 t … 5000 t + 4999 of its array. -/
theorem read_rows0 (t : Fin cfg3.N) (A : S50000x64.Idx → Elt F .f32) (p : Fin 5000) (k : Fin 64)
    (hr : 5000 * t.val + p.val < 50000) :
    ((cfg3.win 0).blk t).view.read (Elt F) A (ix2 p k) = A (ix2 ⟨5000 * t.val + p.val, hr⟩ k) := by
  have e0 : win3_0.index t (0 : Fin 2) = t.val := (idx_facts t).1
  have e1 : win3_0.index t (1 : Fin 2) = 0 := (idx_facts t).2.1
  rw [View.read_apply]
  show A _ = A _
  congr 1
  funext a; apply Fin.ext
  match a with
  | ⟨0, _⟩ => show win3_0.index t (0 : Fin 2) * 5000 + 1 * p.val = 5000 * t.val + p.val; omega
  | ⟨1, _⟩ => show win3_0.index t (1 : Fin 2) * 64 + 1 * k.val = k.val; omega

/-- Row window 1 at point t reads rows 5000 t … 5000 t + 4999 of its array. -/
theorem read_rows1 (t : Fin cfg3.N) (A : S50000x64.Idx → Elt F .f32) (p : Fin 5000) (k : Fin 64)
    (hr : 5000 * t.val + p.val < 50000) :
    ((cfg3.win 1).blk t).view.read (Elt F) A (ix2 p k) = A (ix2 ⟨5000 * t.val + p.val, hr⟩ k) := by
  have e0 : win3_1.index t (0 : Fin 2) = t.val := (idx_facts t).2.2.1
  have e1 : win3_1.index t (1 : Fin 2) = 0 := (idx_facts t).2.2.2.1
  rw [View.read_apply]
  show A _ = A _
  congr 1
  funext a; apply Fin.ext
  match a with
  | ⟨0, _⟩ => show win3_1.index t (0 : Fin 2) * 5000 + 1 * p.val = 5000 * t.val + p.val; omega
  | ⟨1, _⟩ => show win3_1.index t (1 : Fin 2) * 64 + 1 * k.val = k.val; omega

/-- The output window at point t reads rows 5000 t … 5000 t + 4999 of its array. -/
theorem read_rows6 (t : Fin cfg3.N) (A : S50000x64.Idx → Elt F .f32) (p : Fin 5000) (k : Fin 64)
    (hr : 5000 * t.val + p.val < 50000) :
    ((cfg3.win 6).blk t).view.read (Elt F) A (ix2 p k) = A (ix2 ⟨5000 * t.val + p.val, hr⟩ k) := by
  have e0 : win3_6.index t (0 : Fin 2) = t.val := (idx_facts t).2.2.2.2.2.2.2.2.2.2.2.2.1
  have e1 : win3_6.index t (1 : Fin 2) = 0 := (idx_facts t).2.2.2.2.2.2.2.2.2.2.2.2.2
  rw [View.read_apply]
  show A _ = A _
  congr 1
  funext a; apply Fin.ext
  match a with
  | ⟨0, _⟩ => show win3_6.index t (0 : Fin 2) * 5000 + 1 * p.val = 5000 * t.val + p.val; omega
  | ⟨1, _⟩ => show win3_6.index t (1 : Fin 2) * 64 + 1 * k.val = k.val; omega

/-- Table window 2's block is its whole array at every point. -/
theorem read_tab2 (t : Fin cfg3.N) (A : S64x192.Idx → Elt F .f32) :
    ((cfg3.win 2).blk t).view.read (Elt F) A = A := by
  have e0 : win3_2.index t (0 : Fin 2) = 0 := (idx_facts t).2.2.2.2.1
  have e1 : win3_2.index t (1 : Fin 2) = 0 := (idx_facts t).2.2.2.2.2.1
  funext j
  rw [View.read_apply]
  show A _ = A _
  congr 1
  funext a; apply Fin.ext
  match a with
  | ⟨0, _⟩ => show win3_2.index t (0 : Fin 2) * 64 + 1 * (j 0).val = (j 0).val; omega
  | ⟨1, _⟩ => show win3_2.index t (1 : Fin 2) * 192 + 1 * (j 1).val = (j 1).val; omega

/-- Table window 3's block is its whole array at every point. -/
theorem read_tab3 (t : Fin cfg3.N) (A : S1x192.Idx → Elt F .f32) :
    ((cfg3.win 3).blk t).view.read (Elt F) A = A := by
  have e0 : win3_3.index t (0 : Fin 2) = 0 := (idx_facts t).2.2.2.2.2.2.1
  have e1 : win3_3.index t (1 : Fin 2) = 0 := (idx_facts t).2.2.2.2.2.2.2.1
  funext j
  rw [View.read_apply]
  show A _ = A _
  congr 1
  funext a; apply Fin.ext
  match a with
  | ⟨0, _⟩ => show win3_3.index t (0 : Fin 2) * 1 + 1 * (j 0).val = (j 0).val; omega
  | ⟨1, _⟩ => show win3_3.index t (1 : Fin 2) * 192 + 1 * (j 1).val = (j 1).val; omega

/-- Table window 4's block is its whole array at every point. -/
theorem read_tab4 (t : Fin cfg3.N) (A : S64x192.Idx → Elt F .f32) :
    ((cfg3.win 4).blk t).view.read (Elt F) A = A := by
  have e0 : win3_4.index t (0 : Fin 2) = 0 := (idx_facts t).2.2.2.2.2.2.2.2.1
  have e1 : win3_4.index t (1 : Fin 2) = 0 := (idx_facts t).2.2.2.2.2.2.2.2.2.1
  funext j
  rw [View.read_apply]
  show A _ = A _
  congr 1
  funext a; apply Fin.ext
  match a with
  | ⟨0, _⟩ => show win3_4.index t (0 : Fin 2) * 64 + 1 * (j 0).val = (j 0).val; omega
  | ⟨1, _⟩ => show win3_4.index t (1 : Fin 2) * 192 + 1 * (j 1).val = (j 1).val; omega

/-- Table window 5's block is its whole array at every point. -/
theorem read_tab5 (t : Fin cfg3.N) (A : S1x192.Idx → Elt F .f32) :
    ((cfg3.win 5).blk t).view.read (Elt F) A = A := by
  have e0 : win3_5.index t (0 : Fin 2) = 0 := (idx_facts t).2.2.2.2.2.2.2.2.2.2.1
  have e1 : win3_5.index t (1 : Fin 2) = 0 := (idx_facts t).2.2.2.2.2.2.2.2.2.2.2.1
  funext j
  rw [View.read_apply]
  show A _ = A _
  congr 1
  funext a; apply Fin.ext
  match a with
  | ⟨0, _⟩ => show win3_5.index t (0 : Fin 2) * 1 + 1 * (j 0).val = (j 0).val; omega
  | ⟨1, _⟩ => show win3_5.index t (1 : Fin 2) * 192 + 1 * (j 1).val = (j 1).val; omega

/-- The output window's blocks are uncut: what the write-back moves is all of the staging buffer. -/
theorem cut6_apply {α : Type} (t : Fin cfg3.N) (X : S5000x64.Idx → α) (p : Fin 5000) (q : Fin 64) :
    (cfg3.win 6).cut (grid3.coords t) X (ix2 p q) = X (ix2 p q) := rfl

end Blocks

variable (V : (c : Dev nD) → (b : Ref sig .tc) → Buf (Elt Ideal) ((c : Thread nD τ).loc b))

/-- The whole-array update of the six arrays the region is entered with. -/
abbrev G3 (c : Dev nD) : FVec Ideal Cert.ReferenceIdeal.S50000x64 .f32 :=
  Cert.Spec.gruRows (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

/-- WHAT POINT t WRITES BACK is block t of the whole-array update. -/
theorem flushed_eq (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero hz, show (k3_pay1 (F := Ideal)) = k1_pay1 from rfl]
  simp only [View.ld_unit_zero (S := S5000x64) hz, View.ld_unit_zero (S := S64x192) hz, View.ld_unit_zero (S := S1x192) hz]
  have ht : t.val < 10 := by have := t.isLt; have hN : cfg3.N = 10 := N_3; omega
  have e2 : iblk3 V c 2 t = V c (Pipeline.arrRef spec3 2) := read_tab2 t _
  have e3 : iblk3 V c 3 t = V c (Pipeline.arrRef spec3 3) := read_tab3 t _
  have e4 : iblk3 V c 4 t = V c (Pipeline.arrRef spec3 4) := read_tab4 t _
  have e5 : iblk3 V c 5 t = V c (Pipeline.arrRef spec3 5) := read_tab5 t _
  rw [e2, e3, e4, e5]
  funext j
  obtain ⟨p, q, rfl⟩ : ∃ (p : Fin 5000) (q : Fin 64), j = ix2 p q := ⟨j 0, j 1, eq_ix2 j⟩
  have hr : 5000 * t.val + p.val < 50000 := by have := p.isLt; omega
  rw [read_rows6 t _ p q hr]
  refine (cut6_apply t _ p q).trans ?_
  exact Cert.Val.gru_pay_apply_row (V c (Pipeline.arrRef spec3 0)) (V c (Pipeline.arrRef spec3 1)) (V c (Pipeline.arrRef spec3 2))
    (V c (Pipeline.arrRef spec3 4)) (V c (Pipeline.arrRef spec3 3)) (V c (Pipeline.arrRef spec3 5))
    (iblk3 V c 0 t) (iblk3 V c 1 t) p q ⟨5000 * t.val + p.val, hr⟩
    (fun k => read_rows0 t _ p k hr) (fun k => read_rows1 t _ p k hr)

/-- An index of the array is in point t's block iff each coordinate is in the block's range on its axis. -/
theorem mem_blk6 (t : Fin cfg3.N) (i : S50000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v91).slice (win3_6.rect t)).set ↔ _
  rw [View.set_slice_whole, Rect.mem_set_unit]
  exact Iff.rfl

/-- The ten blocks tile the array: row r is in the block of point r / 5000. -/
theorem cover6 (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 10 := N_3
  refine ⟨⟨(i 0).val / 5000, by rw [hN]; omega⟩, flush3_6 _, ?_⟩
  have e0 := (idx_facts ⟨(i 0).val / 5000, by rw [hN]; omega⟩).2.2.2.2.2.2.2.2.2.2.2.2.1
  have e1 := (idx_facts ⟨(i 0).val / 5000, by rw [hN]; omega⟩).2.2.2.2.2.2.2.2.2.2.2.2.2
  rw [mem_blk6]
  intro a
  match a with
  | ⟨0, _⟩ =>
    show win3_6.index _ (0 : Fin 2) * 5000 ≤ (i 0).val ∧ (i 0).val < win3_6.index _ (0 : Fin 2) * 5000 + 5000
    rw [e0]; show (i 0).val / 5000 * 5000 ≤ (i 0).val ∧ (i 0).val < (i 0).val / 5000 * 5000 + 5000; omega
  | ⟨1, _⟩ =>
    show win3_6.index _ (1 : Fin 2) * 64 ≤ (i 1).val ∧ (i 1).val < win3_6.index _ (1 : Fin 2) * 64 + 64
    rw [e1]; omega

/-- THE ARRAY after the region: the whole-array update of the arrays the region is entered with. -/
theorem gru3_arr (c : Dev nD) : (dat3 V c).arrAt 6 cfg3.N = G3 V c :=
  (dat3 V c).arrAt_eq_of_cover 6 (G3 V c) (fun t _ => flushed_eq V c t) cover6

end Cert.Val.Gru3

end
-- ==== Proof.Val.Gru5Arr.lean ====
/-
  The GRU region 5: from the blocks the ten grid points write back to the whole array.

  Point t of the grid reads rows 5000 t … 5000 t + 4999 of the aggregated messages and of the state (the block of a
  row window at block index (t, 0)) and the whole of the four weight and bias tables (block (0, 0) of an array that is
  one block), and writes back the payload of these blocks as rows 5000 t … 5000 t + 4999 of the output. The payload at
  (p, q) is the whole-array update at (5000 t + p, q); the ten row blocks tile the 50000 rows (row r lies in block
  r / 5000); so after the last point the output array is the whole-array update of the arrays the region was entered
  with, whatever those are.
-/
import proofs.«180077_j85650237817340_1_alg».proof.Proof.KI.Gru5Def
import proofs.«180077_j85650237817340_1_alg».proof.Proof.Val.GruPay
import Idealize.ShloMosaic.Lib.Pipeline.Value

set_option maxRecDepth 16384

noncomputable section

namespace Cert.Val.Gru5

open Cert.KernelIdeal Cert.KernelIdeal.Gen Cert.KernelIdeal.Fr
open Idealize.ShloMosaic Idealize.ShloMosaic.TcCoe Idealize.ShloMosaic.ValueIdx
open Idealize.ShloMosaic.Pipeline (Dat)

theorem hz : (![0, 0] : Fin 2 → Nat) = fun _ => 0 := funext fun a => by fin_cases a <;> rfl

/-- The printed index maps, decided over the grid: the two row windows and the output window sit at block (t, 0), the
    four table windows at block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

section Blocks
variable {F : FTy → Type} [FloatOps F]

/-- Row window 0 at point t reads rows 5000 t … 5000 t + 4999 of its array. -/
theorem read_rows0 (t : Fin cfg5.N) (A : S50000x64.Idx → Elt F .f32) (p : Fin 5000) (k : Fin 64)
    (hr : 5000 * t.val + p.val < 50000) :
    ((cfg5.win 0).blk t).view.read (Elt F) A (ix2 p k) = A (ix2 ⟨5000 * t.val + p.val, hr⟩ k) := by
  have e0 : win5_0.index t (0 : Fin 2) = t.val := (idx_facts t).1
  have e1 : win5_0.index t (1 : Fin 2) = 0 := (idx_facts t).2.1
  rw [View.read_apply]
  show A _ = A _
  congr 1
  funext a; apply Fin.ext
  match a with
  | ⟨0, _⟩ => show win5_0.index t (0 : Fin 2) * 5000 + 1 * p.val = 5000 * t.val + p.val; omega
  | ⟨1, _⟩ => show win5_0.index t (1 : Fin 2) * 64 + 1 * k.val = k.val; omega

/-- Row window 1 at point t reads rows 5000 t … 5000 t + 4999 of its array. -/
theorem read_rows1 (t : Fin cfg5.N) (A : S50000x64.Idx → Elt F .f32) (p : Fin 5000) (k : Fin 64)
    (hr : 5000 * t.val + p.val < 50000) :
    ((cfg5.win 1).blk t).view.read (Elt F) A (ix2 p k) = A (ix2 ⟨5000 * t.val + p.val, hr⟩ k) := by
  have e0 : win5_1.index t (0 : Fin 2) = t.val := (idx_facts t).2.2.1
  have e1 : win5_1.index t (1 : Fin 2) = 0 := (idx_facts t).2.2.2.1
  rw [View.read_apply]
  show A _ = A _
  congr 1
  funext a; apply Fin.ext
  match a with
  | ⟨0, _⟩ => show win5_1.index t (0 : Fin 2) * 5000 + 1 * p.val = 5000 * t.val + p.val; omega
  | ⟨1, _⟩ => show win5_1.index t (1 : Fin 2) * 64 + 1 * k.val = k.val; omega

/-- The output window at point t reads rows 5000 t … 5000 t + 4999 of its array. -/
theorem read_rows6 (t : Fin cfg5.N) (A : S50000x64.Idx → Elt F .f32) (p : Fin 5000) (k : Fin 64)
    (hr : 5000 * t.val + p.val < 50000) :
    ((cfg5.win 6).blk t).view.read (Elt F) A (ix2 p k) = A (ix2 ⟨5000 * t.val + p.val, hr⟩ k) := by
  have e0 : win5_6.index t (0 : Fin 2) = t.val := (idx_facts t).2.2.2.2.2.2.2.2.2.2.2.2.1
  have e1 : win5_6.index t (1 : Fin 2) = 0 := (idx_facts t).2.2.2.2.2.2.2.2.2.2.2.2.2
  rw [View.read_apply]
  show A _ = A _
  congr 1
  funext a; apply Fin.ext
  match a with
  | ⟨0, _⟩ => show win5_6.index t (0 : Fin 2) * 5000 + 1 * p.val = 5000 * t.val + p.val; omega
  | ⟨1, _⟩ => show win5_6.index t (1 : Fin 2) * 64 + 1 * k.val = k.val; omega

/-- Table window 2's block is its whole array at every point. -/
theorem read_tab2 (t : Fin cfg5.N) (A : S64x192.Idx → Elt F .f32) :
    ((cfg5.win 2).blk t).view.read (Elt F) A = A := by
  have e0 : win5_2.index t (0 : Fin 2) = 0 := (idx_facts t).2.2.2.2.1
  have e1 : win5_2.index t (1 : Fin 2) = 0 := (idx_facts t).2.2.2.2.2.1
  funext j
  rw [View.read_apply]
  show A _ = A _
  congr 1
  funext a; apply Fin.ext
  match a with
  | ⟨0, _⟩ => show win5_2.index t (0 : Fin 2) * 64 + 1 * (j 0).val = (j 0).val; omega
  | ⟨1, _⟩ => show win5_2.index t (1 : Fin 2) * 192 + 1 * (j 1).val = (j 1).val; omega

/-- Table window 3's block is its whole array at every point. -/
theorem read_tab3 (t : Fin cfg5.N) (A : S1x192.Idx → Elt F .f32) :
    ((cfg5.win 3).blk t).view.read (Elt F) A = A := by
  have e0 : win5_3.index t (0 : Fin 2) = 0 := (idx_facts t).2.2.2.2.2.2.1
  have e1 : win5_3.index t (1 : Fin 2) = 0 := (idx_facts t).2.2.2.2.2.2.2.1
  funext j
  rw [View.read_apply]
  show A _ = A _
  congr 1
  funext a; apply Fin.ext
  match a with
  | ⟨0, _⟩ => show win5_3.index t (0 : Fin 2) * 1 + 1 * (j 0).val = (j 0).val; omega
  | ⟨1, _⟩ => show win5_3.index t (1 : Fin 2) * 192 + 1 * (j 1).val = (j 1).val; omega

/-- Table window 4's block is its whole array at every point. -/
theorem read_tab4 (t : Fin cfg5.N) (A : S64x192.Idx → Elt F .f32) :
    ((cfg5.win 4).blk t).view.read (Elt F) A = A := by
  have e0 : win5_4.index t (0 : Fin 2) = 0 := (idx_facts t).2.2.2.2.2.2.2.2.1
  have e1 : win5_4.index t (1 : Fin 2) = 0 := (idx_facts t).2.2.2.2.2.2.2.2.2.1
  funext j
  rw [View.read_apply]
  show A _ = A _
  congr 1
  funext a; apply Fin.ext
  match a with
  | ⟨0, _⟩ => show win5_4.index t (0 : Fin 2) * 64 + 1 * (j 0).val = (j 0).val; omega
  | ⟨1, _⟩ => show win5_4.index t (1 : Fin 2) * 192 + 1 * (j 1).val = (j 1).val; omega

/-- Table window 5's block is its whole array at every point. -/
theorem read_tab5 (t : Fin cfg5.N) (A : S1x192.Idx → Elt F .f32) :
    ((cfg5.win 5).blk t).view.read (Elt F) A = A := by
  have e0 : win5_5.index t (0 : Fin 2) = 0 := (idx_facts t).2.2.2.2.2.2.2.2.2.2.1
  have e1 : win5_5.index t (1 : Fin 2) = 0 := (idx_facts t).2.2.2.2.2.2.2.2.2.2.2.1
  funext j
  rw [View.read_apply]
  show A _ = A _
  congr 1
  funext a; apply Fin.ext
  match a with
  | ⟨0, _⟩ => show win5_5.index t (0 : Fin 2) * 1 + 1 * (j 0).val = (j 0).val; omega
  | ⟨1, _⟩ => show win5_5.index t (1 : Fin 2) * 192 + 1 * (j 1).val = (j 1).val; omega

/-- The output window's blocks are uncut: what the write-back moves is all of the staging buffer. -/
theorem cut6_apply {α : Type} (t : Fin cfg5.N) (X : S5000x64.Idx → α) (p : Fin 5000) (q : Fin 64) :
    (cfg5.win 6).cut (grid5.coords t) X (ix2 p q) = X (ix2 p q) := rfl

end Blocks

variable (V : (c : Dev nD) → (b : Ref sig .tc) → Buf (Elt Ideal) ((c : Thread nD τ).loc b))

/-- The whole-array update of the six arrays the region is entered with. -/
abbrev G5 (c : Dev nD) : FVec Ideal Cert.ReferenceIdeal.S50000x64 .f32 :=
  Cert.Spec.gruRows (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))

/-- WHAT POINT t WRITES BACK is block t of the whole-array update. -/
theorem flushed_eq (c : Dev nD) (t : Fin cfg5.N) :
    (dat5 V c).flushed 6 t = ((cfg5.win 6).blk t).view.read (Elt Ideal) (G5 V c) := by
  show (cfg5.win 6).cut (grid5.coords t) ((dat5 V c).after 6 t) = _
  rw [after5_6]
  unfold out5_6
  rw [View.canon_unit_zero hz, show (k5_pay1 (F := Ideal)) = k1_pay1 from rfl]
  simp only [View.ld_unit_zero (S := S5000x64) hz, View.ld_unit_zero (S := S64x192) hz, View.ld_unit_zero (S := S1x192) hz]
  have ht : t.val < 10 := by have := t.isLt; have hN : cfg5.N = 10 := N_5; omega
  have e2 : iblk5 V c 2 t = V c (Pipeline.arrRef spec5 2) := read_tab2 t _
  have e3 : iblk5 V c 3 t = V c (Pipeline.arrRef spec5 3) := read_tab3 t _
  have e4 : iblk5 V c 4 t = V c (Pipeline.arrRef spec5 4) := read_tab4 t _
  have e5 : iblk5 V c 5 t = V c (Pipeline.arrRef spec5 5) := read_tab5 t _
  rw [e2, e3, e4, e5]
  funext j
  obtain ⟨p, q, rfl⟩ : ∃ (p : Fin 5000) (q : Fin 64), j = ix2 p q := ⟨j 0, j 1, eq_ix2 j⟩
  have hr : 5000 * t.val + p.val < 50000 := by have := p.isLt; omega
  rw [read_rows6 t _ p q hr]
  refine (cut6_apply t _ p q).trans ?_
  exact Cert.Val.gru_pay_apply_row (V c (Pipeline.arrRef spec5 0)) (V c (Pipeline.arrRef spec5 1)) (V c (Pipeline.arrRef spec5 2))
    (V c (Pipeline.arrRef spec5 4)) (V c (Pipeline.arrRef spec5 3)) (V c (Pipeline.arrRef spec5 5))
    (iblk5 V c 0 t) (iblk5 V c 1 t) p q ⟨5000 * t.val + p.val, hr⟩
    (fun k => read_rows0 t _ p k hr) (fun k => read_rows1 t _ p k hr)

/-- An index of the array is in point t's block iff each coordinate is in the block's range on its axis. -/
theorem mem_blk6 (t : Fin cfg5.N) (i : S50000x64.Idx) :
    i ∈ ((cfg5.win 6).blk t).view.set ↔ ∀ a : Fin 2, win5_6.index t a * S5000x64.size a ≤ (i a).val
      ∧ (i a).val < win5_6.index t a * S5000x64.size a + S5000x64.size a := by
  show i ∈ ((View.whole main_v115).slice (win5_6.rect t)).set ↔ _
  rw [View.set_slice_whole, Rect.mem_set_unit]
  exact Iff.rfl

/-- The ten blocks tile the array: row r is in the block of point r / 5000. -/
theorem cover6 (i : S50000x64.Idx) :
    ∃ t : Fin cfg5.N, (cfg5.win 6).flush t = true ∧ i ∈ ((cfg5.win 6).blk t).view.set := by
  have hi0 : (i 0).val < 50000 := (i 0).isLt
  have hi1 : (i 1).val < 64 := (i 1).isLt
  have hN : cfg5.N = 10 := N_5
  refine ⟨⟨(i 0).val / 5000, by rw [hN]; omega⟩, flush5_6 _, ?_⟩
  have e0 := (idx_facts ⟨(i 0).val / 5000, by rw [hN]; omega⟩).2.2.2.2.2.2.2.2.2.2.2.2.1
  have e1 := (idx_facts ⟨(i 0).val / 5000, by rw [hN]; omega⟩).2.2.2.2.2.2.2.2.2.2.2.2.2
  rw [mem_blk6]
  intro a
  match a with
  | ⟨0, _⟩ =>
    show win5_6.index _ (0 : Fin 2) * 5000 ≤ (i 0).val ∧ (i 0).val < win5_6.index _ (0 : Fin 2) * 5000 + 5000
    rw [e0]; show (i 0).val / 5000 * 5000 ≤ (i 0).val ∧ (i 0).val < (i 0).val / 5000 * 5000 + 5000; omega
  | ⟨1, _⟩ =>
    show win5_6.index _ (1 : Fin 2) * 64 ≤ (i 1).val ∧ (i 1).val < win5_6.index _ (1 : Fin 2) * 64 + 64
    rw [e1]; omega

/-- THE ARRAY after the region: the whole-array update of the arrays the region is entered with. -/
theorem gru5_arr (c : Dev nD) : (dat5 V c).arrAt 6 cfg5.N = G5 V c :=
  (dat5 V c).arrAt_eq_of_cover 6 (G5 V c) (fun t _ => flushed_eq V c t) cover6

end Cert.Val.Gru5

end
-- ==== Proof.LibVecRow.lean ====
/-
  A vector laid as a one-row matrix, two ways.

  A vector of length a can be turned into a matrix [1, a] by a reshape or by a broadcast that puts the vector's axis
  on the matrix's second axis. Both matrices read, at (u, i), the vector's entry i: they are one array. Stated over
  the library only, for any element type.
-/
import Idealize.ShloMosaic.Lib.ValueLayout

noncomputable section

namespace Cert.LibVecRow

open Idealize.ShloMosaic Idealize.ShloMosaic.ValueIdx

/-- A vector reshaped to a one-row matrix is the vector broadcast along the second axis: both read, at (u, i),
    the vector's entry i. -/
theorem shapeCast_vec_eq_broadcastInDim {α : Type} {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply]
  symm
  refine broadcastInDim_apply ![1] hb x (ix2 u i) (ix1 i) ?_
  intro c
  have hc : c = 0 := Subsingleton.elim _ _
  subst hc
  show i.val = if a = 1 then 0 else i.val
  have := i.isLt
  split <;> omega

end Cert.LibVecRow

end
-- ==== Proof.Val.Chain.lean ====
/-
  The kernel program's buffers, boundary by boundary, as functions of the argument arrays.

  Between two items of the program (a stretch of host operations, or a pallas_call region) the buffer
  contents are named W0 (the launch) … W13 (the return). A stretch rewrites the buffers its operations
  write and keeps the rest; a region rewrites its output window's array and keeps the rest, its input
  windows' arrays included. Walking through the thirteen items: after the first stretch the edge fields,
  the initial state and its gathered rows are the spec's; each edge-network region leaves the spec's
  messages of the state gathered at its entry; each following stretch sums them into the target nodes;
  each recurrent region leaves the spec's next state; the last stretch is the read-out. So the returned
  buffer is the spec's network of the argument arrays.
-/
import proofs.«180077_j85650237817340_1_alg».proof.Proof.KI.Run
import proofs.«180077_j85650237817340_1_alg».proof.Proof.Val.Stages
import proofs.«180077_j85650237817340_1_alg».proof.Proof.Val.Mlp0Arr
import proofs.«180077_j85650237817340_1_alg».proof.Proof.Val.Mlp2Arr
import proofs.«180077_j85650237817340_1_alg».proof.Proof.Val.Mlp4Arr
import proofs.«180077_j85650237817340_1_alg».proof.Proof.Val.Gru1Arr
import proofs.«180077_j85650237817340_1_alg».proof.Proof.Val.Gru3Arr
import proofs.«180077_j85650237817340_1_alg».proof.Proof.Val.Gru5Arr
import proofs.«180077_j85650237817340_1_alg».proof.Proof.LibVecRow

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- An argument array as launched. -/
abbrev arg (r : Ref sig .tc) : Buf (Elt Ideal) ((c.tc : Thread nD τ).loc r) := m ((c.tc : Thread nD τ).loc r)

/-! ## The spec's intermediate values -/

/-- The spec's state after 0, 1, 2, 3 rounds, its messages and their sums per round. -/
abbrev st0 := Cert.Spec.state0 (F := Ideal) (arg m c main_arg2) (arg m c main_arg4) (arg m c main_arg5)
abbrev msg0 := Cert.Spec.messages (F := Ideal) (arg m c main_arg0) (arg m c main_arg1) (arg m c main_arg2) (arg m c main_arg6) (arg m c main_arg7) (arg m c main_arg8) (arg m c main_arg9) (arg m c main_arg10) (arg m c main_arg11) (st0 m c)
abbrev agg0 := Cert.Spec.aggregate (F := Ideal) (arg m c main_arg0) (msg0 m c)
abbrev st1 := Cert.Spec.gruHost (F := Ideal) (agg0 m c) (st0 m c) (arg m c main_arg12) (arg m c main_arg13) (arg m c main_arg14) (arg m c main_arg15)
abbrev msg1 := Cert.Spec.messages (F := Ideal) (arg m c main_arg0) (arg m c main_arg1) (arg m c main_arg2) (arg m c main_arg6) (arg m c main_arg7) (arg m c main_arg8) (arg m c main_arg9) (arg m c main_arg10) (arg m c main_arg11) (st1 m c)
abbrev agg1 := Cert.Spec.aggregate (F := Ideal) (arg m c main_arg0) (msg1 m c)
abbrev st2 := Cert.Spec.gruHost (F := Ideal) (agg1 m c) (st1 m c) (arg m c main_arg12) (arg m c main_arg13) (arg m c main_arg14) (arg m c main_arg15)
abbrev msg2 := Cert.Spec.messages (F := Ideal) (arg m c main_arg0) (arg m c main_arg1) (arg m c main_arg2) (arg m c main_arg6) (arg m c main_arg7) (arg m c main_arg8) (arg m c main_arg9) (arg m c main_arg10) (arg m c main_arg11) (st2 m c)
abbrev agg2 := Cert.Spec.aggregate (F := Ideal) (arg m c main_arg0) (msg2 m c)
abbrev st3 := Cert.Spec.gruHost (F := Ideal) (agg2 m c) (st2 m c) (arg m c main_arg12) (arg m c main_arg13) (arg m c main_arg14) (arg m c main_arg15)

/-! ## What an item keeps -/

theorem keepH0 (r : Ref sig .tc) (h : r ∉ hostOps0_W) : W1 m ρ c (Proc.devRef .tc r) = W0 m ρ c (Proc.devRef .tc r) :=
  StableHlo.after_of_writes_sub hostOps0 _ hostOps0_writes h
theorem keepH1 (r : Ref sig .tc) (h : r ∉ hostOps1_W) : W3 m ρ c (Proc.devRef .tc r) = W2 m ρ c (Proc.devRef .tc r) :=
  StableHlo.after_of_writes_sub hostOps1 _ hostOps1_writes h
theorem keepH2 (r : Ref sig .tc) (h : r ∉ hostOps2_W) : W5 m ρ c (Proc.devRef .tc r) = W4 m ρ c (Proc.devRef .tc r) :=
  StableHlo.after_of_writes_sub hostOps2 _ hostOps2_writes h
theorem keepH3 (r : Ref sig .tc) (h : r ∉ hostOps3_W) : W7 m ρ c (Proc.devRef .tc r) = W6 m ρ c (Proc.devRef .tc r) :=
  StableHlo.after_of_writes_sub hostOps3 _ hostOps3_writes h
theorem keepH4 (r : Ref sig .tc) (h : r ∉ hostOps4_W) : W9 m ρ c (Proc.devRef .tc r) = W8 m ρ c (Proc.devRef .tc r) :=
  StableHlo.after_of_writes_sub hostOps4 _ hostOps4_writes h
theorem keepH5 (r : Ref sig .tc) (h : r ∉ hostOps5_W) : W11 m ρ c (Proc.devRef .tc r) = W10 m ρ c (Proc.devRef .tc r) :=
  StableHlo.after_of_writes_sub hostOps5 _ hostOps5_writes h
theorem keepH6 (r : Ref sig .tc) (h : r ∉ hostOps6_W) : W13 m ρ c (Proc.devRef .tc r) = W12 m ρ c (Proc.devRef .tc r) :=
  StableHlo.after_of_writes_sub hostOps6 _ hostOps6_writes h

theorem isIn0 : ∀ w : Fin 11, w ≠ 10 → (cfg0.win w).isOut = false := by decide
/-- Region 0 rewrites its output window's array only. -/
theorem keepR0 (r : Ref sig .tc) (h : ∀ w : Fin 11, Pipeline.arrRef spec0 w = r → w ≠ 10) :
    W2 m ρ c (Proc.devRef .tc r) = W1 m ρ c (Proc.devRef .tc r) := by
  by_cases hr : ∃ w : Fin 11, Pipeline.arrRef spec0 w = r
  · obtain ⟨w, rfl⟩ := hr
    exact (W2_arr m ρ c w).trans (((dat0 (V1 m ρ) c).arrAt_in w (isIn0 w (h w rfl)) _).trans (A_eq0 (V1 m ρ) c w))
  · exact W2_of_ne m ρ c r (fun w e => hr ⟨w, e⟩)

theorem isIn1 : ∀ w : Fin 7, w ≠ 6 → (cfg1.win w).isOut = false := by decide
/-- Region 1 rewrites its output window's array only. -/
theorem keepR1 (r : Ref sig .tc) (h : ∀ w : Fin 7, Pipeline.arrRef spec1 w = r → w ≠ 6) :
    W4 m ρ c (Proc.devRef .tc r) = W3 m ρ c (Proc.devRef .tc r) := by
  by_cases hr : ∃ w : Fin 7, Pipeline.arrRef spec1 w = r
  · obtain ⟨w, rfl⟩ := hr
    exact (W4_arr m ρ c w).trans (((dat1 (V3 m ρ) c).arrAt_in w (isIn1 w (h w rfl)) _).trans (A_eq1 (V3 m ρ) c w))
  · exact W4_of_ne m ρ c r (fun w e => hr ⟨w, e⟩)

theorem isIn2 : ∀ w : Fin 11, w ≠ 10 → (cfg2.win w).isOut = false := by decide
/-- Region 2 rewrites its output window's array only. -/
theorem keepR2 (r : Ref sig .tc) (h : ∀ w : Fin 11, Pipeline.arrRef spec2 w = r → w ≠ 10) :
    W6 m ρ c (Proc.devRef .tc r) = W5 m ρ c (Proc.devRef .tc r) := by
  by_cases hr : ∃ w : Fin 11, Pipeline.arrRef spec2 w = r
  · obtain ⟨w, rfl⟩ := hr
    exact (W6_arr m ρ c w).trans (((dat2 (V5 m ρ) c).arrAt_in w (isIn2 w (h w rfl)) _).trans (A_eq2 (V5 m ρ) c w))
  · exact W6_of_ne m ρ c r (fun w e => hr ⟨w, e⟩)

theorem isIn3 : ∀ w : Fin 7, w ≠ 6 → (cfg3.win w).isOut = false := by decide
/-- Region 3 rewrites its output window's array only. -/
theorem keepR3 (r : Ref sig .tc) (h : ∀ w : Fin 7, Pipeline.arrRef spec3 w = r → w ≠ 6) :
    W8 m ρ c (Proc.devRef .tc r) = W7 m ρ c (Proc.devRef .tc r) := by
  by_cases hr : ∃ w : Fin 7, Pipeline.arrRef spec3 w = r
  · obtain ⟨w, rfl⟩ := hr
    exact (W8_arr m ρ c w).trans (((dat3 (V7 m ρ) c).arrAt_in w (isIn3 w (h w rfl)) _).trans (A_eq3 (V7 m ρ) c w))
  · exact W8_of_ne m ρ c r (fun w e => hr ⟨w, e⟩)

theorem isIn4 : ∀ w : Fin 11, w ≠ 10 → (cfg4.win w).isOut = false := by decide
/-- Region 4 rewrites its output window's array only. -/
theorem keepR4 (r : Ref sig .tc) (h : ∀ w : Fin 11, Pipeline.arrRef spec4 w = r → w ≠ 10) :
    W10 m ρ c (Proc.devRef .tc r) = W9 m ρ c (Proc.devRef .tc r) := by
  by_cases hr : ∃ w : Fin 11, Pipeline.arrRef spec4 w = r
  · obtain ⟨w, rfl⟩ := hr
    exact (W10_arr m ρ c w).trans (((dat4 (V9 m ρ) c).arrAt_in w (isIn4 w (h w rfl)) _).trans (A_eq4 (V9 m ρ) c w))
  · exact W10_of_ne m ρ c r (fun w e => hr ⟨w, e⟩)

theorem isIn5 : ∀ w : Fin 7, w ≠ 6 → (cfg5.win w).isOut = false := by decide
/-- Region 5 rewrites its output window's array only. -/
theorem keepR5 (r : Ref sig .tc) (h : ∀ w : Fin 7, Pipeline.arrRef spec5 w = r → w ≠ 6) :
    W12 m ρ c (Proc.devRef .tc r) = W11 m ρ c (Proc.devRef .tc r) := by
  by_cases hr : ∃ w : Fin 7, Pipeline.arrRef spec5 w = r
  · obtain ⟨w, rfl⟩ := hr
    exact (W12_arr m ρ c w).trans (((dat5 (V11 m ρ) c).arrAt_in w (isIn5 w (h w rfl)) _).trans (A_eq5 (V11 m ρ) c w))
  · exact W12_of_ne m ρ c r (fun w e => hr ⟨w, e⟩)

/-! ## The arguments are never rewritten -/

/-- The eighteen argument arrays. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

theorem argAt0 (a : Ref sig .tc) (_ : a ∈ argRefs) : W0 m ρ c (Proc.devRef .tc a) = arg m c a := rfl
theorem argNot1 : ∀ a ∈ argRefs, a ∉ hostOps0_W := by decide
theorem argAt1 (a : Ref sig .tc) (ha : a ∈ argRefs) : W1 m ρ c (Proc.devRef .tc a) = arg m c a :=
  (keepH0 m ρ c a (argNot1 a ha)).trans (argAt0 m ρ c a ha)
theorem argNot2 : ∀ a ∈ argRefs, ∀ w : Fin 11, Pipeline.arrRef spec0 w = a → w ≠ 10 := by decide
theorem argAt2 (a : Ref sig .tc) (ha : a ∈ argRefs) : W2 m ρ c (Proc.devRef .tc a) = arg m c a :=
  (keepR0 m ρ c a (argNot2 a ha)).trans (argAt1 m ρ c a ha)
theorem argNot3 : ∀ a ∈ argRefs, a ∉ hostOps1_W := by decide
theorem argAt3 (a : Ref sig .tc) (ha : a ∈ argRefs) : W3 m ρ c (Proc.devRef .tc a) = arg m c a :=
  (keepH1 m ρ c a (argNot3 a ha)).trans (argAt2 m ρ c a ha)
theorem argNot4 : ∀ a ∈ argRefs, ∀ w : Fin 7, Pipeline.arrRef spec1 w = a → w ≠ 6 := by decide
theorem argAt4 (a : Ref sig .tc) (ha : a ∈ argRefs) : W4 m ρ c (Proc.devRef .tc a) = arg m c a :=
  (keepR1 m ρ c a (argNot4 a ha)).trans (argAt3 m ρ c a ha)
theorem argNot5 : ∀ a ∈ argRefs, a ∉ hostOps2_W := by decide
theorem argAt5 (a : Ref sig .tc) (ha : a ∈ argRefs) : W5 m ρ c (Proc.devRef .tc a) = arg m c a :=
  (keepH2 m ρ c a (argNot5 a ha)).trans (argAt4 m ρ c a ha)
theorem argNot6 : ∀ a ∈ argRefs, ∀ w : Fin 11, Pipeline.arrRef spec2 w = a → w ≠ 10 := by decide
theorem argAt6 (a : Ref sig .tc) (ha : a ∈ argRefs) : W6 m ρ c (Proc.devRef .tc a) = arg m c a :=
  (keepR2 m ρ c a (argNot6 a ha)).trans (argAt5 m ρ c a ha)
theorem argNot7 : ∀ a ∈ argRefs, a ∉ hostOps3_W := by decide
theorem argAt7 (a : Ref sig .tc) (ha : a ∈ argRefs) : W7 m ρ c (Proc.devRef .tc a) = arg m c a :=
  (keepH3 m ρ c a (argNot7 a ha)).trans (argAt6 m ρ c a ha)
theorem argNot8 : ∀ a ∈ argRefs, ∀ w : Fin 7, Pipeline.arrRef spec3 w = a → w ≠ 6 := by decide
theorem argAt8 (a : Ref sig .tc) (ha : a ∈ argRefs) : W8 m ρ c (Proc.devRef .tc a) = arg m c a :=
  (keepR3 m ρ c a (argNot8 a ha)).trans (argAt7 m ρ c a ha)
theorem argNot9 : ∀ a ∈ argRefs, a ∉ hostOps4_W := by decide
theorem argAt9 (a : Ref sig .tc) (ha : a ∈ argRefs) : W9 m ρ c (Proc.devRef .tc a) = arg m c a :=
  (keepH4 m ρ c a (argNot9 a ha)).trans (argAt8 m ρ c a ha)
theorem argNot10 : ∀ a ∈ argRefs, ∀ w : Fin 11, Pipeline.arrRef spec4 w = a → w ≠ 10 := by decide
theorem argAt10 (a : Ref sig .tc) (ha : a ∈ argRefs) : W10 m ρ c (Proc.devRef .tc a) = arg m c a :=
  (keepR4 m ρ c a (argNot10 a ha)).trans (argAt9 m ρ c a ha)
theorem argNot11 : ∀ a ∈ argRefs, a ∉ hostOps5_W := by decide
theorem argAt11 (a : Ref sig .tc) (ha : a ∈ argRefs) : W11 m ρ c (Proc.devRef .tc a) = arg m c a :=
  (keepH5 m ρ c a (argNot11 a ha)).trans (argAt10 m ρ c a ha)
theorem argNot12 : ∀ a ∈ argRefs, ∀ w : Fin 7, Pipeline.arrRef spec5 w = a → w ≠ 6 := by decide
theorem argAt12 (a : Ref sig .tc) (ha : a ∈ argRefs) : W12 m ρ c (Proc.devRef .tc a) = arg m c a :=
  (keepR5 m ρ c a (argNot12 a ha)).trans (argAt11 m ρ c a ha)

/-! ## Equal inputs, equal outputs -/

theorem mlpRows_congr {a0 a0' : Cert.Spec.Arr Ideal Cert.ReferenceIdeal.S800000x64 .f32} {a1 a1' : Cert.Spec.Arr Ideal Cert.ReferenceIdeal.S800000x4 .f32}
    {a2 a2' : Cert.Spec.Arr Ideal Cert.ReferenceIdeal.S800000x64 .f32} {a3 a3' : Cert.Spec.Arr Ideal Cert.ReferenceIdeal.S800000x4 .f32}
    {w1 w1' : Cert.Spec.Arr Ideal Cert.ReferenceIdeal.S136x64 .f32} {b1 b1' : Cert.Spec.Arr Ideal Cert.ReferenceIdeal.S1x64 .f32}
    {w2 w2' : Cert.Spec.Arr Ideal Cert.ReferenceIdeal.S64x64 .f32} {b2 b2' : Cert.Spec.Arr Ideal Cert.ReferenceIdeal.S1x64 .f32}
    {w3 w3' : Cert.Spec.Arr Ideal Cert.ReferenceIdeal.S64x64 .f32} {b3 b3' : Cert.Spec.Arr Ideal Cert.ReferenceIdeal.S1x64 .f32}
    (h0 : a0 = a0') (h1 : a1 = a1') (h2 : a2 = a2') (h3 : a3 = a3') (h4 : w1 = w1') (h5 : b1 = b1') (h6 : w2 = w2') (h7 : b2 = b2')
    (h8 : w3 = w3') (h9 : b3 = b3') :
    Cert.Spec.mlpRows (F := Ideal) a0 a1 a2 a3 w1 b1 w2 b2 w3 b3 = Cert.Spec.mlpRows (F := Ideal) a0' a1' a2' a3' w1' b1' w2' b2' w3' b3' := by
  subst h0 h1 h2 h3 h4 h5 h6 h7 h8 h9; rfl

theorem gruRows_congr {g g' h h' : Cert.Spec.Arr Ideal Cert.ReferenceIdeal.S50000x64 .f32}
    {wi wi' : Cert.Spec.Arr Ideal Cert.ReferenceIdeal.S64x192 .f32} {bi bi' : Cert.Spec.Arr Ideal Cert.ReferenceIdeal.S1x192 .f32}
    {wh wh' : Cert.Spec.Arr Ideal Cert.ReferenceIdeal.S64x192 .f32} {bh bh' : Cert.Spec.Arr Ideal Cert.ReferenceIdeal.S1x192 .f32}
    (e0 : g = g') (e1 : h = h') (e2 : wi = wi') (e3 : bi = bi') (e4 : wh = wh') (e5 : bh = bh') :
    Cert.Spec.gruRows (F := Ideal) g h wi bi wh bh = Cert.Spec.gruRows (F := Ideal) g' h' wi' bi' wh' bh' := by
  subst e0 e1 e2 e3 e4 e5; rfl

/-- A vector of 64 (of 192) entries reshaped to one row is the spec's row. -/
theorem row64_eq (b : Cert.Spec.Arr Ideal Cert.ReferenceIdeal.S64 .f32) :
    shapeCast S1x64 b shapeCasts_S64_S1x64 = Cert.Spec.row64 (F := Ideal) b := by
  unfold Cert.Spec.row64; exact Cert.LibVecRow.shapeCast_vec_eq_broadcastInDim _ _ _
theorem row192_eq (b : Cert.Spec.Arr Ideal Cert.ReferenceIdeal.S192 .f32) :
    shapeCast S1x192 b shapeCasts_S192_S1x192 = Cert.Spec.row192 (F := Ideal) b := by
  unfold Cert.Spec.row192; exact Cert.LibVecRow.shapeCast_vec_eq_broadcastInDim _ _ _

/-! ## Boundary by boundary -/
theorem L1_v1 : W1 m ρ c (Proc.devRef .tc main_v1) = Cert.Spec.edgeSrc (F := Ideal) (arg m c main_arg0) :=
  h0_v1 (W0 m ρ c)
theorem L1_v3 : W1 m ρ c (Proc.devRef .tc main_v3) = Cert.Spec.edgeDst (F := Ideal) (arg m c main_arg0) :=
  h0_v3 (W0 m ρ c)
theorem L1_v20 : W1 m ρ c (Proc.devRef .tc main_v20) = Cert.Spec.fieldsSrc (F := Ideal) (arg m c main_arg0) (arg m c main_arg1) (arg m c main_arg2) :=
  h0_v20 (W0 m ρ c)
theorem L1_v37 : W1 m ρ c (Proc.devRef .tc main_v37) = Cert.Spec.fieldsDst (F := Ideal) (arg m c main_arg0) (arg m c main_arg1) (arg m c main_arg2) :=
  h0_v37 (W0 m ρ c)
theorem L1_v43 : W1 m ρ c (Proc.devRef .tc main_v43) = st0 m c :=
  h0_v43 (W0 m ρ c)
theorem L1_v50 : W1 m ρ c (Proc.devRef .tc main_v50) = Cert.Spec.take64 (F := Ideal) (st0 m c) (Cert.Spec.wrapCol (F := Ideal) (Cert.Spec.edgeSrc (F := Ideal) (arg m c main_arg0))) :=
  h0_v50 (W0 m ρ c)
theorem L1_v57 : W1 m ρ c (Proc.devRef .tc main_v57) = Cert.Spec.take64 (F := Ideal) (st0 m c) (Cert.Spec.wrapCol (F := Ideal) (Cert.Spec.edgeDst (F := Ideal) (arg m c main_arg0))) :=
  h0_v57 (W0 m ρ c)
theorem L1_v58 : W1 m ρ c (Proc.devRef .tc main_v58) = Cert.Spec.row64 (F := Ideal) (arg m c main_arg7) :=
  (h0_v58 (W0 m ρ c)).trans (row64_eq _)
theorem L1_v59 : W1 m ρ c (Proc.devRef .tc main_v59) = Cert.Spec.row64 (F := Ideal) (arg m c main_arg9) :=
  (h0_v59 (W0 m ρ c)).trans (row64_eq _)
theorem L1_v60 : W1 m ρ c (Proc.devRef .tc main_v60) = Cert.Spec.row64 (F := Ideal) (arg m c main_arg11) :=
  (h0_v60 (W0 m ρ c)).trans (row64_eq _)

/-! ### Round 1 -/

theorem L2_v61 : W2 m ρ c (Proc.devRef .tc main_v61) = msg0 m c :=
  (W2_arr m ρ c 10).trans ((Cert.Val.mlp0_arr (V1 m ρ) c).trans (mlpRows_congr (L1_v50 m ρ c) (L1_v20 m ρ c) (L1_v57 m ρ c) (L1_v37 m ρ c) (argAt1 m ρ c main_arg6 (by decide)) (L1_v58 m ρ c) (argAt1 m ρ c main_arg8 (by decide)) (L1_v59 m ρ c) (argAt1 m ρ c main_arg10 (by decide)) (L1_v60 m ρ c)))
theorem L3_v64 : W3 m ρ c (Proc.devRef .tc main_v64) = agg0 m c :=
  (h1_v64 (W2 m ρ c)).trans (by rw [((keepR0 m ρ c main_v3 (by decide)).trans (L1_v3 m ρ c)), (L2_v61 m ρ c)]; rfl)
theorem L3_v65 : W3 m ρ c (Proc.devRef .tc main_v65) = Cert.Spec.row192 (F := Ideal) (arg m c main_arg13) :=
  (h1_v65 (W2 m ρ c)).trans (by rw [(argAt2 m ρ c main_arg13 (by decide))]; exact row192_eq _)
theorem L3_v66 : W3 m ρ c (Proc.devRef .tc main_v66) = Cert.Spec.row192 (F := Ideal) (arg m c main_arg15) :=
  (h1_v66 (W2 m ρ c)).trans (by rw [(argAt2 m ρ c main_arg15 (by decide))]; exact row192_eq _)
theorem L4_v67 : W4 m ρ c (Proc.devRef .tc main_v67) = st1 m c :=
  (W4_arr m ρ c 6).trans ((Cert.Val.Gru1.gru1_arr (V3 m ρ) c).trans (gruRows_congr (L3_v64 m ρ c) ((keepH1 m ρ c main_v43 (by decide)).trans ((keepR0 m ρ c main_v43 (by decide)).trans (L1_v43 m ρ c))) (argAt3 m ρ c main_arg12 (by decide)) (L3_v65 m ρ c) (argAt3 m ρ c main_arg14 (by decide)) (L3_v66 m ρ c)))
theorem L5_v74 : W5 m ρ c (Proc.devRef .tc main_v74) = Cert.Spec.take64 (F := Ideal) (st1 m c) (Cert.Spec.wrapCol (F := Ideal) (Cert.Spec.edgeSrc (F := Ideal) (arg m c main_arg0))) :=
  (h2_v74 (W4 m ρ c)).trans (by rw [(L4_v67 m ρ c), ((keepR1 m ρ c main_v1 (by decide)).trans ((keepH1 m ρ c main_v1 (by decide)).trans ((keepR0 m ρ c main_v1 (by decide)).trans (L1_v1 m ρ c))))])
theorem L5_v81 : W5 m ρ c (Proc.devRef .tc main_v81) = Cert.Spec.take64 (F := Ideal) (st1 m c) (Cert.Spec.wrapCol (F := Ideal) (Cert.Spec.edgeDst (F := Ideal) (arg m c main_arg0))) :=
  (h2_v81 (W4 m ρ c)).trans (by rw [(L4_v67 m ρ c), ((keepR1 m ρ c main_v3 (by decide)).trans ((keepH1 m ρ c main_v3 (by decide)).trans ((keepR0 m ρ c main_v3 (by decide)).trans (L1_v3 m ρ c))))])
theorem L5_v82 : W5 m ρ c (Proc.devRef .tc main_v82) = Cert.Spec.row64 (F := Ideal) (arg m c main_arg7) :=
  (h2_v82 (W4 m ρ c)).trans (by rw [(argAt4 m ρ c main_arg7 (by decide))]; exact row64_eq _)
theorem L5_v83 : W5 m ρ c (Proc.devRef .tc main_v83) = Cert.Spec.row64 (F := Ideal) (arg m c main_arg9) :=
  (h2_v83 (W4 m ρ c)).trans (by rw [(argAt4 m ρ c main_arg9 (by decide))]; exact row64_eq _)
theorem L5_v84 : W5 m ρ c (Proc.devRef .tc main_v84) = Cert.Spec.row64 (F := Ideal) (arg m c main_arg11) :=
  (h2_v84 (W4 m ρ c)).trans (by rw [(argAt4 m ρ c main_arg11 (by decide))]; exact row64_eq _)

/-! ### Round 2 -/

theorem L6_v85 : W6 m ρ c (Proc.devRef .tc main_v85) = msg1 m c :=
  (W6_arr m ρ c 10).trans ((Cert.Val.mlp2_arr (V5 m ρ) c).trans (mlpRows_congr (L5_v74 m ρ c) ((keepH2 m ρ c main_v20 (by decide)).trans ((keepR1 m ρ c main_v20 (by decide)).trans ((keepH1 m ρ c main_v20 (by decide)).trans ((keepR0 m ρ c main_v20 (by decide)).trans (L1_v20 m ρ c))))) (L5_v81 m ρ c) ((keepH2 m ρ c main_v37 (by decide)).trans ((keepR1 m ρ c main_v37 (by decide)).trans ((keepH1 m ρ c main_v37 (by decide)).trans ((keepR0 m ρ c main_v37 (by decide)).trans (L1_v37 m ρ c))))) (argAt5 m ρ c main_arg6 (by decide)) (L5_v82 m ρ c) (argAt5 m ρ c main_arg8 (by decide)) (L5_v83 m ρ c) (argAt5 m ρ c main_arg10 (by decide)) (L5_v84 m ρ c)))
theorem L7_v88 : W7 m ρ c (Proc.devRef .tc main_v88) = agg1 m c :=
  (h3_v88 (W6 m ρ c)).trans (by rw [((keepR2 m ρ c main_v3 (by decide)).trans ((keepH2 m ρ c main_v3 (by decide)).trans ((keepR1 m ρ c main_v3 (by decide)).trans ((keepH1 m ρ c main_v3 (by decide)).trans ((keepR0 m ρ c main_v3 (by decide)).trans (L1_v3 m ρ c)))))), (L6_v85 m ρ c)]; rfl)
theorem L7_v89 : W7 m ρ c (Proc.devRef .tc main_v89) = Cert.Spec.row192 (F := Ideal) (arg m c main_arg13) :=
  (h3_v89 (W6 m ρ c)).trans (by rw [(argAt6 m ρ c main_arg13 (by decide))]; exact row192_eq _)
theorem L7_v90 : W7 m ρ c (Proc.devRef .tc main_v90) = Cert.Spec.row192 (F := Ideal) (arg m c main_arg15) :=
  (h3_v90 (W6 m ρ c)).trans (by rw [(argAt6 m ρ c main_arg15 (by decide))]; exact row192_eq _)
theorem L8_v91 : W8 m ρ c (Proc.devRef .tc main_v91) = st2 m c :=
  (W8_arr m ρ c 6).trans ((Cert.Val.Gru3.gru3_arr (V7 m ρ) c).trans (gruRows_congr (L7_v88 m ρ c) ((keepH3 m ρ c main_v67 (by decide)).trans ((keepR2 m ρ c main_v67 (by decide)).trans ((keepH2 m ρ c main_v67 (by decide)).trans (L4_v67 m ρ c)))) (argAt7 m ρ c main_arg12 (by decide)) (L7_v89 m ρ c) (argAt7 m ρ c main_arg14 (by decide)) (L7_v90 m ρ c)))
theorem L9_v98 : W9 m ρ c (Proc.devRef .tc main_v98) = Cert.Spec.take64 (F := Ideal) (st2 m c) (Cert.Spec.wrapCol (F := Ideal) (Cert.Spec.edgeSrc (F := Ideal) (arg m c main_arg0))) :=
  (h4_v98 (W8 m ρ c)).trans (by rw [(L8_v91 m ρ c), ((keepR3 m ρ c main_v1 (by decide)).trans ((keepH3 m ρ c main_v1 (by decide)).trans ((keepR2 m ρ c main_v1 (by decide)).trans ((keepH2 m ρ c main_v1 (by decide)).trans ((keepR1 m ρ c main_v1 (by decide)).trans ((keepH1 m ρ c main_v1 (by decide)).trans ((keepR0 m ρ c main_v1 (by decide)).trans (L1_v1 m ρ c))))))))])
theorem L9_v105 : W9 m ρ c (Proc.devRef .tc main_v105) = Cert.Spec.take64 (F := Ideal) (st2 m c) (Cert.Spec.wrapCol (F := Ideal) (Cert.Spec.edgeDst (F := Ideal) (arg m c main_arg0))) :=
  (h4_v105 (W8 m ρ c)).trans (by rw [(L8_v91 m ρ c), ((keepR3 m ρ c main_v3 (by decide)).trans ((keepH3 m ρ c main_v3 (by decide)).trans ((keepR2 m ρ c main_v3 (by decide)).trans ((keepH2 m ρ c main_v3 (by decide)).trans ((keepR1 m ρ c main_v3 (by decide)).trans ((keepH1 m ρ c main_v3 (by decide)).trans ((keepR0 m ρ c main_v3 (by decide)).trans (L1_v3 m ρ c))))))))])
theorem L9_v106 : W9 m ρ c (Proc.devRef .tc main_v106) = Cert.Spec.row64 (F := Ideal) (arg m c main_arg7) :=
  (h4_v106 (W8 m ρ c)).trans (by rw [(argAt8 m ρ c main_arg7 (by decide))]; exact row64_eq _)
theorem L9_v107 : W9 m ρ c (Proc.devRef .tc main_v107) = Cert.Spec.row64 (F := Ideal) (arg m c main_arg9) :=
  (h4_v107 (W8 m ρ c)).trans (by rw [(argAt8 m ρ c main_arg9 (by decide))]; exact row64_eq _)
theorem L9_v108 : W9 m ρ c (Proc.devRef .tc main_v108) = Cert.Spec.row64 (F := Ideal) (arg m c main_arg11) :=
  (h4_v108 (W8 m ρ c)).trans (by rw [(argAt8 m ρ c main_arg11 (by decide))]; exact row64_eq _)

/-! ### Round 3 -/

theorem L10_v109 : W10 m ρ c (Proc.devRef .tc main_v109) = msg2 m c :=
  (W10_arr m ρ c 10).trans ((Cert.Val.mlp4_arr (V9 m ρ) c).trans (mlpRows_congr (L9_v98 m ρ c) ((keepH4 m ρ c main_v20 (by decide)).trans ((keepR3 m ρ c main_v20 (by decide)).trans ((keepH3 m ρ c main_v20 (by decide)).trans ((keepR2 m ρ c main_v20 (by decide)).trans ((keepH2 m ρ c main_v20 (by decide)).trans ((keepR1 m ρ c main_v20 (by decide)).trans ((keepH1 m ρ c main_v20 (by decide)).trans ((keepR0 m ρ c main_v20 (by decide)).trans (L1_v20 m ρ c))))))))) (L9_v105 m ρ c) ((keepH4 m ρ c main_v37 (by decide)).trans ((keepR3 m ρ c main_v37 (by decide)).trans ((keepH3 m ρ c main_v37 (by decide)).trans ((keepR2 m ρ c main_v37 (by decide)).trans ((keepH2 m ρ c main_v37 (by decide)).trans ((keepR1 m ρ c main_v37 (by decide)).trans ((keepH1 m ρ c main_v37 (by decide)).trans ((keepR0 m ρ c main_v37 (by decide)).trans (L1_v37 m ρ c))))))))) (argAt9 m ρ c main_arg6 (by decide)) (L9_v106 m ρ c) (argAt9 m ρ c main_arg8 (by decide)) (L9_v107 m ρ c) (argAt9 m ρ c main_arg10 (by decide)) (L9_v108 m ρ c)))
theorem L11_v112 : W11 m ρ c (Proc.devRef .tc main_v112) = agg2 m c :=
  (h5_v112 (W10 m ρ c)).trans (by rw [((keepR4 m ρ c main_v3 (by decide)).trans ((keepH4 m ρ c main_v3 (by decide)).trans ((keepR3 m ρ c main_v3 (by decide)).trans ((keepH3 m ρ c main_v3 (by decide)).trans ((keepR2 m ρ c main_v3 (by decide)).trans ((keepH2 m ρ c main_v3 (by decide)).trans ((keepR1 m ρ c main_v3 (by decide)).trans ((keepH1 m ρ c main_v3 (by decide)).trans ((keepR0 m ρ c main_v3 (by decide)).trans (L1_v3 m ρ c)))))))))), (L10_v109 m ρ c)]; rfl)
theorem L11_v113 : W11 m ρ c (Proc.devRef .tc main_v113) = Cert.Spec.row192 (F := Ideal) (arg m c main_arg13) :=
  (h5_v113 (W10 m ρ c)).trans (by rw [(argAt10 m ρ c main_arg13 (by decide))]; exact row192_eq _)
theorem L11_v114 : W11 m ρ c (Proc.devRef .tc main_v114) = Cert.Spec.row192 (F := Ideal) (arg m c main_arg15) :=
  (h5_v114 (W10 m ρ c)).trans (by rw [(argAt10 m ρ c main_arg15 (by decide))]; exact row192_eq _)
theorem L12_v115 : W12 m ρ c (Proc.devRef .tc main_v115) = st3 m c :=
  (W12_arr m ρ c 6).trans ((Cert.Val.Gru5.gru5_arr (V11 m ρ) c).trans (gruRows_congr (L11_v112 m ρ c) ((keepH5 m ρ c main_v91 (by decide)).trans ((keepR4 m ρ c main_v91 (by decide)).trans ((keepH4 m ρ c main_v91 (by decide)).trans (L8_v91 m ρ c)))) (argAt11 m ρ c main_arg12 (by decide)) (L11_v113 m ρ c) (argAt11 m ρ c main_arg14 (by decide)) (L11_v114 m ρ c)))

/-! ## The returned buffer -/

/-- The kernel program returns the spec's network of its argument arrays. -/
theorem result_eq : W13 m ρ c (Proc.devRef .tc main_v119) =
    Cert.Spec.net (F := Ideal) (arg m c main_arg0) (arg m c main_arg1) (arg m c main_arg2) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) :=
  (h6_v119 (W12 m ρ c)).trans (by rw [(L12_v115 m ρ c), (argAt12 m ρ c main_arg16 (by decide)), (argAt12 m ρ c main_arg17 (by decide))]; rfl)

end Cert.KernelIdeal.Val

end
-- ==== Proof.Ref.Cut.lean ====
/-
  The reference program's operations by position. `written` lists the buffer each operation writes, in order;
  a buffer that none of the operations `a`, …, `a + n - 1` writes keeps its contents over that stretch (`keep`);
  running a stretch is running its first part and then the rest (`after_split`); the whole program is the stretch
  of all 302 operations. `roundRaw` is one round of message passing over given edge columns and field tables:
  at the columns and tables of the edge list it is the specification's round.
-/
import proofs.«180077_j85650237817340_1_alg».proof.Proof.Ref.Ops
import proofs.«180077_j85650237817340_1_alg».proof.Proof.SpecNet
import Idealize.ShloMosaic.Lib.Pipeline.Frame
import Mathlib.Data.List.Forall2

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The buffer each operation writes, in the operations' order. -/
def written : List (Ref sig .tc) :=
  main_v0 :: main_v1 :: main_v2 :: main_v3 :: main_c :: main_v4 :: main_v5 :: main_c_0 ::
  main_v6 :: main_v7 :: main_v8 :: main_v9 :: main_v10 :: main_c_1 :: main_v11 :: main_v12 ::
  main_c_2 :: main_v13 :: main_v14 :: main_v15 :: main_v16 :: main_v17 :: main_v18 :: main_v19 ::
  main_v20 :: main_c_3 :: main_v21 :: main_v22 :: main_c_4 :: main_v23 :: main_v24 :: main_v25 ::
  main_v26 :: main_v27 :: main_v28 :: main_c_5 :: main_v29 :: main_v30 :: main_c_6 :: main_v31 ::
  main_v32 :: main_v33 :: main_v34 :: main_v35 :: main_v36 :: main_v37 :: main_v38 :: main_v39 ::
  main_v40 :: main_v41 :: main_v42 :: main_v43 :: main_c_7 :: main_v44 :: main_v45 :: main_c_8 ::
  main_v46 :: main_v47 :: main_v48 :: main_v49 :: main_v50 :: main_c_9 :: main_v51 :: main_v52 ::
  main_c_10 :: main_v53 :: main_v54 :: main_v55 :: main_v56 :: main_v57 :: main_v58 :: main_v59 ::
  main_v60 :: main_v61 :: main_v62 :: main_call0_cst :: main_call0_v0 :: main_v63 :: main_v64 :: main_v65 ::
  main_v66 :: main_v67 :: main_call1_cst :: main_call1_v0 :: main_v68 :: main_v69 :: main_v70 :: main_v71 ::
  main_v72 :: main_cst :: main_v73 :: main_v74 :: main_v75 :: main_v76 :: main_v77 :: main_v78 ::
  main_v79 :: main_v80 :: main_v81 :: main_v82 :: main_v83 :: main_v84 :: main_v85 :: main_v86 ::
  main_v87 :: main_v88 :: main_v89 :: main_v90 :: main_v91 :: main_v92 :: main_cst_11 :: main_v93 ::
  main_v94 :: main_cst_12 :: main_v95 :: main_v96 :: main_v97 :: main_v98 :: main_v99 :: main_cst_13 ::
  main_v100 :: main_v101 :: main_cst_14 :: main_v102 :: main_v103 :: main_v104 :: main_v105 :: main_v106 ::
  main_cst_15 :: main_v107 :: main_v108 :: main_v109 :: main_v110 :: main_v111 :: main_c_16 :: main_v112 ::
  main_v113 :: main_c_17 :: main_v114 :: main_v115 :: main_v116 :: main_v117 :: main_v118 :: main_c_18 ::
  main_v119 :: main_v120 :: main_c_19 :: main_v121 :: main_v122 :: main_v123 :: main_v124 :: main_v125 ::
  main_v126 :: main_v127 :: main_v128 :: main_v129 :: main_v130 :: main_call2_cst :: main_call2_v0 :: main_v131 ::
  main_v132 :: main_v133 :: main_v134 :: main_v135 :: main_call3_cst :: main_call3_v0 :: main_v136 :: main_v137 ::
  main_v138 :: main_v139 :: main_v140 :: main_cst_20 :: main_v141 :: main_v142 :: main_v143 :: main_v144 ::
  main_v145 :: main_v146 :: main_v147 :: main_v148 :: main_v149 :: main_v150 :: main_v151 :: main_v152 ::
  main_v153 :: main_v154 :: main_v155 :: main_v156 :: main_v157 :: main_v158 :: main_v159 :: main_v160 ::
  main_cst_21 :: main_v161 :: main_v162 :: main_cst_22 :: main_v163 :: main_v164 :: main_v165 :: main_v166 ::
  main_v167 :: main_cst_23 :: main_v168 :: main_v169 :: main_cst_24 :: main_v170 :: main_v171 :: main_v172 ::
  main_v173 :: main_v174 :: main_cst_25 :: main_v175 :: main_v176 :: main_v177 :: main_v178 :: main_v179 ::
  main_c_26 :: main_v180 :: main_v181 :: main_c_27 :: main_v182 :: main_v183 :: main_v184 :: main_v185 ::
  main_v186 :: main_c_28 :: main_v187 :: main_v188 :: main_c_29 :: main_v189 :: main_v190 :: main_v191 ::
  main_v192 :: main_v193 :: main_v194 :: main_v195 :: main_v196 :: main_v197 :: main_v198 :: main_call4_cst ::
  main_call4_v0 :: main_v199 :: main_v200 :: main_v201 :: main_v202 :: main_v203 :: main_call5_cst :: main_call5_v0 ::
  main_v204 :: main_v205 :: main_v206 :: main_v207 :: main_v208 :: main_cst_30 :: main_v209 :: main_v210 ::
  main_v211 :: main_v212 :: main_v213 :: main_v214 :: main_v215 :: main_v216 :: main_v217 :: main_v218 ::
  main_v219 :: main_v220 :: main_v221 :: main_v222 :: main_v223 :: main_v224 :: main_v225 :: main_v226 ::
  main_v227 :: main_v228 :: main_cst_31 :: main_v229 :: main_v230 :: main_cst_32 :: main_v231 :: main_v232 ::
  main_v233 :: main_v234 :: main_v235 :: main_cst_33 :: main_v236 :: main_v237 :: main_cst_34 :: main_v238 ::
  main_v239 :: main_v240 :: main_v241 :: main_v242 :: main_cst_35 :: main_v243 :: main_v244 :: main_v245 ::
  main_v246 :: main_v247 :: main_v248 :: main_v249 :: main_v250 :: main_v251 ::
  []

set_option maxRecDepth 8192 in
/-- Operation by operation, what it writes is that one buffer. -/
theorem ops_written :
    List.Forall₂ (fun (op : HloOp τ sig (Elt F)) (r : Ref sig .tc) => op.writes = {Proc.devRef .tc r}) ops written := by
  unfold written
  repeat (first | exact List.Forall₂.nil | refine List.Forall₂.cons rfl ?_)

/-- A buffer outside the list of written buffers is written by none of the operations. -/
theorem not_written {s : List (HloOp τ sig (Elt F))} {w : List (Ref sig .tc)}
    (h : List.Forall₂ (fun (op : HloOp τ sig (Elt F)) (r : Ref sig .tc) => op.writes = {Proc.devRef .tc r}) s w)
    {r : Ref sig .tc} (hr : r ∉ w) : ∀ op ∈ s, (Proc.devRef .tc r : DevRef τ sig) ∉ op.writes := by
  induction h with
  | nil => intro op hop; cases hop
  | cons hab _ ih =>
    intro op hop
    rcases List.mem_cons.mp hop with rfl | hop
    · rw [hab, Finset.mem_singleton]
      exact devRef_ne_of_ne fun e => hr (List.mem_cons.mpr (Or.inl e))
    · exact ih (fun h' => hr (List.mem_cons_of_mem _ h')) op hop

/-- Operations `a`, …, `a + n - 1` of the program. -/
def stretch (a n : Nat) : List (HloOp τ sig (Elt F)) := (ops.drop a).take n

theorem stretch_def (a n : Nat) : (stretch a n : List (HloOp τ sig (Elt F))) = (ops.drop a).take n := rfl

/-- A buffer none of the operations `a`, …, `a + n - 1` writes keeps its contents over them. -/
theorem keep (a n : Nat) {r : Ref sig .tc} (hr : r ∉ (written.drop a).take n) (U : Valuation τ sig (Elt F)) :
    after (stretch a n) U (no_index (Proc.devRef .tc r)) = U (Proc.devRef .tc r) :=
  after_of_forall_not_mem _ U (not_written (List.forall₂_take n (List.forall₂_drop a ops_written)) hr)

/-- A buffer no operation of the program writes keeps its contents over the whole program. -/
theorem after_ops_keep {r : Ref sig .tc} (hr : r ∉ written) (V : Valuation τ sig (Elt F)) :
    after ops V (Proc.devRef .tc r) = V (Proc.devRef .tc r) :=
  after_of_forall_not_mem _ V (not_written ops_written hr)

/-- A stretch run is its first `n1` operations run, then the remaining `n2`. -/
theorem after_split (a n n1 n2 b : Nat) (hn : n = n1 + n2) (hb : b = a + n1) (U : Valuation τ sig (Elt F)) :
    after (stretch a n) U = after (stretch b n2) (after (stretch a n1) U) := by
  subst hn hb
  rw [stretch_def, stretch_def, stretch_def, List.take_add, StableHlo.after_append, List.drop_drop]

set_option maxRecDepth 8192 in
theorem ops_length : (ops : List (HloOp τ sig (Elt F))).length = 302 := rfl

/-- The whole program is the stretch of all its operations. -/
theorem after_ops (V : Valuation τ sig (Elt F)) : after ops V = after (stretch 0 302) V := by
  rw [stretch_def, List.drop_zero, List.take_of_length_le (le_of_eq ops_length)]

open Cert.Spec in
/-- One round of message passing over given source and target node columns `src`, `dst` and given source-side and
    target-side field tables `fs`, `fd`: gather the state at both endpoints, the edge network, the sum of the
    messages into their target nodes, the recurrent update. -/
def roundRaw (src dst : Arr F S800000 .i32) (fs fd : Arr F S800000x4 .f32)
    (a6 : Arr F S136x64 .f32) (a7 : Arr F S64 .f32) (a8 : Arr F S64x64 .f32) (a9 : Arr F S64 .f32)
    (a10 : Arr F S64x64 .f32) (a11 : Arr F S64 .f32) (a12 : Arr F S64x192 .f32) (a13 : Arr F S192 .f32)
    (a14 : Arr F S64x192 .f32) (a15 : Arr F S192 .f32) (s : Arr F S50000x64 .f32) : Arr F S50000x64 .f32 :=
  gruOf
    (gates (Host.scatterAdd scatter_S50000x64_S800000x1_S800000x64_1_0_0_1
        (broadcastInDim S50000x64 ![] bcast_S_S50000x64 (constant S_ .f32 0x00000000#32)) (plainCol dst)
        (mlpHost (take64 s (wrapCol src)) fs (take64 s (wrapCol dst)) fd a6 a7 a8 a9 a10 a11)) a12 (row192 a13))
    (gates s a14 (row192 a15)) s

open Cert.Spec in
/-- At the edge list's own columns and field tables the round is the specification's. -/
theorem roundRaw_eq (a0 : Arr F S800000x2 .i32) (a1 : Arr F S800000x1 .f32) (a2 : Arr F S50000x1 .f32)
    (a6 : Arr F S136x64 .f32) (a7 : Arr F S64 .f32) (a8 : Arr F S64x64 .f32) (a9 : Arr F S64 .f32)
    (a10 : Arr F S64x64 .f32) (a11 : Arr F S64 .f32) (a12 : Arr F S64x192 .f32) (a13 : Arr F S192 .f32)
    (a14 : Arr F S64x192 .f32) (a15 : Arr F S192 .f32) (s : Arr F S50000x64 .f32) :
    roundRaw (edgeSrc a0) (edgeDst a0) (fieldsSrc a0 a1 a2) (fieldsDst a0 a1 a2) a6 a7 a8 a9 a10 a11 a12 a13 a14 a15 s
      = round a0 a1 a2 a6 a7 a8 a9 a10 a11 a12 a13 a14 a15 s := rfl

end Cert.ReferenceIdeal.Hand

end
-- ==== Proof.Ref.Pro.lean ====
/-
  The first 52 operations of the reference program, which do not depend on the round: the two node columns of the
  edge list, the source-side and target-side edge field tables, and the initial node state. Each lemma `A…` is
  about one stretch of consecutive operations run from ANY contents `U`, and says what one buffer the stretch
  writes then holds, as a specification function of what `U` holds at the buffers the stretch reads; a
  concatenation is always the first operation of its stretch, so that its operands are contents of `U`. The
  lemmas `P_…` put the stretches together (`after_split`; buffers a stretch does not write by `keep`).
-/
import proofs.«180077_j85650237817340_1_alg».proof.Proof.Ref.Cut

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo
open Cert.Spec

variable {F : FTy → Type} [FloatOps F]

set_option maxRecDepth 8192 in
set_option maxHeartbeats 4000000 in
/-- The source-node column of the edge list. -/
theorem A0_src (U : Valuation τ sig (Elt F)) :
    after (stretch 0 4) U (Proc.devRef .tc main_v1) = edgeSrc (U (Proc.devRef .tc main_arg0) : Arr F S800000x2 .i32) := by
  rw [stretch_def]; delta ops
  simp only [List.drop_succ_cons, List.drop_zero, List.take_succ_cons, List.take_zero]
  after_results_simp <;> rfl
theorem A0_src' (U : Valuation τ sig (Elt F)) :
    after (stretch 0 4) U (no_index (Proc.devRef .tc main_v1)) = edgeSrc (U (Proc.devRef .tc main_arg0) : Arr F S800000x2 .i32) := A0_src U

set_option maxRecDepth 8192 in
set_option maxHeartbeats 4000000 in
/-- The target-node column of the edge list. -/
theorem A0_dst (U : Valuation τ sig (Elt F)) :
    after (stretch 0 4) U (Proc.devRef .tc main_v3) = edgeDst (U (Proc.devRef .tc main_arg0) : Arr F S800000x2 .i32) := by
  rw [stretch_def]; delta ops
  simp only [List.drop_succ_cons, List.drop_zero, List.take_succ_cons, List.take_zero]
  after_results_simp <;> rfl
theorem A0_dst' (U : Valuation τ sig (Elt F)) :
    after (stretch 0 4) U (no_index (Proc.devRef .tc main_v3)) = edgeDst (U (Proc.devRef .tc main_arg0) : Arr F S800000x2 .i32) := A0_dst U

set_option maxRecDepth 8192 in
set_option maxHeartbeats 4000000 in
/-- The node field gathered at every edge's source. -/
theorem A1_v10 (U : Valuation τ sig (Elt F)) :
    after (stretch 4 9) U (Proc.devRef .tc main_v10) = take1 (U (Proc.devRef .tc main_arg2) : Arr F S50000x1 .f32) (wrapCol (U (Proc.devRef .tc main_v1) : Arr F S800000 .i32)) := by
  rw [stretch_def]; delta ops
  simp only [List.drop_succ_cons, List.drop_zero, List.take_succ_cons, List.take_zero]
  after_results_simp <;> rfl
theorem A1_v10' (U : Valuation τ sig (Elt F)) :
    after (stretch 4 9) U (no_index (Proc.devRef .tc main_v10)) = take1 (U (Proc.devRef .tc main_arg2) : Arr F S50000x1 .f32) (wrapCol (U (Proc.devRef .tc main_v1) : Arr F S800000 .i32)) := A1_v10 U

set_option maxRecDepth 8192 in
set_option maxHeartbeats 4000000 in
/-- Its negation (the gather is repeated in the program). -/
theorem A2_v18 (U : Valuation τ sig (Elt F)) :
    after (stretch 13 11) U (Proc.devRef .tc main_v18) = Host.negf (take1 (U (Proc.devRef .tc main_arg2) : Arr F S50000x1 .f32) (wrapCol (U (Proc.devRef .tc main_v1) : Arr F S800000 .i32))) := by
  rw [stretch_def]; delta ops
  simp only [List.drop_succ_cons, List.drop_zero, List.take_succ_cons, List.take_zero]
  after_results_simp <;> rfl
theorem A2_v18' (U : Valuation τ sig (Elt F)) :
    after (stretch 13 11) U (no_index (Proc.devRef .tc main_v18)) = Host.negf (take1 (U (Proc.devRef .tc main_arg2) : Arr F S50000x1 .f32) (wrapCol (U (Proc.devRef .tc main_v1) : Arr F S800000 .i32))) := A2_v18 U

set_option maxRecDepth 8192 in
set_option maxHeartbeats 4000000 in
/-- The negated edge coupling. -/
theorem A2_v19 (U : Valuation τ sig (Elt F)) :
    after (stretch 13 11) U (Proc.devRef .tc main_v19) = Host.negf (U (Proc.devRef .tc main_arg1) : Arr F S800000x1 .f32) := by
  rw [stretch_def]; delta ops
  simp only [List.drop_succ_cons, List.drop_zero, List.take_succ_cons, List.take_zero]
  after_results_simp <;> rfl
theorem A2_v19' (U : Valuation τ sig (Elt F)) :
    after (stretch 13 11) U (no_index (Proc.devRef .tc main_v19)) = Host.negf (U (Proc.devRef .tc main_arg1) : Arr F S800000x1 .f32) := A2_v19 U

set_option maxRecDepth 8192 in
set_option maxHeartbeats 4000000 in
/-- The four source-side field columns side by side. -/
theorem A3_v20 (U : Valuation τ sig (Elt F)) :
    after (stretch 24 11) U (Proc.devRef .tc main_v20) = join4 (U (Proc.devRef .tc main_v10) : Arr F S800000x1 .f32) (U (Proc.devRef .tc main_v18) : Arr F S800000x1 .f32) (U (Proc.devRef .tc main_arg1) : Arr F S800000x1 .f32) (U (Proc.devRef .tc main_v19) : Arr F S800000x1 .f32) := by
  rw [stretch_def]; delta ops
  simp only [List.drop_succ_cons, List.drop_zero, List.take_succ_cons, List.take_zero]
  after_results_simp <;> rfl
theorem A3_v20' (U : Valuation τ sig (Elt F)) :
    after (stretch 24 11) U (no_index (Proc.devRef .tc main_v20)) = join4 (U (Proc.devRef .tc main_v10) : Arr F S800000x1 .f32) (U (Proc.devRef .tc main_v18) : Arr F S800000x1 .f32) (U (Proc.devRef .tc main_arg1) : Arr F S800000x1 .f32) (U (Proc.devRef .tc main_v19) : Arr F S800000x1 .f32) := A3_v20 U

set_option maxRecDepth 8192 in
set_option maxHeartbeats 4000000 in
/-- The negated node field gathered at every edge's target. -/
theorem A3_v28 (U : Valuation τ sig (Elt F)) :
    after (stretch 24 11) U (Proc.devRef .tc main_v28) = Host.negf (take1 (U (Proc.devRef .tc main_arg2) : Arr F S50000x1 .f32) (wrapCol (U (Proc.devRef .tc main_v3) : Arr F S800000 .i32))) := by
  rw [stretch_def]; delta ops
  simp only [List.drop_succ_cons, List.drop_zero, List.take_succ_cons, List.take_zero]
  after_results_simp <;> rfl
theorem A3_v28' (U : Valuation τ sig (Elt F)) :
    after (stretch 24 11) U (no_index (Proc.devRef .tc main_v28)) = Host.negf (take1 (U (Proc.devRef .tc main_arg2) : Arr F S50000x1 .f32) (wrapCol (U (Proc.devRef .tc main_v3) : Arr F S800000 .i32))) := A3_v28 U

set_option maxRecDepth 8192 in
set_option maxHeartbeats 4000000 in
/-- The node field gathered at every edge's target. -/
theorem A4_v35 (U : Valuation τ sig (Elt F)) :
    after (stretch 35 10) U (Proc.devRef .tc main_v35) = take1 (U (Proc.devRef .tc main_arg2) : Arr F S50000x1 .f32) (wrapCol (U (Proc.devRef .tc main_v3) : Arr F S800000 .i32)) := by
  rw [stretch_def]; delta ops
  simp only [List.drop_succ_cons, List.drop_zero, List.take_succ_cons, List.take_zero]
  after_results_simp <;> rfl
theorem A4_v35' (U : Valuation τ sig (Elt F)) :
    after (stretch 35 10) U (no_index (Proc.devRef .tc main_v35)) = take1 (U (Proc.devRef .tc main_arg2) : Arr F S50000x1 .f32) (wrapCol (U (Proc.devRef .tc main_v3) : Arr F S800000 .i32)) := A4_v35 U

set_option maxRecDepth 8192 in
set_option maxHeartbeats 4000000 in
/-- The negated edge coupling, again. -/
theorem A4_v36 (U : Valuation τ sig (Elt F)) :
    after (stretch 35 10) U (Proc.devRef .tc main_v36) = Host.negf (U (Proc.devRef .tc main_arg1) : Arr F S800000x1 .f32) := by
  rw [stretch_def]; delta ops
  simp only [List.drop_succ_cons, List.drop_zero, List.take_succ_cons, List.take_zero]
  after_results_simp <;> rfl
theorem A4_v36' (U : Valuation τ sig (Elt F)) :
    after (stretch 35 10) U (no_index (Proc.devRef .tc main_v36)) = Host.negf (U (Proc.devRef .tc main_arg1) : Arr F S800000x1 .f32) := A4_v36 U

set_option maxRecDepth 8192 in
set_option maxHeartbeats 4000000 in
/-- The four target-side field columns side by side. -/
theorem A5_v37 (U : Valuation τ sig (Elt F)) :
    after (stretch 45 2) U (Proc.devRef .tc main_v37) = join4 (U (Proc.devRef .tc main_v28) : Arr F S800000x1 .f32) (U (Proc.devRef .tc main_v35) : Arr F S800000x1 .f32) (U (Proc.devRef .tc main_v36) : Arr F S800000x1 .f32) (U (Proc.devRef .tc main_arg1) : Arr F S800000x1 .f32) := by
  rw [stretch_def]; delta ops
  simp only [List.drop_succ_cons, List.drop_zero, List.take_succ_cons, List.take_zero]
  after_results_simp <;> rfl
theorem A5_v37' (U : Valuation τ sig (Elt F)) :
    after (stretch 45 2) U (no_index (Proc.devRef .tc main_v37)) = join4 (U (Proc.devRef .tc main_v28) : Arr F S800000x1 .f32) (U (Proc.devRef .tc main_v35) : Arr F S800000x1 .f32) (U (Proc.devRef .tc main_v36) : Arr F S800000x1 .f32) (U (Proc.devRef .tc main_arg1) : Arr F S800000x1 .f32) := A5_v37 U

set_option maxRecDepth 8192 in
set_option maxHeartbeats 4000000 in
/-- The negated node field. -/
theorem A5_v38 (U : Valuation τ sig (Elt F)) :
    after (stretch 45 2) U (Proc.devRef .tc main_v38) = Host.negf (U (Proc.devRef .tc main_arg2) : Arr F S50000x1 .f32) := by
  rw [stretch_def]; delta ops
  simp only [List.drop_succ_cons, List.drop_zero, List.take_succ_cons, List.take_zero]
  after_results_simp <;> rfl
theorem A5_v38' (U : Valuation τ sig (Elt F)) :
    after (stretch 45 2) U (no_index (Proc.devRef .tc main_v38)) = Host.negf (U (Proc.devRef .tc main_arg2) : Arr F S50000x1 .f32) := A5_v38 U

set_option maxRecDepth 8192 in
set_option maxHeartbeats 4000000 in
/-- The initial node state: the table (b, -b) times the embedding plus its bias. -/
theorem A6_v43 (U : Valuation τ sig (Elt F)) :
    after (stretch 47 5) U (Proc.devRef .tc main_v43) = addf (Host.dotGeneral dot_S50000x2_S2x64_S50000x64_1_0_0_1_n_n none
        (concatenate S50000x2 1 [⟨S50000x1, (U (Proc.devRef .tc main_arg2) : Arr F S50000x1 .f32)⟩, ⟨S50000x1, (U (Proc.devRef .tc main_v38) : Arr F S50000x1 .f32)⟩] concatenates_S50000x1_S50000x1_S50000x2_d1) (U (Proc.devRef .tc main_arg4) : Arr F S2x64 .f32))
      (broadcastInDim S50000x64 ![0, 1] bcast_S1x64_S50000x64_0_1 (row64 (U (Proc.devRef .tc main_arg5) : Arr F S64 .f32))) := by
  rw [stretch_def]; delta ops
  simp only [List.drop_succ_cons, List.drop_zero, List.take_succ_cons, List.take_zero]
  after_results_simp <;> rfl
theorem A6_v43' (U : Valuation τ sig (Elt F)) :
    after (stretch 47 5) U (no_index (Proc.devRef .tc main_v43)) = addf (Host.dotGeneral dot_S50000x2_S2x64_S50000x64_1_0_0_1_n_n none
        (concatenate S50000x2 1 [⟨S50000x1, (U (Proc.devRef .tc main_arg2) : Arr F S50000x1 .f32)⟩, ⟨S50000x1, (U (Proc.devRef .tc main_v38) : Arr F S50000x1 .f32)⟩] concatenates_S50000x1_S50000x1_S50000x2_d1) (U (Proc.devRef .tc main_arg4) : Arr F S2x64 .f32))
      (broadcastInDim S50000x64 ![0, 1] bcast_S1x64_S50000x64_0_1 (row64 (U (Proc.devRef .tc main_arg5) : Arr F S64 .f32))) := A6_v43 U

set_option maxRecDepth 8192 in
set_option maxHeartbeats 4000000 in
/-- After the first 52 operations: the source-node column. -/
theorem P_src (V : Valuation τ sig (Elt F)) :
    after (stretch 0 52) V (Proc.devRef .tc main_v1) = edgeSrc (V (Proc.devRef .tc main_arg0) : Arr F S800000x2 .i32) := by
  rw [after_split 0 52 4 48 4 rfl rfl, after_split 4 48 9 39 13 rfl rfl, after_split 13 39 11 28 24 rfl rfl,
    after_split 24 28 11 17 35 rfl rfl, after_split 35 17 10 7 45 rfl rfl, after_split 45 7 2 5 47 rfl rfl]
  simp (disch := decide) only [A0_src', A0_dst', A1_v10', A2_v18', A2_v19', A3_v20', A3_v28', A4_v35', A4_v36', A5_v37', A5_v38', A6_v43', keep] <;> rfl
theorem P_src' (V : Valuation τ sig (Elt F)) :
    after (stretch 0 52) V (no_index (Proc.devRef .tc main_v1)) = edgeSrc (V (Proc.devRef .tc main_arg0) : Arr F S800000x2 .i32) := P_src V

set_option maxRecDepth 8192 in
set_option maxHeartbeats 4000000 in
/-- After the first 52 operations: the target-node column. -/
theorem P_dst (V : Valuation τ sig (Elt F)) :
    after (stretch 0 52) V (Proc.devRef .tc main_v3) = edgeDst (V (Proc.devRef .tc main_arg0) : Arr F S800000x2 .i32) := by
  rw [after_split 0 52 4 48 4 rfl rfl, after_split 4 48 9 39 13 rfl rfl, after_split 13 39 11 28 24 rfl rfl,
    after_split 24 28 11 17 35 rfl rfl, after_split 35 17 10 7 45 rfl rfl, after_split 45 7 2 5 47 rfl rfl]
  simp (disch := decide) only [A0_src', A0_dst', A1_v10', A2_v18', A2_v19', A3_v20', A3_v28', A4_v35', A4_v36', A5_v37', A5_v38', A6_v43', keep] <;> rfl
theorem P_dst' (V : Valuation τ sig (Elt F)) :
    after (stretch 0 52) V (no_index (Proc.devRef .tc main_v3)) = edgeDst (V (Proc.devRef .tc main_arg0) : Arr F S800000x2 .i32) := P_dst V

set_option maxRecDepth 8192 in
set_option maxHeartbeats 4000000 in
/-- After the first 52 operations: the source-side edge fields. -/
theorem P_fs (V : Valuation τ sig (Elt F)) :
    after (stretch 0 52) V (Proc.devRef .tc main_v20) = fieldsSrc (V (Proc.devRef .tc main_arg0) : Arr F S800000x2 .i32) (V (Proc.devRef .tc main_arg1) : Arr F S800000x1 .f32) (V (Proc.devRef .tc main_arg2) : Arr F S50000x1 .f32) := by
  rw [after_split 0 52 4 48 4 rfl rfl, after_split 4 48 9 39 13 rfl rfl, after_split 13 39 11 28 24 rfl rfl,
    after_split 24 28 11 17 35 rfl rfl, after_split 35 17 10 7 45 rfl rfl, after_split 45 7 2 5 47 rfl rfl]
  simp (disch := decide) only [A0_src', A0_dst', A1_v10', A2_v18', A2_v19', A3_v20', A3_v28', A4_v35', A4_v36', A5_v37', A5_v38', A6_v43', keep] <;> rfl
theorem P_fs' (V : Valuation τ sig (Elt F)) :
    after (stretch 0 52) V (no_index (Proc.devRef .tc main_v20)) = fieldsSrc (V (Proc.devRef .tc main_arg0) : Arr F S800000x2 .i32) (V (Proc.devRef .tc main_arg1) : Arr F S800000x1 .f32) (V (Proc.devRef .tc main_arg2) : Arr F S50000x1 .f32) := P_fs V

set_option maxRecDepth 8192 in
set_option maxHeartbeats 4000000 in
/-- After the first 52 operations: the target-side edge fields. -/
theorem P_fd (V : Valuation τ sig (Elt F)) :
    after (stretch 0 52) V (Proc.devRef .tc main_v37) = fieldsDst (V (Proc.devRef .tc main_arg0) : Arr F S800000x2 .i32) (V (Proc.devRef .tc main_arg1) : Arr F S800000x1 .f32) (V (Proc.devRef .tc main_arg2) : Arr F S50000x1 .f32) := by
  rw [after_split 0 52 4 48 4 rfl rfl, after_split 4 48 9 39 13 rfl rfl, after_split 13 39 11 28 24 rfl rfl,
    after_split 24 28 11 17 35 rfl rfl, after_split 35 17 10 7 45 rfl rfl, after_split 45 7 2 5 47 rfl rfl]
  simp (disch := decide) only [A0_src', A0_dst', A1_v10', A2_v18', A2_v19', A3_v20', A3_v28', A4_v35', A4_v36', A5_v37', A5_v38', A6_v43', keep] <;> rfl
theorem P_fd' (V : Valuation τ sig (Elt F)) :
    after (stretch 0 52) V (no_index (Proc.devRef .tc main_v37)) = fieldsDst (V (Proc.devRef .tc main_arg0) : Arr F S800000x2 .i32) (V (Proc.devRef .tc main_arg1) : Arr F S800000x1 .f32) (V (Proc.devRef .tc main_arg2) : Arr F S50000x1 .f32) := P_fd V

set_option maxRecDepth 8192 in
set_option maxHeartbeats 4000000 in
/-- After the first 52 operations: the initial node state. -/
theorem P_s0 (V : Valuation τ sig (Elt F)) :
    after (stretch 0 52) V (Proc.devRef .tc main_v43) = state0 (V (Proc.devRef .tc main_arg2) : Arr F S50000x1 .f32) (V (Proc.devRef .tc main_arg4) : Arr F S2x64 .f32) (V (Proc.devRef .tc main_arg5) : Arr F S64 .f32) := by
  rw [after_split 0 52 4 48 4 rfl rfl, after_split 4 48 9 39 13 rfl rfl, after_split 13 39 11 28 24 rfl rfl,
    after_split 24 28 11 17 35 rfl rfl, after_split 35 17 10 7 45 rfl rfl, after_split 45 7 2 5 47 rfl rfl]
  simp (disch := decide) only [A0_src', A0_dst', A1_v10', A2_v18', A2_v19', A3_v20', A3_v28', A4_v35', A4_v36', A5_v37', A5_v38', A6_v43', keep] <;> rfl
theorem P_s0' (V : Valuation τ sig (Elt F)) :
    after (stretch 0 52) V (no_index (Proc.devRef .tc main_v43)) = state0 (V (Proc.devRef .tc main_arg2) : Arr F S50000x1 .f32) (V (Proc.devRef .tc main_arg4) : Arr F S2x64 .f32) (V (Proc.devRef .tc main_arg5) : Arr F S64 .f32) := P_s0 V

end Cert.ReferenceIdeal.Hand

end
-- ==== Proof.Ref.Round1.lean ====
/-
  The first round of message passing: operations 52 … 133 of the reference program, in four stretches run from
  ANY contents `U` — the two gathers of the node state (18 operations), the edge network (19, its joined input
  first), the scatter-add and the two gate tables (12), the gates' arithmetic (33). Each lemma says what one
  buffer its stretch writes then holds, as a specification function of what `U` holds at the buffers the stretch
  reads; `round1` puts the four together.
-/
import proofs.«180077_j85650237817340_1_alg».proof.Proof.Ref.Cut

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo
open Cert.Spec

variable {F : FTy → Type} [FloatOps F]

set_option maxRecDepth 8192 in
set_option maxHeartbeats 4000000 in
/-- The node state gathered at every edge's source. -/
theorem R1_src (U : Valuation τ sig (Elt F)) :
    after (stretch 52 18) U (Proc.devRef .tc main_v50) = take64 (U (Proc.devRef .tc main_v43) : Arr F S50000x64 .f32) (wrapCol (U (Proc.devRef .tc main_v1) : Arr F S800000 .i32)) := by
  rw [stretch_def]; delta ops
  simp only [List.drop_succ_cons, List.drop_zero, List.take_succ_cons, List.take_zero]
  after_results_simp <;> rfl
theorem R1_src' (U : Valuation τ sig (Elt F)) :
    after (stretch 52 18) U (no_index (Proc.devRef .tc main_v50)) = take64 (U (Proc.devRef .tc main_v43) : Arr F S50000x64 .f32) (wrapCol (U (Proc.devRef .tc main_v1) : Arr F S800000 .i32)) := R1_src U

set_option maxRecDepth 8192 in
set_option maxHeartbeats 4000000 in
/-- The node state gathered at every edge's target. -/
theorem R1_dst (U : Valuation τ sig (Elt F)) :
    after (stretch 52 18) U (Proc.devRef .tc main_v57) = take64 (U (Proc.devRef .tc main_v43) : Arr F S50000x64 .f32) (wrapCol (U (Proc.devRef .tc main_v3) : Arr F S800000 .i32)) := by
  rw [stretch_def]; delta ops
  simp only [List.drop_succ_cons, List.drop_zero, List.take_succ_cons, List.take_zero]
  after_results_simp <;> rfl
theorem R1_dst' (U : Valuation τ sig (Elt F)) :
    after (stretch 52 18) U (no_index (Proc.devRef .tc main_v57)) = take64 (U (Proc.devRef .tc main_v43) : Arr F S50000x64 .f32) (wrapCol (U (Proc.devRef .tc main_v3) : Arr F S800000 .i32)) := R1_dst U

set_option maxRecDepth 8192 in
set_option maxHeartbeats 4000000 in
/-- The edge network on the four joined feature blocks. -/
theorem R1_msg (U : Valuation τ sig (Elt F)) :
    after (stretch 70 19) U (Proc.devRef .tc main_v72) = mlpHost (U (Proc.devRef .tc main_v50) : Arr F S800000x64 .f32) (U (Proc.devRef .tc main_v20) : Arr F S800000x4 .f32) (U (Proc.devRef .tc main_v57) : Arr F S800000x64 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) := by
  rw [stretch_def]; delta ops
  simp only [List.drop_succ_cons, List.drop_zero, List.take_succ_cons, List.take_zero]
  after_results_simp <;> (try simp only [TRef.toBuf, TRef.ofBuf, cast_eq, id]) <;> rfl
theorem R1_msg' (U : Valuation τ sig (Elt F)) :
    after (stretch 70 19) U (no_index (Proc.devRef .tc main_v72)) = mlpHost (U (Proc.devRef .tc main_v50) : Arr F S800000x64 .f32) (U (Proc.devRef .tc main_v20) : Arr F S800000x4 .f32) (U (Proc.devRef .tc main_v57) : Arr F S800000x64 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) := R1_msg U

set_option maxRecDepth 8192 in
set_option maxHeartbeats 4000000 in
/-- The gate inputs from the messages summed into their target nodes. -/
theorem R1_gi (U : Valuation τ sig (Elt F)) :
    after (stretch 89 12) U (Proc.devRef .tc main_v79) = gates (Host.scatterAdd scatter_S50000x64_S800000x1_S800000x64_1_0_0_1
        (broadcastInDim S50000x64 ![] bcast_S_S50000x64 (constant S_ .f32 0x00000000#32)) (plainCol (U (Proc.devRef .tc main_v3) : Arr F S800000 .i32)) (U (Proc.devRef .tc main_v72) : Arr F S800000x64 .f32))
      (U (Proc.devRef .tc main_arg12) : Arr F S64x192 .f32) (row192 (U (Proc.devRef .tc main_arg13) : Arr F S192 .f32)) := by
  rw [stretch_def]; delta ops
  simp only [List.drop_succ_cons, List.drop_zero, List.take_succ_cons, List.take_zero]
  after_results_simp <;> rfl
theorem R1_gi' (U : Valuation τ sig (Elt F)) :
    after (stretch 89 12) U (no_index (Proc.devRef .tc main_v79)) = gates (Host.scatterAdd scatter_S50000x64_S800000x1_S800000x64_1_0_0_1
        (broadcastInDim S50000x64 ![] bcast_S_S50000x64 (constant S_ .f32 0x00000000#32)) (plainCol (U (Proc.devRef .tc main_v3) : Arr F S800000 .i32)) (U (Proc.devRef .tc main_v72) : Arr F S800000x64 .f32))
      (U (Proc.devRef .tc main_arg12) : Arr F S64x192 .f32) (row192 (U (Proc.devRef .tc main_arg13) : Arr F S192 .f32)) := R1_gi U

set_option maxRecDepth 8192 in
set_option maxHeartbeats 4000000 in
/-- The gate inputs from the previous node state. -/
theorem R1_gh (U : Valuation τ sig (Elt F)) :
    after (stretch 89 12) U (Proc.devRef .tc main_v83) = gates (U (Proc.devRef .tc main_v43) : Arr F S50000x64 .f32) (U (Proc.devRef .tc main_arg14) : Arr F S64x192 .f32) (row192 (U (Proc.devRef .tc main_arg15) : Arr F S192 .f32)) := by
  rw [stretch_def]; delta ops
  simp only [List.drop_succ_cons, List.drop_zero, List.take_succ_cons, List.take_zero]
  after_results_simp <;> rfl
theorem R1_gh' (U : Valuation τ sig (Elt F)) :
    after (stretch 89 12) U (no_index (Proc.devRef .tc main_v83)) = gates (U (Proc.devRef .tc main_v43) : Arr F S50000x64 .f32) (U (Proc.devRef .tc main_arg14) : Arr F S64x192 .f32) (row192 (U (Proc.devRef .tc main_arg15) : Arr F S192 .f32)) := R1_gh U

set_option maxRecDepth 8192 in
set_option maxHeartbeats 4000000 in
/-- The recurrent update from the two gate tables and the previous state. -/
theorem R1_h (U : Valuation τ sig (Elt F)) :
    after (stretch 101 33) U (Proc.devRef .tc main_v111) = gruOf (U (Proc.devRef .tc main_v79) : Arr F S50000x192 .f32) (U (Proc.devRef .tc main_v83) : Arr F S50000x192 .f32) (U (Proc.devRef .tc main_v43) : Arr F S50000x64 .f32) := by
  rw [stretch_def]; delta ops
  simp only [List.drop_succ_cons, List.drop_zero, List.take_succ_cons, List.take_zero]
  after_results_simp <;> rfl
theorem R1_h' (U : Valuation τ sig (Elt F)) :
    after (stretch 101 33) U (no_index (Proc.devRef .tc main_v111)) = gruOf (U (Proc.devRef .tc main_v79) : Arr F S50000x192 .f32) (U (Proc.devRef .tc main_v83) : Arr F S50000x192 .f32) (U (Proc.devRef .tc main_v43) : Arr F S50000x64 .f32) := R1_h U

set_option maxRecDepth 8192 in
set_option maxHeartbeats 4000000 in
/-- Operations 52 … 133: one round of message passing from the state in `main_v43`, over the node columns and field tables the first 52 operations left. -/
theorem round1 (U : Valuation τ sig (Elt F)) :
    after (stretch 52 82) U (Proc.devRef .tc main_v111) = roundRaw (U (Proc.devRef .tc main_v1) : Arr F S800000 .i32) (U (Proc.devRef .tc main_v3) : Arr F S800000 .i32) (U (Proc.devRef .tc main_v20) : Arr F S800000x4 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) (U (Proc.devRef .tc main_arg12) : Arr F S64x192 .f32) (U (Proc.devRef .tc main_arg13) : Arr F S192 .f32) (U (Proc.devRef .tc main_arg14) : Arr F S64x192 .f32) (U (Proc.devRef .tc main_arg15) : Arr F S192 .f32) (U (Proc.devRef .tc main_v43) : Arr F S50000x64 .f32) := by
  rw [after_split 52 82 18 64 70 rfl rfl, after_split 70 64 19 45 89 rfl rfl, after_split 89 45 12 33 101 rfl rfl]
  simp (disch := decide) only [R1_src', R1_dst', R1_msg', R1_gi', R1_gh', R1_h', keep] <;> rfl
theorem round1' (U : Valuation τ sig (Elt F)) :
    after (stretch 52 82) U (no_index (Proc.devRef .tc main_v111)) = roundRaw (U (Proc.devRef .tc main_v1) : Arr F S800000 .i32) (U (Proc.devRef .tc main_v3) : Arr F S800000 .i32) (U (Proc.devRef .tc main_v20) : Arr F S800000x4 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) (U (Proc.devRef .tc main_arg12) : Arr F S64x192 .f32) (U (Proc.devRef .tc main_arg13) : Arr F S192 .f32) (U (Proc.devRef .tc main_arg14) : Arr F S64x192 .f32) (U (Proc.devRef .tc main_arg15) : Arr F S192 .f32) (U (Proc.devRef .tc main_v43) : Arr F S50000x64 .f32) := round1 U

end Cert.ReferenceIdeal.Hand

end
-- ==== Proof.Ref.Round2.lean ====
/-
  The second round of message passing: operations 134 … 215 of the reference program, in four stretches run from
  ANY contents `U` — the two gathers of the node state (18 operations), the edge network (19, its joined input
  first), the scatter-add and the two gate tables (12), the gates' arithmetic (33). Each lemma says what one
  buffer its stretch writes then holds, as a specification function of what `U` holds at the buffers the stretch
  reads; `round2` puts the four together.
-/
import proofs.«180077_j85650237817340_1_alg».proof.Proof.Ref.Cut

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo
open Cert.Spec

variable {F : FTy → Type} [FloatOps F]

set_option maxRecDepth 8192 in
set_option maxHeartbeats 4000000 in
/-- The node state gathered at every edge's source. -/
theorem R2_src (U : Valuation τ sig (Elt F)) :
    after (stretch 134 18) U (Proc.devRef .tc main_v118) = take64 (U (Proc.devRef .tc main_v111) : Arr F S50000x64 .f32) (wrapCol (U (Proc.devRef .tc main_v1) : Arr F S800000 .i32)) := by
  rw [stretch_def]; delta ops
  simp only [List.drop_succ_cons, List.drop_zero, List.take_succ_cons, List.take_zero]
  after_results_simp <;> rfl
theorem R2_src' (U : Valuation τ sig (Elt F)) :
    after (stretch 134 18) U (no_index (Proc.devRef .tc main_v118)) = take64 (U (Proc.devRef .tc main_v111) : Arr F S50000x64 .f32) (wrapCol (U (Proc.devRef .tc main_v1) : Arr F S800000 .i32)) := R2_src U

set_option maxRecDepth 8192 in
set_option maxHeartbeats 4000000 in
/-- The node state gathered at every edge's target. -/
theorem R2_dst (U : Valuation τ sig (Elt F)) :
    after (stretch 134 18) U (Proc.devRef .tc main_v125) = take64 (U (Proc.devRef .tc main_v111) : Arr F S50000x64 .f32) (wrapCol (U (Proc.devRef .tc main_v3) : Arr F S800000 .i32)) := by
  rw [stretch_def]; delta ops
  simp only [List.drop_succ_cons, List.drop_zero, List.take_succ_cons, List.take_zero]
  after_results_simp <;> rfl
theorem R2_dst' (U : Valuation τ sig (Elt F)) :
    after (stretch 134 18) U (no_index (Proc.devRef .tc main_v125)) = take64 (U (Proc.devRef .tc main_v111) : Arr F S50000x64 .f32) (wrapCol (U (Proc.devRef .tc main_v3) : Arr F S800000 .i32)) := R2_dst U

set_option maxRecDepth 8192 in
set_option maxHeartbeats 4000000 in
/-- The edge network on the four joined feature blocks. -/
theorem R2_msg (U : Valuation τ sig (Elt F)) :
    after (stretch 152 19) U (Proc.devRef .tc main_v140) = mlpHost (U (Proc.devRef .tc main_v118) : Arr F S800000x64 .f32) (U (Proc.devRef .tc main_v20) : Arr F S800000x4 .f32) (U (Proc.devRef .tc main_v125) : Arr F S800000x64 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) := by
  rw [stretch_def]; delta ops
  simp only [List.drop_succ_cons, List.drop_zero, List.take_succ_cons, List.take_zero]
  after_results_simp <;> (try simp only [TRef.toBuf, TRef.ofBuf, cast_eq, id]) <;> rfl
theorem R2_msg' (U : Valuation τ sig (Elt F)) :
    after (stretch 152 19) U (no_index (Proc.devRef .tc main_v140)) = mlpHost (U (Proc.devRef .tc main_v118) : Arr F S800000x64 .f32) (U (Proc.devRef .tc main_v20) : Arr F S800000x4 .f32) (U (Proc.devRef .tc main_v125) : Arr F S800000x64 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) := R2_msg U

set_option maxRecDepth 8192 in
set_option maxHeartbeats 4000000 in
/-- The gate inputs from the messages summed into their target nodes. -/
theorem R2_gi (U : Valuation τ sig (Elt F)) :
    after (stretch 171 12) U (Proc.devRef .tc main_v147) = gates (Host.scatterAdd scatter_S50000x64_S800000x1_S800000x64_1_0_0_1
        (broadcastInDim S50000x64 ![] bcast_S_S50000x64 (constant S_ .f32 0x00000000#32)) (plainCol (U (Proc.devRef .tc main_v3) : Arr F S800000 .i32)) (U (Proc.devRef .tc main_v140) : Arr F S800000x64 .f32))
      (U (Proc.devRef .tc main_arg12) : Arr F S64x192 .f32) (row192 (U (Proc.devRef .tc main_arg13) : Arr F S192 .f32)) := by
  rw [stretch_def]; delta ops
  simp only [List.drop_succ_cons, List.drop_zero, List.take_succ_cons, List.take_zero]
  after_results_simp <;> rfl
theorem R2_gi' (U : Valuation τ sig (Elt F)) :
    after (stretch 171 12) U (no_index (Proc.devRef .tc main_v147)) = gates (Host.scatterAdd scatter_S50000x64_S800000x1_S800000x64_1_0_0_1
        (broadcastInDim S50000x64 ![] bcast_S_S50000x64 (constant S_ .f32 0x00000000#32)) (plainCol (U (Proc.devRef .tc main_v3) : Arr F S800000 .i32)) (U (Proc.devRef .tc main_v140) : Arr F S800000x64 .f32))
      (U (Proc.devRef .tc main_arg12) : Arr F S64x192 .f32) (row192 (U (Proc.devRef .tc main_arg13) : Arr F S192 .f32)) := R2_gi U

set_option maxRecDepth 8192 in
set_option maxHeartbeats 4000000 in
/-- The gate inputs from the previous node state. -/
theorem R2_gh (U : Valuation τ sig (Elt F)) :
    after (stretch 171 12) U (Proc.devRef .tc main_v151) = gates (U (Proc.devRef .tc main_v111) : Arr F S50000x64 .f32) (U (Proc.devRef .tc main_arg14) : Arr F S64x192 .f32) (row192 (U (Proc.devRef .tc main_arg15) : Arr F S192 .f32)) := by
  rw [stretch_def]; delta ops
  simp only [List.drop_succ_cons, List.drop_zero, List.take_succ_cons, List.take_zero]
  after_results_simp <;> rfl
theorem R2_gh' (U : Valuation τ sig (Elt F)) :
    after (stretch 171 12) U (no_index (Proc.devRef .tc main_v151)) = gates (U (Proc.devRef .tc main_v111) : Arr F S50000x64 .f32) (U (Proc.devRef .tc main_arg14) : Arr F S64x192 .f32) (row192 (U (Proc.devRef .tc main_arg15) : Arr F S192 .f32)) := R2_gh U

set_option maxRecDepth 8192 in
set_option maxHeartbeats 4000000 in
/-- The recurrent update from the two gate tables and the previous state. -/
theorem R2_h (U : Valuation τ sig (Elt F)) :
    after (stretch 183 33) U (Proc.devRef .tc main_v179) = gruOf (U (Proc.devRef .tc main_v147) : Arr F S50000x192 .f32) (U (Proc.devRef .tc main_v151) : Arr F S50000x192 .f32) (U (Proc.devRef .tc main_v111) : Arr F S50000x64 .f32) := by
  rw [stretch_def]; delta ops
  simp only [List.drop_succ_cons, List.drop_zero, List.take_succ_cons, List.take_zero]
  after_results_simp <;> rfl
theorem R2_h' (U : Valuation τ sig (Elt F)) :
    after (stretch 183 33) U (no_index (Proc.devRef .tc main_v179)) = gruOf (U (Proc.devRef .tc main_v147) : Arr F S50000x192 .f32) (U (Proc.devRef .tc main_v151) : Arr F S50000x192 .f32) (U (Proc.devRef .tc main_v111) : Arr F S50000x64 .f32) := R2_h U

set_option maxRecDepth 8192 in
set_option maxHeartbeats 4000000 in
/-- Operations 134 … 215: one round of message passing from the state in `main_v111`, over the node columns and field tables the first 52 operations left. -/
theorem round2 (U : Valuation τ sig (Elt F)) :
    after (stretch 134 82) U (Proc.devRef .tc main_v179) = roundRaw (U (Proc.devRef .tc main_v1) : Arr F S800000 .i32) (U (Proc.devRef .tc main_v3) : Arr F S800000 .i32) (U (Proc.devRef .tc main_v20) : Arr F S800000x4 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) (U (Proc.devRef .tc main_arg12) : Arr F S64x192 .f32) (U (Proc.devRef .tc main_arg13) : Arr F S192 .f32) (U (Proc.devRef .tc main_arg14) : Arr F S64x192 .f32) (U (Proc.devRef .tc main_arg15) : Arr F S192 .f32) (U (Proc.devRef .tc main_v111) : Arr F S50000x64 .f32) := by
  rw [after_split 134 82 18 64 152 rfl rfl, after_split 152 64 19 45 171 rfl rfl, after_split 171 45 12 33 183 rfl rfl]
  simp (disch := decide) only [R2_src', R2_dst', R2_msg', R2_gi', R2_gh', R2_h', keep] <;> rfl
theorem round2' (U : Valuation τ sig (Elt F)) :
    after (stretch 134 82) U (no_index (Proc.devRef .tc main_v179)) = roundRaw (U (Proc.devRef .tc main_v1) : Arr F S800000 .i32) (U (Proc.devRef .tc main_v3) : Arr F S800000 .i32) (U (Proc.devRef .tc main_v20) : Arr F S800000x4 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) (U (Proc.devRef .tc main_arg12) : Arr F S64x192 .f32) (U (Proc.devRef .tc main_arg13) : Arr F S192 .f32) (U (Proc.devRef .tc main_arg14) : Arr F S64x192 .f32) (U (Proc.devRef .tc main_arg15) : Arr F S192 .f32) (U (Proc.devRef .tc main_v111) : Arr F S50000x64 .f32) := round2 U

end Cert.ReferenceIdeal.Hand

end
-- ==== Proof.Ref.Round3.lean ====
/-
  The third round of message passing: operations 216 … 297 of the reference program, in four stretches run from
  ANY contents `U` — the two gathers of the node state (18 operations), the edge network (19, its joined input
  first), the scatter-add and the two gate tables (12), the gates' arithmetic (33). Each lemma says what one
  buffer its stretch writes then holds, as a specification function of what `U` holds at the buffers the stretch
  reads; `round3` puts the four together.
-/
import proofs.«180077_j85650237817340_1_alg».proof.Proof.Ref.Cut

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo
open Cert.Spec

variable {F : FTy → Type} [FloatOps F]

set_option maxRecDepth 8192 in
set_option maxHeartbeats 4000000 in
/-- The node state gathered at every edge's source. -/
theorem R3_src (U : Valuation τ sig (Elt F)) :
    after (stretch 216 18) U (Proc.devRef .tc main_v186) = take64 (U (Proc.devRef .tc main_v179) : Arr F S50000x64 .f32) (wrapCol (U (Proc.devRef .tc main_v1) : Arr F S800000 .i32)) := by
  rw [stretch_def]; delta ops
  simp only [List.drop_succ_cons, List.drop_zero, List.take_succ_cons, List.take_zero]
  after_results_simp <;> rfl
theorem R3_src' (U : Valuation τ sig (Elt F)) :
    after (stretch 216 18) U (no_index (Proc.devRef .tc main_v186)) = take64 (U (Proc.devRef .tc main_v179) : Arr F S50000x64 .f32) (wrapCol (U (Proc.devRef .tc main_v1) : Arr F S800000 .i32)) := R3_src U

set_option maxRecDepth 8192 in
set_option maxHeartbeats 4000000 in
/-- The node state gathered at every edge's target. -/
theorem R3_dst (U : Valuation τ sig (Elt F)) :
    after (stretch 216 18) U (Proc.devRef .tc main_v193) = take64 (U (Proc.devRef .tc main_v179) : Arr F S50000x64 .f32) (wrapCol (U (Proc.devRef .tc main_v3) : Arr F S800000 .i32)) := by
  rw [stretch_def]; delta ops
  simp only [List.drop_succ_cons, List.drop_zero, List.take_succ_cons, List.take_zero]
  after_results_simp <;> rfl
theorem R3_dst' (U : Valuation τ sig (Elt F)) :
    after (stretch 216 18) U (no_index (Proc.devRef .tc main_v193)) = take64 (U (Proc.devRef .tc main_v179) : Arr F S50000x64 .f32) (wrapCol (U (Proc.devRef .tc main_v3) : Arr F S800000 .i32)) := R3_dst U

set_option maxRecDepth 8192 in
set_option maxHeartbeats 4000000 in
/-- The edge network on the four joined feature blocks. -/
theorem R3_msg (U : Valuation τ sig (Elt F)) :
    after (stretch 234 19) U (Proc.devRef .tc main_v208) = mlpHost (U (Proc.devRef .tc main_v186) : Arr F S800000x64 .f32) (U (Proc.devRef .tc main_v20) : Arr F S800000x4 .f32) (U (Proc.devRef .tc main_v193) : Arr F S800000x64 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) := by
  rw [stretch_def]; delta ops
  simp only [List.drop_succ_cons, List.drop_zero, List.take_succ_cons, List.take_zero]
  after_results_simp <;> (try simp only [TRef.toBuf, TRef.ofBuf, cast_eq, id]) <;> rfl
theorem R3_msg' (U : Valuation τ sig (Elt F)) :
    after (stretch 234 19) U (no_index (Proc.devRef .tc main_v208)) = mlpHost (U (Proc.devRef .tc main_v186) : Arr F S800000x64 .f32) (U (Proc.devRef .tc main_v20) : Arr F S800000x4 .f32) (U (Proc.devRef .tc main_v193) : Arr F S800000x64 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) := R3_msg U

set_option maxRecDepth 8192 in
set_option maxHeartbeats 4000000 in
/-- The gate inputs from the messages summed into their target nodes. -/
theorem R3_gi (U : Valuation τ sig (Elt F)) :
    after (stretch 253 12) U (Proc.devRef .tc main_v215) = gates (Host.scatterAdd scatter_S50000x64_S800000x1_S800000x64_1_0_0_1
        (broadcastInDim S50000x64 ![] bcast_S_S50000x64 (constant S_ .f32 0x00000000#32)) (plainCol (U (Proc.devRef .tc main_v3) : Arr F S800000 .i32)) (U (Proc.devRef .tc main_v208) : Arr F S800000x64 .f32))
      (U (Proc.devRef .tc main_arg12) : Arr F S64x192 .f32) (row192 (U (Proc.devRef .tc main_arg13) : Arr F S192 .f32)) := by
  rw [stretch_def]; delta ops
  simp only [List.drop_succ_cons, List.drop_zero, List.take_succ_cons, List.take_zero]
  after_results_simp <;> rfl
theorem R3_gi' (U : Valuation τ sig (Elt F)) :
    after (stretch 253 12) U (no_index (Proc.devRef .tc main_v215)) = gates (Host.scatterAdd scatter_S50000x64_S800000x1_S800000x64_1_0_0_1
        (broadcastInDim S50000x64 ![] bcast_S_S50000x64 (constant S_ .f32 0x00000000#32)) (plainCol (U (Proc.devRef .tc main_v3) : Arr F S800000 .i32)) (U (Proc.devRef .tc main_v208) : Arr F S800000x64 .f32))
      (U (Proc.devRef .tc main_arg12) : Arr F S64x192 .f32) (row192 (U (Proc.devRef .tc main_arg13) : Arr F S192 .f32)) := R3_gi U

set_option maxRecDepth 8192 in
set_option maxHeartbeats 4000000 in
/-- The gate inputs from the previous node state. -/
theorem R3_gh (U : Valuation τ sig (Elt F)) :
    after (stretch 253 12) U (Proc.devRef .tc main_v219) = gates (U (Proc.devRef .tc main_v179) : Arr F S50000x64 .f32) (U (Proc.devRef .tc main_arg14) : Arr F S64x192 .f32) (row192 (U (Proc.devRef .tc main_arg15) : Arr F S192 .f32)) := by
  rw [stretch_def]; delta ops
  simp only [List.drop_succ_cons, List.drop_zero, List.take_succ_cons, List.take_zero]
  after_results_simp <;> rfl
theorem R3_gh' (U : Valuation τ sig (Elt F)) :
    after (stretch 253 12) U (no_index (Proc.devRef .tc main_v219)) = gates (U (Proc.devRef .tc main_v179) : Arr F S50000x64 .f32) (U (Proc.devRef .tc main_arg14) : Arr F S64x192 .f32) (row192 (U (Proc.devRef .tc main_arg15) : Arr F S192 .f32)) := R3_gh U

set_option maxRecDepth 8192 in
set_option maxHeartbeats 4000000 in
/-- The recurrent update from the two gate tables and the previous state. -/
theorem R3_h (U : Valuation τ sig (Elt F)) :
    after (stretch 265 33) U (Proc.devRef .tc main_v247) = gruOf (U (Proc.devRef .tc main_v215) : Arr F S50000x192 .f32) (U (Proc.devRef .tc main_v219) : Arr F S50000x192 .f32) (U (Proc.devRef .tc main_v179) : Arr F S50000x64 .f32) := by
  rw [stretch_def]; delta ops
  simp only [List.drop_succ_cons, List.drop_zero, List.take_succ_cons, List.take_zero]
  after_results_simp <;> rfl
theorem R3_h' (U : Valuation τ sig (Elt F)) :
    after (stretch 265 33) U (no_index (Proc.devRef .tc main_v247)) = gruOf (U (Proc.devRef .tc main_v215) : Arr F S50000x192 .f32) (U (Proc.devRef .tc main_v219) : Arr F S50000x192 .f32) (U (Proc.devRef .tc main_v179) : Arr F S50000x64 .f32) := R3_h U

set_option maxRecDepth 8192 in
set_option maxHeartbeats 4000000 in
/-- Operations 216 … 297: one round of message passing from the state in `main_v179`, over the node columns and field tables the first 52 operations left. -/
theorem round3 (U : Valuation τ sig (Elt F)) :
    after (stretch 216 82) U (Proc.devRef .tc main_v247) = roundRaw (U (Proc.devRef .tc main_v1) : Arr F S800000 .i32) (U (Proc.devRef .tc main_v3) : Arr F S800000 .i32) (U (Proc.devRef .tc main_v20) : Arr F S800000x4 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) (U (Proc.devRef .tc main_arg12) : Arr F S64x192 .f32) (U (Proc.devRef .tc main_arg13) : Arr F S192 .f32) (U (Proc.devRef .tc main_arg14) : Arr F S64x192 .f32) (U (Proc.devRef .tc main_arg15) : Arr F S192 .f32) (U (Proc.devRef .tc main_v179) : Arr F S50000x64 .f32) := by
  rw [after_split 216 82 18 64 234 rfl rfl, after_split 234 64 19 45 253 rfl rfl, after_split 253 45 12 33 265 rfl rfl]
  simp (disch := decide) only [R3_src', R3_dst', R3_msg', R3_gi', R3_gh', R3_h', keep] <;> rfl
theorem round3' (U : Valuation τ sig (Elt F)) :
    after (stretch 216 82) U (no_index (Proc.devRef .tc main_v247)) = roundRaw (U (Proc.devRef .tc main_v1) : Arr F S800000 .i32) (U (Proc.devRef .tc main_v3) : Arr F S800000 .i32) (U (Proc.devRef .tc main_v20) : Arr F S800000x4 .f32) (U (Proc.devRef .tc main_v37) : Arr F S800000x4 .f32) (U (Proc.devRef .tc main_arg6) : Arr F S136x64 .f32) (U (Proc.devRef .tc main_arg7) : Arr F S64 .f32) (U (Proc.devRef .tc main_arg8) : Arr F S64x64 .f32) (U (Proc.devRef .tc main_arg9) : Arr F S64 .f32) (U (Proc.devRef .tc main_arg10) : Arr F S64x64 .f32) (U (Proc.devRef .tc main_arg11) : Arr F S64 .f32) (U (Proc.devRef .tc main_arg12) : Arr F S64x192 .f32) (U (Proc.devRef .tc main_arg13) : Arr F S192 .f32) (U (Proc.devRef .tc main_arg14) : Arr F S64x192 .f32) (U (Proc.devRef .tc main_arg15) : Arr F S192 .f32) (U (Proc.devRef .tc main_v179) : Arr F S50000x64 .f32) := round3 U

end Cert.ReferenceIdeal.Hand

end
-- ==== Proof.RefRun.lean ====
/-
  The reference program's run, with its result named by the specification: on every device, from any memory with
  zero counters, every weakly fair execution of @main terminates with the result buffer holding `Cert.Spec.net` of
  the arguments' launch contents, and every argument unchanged.

  The program is a straight line of 302 host operations, so each buffer ends at the fold of the operations'
  results over the launch contents (`run_seq`). The fold is read in five parts — the first 52 operations (edge
  columns, edge fields, initial state: `P_…`), three rounds of 82 (`round1`, `round2`, `round3`, each the
  specification's round once the columns and fields are the edge list's: `roundRaw_eq`) and the read-out's four —
  and the parts are joined by rewriting, buffers a part does not write carried over by `keep`. No operation writes
  an argument (`after_ops_keep`).
-/
import proofs.«180077_j85650237817340_1_alg».proof.Proof.Ref.Pro
import proofs.«180077_j85650237817340_1_alg».proof.Proof.Ref.Round1
import proofs.«180077_j85650237817340_1_alg».proof.Proof.Ref.Round2
import proofs.«180077_j85650237817340_1_alg».proof.Proof.Ref.Round3

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo
open Cert.Spec

variable {F : FTy → Type} [FloatOps F]

set_option maxRecDepth 8192 in
set_option maxHeartbeats 4000000 in
/-- The last four operations: the read-out of the state the third round left. -/
theorem Z_out (U : Valuation τ sig (Elt F)) :
    after (stretch 298 4) U (Proc.devRef .tc main_v251) = readout (U (Proc.devRef .tc main_v247) : Arr F S50000x64 .f32) (U (Proc.devRef .tc main_arg16) : Arr F S64x2 .f32) (U (Proc.devRef .tc main_arg17) : Arr F S2 .f32) := by
  rw [stretch_def]; delta ops
  simp only [List.drop_succ_cons, List.drop_zero, List.take_succ_cons, List.take_zero]
  after_results_simp <;> rfl
theorem Z_out' (U : Valuation τ sig (Elt F)) :
    after (stretch 298 4) U (no_index (Proc.devRef .tc main_v251)) = readout (U (Proc.devRef .tc main_v247) : Arr F S50000x64 .f32) (U (Proc.devRef .tc main_arg16) : Arr F S64x2 .f32) (U (Proc.devRef .tc main_arg17) : Arr F S2 .f32) := Z_out U

set_option maxRecDepth 8192 in
set_option maxHeartbeats 4000000 in
/-- The result buffer after all 302 operations, from any contents `V`: the network of `V`'s arguments. -/
theorem after_ops_result (V : Valuation τ sig (Elt F)) :
    after ops V (Proc.devRef .tc main_v251)
      = Cert.Spec.net (V (Proc.devRef .tc main_arg0) : Arr F S800000x2 .i32)
          (V (Proc.devRef .tc main_arg1) : Arr F S800000x1 .f32)
          (V (Proc.devRef .tc main_arg2) : Arr F S50000x1 .f32)
          (V (Proc.devRef .tc main_arg4) : Arr F S2x64 .f32)
          (V (Proc.devRef .tc main_arg5) : Arr F S64 .f32)
          (V (Proc.devRef .tc main_arg6) : Arr F S136x64 .f32)
          (V (Proc.devRef .tc main_arg7) : Arr F S64 .f32)
          (V (Proc.devRef .tc main_arg8) : Arr F S64x64 .f32)
          (V (Proc.devRef .tc main_arg9) : Arr F S64 .f32)
          (V (Proc.devRef .tc main_arg10) : Arr F S64x64 .f32)
          (V (Proc.devRef .tc main_arg11) : Arr F S64 .f32)
          (V (Proc.devRef .tc main_arg12) : Arr F S64x192 .f32)
          (V (Proc.devRef .tc main_arg13) : Arr F S192 .f32)
          (V (Proc.devRef .tc main_arg14) : Arr F S64x192 .f32)
          (V (Proc.devRef .tc main_arg15) : Arr F S192 .f32)
          (V (Proc.devRef .tc main_arg16) : Arr F S64x2 .f32)
          (V (Proc.devRef .tc main_arg17) : Arr F S2 .f32) := by
  rw [after_ops, after_split 0 302 52 250 52 rfl rfl, after_split 52 250 82 168 134 rfl rfl,
    after_split 134 168 82 86 216 rfl rfl, after_split 216 86 82 4 298 rfl rfl]
  simp (disch := decide) only [Z_out', round3', round2', round1', P_src', P_dst', P_fs', P_fd', P_s0', keep]
  simp only [roundRaw_eq]
  rfl

/-- On every device, for any float values, from any memory with zero counters: every weakly fair execution of
    @main terminates with the result the specification's network of the arguments, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v251)
        = Cert.Spec.net (m ((c.tc : Thread nD τ).loc main_arg0))
            (m ((c.tc : Thread nD τ).loc main_arg1))
            (m ((c.tc : Thread nD τ).loc main_arg2))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v251).trans (after_ops_result (launchContents m c)),
      (h c main_arg0).trans (after_ops_keep (by decide) _),
      (h c main_arg1).trans (after_ops_keep (by decide) _),
      (h c main_arg2).trans (after_ops_keep (by decide) _),
      (h c main_arg3).trans (after_ops_keep (by decide) _),
      (h c main_arg4).trans (after_ops_keep (by decide) _),
      (h c main_arg5).trans (after_ops_keep (by decide) _),
      (h c main_arg6).trans (after_ops_keep (by decide) _),
      (h c main_arg7).trans (after_ops_keep (by decide) _),
      (h c main_arg8).trans (after_ops_keep (by decide) _),
      (h c main_arg9).trans (after_ops_keep (by decide) _),
      (h c main_arg10).trans (after_ops_keep (by decide) _),
      (h c main_arg11).trans (after_ops_keep (by decide) _),
      (h c main_arg12).trans (after_ops_keep (by decide) _),
      (h c main_arg13).trans (after_ops_keep (by decide) _),
      (h c main_arg14).trans (after_ops_keep (by decide) _),
      (h c main_arg15).trans (after_ops_keep (by decide) _),
      (h c main_arg16).trans (after_ops_keep (by decide) _),
      (h c main_arg17).trans (after_ops_keep (by decide) _)⟩)
    (run_seq scopedRefs_eq scopedSems_eq defs main (fun _ => ops) main_eq (fun _ => ops_sub) m ρ)

end Cert.ReferenceIdeal.Hand

end
-- ==== Proof.lean ====
/-
  The certificate of the message-passing network: the kernel program (a row-gather, a three-layer edge
  network as a pallas_call tiled over 800000 edges, a scatter-add into 50000 nodes and a gated recurrent
  update as a pallas_call tiled over the nodes, three rounds, then a read-out) against the reference, which
  computes the same network with whole-array host operations.

  Frames. The kernel program is thirteen items — seven stretches of host operations around six regions —
  and its run is assembled from one record per region (the region's launch, every grid point's body run on
  its staged blocks, the write-backs) and one per stretch; every argument array is read back unchanged
  through the thirteen boundaries. The same text proves the word-level program's frame and the idealized
  program's. The reference's run is its list of host operations read stretch by stretch.

  Values, at the ideal instance (floats are extended reals, a change of float format is the identity). A
  region's output array is covered by its grid points' blocks, and block t of the edge network (of the
  recurrent update) is the whole-array map restricted to rows 8000 t … 8000 t + 7999 (5000 t … 5000 t + 4999):
  a matrix product of a row tile into a zero accumulator is, row by row, the whole table's product; the
  in-kernel concatenation, bias rows, maximum with zero, column slices, logistic and tanh act row by row.
  So each region leaves the spec's messages / next state of the arrays it reads, the stretches between
  them are the reference's own operations, and both programs return the spec's network of the arguments.
  No algebraic law beyond this regrouping is used, and the precondition is not opened.
-/
import proofs.«180077_j85650237817340_1_alg».proof.Defs
import proofs.«180077_j85650237817340_1_alg».proof.Proof.Gen.Kernel
import proofs.«180077_j85650237817340_1_alg».proof.Proof.Gen.KernelIdeal
import proofs.«180077_j85650237817340_1_alg».proof.Proof.Gen.ReferenceIdeal
import proofs.«180077_j85650237817340_1_alg».proof.Proof.Gen.Pre_finite_inputs
import proofs.«180077_j85650237817340_1_alg».proof.Proof.K.Run
import proofs.«180077_j85650237817340_1_alg».proof.Proof.K.Mlp0
import proofs.«180077_j85650237817340_1_alg».proof.Proof.K.Mlp2
import proofs.«180077_j85650237817340_1_alg».proof.Proof.K.Mlp4
import proofs.«180077_j85650237817340_1_alg».proof.Proof.K.Gru1
import proofs.«180077_j85650237817340_1_alg».proof.Proof.K.Gru3
import proofs.«180077_j85650237817340_1_alg».proof.Proof.K.Gru5
import proofs.«180077_j85650237817340_1_alg».proof.Proof.KI.Run
import proofs.«180077_j85650237817340_1_alg».proof.Proof.KI.Mlp0
import proofs.«180077_j85650237817340_1_alg».proof.Proof.KI.Mlp2
import proofs.«180077_j85650237817340_1_alg».proof.Proof.KI.Mlp4
import proofs.«180077_j85650237817340_1_alg».proof.Proof.KI.Gru1
import proofs.«180077_j85650237817340_1_alg».proof.Proof.KI.Gru3
import proofs.«180077_j85650237817340_1_alg».proof.Proof.KI.Gru5
import proofs.«180077_j85650237817340_1_alg».proof.Proof.Val.Chain
import proofs.«180077_j85650237817340_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ =>
  Cert.Kernel.Fr.frame (F := Bits) m ρ (fun V c => Cert.Kernel.Fr.body_obligation0 V c) (fun V c => Cert.Kernel.Fr.body_obligation1 V c) (fun V c => Cert.Kernel.Fr.body_obligation2 V c) (fun V c => Cert.Kernel.Fr.body_obligation3 V c) (fun V c => Cert.Kernel.Fr.body_obligation4 V c) (fun V c => Cert.Kernel.Fr.body_obligation5 V c)

/-- The idealized kernel program runs and leaves its arguments as launched. -/
theorem frame_ki : Cert.frame_KernelIdeal := fun m ρ _ =>
  Cert.KernelIdeal.Fr.frame (F := Ideal) m ρ (fun V c => Cert.KernelIdeal.Fr.body_obligation0 V c) (fun V c => Cert.KernelIdeal.Fr.body_obligation1 V c) (fun V c => Cert.KernelIdeal.Fr.body_obligation2 V c) (fun V c => Cert.KernelIdeal.Fr.body_obligation3 V c) (fun V c => Cert.KernelIdeal.Fr.body_obligation4 V c) (fun V c => Cert.KernelIdeal.Fr.body_obligation5 V c)

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Hand.ref_run (F := Ideal) m ρ)

/-- The ideal pass rewrote nothing. -/
theorem preserves : Cert.preserves_Kernel_KernelIdeal := trivial

/-- Both idealized programs return the spec's network of the argument arrays, which agree. -/
theorem algebraic : Cert.algebraic_KernelIdeal_ReferenceIdeal := by
  intro m ρ m' ρ' _ hagree
  refine ⟨fun c => Cert.Spec.net (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17)), ?_, ?_⟩
  · exact (θ_run Cert.KernelIdeal.defs _ _).mono
      (fun _ h c => ⟨(h c).1.trans (Cert.KernelIdeal.Val.result_eq m ρ c), (h c).2⟩)
      (Cert.KernelIdeal.Fr.run_res (F := Ideal) m ρ (fun V c => Cert.KernelIdeal.Fr.body_obligation0 V c) (fun V c => Cert.KernelIdeal.Fr.body_obligation1 V c) (fun V c => Cert.KernelIdeal.Fr.body_obligation2 V c) (fun V c => Cert.KernelIdeal.Fr.body_obligation3 V c) (fun V c => Cert.KernelIdeal.Fr.body_obligation4 V c) (fun V c => Cert.KernelIdeal.Fr.body_obligation5 V c))
  · refine (θ_run Cert.ReferenceIdeal.defs _ _).mono (fun _ h c => ⟨(h c).1.trans ?_, (h c).2⟩)
      (Cert.ReferenceIdeal.Hand.ref_run (F := Ideal) m' ρ')
    rw [(hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
